-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v197)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v197) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4x2x1000000 : Shape := ⟨3, ![4, 2, 1000000]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x256 : S_.BroadcastsInDim S4x128x256 (![] : Fin 0 → Fin S4x128x256.rank)
  reducesTo_S4x128x256_S_d0_1_2 : S4x128x256.ReducesTo [0, 1, 2] S_
  bcast_S_S4x256 : S_.BroadcastsInDim S4x256 (![] : Fin 0 → Fin S4x256.rank)
  reducesTo_S4x256_S_d0_1 : S4x256.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg5 : FVec F S4x256x128 .f32) (main_arg6 : FVec F S4x256x128 .f32) (main_arg7 : FVec F S4x128 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S4x256x128 .f32 := Host.absf main_arg5
  let main_cst_6 : FVec F S_ .f32 := constant S_ .f32 0x7F800000#32
  let main_v20 : FVec F S4x256x128 .f32 := broadcastInDim S4x256x128 ![] bcast_S_S4x256x128 main_cst_6
  let main_v21 : IVec S4x256x128 1 := cmpf .olt main_v19 main_v20
  let main_c_7 : IVec S_ 1 := constantI S_ 1 1#1
  let main_v22 : IVec S_ 1 := (fun x v => Host.reduce IntOp.andi x v reducesTo_S4x256x128_S_d0_1_2 h_S_) main_v21 main_c_7
  let main_v23 : IVec S_ 1 := andi main_v18 main_v22
  let main_v24 : FVec F S4x256x128 .f32 := Host.absf main_arg6
  let main_cst_8 : FVec F S_ .f32 := constant S_ .f32 0x7F800000#32
  let main_v25 : FVec F S4x256x128 .f32 := broadcastInDim S4x256x128 ![] bcast_S_S4x256x128 main_cst_8
  let main_v26 : IVec S4x256x128 1 := cmpf .olt main_v24 main_v25
  let main_c_9 : IVec S_ 1 := constantI S_ 1 1#1
  let main_v27 : IVec S_ 1 := (fun x v => Host.reduce IntOp.andi x v reducesTo_S4x256x128_S_d0_1_2 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  main_v33

def fn {F : FTy → Type} [FloatOps F] (main_arg0 : FVec F S100000x128 .f32) (main_arg1 : IVec S4x2x1000000 32) (main_arg2 : FVec F S4x128x256 .f32) (main_arg3 : FVec F S4x128x256 .f32) (main_arg4 : FVec F S4x256 .f32) (main_arg5 : FVec F S4x256x128 .f32) (main_arg6 : FVec F S4x256x128 .f32) (main_arg7 : FVec F S4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x256 .f32 := Host.absf main_arg2
  let main_cst_0 : FVec F S_ .f32 := constant S_ .f32 0x7F800000#32
  let main_v5 : FVec F S4x128x256 .f32 := broadcastInDim S4x128x256 ![] bcast_S_S4x128x256 main_cst_0
  let main_v6 : IVec S4x128x256 1 := cmpf .olt main_v4 main_v5
  let main_c_1 : IVec S_ 1 := constantI S_ 1 1#1
  let main_v7 : IVec S_ 1 := (fun x v => Host.reduce IntOp.andi x v reducesTo_S4x128x256_S_d0_1_2 h_S_) main_v6 main_c_1
  let main_v8 : IVec S_ 1 := andi main_v3 main_v7
  let main_v9 : FVec F S4x128x256 .f32 := Host.absf main_arg3
  let main_cst_2 : FVec F S_ .f32 := constant S_ .f32 0x7F800000#32
  let main_v10 : FVec F S4x128x256 .f32 := broadcastInDim S4x128x256 ![] bcast_S_S4x128x256 main_cst_2
  let main_v11 : IVec S4x128x256 1 := cmpf .olt main_v9 main_v10
  let main_c_3 : IVec S_ 1 := constantI S_ 1 1#1
  let main_v12 : IVec S_ 1 := (fun x v => Host.reduce IntOp.andi x v reducesTo_S4x128x256_S_d0_1_2 h_S_) main_v11 main_c_3
  let main_v13 : IVec S_ 1 := andi main_v8 main_v12
  let main_v14 : FVec F S4x256 .f32 := Host.absf main_arg4
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg5 main_arg6 main_arg7 main_v13 main_v16
-- ==== Kernel.lean ====
abbrev S100000x128 : Shape := ⟨2, ![100000, 128]⟩
abbrev S4x2x1000000 : Shape := ⟨3, ![4, 2, 1000000]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S1x1x1000000 : Shape := ⟨3, ![1, 1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x100000x128 : Shape := ⟨3, ![1, 100000, 128]⟩
abbrev S4x100000x128 : Shape := ⟨3, ![4, 100000, 128]⟩
abbrev S4x1x256 : Shape := ⟨3, ![4, 1, 256]⟩
abbrev S100000x256 : Shape := ⟨2, ![100000, 256]⟩
abbrev S1x2000x128 : Shape := ⟨3, ![1, 2000, 128]⟩
abbrev S2000x128 : Shape := ⟨2, ![2000, 128]⟩
abbrev S1x128x256 : Shape := ⟨3, ![1, 128, 256]⟩
abbrev S1x1x256 : Shape := ⟨3, ![1, 1, 256]⟩
abbrev S2000x256 : Shape := ⟨2, ![2000, 256]⟩
abbrev S128x256 : Shape := ⟨2, ![128, 256]⟩
abbrev S1x256 : Shape := ⟨2, ![1, 256]⟩
abbrev S1000000x256 : Shape := ⟨2, ![1000000, 256]⟩
abbrev S1x100000x256 : Shape := ⟨3, ![1, 100000, 256]⟩
abbrev S4x100000x256 : Shape := ⟨3, ![4, 100000, 256]⟩
abbrev S4x1x128 : Shape := ⟨3, ![4, 1, 128]⟩
abbrev S1x2000x256 : Shape := ⟨3, ![1, 2000, 256]⟩
abbrev S1x256x128 : Shape := ⟨3, ![1, 256, 128]⟩
abbrev S1x1x128 : Shape := ⟨3, ![1, 1, 128]⟩
abbrev S256x128 : Shape := ⟨2, ![256, 128]⟩
abbrev S1x128 : Shape := ⟨2, ![1, 128]⟩

abbrev nBuf : Space → Nat
  | .hbm => 254
  | .vmem => 26
  | .smem => 0
  | _ => 0

abbrev hbmTy0_0 (i : Nat) : BufTy := match i % 128 with
  | 0 => ⟨S100000x128, .f32⟩
  | 1 => ⟨S4x2x1000000, .i32⟩
  | 2 => ⟨S4x128x256, .f32⟩
  | 3 => ⟨S4x128x256, .f32⟩
  | 4 => ⟨S4x256, .f32⟩
  | 5 => ⟨S4x256x128, .f32⟩
  | 6 => ⟨S4x256x128, .f32⟩
  | 7 => ⟨S4x128, .f32⟩
  | 8 => ⟨S1x1x1000000, .i32⟩
  | 9 => ⟨S1000000, .i32⟩
  | 10 => ⟨S1x1x1000000, .i32⟩
  | 11 => ⟨S1000000, .i32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x128, .f32⟩
  | 21 => ⟨S_, .f32⟩
  | 22 => ⟨S100000x128, .f32⟩
  | 23 => ⟨S1000000x1, .i32⟩
  | 24 => ⟨S100000x128, .f32⟩
  | 25 => ⟨S_, .f32⟩
  | 26 => ⟨S1000000, .f32⟩
  | 27 => ⟨S_, .f32⟩
  | 28 => ⟨S100000, .f32⟩
  | 29 => ⟨S1000000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S1x1x1000000, .i32⟩
  | 38 => ⟨S1000000, .i32⟩
  | 39 => ⟨S1x1x1000000, .i32⟩
  | 40 => ⟨S1000000, .i32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x128, .f32⟩
  | 50 => ⟨S_, .f32⟩
  | 51 => ⟨S100000x128, .f32⟩
  | 52 => ⟨S1000000x1, .i32⟩
  | 53 => ⟨S100000x128, .f32⟩
  | 54 => ⟨S_, .f32⟩
  | 55 => ⟨S1000000, .f32⟩
  | 56 => ⟨S_, .f32⟩
  | 57 => ⟨S100000, .f32⟩
  | 58 => ⟨S1000000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S1x1x1000000, .i32⟩
  | 67 => ⟨S1000000, .i32⟩
  | 68 => ⟨S1x1x1000000, .i32⟩
  | 69 => ⟨S1000000, .i32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x128, .f32⟩
  | 79 => ⟨S_, .f32⟩
  | 80 => ⟨S100000x128, .f32⟩
  | 81 => ⟨S1000000x1, .i32⟩
  | 82 => ⟨S100000x128, .f32⟩
  | 83 => ⟨S_, .f32⟩
  | 84 => ⟨S1000000, .f32⟩
  | 85 => ⟨S_, .f32⟩
  | 86 => ⟨S100000, .f32⟩
  | 87 => ⟨S1000000x1, .i32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x128, .f32⟩
  | 94 => ⟨S100000x128, .f32⟩
  | 95 => ⟨S1x1x1000000, .i32⟩
  | 96 => ⟨S1000000, .i32⟩
  | 97 => ⟨S1x1x1000000, .i32⟩
  | 98 => ⟨S1000000, .i32⟩
  | 99 => ⟨S_, .i32⟩
  | 100 => ⟨S1000000, .i32⟩
  | 101 => ⟨S1000000, .i1⟩
  | 102 => ⟨S_, .i32⟩
  | 103 => ⟨S1000000, .i32⟩
  | 104 => ⟨S1000000, .i32⟩
  | 105 => ⟨S1000000, .i32⟩
  | 106 => ⟨S1000000x1, .i32⟩
  | 107 => ⟨S1000000x128, .f32⟩
  | 108 => ⟨S_, .f32⟩
  | 109 => ⟨S100000x128, .f32⟩
  | 110 => ⟨S1000000x1, .i32⟩
  | 111 => ⟨S100000x128, .f32⟩
  | 112 => ⟨S_, .f32⟩
  | 113 => ⟨S1000000, .f32⟩
  | 114 => ⟨S_, .f32⟩
  | 115 => ⟨S100000, .f32⟩
  | 116 => ⟨S1000000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x128, .f32⟩
  | 123 => ⟨S100000x128, .f32⟩
  | 124 => ⟨S1x100000x128, .f32⟩
  | 125 => ⟨S1x100000x128, .f32⟩
  | 126 => ⟨S1x100000x128, .f32⟩
  | 127 => ⟨S1x100000x128, .f32⟩
  | _ => ⟨S100000x128, .f32⟩

abbrev hbmTy0_1 (i : Nat) : BufTy := match i % 128 with
  | 0 => ⟨S4x100000x128, .f32⟩
  | 1 => ⟨S4x1x256, .f32⟩
  | 2 => ⟨S100000x256, .f32⟩
  | 3 => ⟨S1x1x1000000, .i32⟩
  | 4 => ⟨S1000000, .i32⟩
  | 5 => ⟨S1x1x1000000, .i32⟩
  | 6 => ⟨S1000000, .i32⟩
  | 7 => ⟨S_, .i32⟩
  | 8 => ⟨S1000000, .i32⟩
  | 9 => ⟨S1000000, .i1⟩
  | 10 => ⟨S_, .i32⟩
  | 11 => ⟨S1000000, .i32⟩
  | 12 => ⟨S1000000, .i32⟩
  | 13 => ⟨S1000000, .i32⟩
  | 14 => ⟨S1000000x1, .i32⟩
  | 15 => ⟨S1000000x256, .f32⟩
  | 16 => ⟨S_, .f32⟩
  | 17 => ⟨S100000x256, .f32⟩
  | 18 => ⟨S1000000x1, .i32⟩
  | 19 => ⟨S100000x256, .f32⟩
  | 20 => ⟨S_, .f32⟩
  | 21 => ⟨S1000000, .f32⟩
  | 22 => ⟨S_, .f32⟩
  | 23 => ⟨S100000, .f32⟩
  | 24 => ⟨S1000000x1, .i32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x256, .f32⟩
  | 31 => ⟨S100000x256, .f32⟩
  | 32 => ⟨S1x1x1000000, .i32⟩
  | 33 => ⟨S1000000, .i32⟩
  | 34 => ⟨S1x1x1000000, .i32⟩
  | 35 => ⟨S1000000, .i32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x256, .f32⟩
  | 45 => ⟨S_, .f32⟩
  | 46 => ⟨S100000x256, .f32⟩
  | 47 => ⟨S1000000x1, .i32⟩
  | 48 => ⟨S100000x256, .f32⟩
  | 49 => ⟨S_, .f32⟩
  | 50 => ⟨S1000000, .f32⟩
  | 51 => ⟨S_, .f32⟩
  | 52 => ⟨S100000, .f32⟩
  | 53 => ⟨S1000000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x256, .f32⟩
  | 60 => ⟨S100000x256, .f32⟩
  | 61 => ⟨S1x1x1000000, .i32⟩
  | 62 => ⟨S1000000, .i32⟩
  | 63 => ⟨S1x1x1000000, .i32⟩
  | 64 => ⟨S1000000, .i32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x256, .f32⟩
  | 74 => ⟨S_, .f32⟩
  | 75 => ⟨S100000x256, .f32⟩
  | 76 => ⟨S1000000x1, .i32⟩
  | 77 => ⟨S100000x256, .f32⟩
  | 78 => ⟨S_, .f32⟩
  | 79 => ⟨S1000000, .f32⟩
  | 80 => ⟨S_, .f32⟩
  | 81 => ⟨S100000, .f32⟩
  | 82 => ⟨S1000000x1, .i32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x256, .f32⟩
  | 89 => ⟨S100000x256, .f32⟩
  | 90 => ⟨S1x1x1000000, .i32⟩
  | 91 => ⟨S1000000, .i32⟩
  | 92 => ⟨S1x1x1000000, .i32⟩
  | 93 => ⟨S1000000, .i32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x256, .f32⟩
  | 103 => ⟨S_, .f32⟩
  | 104 => ⟨S100000x256, .f32⟩
  | 105 => ⟨S1000000x1, .i32⟩
  | 106 => ⟨S100000x256, .f32⟩
  | 107 => ⟨S_, .f32⟩
  | 108 => ⟨S1000000, .f32⟩
  | 109 => ⟨S_, .f32⟩
  | 110 => ⟨S100000, .f32⟩
  | 111 => ⟨S1000000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x256, .f32⟩
  | 118 => ⟨S100000x256, .f32⟩
  | 119 => ⟨S1x100000x256, .f32⟩
  | 120 => ⟨S1x100000x256, .f32⟩
  | 121 => ⟨S1x100000x256, .f32⟩
  | 122 => ⟨S1x100000x256, .f32⟩
  | 123 => ⟨S4x100000x256, .f32⟩
  | 124 => ⟨S4x1x128, .f32⟩
  | 125 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S1x2000x128, .f32⟩
  | .local _ .vmem, ⟨1, _⟩ => ⟨S1x2000x128, .f32⟩
  | .local _ .vmem, ⟨2, _⟩ => ⟨S2000x128, .f32⟩
  | .local _ .vmem, ⟨3, _⟩ => ⟨S2000x128, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x1x256, .f32⟩
  | .local _ .vmem, ⟨9, _⟩ => ⟨S1x1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S1x2000x256, .f32⟩
  | .local _ .vmem, ⟨14, _⟩ => ⟨S1x2000x256, .f32⟩
  | .local _ .vmem, ⟨15, _⟩ => ⟨S2000x256, .f32⟩
  | .local _ .vmem, ⟨16, _⟩ => ⟨S2000x256, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x1x128, .f32⟩
  | .local _ .vmem, ⟨22, _⟩ => ⟨S1x1x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_cst_14 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_cst_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_21 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_22 : Ref sig .tc := ⟨.hbm, 135, rfl⟩
abbrev main_v103 : Ref sig .tc := ⟨.hbm, 136, rfl⟩
abbrev main_v104 : Ref sig .tc := ⟨.hbm, 137, rfl⟩
abbrev main_c_23 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_24 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_25 : Ref sig .tc := ⟨.hbm, 148, rfl⟩
abbrev main_v113 : Ref sig .tc := ⟨.hbm, 149, rfl⟩
abbrev main_cst_26 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_27 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_c_28 : Ref sig .tc := ⟨.hbm, 164, rfl⟩
abbrev main_v126 : Ref sig .tc := ⟨.hbm, 165, rfl⟩
abbrev main_v127 : Ref sig .tc := ⟨.hbm, 166, rfl⟩
abbrev main_c_29 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_30 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_31 : Ref sig .tc := ⟨.hbm, 177, rfl⟩
abbrev main_v136 : Ref sig .tc := ⟨.hbm, 178, rfl⟩
abbrev main_cst_32 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_33 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c_34 : Ref sig .tc := ⟨.hbm, 193, rfl⟩
abbrev main_v149 : Ref sig .tc := ⟨.hbm, 194, rfl⟩
abbrev main_v150 : Ref sig .tc := ⟨.hbm, 195, rfl⟩
abbrev main_c_35 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_cst_36 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_37 : Ref sig .tc := ⟨.hbm, 206, rfl⟩
abbrev main_v159 : Ref sig .tc := ⟨.hbm, 207, rfl⟩
abbrev main_cst_38 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_cst_39 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_c_40 : Ref sig .tc := ⟨.hbm, 222, rfl⟩
abbrev main_v172 : Ref sig .tc := ⟨.hbm, 223, rfl⟩
abbrev main_v173 : Ref sig .tc := ⟨.hbm, 224, rfl⟩
abbrev main_c_41 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_cst_42 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_cst_43 : Ref sig .tc := ⟨.hbm, 235, rfl⟩
abbrev main_v182 : Ref sig .tc := ⟨.hbm, 236, rfl⟩
abbrev main_cst_44 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_cst_45 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![50, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_19 : BitVec 32 := 0#32
  let v29 : BitVec 1 := Scalar.cmpi .ne v28 c0_i32_19
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![50, 4], ![false, false]⟩

def k1_cond2 (i : grid1.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_19 : BitVec 32 := 0#32
  let v30 : BitVec 1 := Scalar.cmpi .ne v29 c0_i32_19
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S4x2x1000000_S1x1x1000000_0_0_0 : S4x2x1000000.Slices ![0, 0, 0] S1x1x1000000
  shapeCasts_S1x1x1000000_S1000000 : S1x1x1000000.ShapeCasts S1000000
  slices_S4x2x1000000_S1x1x1000000_0_1_0 : S4x2x1000000.Slices ![0, 1, 0] S1x1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x2x1000000_S1x1x1000000_1_0_0 : S4x2x1000000.Slices ![1, 0, 0] S1x1x1000000
  slices_S4x2x1000000_S1x1x1000000_1_1_0 : S4x2x1000000.Slices ![1, 1, 0] S1x1x1000000
  slices_S4x2x1000000_S1x1x1000000_2_0_0 : S4x2x1000000.Slices ![2, 0, 0] S1x1x1000000
  slices_S4x2x1000000_S1x1x1000000_2_1_0 : S4x2x1000000.Slices ![2, 1, 0] S1x1x1000000
  slices_S4x2x1000000_S1x1x1000000_3_0_0 : S4x2x1000000.Slices ![3, 0, 0] S1x1x1000000
  slices_S4x2x1000000_S1x1x1000000_3_1_0 : S4x2x1000000.Slices ![3, 1, 0] S1x1x1000000
  bcast_S100000x128_S1x100000x128_1_2 : S100000x128.BroadcastsInDim S1x100000x128 (![1, 2] : Fin 2 → Fin S1x100000x128.rank)
  concatenates_S1x100000x128_S1x100000x128_S1x100000x128_S1x100000x128_S4x100000x128_d0 : Shape.Concatenates [S1x100000x128, S1x100000x128, S1x100000x128, S1x100000x128] S4x100000x128 0
  shapeCasts_S4x256_S4x1x256 : S4x256.ShapeCasts S4x1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x2000x128_S1x2000x128_0_0_0 : ∀ a, (![0, 0, 0] : Fin 3 → Nat) a + S1x2000x128.size a ≤ S1x2000x128.size a
  h_S1x2000x128 : 0 < S1x2000x128.numel
  shapeCasts_S1x2000x128_S2000x128 : S1x2000x128.ShapeCasts S2000x128
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x256 : S1x256.ShapeCasts S1x256
  broadcasts_S1x256_S2000x256 : S1x256.Broadcasts S2000x256
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S100000x256_S1x100000x256_1_2 : S100000x256.BroadcastsInDim S1x100000x256 (![1, 2] : Fin 2 → Fin S1x100000x256.rank)
  concatenates_S1x100000x256_S1x100000x256_S1x100000x256_S1x100000x256_S4x100000x256_d0 : Shape.Concatenates [S1x100000x256, S1x100000x256, S1x100000x256, S1x100000x256] S4x100000x256 0
  shapeCasts_S4x128_S4x1x128 : S4x128.ShapeCasts S4x1x128
  shapeCasts_S2000x128_S2000x128 : S2000x128.ShapeCasts S2000x128
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x128 : S1x128.ShapeCasts S1x128
  broadcasts_S1x128_S2000x128 : S1x128.Broadcasts S2000x128
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S2000x128_S128x256_S2000x256_1_0_0_1_n_n_wf : DotDims.WF S2000x128 S128x256 S2000x256 [1] [0] [0] [1] [] []
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x128.size a ≤ S4x100000x128.size a
  hwx0_0 : ∀ i : grid0.Coords, EltTy.bits .f32 = 32 ∨ (Rect.block (s := S4x100000x128) S1x2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S4x128x256.size a
  hwx0_2 : ∀ i : grid0.Coords, EltTy.bits .f32 = 32 ∨ (Rect.block (s := S4x128x256) S1x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x256.size a ≤ S4x128x256.size a
  hwx0_3 : ∀ i : grid0.Coords, EltTy.bits .f32 = 32 ∨ (Rect.block (s := S4x128x256) S1x128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S4x1x256.size a
  hwx0_4 : ∀ i : grid0.Coords, EltTy.bits .f32 = 32 ∨ (Rect.block (s := S4x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x256.size a ≤ S4x100000x256.size a
  hwx1_0 : ∀ i : grid1.Coords, EltTy.bits .f32 = 32 ∨ (Rect.block (s := S4x100000x256) S1x2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S4x256x128.size a
  hwx1_2 : ∀ i : grid1.Coords, EltTy.bits .f32 = 32 ∨ (Rect.block (s := S4x256x128) S1x256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S4x256x128.size a
  hwx1_3 : ∀ i : grid1.Coords, EltTy.bits .f32 = 32 ∨ (Rect.block (s := S4x256x128) S1x256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S4x1x128.size a
  hwx1_4 : ∀ i : grid1.Coords, EltTy.bits .f32 = 32 ∨ (Rect.block (s := S4x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v96) S1x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v97) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v98) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v195) S1x2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v98) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1x256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v196) S1x1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v197) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S4x2x1000000 : Shape := ⟨3, ![4, 2, 1000000]⟩
abbrev S4x128x256 : Shape := ⟨3, ![4, 128, 256]⟩
abbrev S4x256 : Shape := ⟨2, ![4, 256]⟩
abbrev S4x256x128 : Shape := ⟨3, ![4, 256, 128]⟩
abbrev S4x128 : Shape := ⟨2, ![4, 128]⟩
abbrev S1x1x1000000 : Shape := ⟨3, ![1, 1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S1x128x256 : Shape := ⟨3, ![1, 128, 256]⟩
abbrev S128x256 : Shape := ⟨2, ![128, 256]⟩
abbrev S100000x256 : Shape := ⟨2, ![100000, 256]⟩
abbrev S1x256 : Shape := ⟨2, ![1, 256]⟩
abbrev S256 : Shape := ⟨1, ![256]⟩
abbrev S1000000x256 : Shape := ⟨2, ![1000000, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩

abbrev nBuf : Space → Nat
  | .hbm => 354
  | .vmem => 0
  | .smem => 0
  | _ => 0

abbrev hbmTy0_0 (i : Nat) : BufTy := match i % 128 with
  | 0 => ⟨S100000x128, .f32⟩
  | 1 => ⟨S4x2x1000000, .i32⟩
  | 2 => ⟨S4x128x256, .f32⟩
  | 3 => ⟨S4x128x256, .f32⟩
  | 4 => ⟨S4x256, .f32⟩
  | 5 => ⟨S4x256x128, .f32⟩
  | 6 => ⟨S4x256x128, .f32⟩
  | 7 => ⟨S4x128, .f32⟩
  | 8 => ⟨S1x1x1000000, .i32⟩
  | 9 => ⟨S1000000, .i32⟩
  | 10 => ⟨S1x1x1000000, .i32⟩
  | 11 => ⟨S1000000, .i32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x128, .f32⟩
  | 21 => ⟨S_, .f32⟩
  | 22 => ⟨S100000x128, .f32⟩
  | 23 => ⟨S1000000x1, .i32⟩
  | 24 => ⟨S100000x128, .f32⟩
  | 25 => ⟨S_, .f32⟩
  | 26 => ⟨S1000000, .f32⟩
  | 27 => ⟨S_, .f32⟩
  | 28 => ⟨S100000, .f32⟩
  | 29 => ⟨S1000000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S1x128x256, .f32⟩
  | 38 => ⟨S128x256, .f32⟩
  | 39 => ⟨S100000x256, .f32⟩
  | 40 => ⟨S1x128x256, .f32⟩
  | 41 => ⟨S128x256, .f32⟩
  | 42 => ⟨S100000x256, .f32⟩
  | 43 => ⟨S100000x256, .f32⟩
  | 44 => ⟨S1x256, .f32⟩
  | 45 => ⟨S256, .f32⟩
  | 46 => ⟨S1x256, .f32⟩
  | 47 => ⟨S100000x256, .f32⟩
  | 48 => ⟨S100000x256, .f32⟩
  | 49 => ⟨S1x1x1000000, .i32⟩
  | 50 => ⟨S1000000, .i32⟩
  | 51 => ⟨S1x1x1000000, .i32⟩
  | 52 => ⟨S1000000, .i32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x128, .f32⟩
  | 62 => ⟨S_, .f32⟩
  | 63 => ⟨S100000x128, .f32⟩
  | 64 => ⟨S1000000x1, .i32⟩
  | 65 => ⟨S100000x128, .f32⟩
  | 66 => ⟨S_, .f32⟩
  | 67 => ⟨S1000000, .f32⟩
  | 68 => ⟨S_, .f32⟩
  | 69 => ⟨S100000, .f32⟩
  | 70 => ⟨S1000000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S1x128x256, .f32⟩
  | 79 => ⟨S128x256, .f32⟩
  | 80 => ⟨S100000x256, .f32⟩
  | 81 => ⟨S1x128x256, .f32⟩
  | 82 => ⟨S128x256, .f32⟩
  | 83 => ⟨S100000x256, .f32⟩
  | 84 => ⟨S100000x256, .f32⟩
  | 85 => ⟨S1x256, .f32⟩
  | 86 => ⟨S256, .f32⟩
  | 87 => ⟨S1x256, .f32⟩
  | 88 => ⟨S100000x256, .f32⟩
  | 89 => ⟨S100000x256, .f32⟩
  | 90 => ⟨S100000x256, .f32⟩
  | 91 => ⟨S1x1x1000000, .i32⟩
  | 92 => ⟨S1000000, .i32⟩
  | 93 => ⟨S1x1x1000000, .i32⟩
  | 94 => ⟨S1000000, .i32⟩
  | 95 => ⟨S_, .i32⟩
  | 96 => ⟨S1000000, .i32⟩
  | 97 => ⟨S1000000, .i1⟩
  | 98 => ⟨S_, .i32⟩
  | 99 => ⟨S1000000, .i32⟩
  | 100 => ⟨S1000000, .i32⟩
  | 101 => ⟨S1000000, .i32⟩
  | 102 => ⟨S1000000x1, .i32⟩
  | 103 => ⟨S1000000x128, .f32⟩
  | 104 => ⟨S_, .f32⟩
  | 105 => ⟨S100000x128, .f32⟩
  | 106 => ⟨S1000000x1, .i32⟩
  | 107 => ⟨S100000x128, .f32⟩
  | 108 => ⟨S_, .f32⟩
  | 109 => ⟨S1000000, .f32⟩
  | 110 => ⟨S_, .f32⟩
  | 111 => ⟨S100000, .f32⟩
  | 112 => ⟨S1000000x1, .i32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x128, .f32⟩
  | 119 => ⟨S100000x128, .f32⟩
  | 120 => ⟨S1x128x256, .f32⟩
  | 121 => ⟨S128x256, .f32⟩
  | 122 => ⟨S100000x256, .f32⟩
  | 123 => ⟨S1x128x256, .f32⟩
  | 124 => ⟨S128x256, .f32⟩
  | 125 => ⟨S100000x256, .f32⟩
  | 126 => ⟨S100000x256, .f32⟩
  | 127 => ⟨S1x256, .f32⟩
  | _ => ⟨S100000x128, .f32⟩

abbrev hbmTy0_1 (i : Nat) : BufTy := match i % 128 with
  | 0 => ⟨S256, .f32⟩
  | 1 => ⟨S1x256, .f32⟩
  | 2 => ⟨S100000x256, .f32⟩
  | 3 => ⟨S100000x256, .f32⟩
  | 4 => ⟨S100000x256, .f32⟩
  | 5 => ⟨S1x1x1000000, .i32⟩
  | 6 => ⟨S1000000, .i32⟩
  | 7 => ⟨S1x1x1000000, .i32⟩
  | 8 => ⟨S1000000, .i32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000x128, .f32⟩
  | 18 => ⟨S_, .f32⟩
  | 19 => ⟨S100000x128, .f32⟩
  | 20 => ⟨S1000000x1, .i32⟩
  | 21 => ⟨S100000x128, .f32⟩
  | 22 => ⟨S_, .f32⟩
  | 23 => ⟨S1000000, .f32⟩
  | 24 => ⟨S_, .f32⟩
  | 25 => ⟨S100000, .f32⟩
  | 26 => ⟨S1000000x1, .i32⟩
  | 27 => ⟨S100000, .f32⟩
  | 28 => ⟨S_, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S1x128x256, .f32⟩
  | 35 => ⟨S128x256, .f32⟩
  | 36 => ⟨S100000x256, .f32⟩
  | 37 => ⟨S1x128x256, .f32⟩
  | 38 => ⟨S128x256, .f32⟩
  | 39 => ⟨S100000x256, .f32⟩
  | 40 => ⟨S100000x256, .f32⟩
  | 41 => ⟨S1x256, .f32⟩
  | 42 => ⟨S256, .f32⟩
  | 43 => ⟨S1x256, .f32⟩
  | 44 => ⟨S100000x256, .f32⟩
  | 45 => ⟨S100000x256, .f32⟩
  | 46 => ⟨S100000x256, .f32⟩
  | 47 => ⟨S_, .f32⟩
  | 48 => ⟨S100000x256, .f32⟩
  | 49 => ⟨S100000x256, .f32⟩
  | 50 => ⟨S_, .f32⟩
  | 51 => ⟨S100000x256, .f32⟩
  | 52 => ⟨S100000x256, .f32⟩
  | 53 => ⟨S1x1x1000000, .i32⟩
  | 54 => ⟨S1000000, .i32⟩
  | 55 => ⟨S1x1x1000000, .i32⟩
  | 56 => ⟨S1000000, .i32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x256, .f32⟩
  | 66 => ⟨S_, .f32⟩
  | 67 => ⟨S100000x256, .f32⟩
  | 68 => ⟨S1000000x1, .i32⟩
  | 69 => ⟨S100000x256, .f32⟩
  | 70 => ⟨S_, .f32⟩
  | 71 => ⟨S1000000, .f32⟩
  | 72 => ⟨S_, .f32⟩
  | 73 => ⟨S100000, .f32⟩
  | 74 => ⟨S1000000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x256, .f32⟩
  | 81 => ⟨S100000x256, .f32⟩
  | 82 => ⟨S1x256x128, .f32⟩
  | 83 => ⟨S256x128, .f32⟩
  | 84 => ⟨S100000x128, .f32⟩
  | 85 => ⟨S1x256x128, .f32⟩
  | 86 => ⟨S256x128, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S1x1x1000000, .i32⟩
  | 95 => ⟨S1000000, .i32⟩
  | 96 => ⟨S1x1x1000000, .i32⟩
  | 97 => ⟨S1000000, .i32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x256, .f32⟩
  | 107 => ⟨S_, .f32⟩
  | 108 => ⟨S100000x256, .f32⟩
  | 109 => ⟨S1000000x1, .i32⟩
  | 110 => ⟨S100000x256, .f32⟩
  | 111 => ⟨S_, .f32⟩
  | 112 => ⟨S1000000, .f32⟩
  | 113 => ⟨S_, .f32⟩
  | 114 => ⟨S100000, .f32⟩
  | 115 => ⟨S1000000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x256, .f32⟩
  | 122 => ⟨S100000x256, .f32⟩
  | 123 => ⟨S1x256x128, .f32⟩
  | 124 => ⟨S256x128, .f32⟩
  | 125 => ⟨S100000x128, .f32⟩
  | 126 => ⟨S1x256x128, .f32⟩
  | 127 => ⟨S256x128, .f32⟩
  | _ => ⟨S100000x128, .f32⟩

abbrev hbmTy0_2 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S100000x128, .f32⟩
  | 8 => ⟨S1x1x1000000, .i32⟩
  | 9 => ⟨S1000000, .i32⟩
  | 10 => ⟨S1x1x1000000, .i32⟩
  | 11 => ⟨S1000000, .i32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x256, .f32⟩
  | 21 => ⟨S_, .f32⟩
  | 22 => ⟨S100000x256, .f32⟩
  | 23 => ⟨S1000000x1, .i32⟩
  | 24 => ⟨S100000x256, .f32⟩
  | 25 => ⟨S_, .f32⟩
  | 26 => ⟨S1000000, .f32⟩
  | 27 => ⟨S_, .f32⟩
  | 28 => ⟨S100000, .f32⟩
  | 29 => ⟨S1000000x1, .i32⟩
  | 30 => ⟨S100000, .f32⟩
  | 31 => ⟨S_, .f32⟩
  | 32 => ⟨S100000, .f32⟩
  | 33 => ⟨S100000, .f32⟩
  | 34 => ⟨S100000x1, .f32⟩
  | 35 => ⟨S100000x256, .f32⟩
  | 36 => ⟨S100000x256, .f32⟩
  | 37 => ⟨S1x256x128, .f32⟩
  | 38 => ⟨S256x128, .f32⟩
  | 39 => ⟨S100000x128, .f32⟩
  | 40 => ⟨S1x256x128, .f32⟩
  | 41 => ⟨S256x128, .f32⟩
  | 42 => ⟨S100000x128, .f32⟩
  | 43 => ⟨S100000x128, .f32⟩
  | 44 => ⟨S1x128, .f32⟩
  | 45 => ⟨S128, .f32⟩
  | 46 => ⟨S1x128, .f32⟩
  | 47 => ⟨S100000x128, .f32⟩
  | 48 => ⟨S100000x128, .f32⟩
  | 49 => ⟨S100000x128, .f32⟩
  | 50 => ⟨S1x1x1000000, .i32⟩
  | 51 => ⟨S1000000, .i32⟩
  | 52 => ⟨S1x1x1000000, .i32⟩
  | 53 => ⟨S1000000, .i32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x256, .f32⟩
  | 63 => ⟨S_, .f32⟩
  | 64 => ⟨S100000x256, .f32⟩
  | 65 => ⟨S1000000x1, .i32⟩
  | 66 => ⟨S100000x256, .f32⟩
  | 67 => ⟨S_, .f32⟩
  | 68 => ⟨S1000000, .f32⟩
  | 69 => ⟨S_, .f32⟩
  | 70 => ⟨S100000, .f32⟩
  | 71 => ⟨S1000000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x256, .f32⟩
  | 78 => ⟨S100000x256, .f32⟩
  | 79 => ⟨S1x256x128, .f32⟩
  | 80 => ⟨S256x128, .f32⟩
  | 81 => ⟨S100000x128, .f32⟩
  | 82 => ⟨S1x256x128, .f32⟩
  | 83 => ⟨S256x128, .f32⟩
  | 84 => ⟨S100000x128, .f32⟩
  | 85 => ⟨S100000x128, .f32⟩
  | 86 => ⟨S1x128, .f32⟩
  | 87 => ⟨S128, .f32⟩
  | 88 => ⟨S1x128, .f32⟩
  | 89 => ⟨S100000x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .f32⟩
  | 96 => ⟨S100000x128, .f32⟩
  | 97 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_c_10 : Ref sig .tc := ⟨.hbm, 95, rfl⟩
abbrev main_v75 : Ref sig .tc := ⟨.hbm, 96, rfl⟩
abbrev main_v76 : Ref sig .tc := ⟨.hbm, 97, rfl⟩
abbrev main_c_11 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_13 : Ref sig .tc := ⟨.hbm, 108, rfl⟩
abbrev main_v85 : Ref sig .tc := ⟨.hbm, 109, rfl⟩
abbrev main_cst_14 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_c_16 : Ref sig .tc := ⟨.hbm, 137, rfl⟩
abbrev main_v111 : Ref sig .tc := ⟨.hbm, 138, rfl⟩
abbrev main_v112 : Ref sig .tc := ⟨.hbm, 139, rfl⟩
abbrev main_c_17 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_18 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_19 : Ref sig .tc := ⟨.hbm, 150, rfl⟩
abbrev main_v121 : Ref sig .tc := ⟨.hbm, 151, rfl⟩
abbrev main_cst_20 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_21 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_22 : Ref sig .tc := ⟨.hbm, 175, rfl⟩
abbrev main_v143 : Ref sig .tc := ⟨.hbm, 176, rfl⟩
abbrev main_v144 : Ref sig .tc := ⟨.hbm, 177, rfl⟩
abbrev main_call0_cst : Ref sig .tc := ⟨.hbm, 178, rfl⟩
abbrev main_call0_v0 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_c_23 : Ref sig .tc := ⟨.hbm, 185, rfl⟩
abbrev main_v150 : Ref sig .tc := ⟨.hbm, 186, rfl⟩
abbrev main_v151 : Ref sig .tc := ⟨.hbm, 187, rfl⟩
abbrev main_c_24 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_cst_25 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_26 : Ref sig .tc := ⟨.hbm, 198, rfl⟩
abbrev main_v160 : Ref sig .tc := ⟨.hbm, 199, rfl⟩
abbrev main_cst_27 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_28 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_c_29 : Ref sig .tc := ⟨.hbm, 226, rfl⟩
abbrev main_v185 : Ref sig .tc := ⟨.hbm, 227, rfl⟩
abbrev main_v186 : Ref sig .tc := ⟨.hbm, 228, rfl⟩
abbrev main_c_30 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_cst_31 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_cst_32 : Ref sig .tc := ⟨.hbm, 239, rfl⟩
abbrev main_v195 : Ref sig .tc := ⟨.hbm, 240, rfl⟩
abbrev main_cst_33 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_cst_34 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_c_35 : Ref sig .tc := ⟨.hbm, 268, rfl⟩
abbrev main_v221 : Ref sig .tc := ⟨.hbm, 269, rfl⟩
abbrev main_v222 : Ref sig .tc := ⟨.hbm, 270, rfl⟩
abbrev main_c_36 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_cst_37 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_cst_38 : Ref sig .tc := ⟨.hbm, 281, rfl⟩
abbrev main_v231 : Ref sig .tc := ⟨.hbm, 282, rfl⟩
abbrev main_cst_39 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_cst_40 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_c_41 : Ref sig .tc := ⟨.hbm, 310, rfl⟩
abbrev main_v257 : Ref sig .tc := ⟨.hbm, 311, rfl⟩
abbrev main_v258 : Ref sig .tc := ⟨.hbm, 312, rfl⟩
abbrev main_c_42 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_cst_43 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_cst_44 : Ref sig .tc := ⟨.hbm, 323, rfl⟩
abbrev main_v267 : Ref sig .tc := ⟨.hbm, 324, rfl⟩
abbrev main_cst_45 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_cst_46 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_cst_47 : Ref sig .tc := ⟨.hbm, 348, rfl⟩
abbrev main_v289 : Ref sig .tc := ⟨.hbm, 349, rfl⟩
abbrev main_v290 : Ref sig .tc := ⟨.hbm, 350, rfl⟩
abbrev main_call1_cst : Ref sig .tc := ⟨.hbm, 351, rfl⟩
abbrev main_call1_v0 : Ref sig .tc := ⟨.hbm, 352, rfl⟩
abbrev main_v291 : Ref sig .tc := ⟨.hbm, 353, rfl⟩

abbrev nD : Nat := 1
abbrev τ : Topo := Topo.v7x

variable {F : FTy → Type} [FloatOps F]

class Facts₀ : Prop where
  slices_S4x2x1000000_S1x1x1000000_0_0_0 : S4x2x1000000.Slices ![0, 0, 0] S1x1x1000000
  shapeCasts_S1x1x1000000_S1000000 : S1x1x1000000.ShapeCasts S1000000
  slices_S4x2x1000000_S1x1x1000000_0_1_0 : S4x2x1000000.Slices ![0, 1, 0] S1x1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S4x128x256_S1x128x256_0_0_0 : S4x128x256.Slices ![0, 0, 0] S1x128x256
  shapeCasts_S1x128x256_S128x256 : S1x128x256.ShapeCasts S128x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  slices_S4x2x1000000_S1x1x1000000_1_0_0 : S4x2x1000000.Slices ![1, 0, 0] S1x1x1000000
  slices_S4x2x1000000_S1x1x1000000_1_1_0 : S4x2x1000000.Slices ![1, 1, 0] S1x1x1000000
  slices_S4x128x256_S1x128x256_1_0_0 : S4x128x256.Slices ![1, 0, 0] S1x128x256
  slices_S4x256_S1x256_1_0 : S4x256.Slices ![1, 0] S1x256
  slices_S4x2x1000000_S1x1x1000000_2_0_0 : S4x2x1000000.Slices ![2, 0, 0] S1x1x1000000
  slices_S4x2x1000000_S1x1x1000000_2_1_0 : S4x2x1000000.Slices ![2, 1, 0] S1x1x1000000
  slices_S4x128x256_S1x128x256_2_0_0 : S4x128x256.Slices ![2, 0, 0] S1x128x256
  slices_S4x256_S1x256_2_0 : S4x256.Slices ![2, 0] S1x256
  slices_S4x2x1000000_S1x1x1000000_3_0_0 : S4x2x1000000.Slices ![3, 0, 0] S1x1x1000000
  slices_S4x2x1000000_S1x1x1000000_3_1_0 : S4x2x1000000.Slices ![3, 1, 0] S1x1x1000000
  slices_S4x128x256_S1x128x256_3_0_0 : S4x128x256.Slices ![3, 0, 0] S1x128x256
  slices_S4x256_S1x256_3_0 : S4x256.Slices ![3, 0] S1x256
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S4x256x128_S1x256x128_1_0_0 : S4x256x128.Slices ![1, 0, 0] S1x256x128
  slices_S4x128_S1x128_1_0 : S4x128.Slices ![1, 0] S1x128
  slices_S4x256x128_S1x256x128_2_0_0 : S4x256x128.Slices ![2, 0, 0] S1x256x128
  slices_S4x128_S1x128_2_0 : S4x128.Slices ![2, 0] S1x128
  slices_S4x256x128_S1x256x128_3_0_0 : S4x256x128.Slices ![3, 0, 0] S1x256x128
  slices_S4x128_S1x128_3_0 : S4x128.Slices ![3, 0] S1x128
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x256_S100000x256_1_0_0_1_n_n_wf : DotDims.WF S100000x128 S128x256 S100000x256 [1] [0] [0] [1] [] []
  gather_S100000x256_S1000000x1_S1000000x256_1_0_n_n_0_1_1256_wf : GatherDims.WF S100000x256 S1000000x1 S1000000x256 [1] [0] [] [0] [] 1 ![1, 256]
  scatter_S100000x256_S1000000x1_S1000000x256_1_0_0_1_wf : ScatterDims.WF S100000x256 S1000000x1 S1000000x256 [1] [0] [0] 1
  dot_S100000x256_S256x128_S100000x128_1_0_0_1_n_n_wf : DotDims.WF S100000x256 S256x128 S100000x128 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S1000000x1_S1000000x256_1_0_n_n_0_1_1256 : GatherDims S100000x256 S1000000x1 S1000000x256 where
  offsetDims := [1]
  collapsedSliceDims := [0]
  operandBatchingDims := []
  startIndicesBatchingDims := []
  startIndexMap := [0]
  indexVectorDim := 1
  sliceSizes := ![1, 256]
  wf := gather_S100000x256_S1000000x1_S1000000x256_1_0_n_n_0_1_1256_wf
def scatter_S100000x256_S1000000x1_S1000000x256_1_0_0_1 : ScatterDims S100000x256 S1000000x1 S1000000x256 where
  updateWindowDims := [1]
  insertedWindowDims := [0]
  scatterDimsToOperandDims := [0]
  indexVectorDim := 1
  wf := scatter_S100000x256_S1000000x1_S1000000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.RefRunL0B0.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: one edge type's contribution (neighbours' mean through the left weights, own rows through the right weights, bias). Read back once, from any contents, at the buffer
    the later stretches read. -/

variable {F : FTy → Type} [FloatOps F]

/-- The stretch's operations, in order. -/
abbrev L0B0 : List (HloOp τ sig (Elt F)) :=
  [ unary main_arg1 main_v0 ((extractStridedSlice S1x1x1000000 ![0, 0, 0] · slices_S4x2x1000000_S1x1x1000000_0_0_0) : (⟨S4x2x1000000, .i32⟩ : BufTy).Contents (Elt F) → (⟨S1x1x1000000, .i32⟩ : BufTy).Contents (Elt F)),
    reshape main_v0 main_v1 rfl shapeCasts_S1x1x1000000_S1000000,
    unary main_arg1 main_v2 ((extractStridedSlice S1x1x1000000 ![0, 1, 0] · slices_S4x2x1000000_S1x1x1000000_0_1_0) : (⟨S4x2x1000000, .i32⟩ : BufTy).Contents (Elt F) → (⟨S1x1x1000000, .i32⟩ : BufTy).Contents (Elt F)),
    reshape main_v2 main_v3 rfl shapeCasts_S1x1x1000000_S1000000,
    nullary main_c (constantI S_ 32 0#32),
    unary main_c main_v4 (broadcastInDim S1000000 ![] bcast_S_S1000000 : (⟨S_, .i32⟩ : BufTy).Contents (Elt F) → (⟨S1000000, .i32⟩ : BufTy).Contents (Elt F)),
    binary main_v1 main_v4 main_v5 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 100000#32),
    unary main_c_0 main_v6 (broadcastInDim S1000000 ![] bcast_S_S1000000 : (⟨S_, .i32⟩ : BufTy).Contents (Elt F) → (⟨S1000000, .i32⟩ : BufTy).Contents (Elt F)),
    binary main_v1 main_v6 main_v7 (addi : (⟨S1000000, .i32⟩ : BufTy).Contents (Elt F) → (⟨S1000000, .i32⟩ : BufTy).Contents (Elt F) → (⟨S1000000, .i32⟩ : BufTy).Contents (Elt F)),
    ternary main_v5 main_v7 main_v1 main_v8 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v8 main_v9 (broadcastInDim S1000000x1 ![0] bcast_S1000000_S1000000x1_0 : (⟨S1000000, .i32⟩ : BufTy).Contents (Elt F) → (⟨S1000000x1, .i32⟩ : BufTy).Contents (Elt F)),
    binary main_arg0 main_v9 main_v10 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_1 (constant S_ .f32 0x3F800000#32),
    unary main_cst_1 main_v14 (broadcastInDim S1000000 ![] bcast_S_S1000000 : (⟨S_, .f32⟩ : BufTy).Contents (Elt F) → (⟨S1000000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1000000x1 ![0] bcast_S1000000_S1000000x1_0 : (⟨S1000000, .i32⟩ : BufTy).Contents (Elt F) → (⟨S1000000x1, .i32⟩ : BufTy).Contents (Elt F)),
    ternary main_v15 main_v16 main_v14 main_v17 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg2 main_v23 ((extractStridedSlice S1x128x256 ![0, 0, 0] · slices_S4x128x256_S1x128x256_0_0_0) : (⟨S4x128x256, .f32⟩ : BufTy).Contents (Elt F) → (⟨S1x128x256, .f32⟩ : BufTy).Contents (Elt F)),
    reshape main_v23 main_v24 rfl shapeCasts_S1x128x256_S128x256,
    binary main_v22 main_v24 main_v25 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v26 ((extractStridedSlice S1x128x256 ![0, 0, 0] · slices_S4x128x256_S1x128x256_0_0_0) : (⟨S4x128x256, .f32⟩ : BufTy).Contents (Elt F) → (⟨S1x128x256, .f32⟩ : BufTy).Contents (Elt F)),
    reshape main_v26 main_v27 rfl shapeCasts_S1x128x256_S128x256,
    binary main_arg0 main_v27 main_v28 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v25 main_v28 main_v29 (addf : (⟨S100000x256, .f32⟩ : BufTy).Contents (Elt F) → (⟨S100000x256, .f32⟩ : BufTy).Contents (Elt F) → (⟨S100000x256, .f32⟩ : BufTy).Contents (Elt F)),
    unary main_arg4 main_v30 ((extractStridedSlice S1x256 ![0, 0] · slices_S4x256_S1x256_0_0) : (⟨S4x256, .f32⟩ : BufTy).Contents (Elt F) → (⟨S1x256, .f32⟩ : BufTy).Contents (Elt F)),
    reshape main_v30 main_v31 rfl shapeCasts_S1x256_S256,
    unary main_v31 main_v32 (broadcastInDim S1x256 ![1] bcast_S256_S1x256_1 : (⟨S256, .f32⟩ : BufTy).Contents (Elt F) → (⟨S1x256, .f32⟩ : BufTy).Contents (Elt F)),
    unary main_v32 main_v33 (broadcastInDim S100000x256 ![0, 1] bcast_S1x256_S100000x256_0_1 : (⟨S1x256, .f32⟩ : BufTy).Contents (Elt F) → (⟨S100000x256, .f32⟩ : BufTy).Contents (Elt F)),
    binary main_v29 main_v33 main_v34 (addf : (⟨S100000x256, .f32⟩ : BufTy).Contents (Elt F) → (⟨S100000x256, .f32⟩ : BufTy).Contents (Elt F) → (⟨S100000x256, .f32⟩ : BufTy).Contents (Elt F)) ]

/-- The references the stretch's operations write, in order: one each. -/
abbrev L0B0_W : List (Ref sig .tc) := [
    main_v0, main_v1, main_v2, main_v3, main_c, main_v4, main_v5, main_c_0, main_v6, main_v7, main_v8, main_v9, main_v10, main_cst,
    main_v11, main_v12, main_v13, main_cst_1, main_v14, main_cst_2, main_v15, main_v16, main_v17, main_cst_3, main_v18, main_v19, main_v20,
    main_v21, main_v22, main_v23, main_v24, main_v25, main_v26, main_v27, main_v28, main_v29, main_v30, main_v31, main_v32, main_v33,
    main_v34 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L0B0_writes : (L0B0 : List (HloOp τ sig (Elt F))).Forall fun op => op.writes ⊆ (L0B0_W.map (Proc.devRef (τ := τ) .tc)).toFinset :=
  ⟨
    sub_of_mem (y := main_v0) (by decide), sub_of_mem (y := main_v1) (by decide), sub_of_mem (y := main_v2) (by decide),
    sub_of_mem (y := main_v3) (by decide), sub_of_mem (y := main_c) (by decide), sub_of_mem (y := main_v4) (by decide),
    sub_of_mem (y := main_v5) (by decide), sub_of_mem (y := main_c_0) (by decide), sub_of_mem (y := main_v6) (by decide),
    sub_of_mem (y := main_v7) (by decide), sub_of_mem (y := main_v8) (by decide), sub_of_mem (y := main_v9) (by decide),
    sub_of_mem (y := main_v10) (by decide), sub_of_mem (y := main_cst) (by decide), sub_of_mem (y := main_v11) (by decide),
    sub_of_mem (y := main_v12) (by decide), sub_of_mem (y := main_v13) (by decide), sub_of_mem (y := main_cst_1) (by decide),
    sub_of_mem (y := main_v14) (by decide), sub_of_mem (y := main_cst_2) (by decide), sub_of_mem (y := main_v15) (by decide),
    sub_of_mem (y := main_v16) (by decide), sub_of_mem (y := main_v17) (by decide), sub_of_mem (y := main_cst_3) (by decide),
    sub_of_mem (y := main_v18) (by decide), sub_of_mem (y := main_v19) (by decide), sub_of_mem (y := main_v20) (by decide),
    sub_of_mem (y := main_v21) (by decide), sub_of_mem (y := main_v22) (by decide), sub_of_mem (y := main_v23) (by decide),
    sub_of_mem (y := main_v24) (by decide), sub_of_mem (y := main_v25) (by decide), sub_of_mem (y := main_v26) (by decide),
    sub_of_mem (y := main_v27) (by decide), sub_of_mem (y := main_v28) (by decide), sub_of_mem (y := main_v29) (by decide),
    sub_of_mem (y := main_v30) (by decide), sub_of_mem (y := main_v31) (by decide), sub_of_mem (y := main_v32) (by decide),
    sub_of_mem (y := main_v33) (by decide), sub_of_mem (y := main_v34) (by decide) ⟩

/-- A reference the stretch does not write holds after it what it held before. -/
theorem L0B0_keep (V : Valuation τ sig (Elt F)) (r : Ref sig .tc) (h : r ∉ L0B0_W) :
    StableHlo.after (L0B0 (F := F)) V (Proc.devRef .tc r) = V (Proc.devRef .tc r) :=
  StableHlo.after_of_writes_sub L0B0 V L0B0_writes h

set_option maxRecDepth 8192 in
set_option maxHeartbeats 4000000 in
/-- The stretch's result, from any contents that hold the arguments it reads. -/
theorem L0B0_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4) :
    StableHlo.after (L0B0 (F := F)) V (Proc.devRef .tc main_v34) = ReadP.val_main_v34 (F := F) x0 x1 x2 x3 x4 := by
  dsimp only [L0B0]
  after_results_simp
  simp only [h0, h1, h2, h3, h4]
  rfl

end Cert.Sage.RefRun

end
-- ==== Proof.RefRunL0B1.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: one edge type's contribution (neighbours' mean through the left weights, own rows through the right weights, bias) added to the running sum. Read back once, from any contents, at the buffer
    the later stretches read. -/

variable {F : FTy → Type} [FloatOps F]

/-- The stretch's operations, in order. -/
abbrev L0B1 : List (HloOp τ sig (Elt F)) :=
  [ unary main_arg1 main_v35 ((extractStridedSlice S1x1x1000000 ![1, 0, 0] · slices_S4x2x1000000_S1x1x1000000_1_0_0) : (⟨S4x2x1000000, .i32⟩ : BufTy).Contents (Elt F) → (⟨S1x1x1000000, .i32⟩ : BufTy).Contents (Elt F)),
    reshape main_v35 main_v36 rfl shapeCasts_S1x1x1000000_S1000000,
    unary main_arg1 main_v37 ((extractStridedSlice S1x1x1000000 ![1, 1, 0] · slices_S4x2x1000000_S1x1x1000000_1_1_0) : (⟨S4x2x1000000, .i32⟩ : BufTy).Contents (Elt F) → (⟨S1x1x1000000, .i32⟩ : BufTy).Contents (Elt F)),
    reshape main_v37 main_v38 rfl shapeCasts_S1x1x1000000_S1000000,
    nullary main_c_4 (constantI S_ 32 0#32),
    unary main_c_4 main_v39 (broadcastInDim S1000000 ![] bcast_S_S1000000 : (⟨S_, .i32⟩ : BufTy).Contents (Elt F) → (⟨S1000000, .i32⟩ : BufTy).Contents (Elt F)),
    binary main_v36 main_v39 main_v40 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 100000#32),
    unary main_c_5 main_v41 (broadcastInDim S1000000 ![] bcast_S_S1000000 : (⟨S_, .i32⟩ : BufTy).Contents (Elt F) → (⟨S1000000, .i32⟩ : BufTy).Contents (Elt F)),
    binary main_v36 main_v41 main_v42 (addi : (⟨S1000000, .i32⟩ : BufTy).Contents (Elt F) → (⟨S1000000, .i32⟩ : BufTy).Contents (Elt F) → (⟨S1000000, .i32⟩ : BufTy).Contents (Elt F)),
    ternary main_v40 main_v42 main_v36 main_v43 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v43 main_v44 (broadcastInDim S1000000x1 ![0] bcast_S1000000_S1000000x1_0 : (⟨S1000000, .i32⟩ : BufTy).Contents (Elt F) → (⟨S1000000x1, .i32⟩ : BufTy).Contents (Elt F)),
    binary main_arg0 main_v44 main_v45 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_6 (constant S_ .f32 0x00000000#32),
    unary main_cst_6 main_v46 (broadcastInDim S100000x128 ![] bcast_S_S100000x128 : (⟨S_, .f32⟩ : BufTy).Contents (Elt F) → (⟨S100000x128, .f32⟩ : BufTy).Contents (Elt F)),
    unary main_v38 main_v47 (broadcastInDim S1000000x1 ![0] bcast_S1000000_S1000000x1_0 : (⟨S1000000, .i32⟩ : BufTy).Contents (Elt F) → (⟨S1000000x1, .i32⟩ : BufTy).Contents (Elt F)),
    ternary main_v46 main_v47 main_v45 main_v48 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_7 (constant S_ .f32 0x3F800000#32),
    unary main_cst_7 main_v49 (broadcastInDim S1000000 ![] bcast_S_S1000000 : (⟨S_, .f32⟩ : BufTy).Contents (Elt F) → (⟨S1000000, .f32⟩ : BufTy).Contents (Elt F)),
    nullary main_cst_8 (constant S_ .f32 0x00000000#32),
    unary main_cst_8 main_v50 (broadcastInDim S100000 ![] bcast_S_S100000 : (⟨S_, .f32⟩ : BufTy).Contents (Elt F) → (⟨S100000, .f32⟩ : BufTy).Contents (Elt F)),
    unary main_v38 main_v51 (broadcastInDim S1000000x1 ![0] bcast_S1000000_S1000000x1_0 : (⟨S1000000, .i32⟩ : BufTy).Contents (Elt F) → (⟨S1000000x1, .i32⟩ : BufTy).Contents (Elt F)),
    ternary main_v50 main_v51 main_v49 main_v52 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_9 (constant S_ .f32 0x3F800000#32),
    unary main_cst_9 main_v53 (broadcastInDim S100000 ![] bcast_S_S100000 : (⟨S_, .f32⟩ : BufTy).Contents (Elt F) → (⟨S100000, .f32⟩ : BufTy).Contents (Elt F)),
    binary main_v52 main_v53 main_v54 (maximumf : (⟨S100000, .f32⟩ : BufTy).Contents (Elt F) → (⟨S100000, .f32⟩ : BufTy).Contents (Elt F) → (⟨S100000, .f32⟩ : BufTy).Contents (Elt F)),
    unary main_v54 main_v55 (broadcastInDim S100000x1 ![0] bcast_S100000_S100000x1_0 : (⟨S100000, .f32⟩ : BufTy).Contents (Elt F) → (⟨S100000x1, .f32⟩ : BufTy).Contents (Elt F)),
    unary main_v55 main_v56 (broadcastInDim S100000x128 ![0, 1] bcast_S100000x1_S100000x128_0_1 : (⟨S100000x1, .f32⟩ : BufTy).Contents (Elt F) → (⟨S100000x128, .f32⟩ : BufTy).Contents (Elt F)),
    binary main_v48 main_v56 main_v57 (Host.divf : (⟨S100000x128, .f32⟩ : BufTy).Contents (Elt F) → (⟨S100000x128, .f32⟩ : BufTy).Contents (Elt F) → (⟨S100000x128, .f32⟩ : BufTy).Contents (Elt F)),
    unary main_arg2 main_v58 ((extractStridedSlice S1x128x256 ![1, 0, 0] · slices_S4x128x256_S1x128x256_1_0_0) : (⟨S4x128x256, .f32⟩ : BufTy).Contents (Elt F) → (⟨S1x128x256, .f32⟩ : BufTy).Contents (Elt F)),
    reshape main_v58 main_v59 rfl shapeCasts_S1x128x256_S128x256,
    binary main_v57 main_v59 main_v60 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v61 ((extractStridedSlice S1x128x256 ![1, 0, 0] · slices_S4x128x256_S1x128x256_1_0_0) : (⟨S4x128x256, .f32⟩ : BufTy).Contents (Elt F) → (⟨S1x128x256, .f32⟩ : BufTy).Contents (Elt F)),
    reshape main_v61 main_v62 rfl shapeCasts_S1x128x256_S128x256,
    binary main_arg0 main_v62 main_v63 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v60 main_v63 main_v64 (addf : (⟨S100000x256, .f32⟩ : BufTy).Contents (Elt F) → (⟨S100000x256, .f32⟩ : BufTy).Contents (Elt F) → (⟨S100000x256, .f32⟩ : BufTy).Contents (Elt F)),
    unary main_arg4 main_v65 ((extractStridedSlice S1x256 ![1, 0] · slices_S4x256_S1x256_1_0) : (⟨S4x256, .f32⟩ : BufTy).Contents (Elt F) → (⟨S1x256, .f32⟩ : BufTy).Contents (Elt F)),
    reshape main_v65 main_v66 rfl shapeCasts_S1x256_S256,
    unary main_v66 main_v67 (broadcastInDim S1x256 ![1] bcast_S256_S1x256_1 : (⟨S256, .f32⟩ : BufTy).Contents (Elt F) → (⟨S1x256, .f32⟩ : BufTy).Contents (Elt F)),
    unary main_v67 main_v68 (broadcastInDim S100000x256 ![0, 1] bcast_S1x256_S100000x256_0_1 : (⟨S1x256, .f32⟩ : BufTy).Contents (Elt F) → (⟨S100000x256, .f32⟩ : BufTy).Contents (Elt F)),
    binary main_v64 main_v68 main_v69 (addf : (⟨S100000x256, .f32⟩ : BufTy).Contents (Elt F) → (⟨S100000x256, .f32⟩ : BufTy).Contents (Elt F) → (⟨S100000x256, .f32⟩ : BufTy).Contents (Elt F)),
    binary main_v34 main_v69 main_v70 (addf : (⟨S100000x256, .f32⟩ : BufTy).Contents (Elt F) → (⟨S100000x256, .f32⟩ : BufTy).Contents (Elt F) → (⟨S100000x256, .f32⟩ : BufTy).Contents (Elt F)) ]

/-- The references the stretch's operations write, in order: one each. -/
abbrev L0B1_W : List (Ref sig .tc) := [
    main_v35, main_v36, main_v37, main_v38, main_c_4, main_v39, main_v40, main_c_5, main_v41, main_v42, main_v43, main_v44, main_v45,
    main_cst_6, main_v46, main_v47, main_v48, main_cst_7, main_v49, main_cst_8, main_v50, main_v51, main_v52, main_cst_9, main_v53,
    main_v54, main_v55, main_v56, main_v57, main_v58, main_v59, main_v60, main_v61, main_v62, main_v63, main_v64, main_v65, main_v66,
    main_v67, main_v68, main_v69, main_v70 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L0B1_writes : (L0B1 : List (HloOp τ sig (Elt F))).Forall fun op => op.writes ⊆ (L0B1_W.map (Proc.devRef (τ := τ) .tc)).toFinset :=
  ⟨
    sub_of_mem (y := main_v35) (by decide), sub_of_mem (y := main_v36) (by decide), sub_of_mem (y := main_v37) (by decide),
    sub_of_mem (y := main_v38) (by decide), sub_of_mem (y := main_c_4) (by decide), sub_of_mem (y := main_v39) (by decide),
    sub_of_mem (y := main_v40) (by decide), sub_of_mem (y := main_c_5) (by decide), sub_of_mem (y := main_v41) (by decide),
    sub_of_mem (y := main_v42) (by decide), sub_of_mem (y := main_v43) (by decide), sub_of_mem (y := main_v44) (by decide),
    sub_of_mem (y := main_v45) (by decide), sub_of_mem (y := main_cst_6) (by decide), sub_of_mem (y := main_v46) (by decide),
    sub_of_mem (y := main_v47) (by decide), sub_of_mem (y := main_v48) (by decide), sub_of_mem (y := main_cst_7) (by decide),
    sub_of_mem (y := main_v49) (by decide), sub_of_mem (y := main_cst_8) (by decide), sub_of_mem (y := main_v50) (by decide),
    sub_of_mem (y := main_v51) (by decide), sub_of_mem (y := main_v52) (by decide), sub_of_mem (y := main_cst_9) (by decide),
    sub_of_mem (y := main_v53) (by decide), sub_of_mem (y := main_v54) (by decide), sub_of_mem (y := main_v55) (by decide),
    sub_of_mem (y := main_v56) (by decide), sub_of_mem (y := main_v57) (by decide), sub_of_mem (y := main_v58) (by decide),
    sub_of_mem (y := main_v59) (by decide), sub_of_mem (y := main_v60) (by decide), sub_of_mem (y := main_v61) (by decide),
    sub_of_mem (y := main_v62) (by decide), sub_of_mem (y := main_v63) (by decide), sub_of_mem (y := main_v64) (by decide),
    sub_of_mem (y := main_v65) (by decide), sub_of_mem (y := main_v66) (by decide), sub_of_mem (y := main_v67) (by decide),
    sub_of_mem (y := main_v68) (by decide), sub_of_mem (y := main_v69) (by decide), sub_of_mem (y := main_v70) (by decide) ⟩

/-- A reference the stretch does not write holds after it what it held before. -/
theorem L0B1_keep (V : Valuation τ sig (Elt F)) (r : Ref sig .tc) (h : r ∉ L0B1_W) :
    StableHlo.after (L0B1 (F := F)) V (Proc.devRef .tc r) = V (Proc.devRef .tc r) :=
  StableHlo.after_of_writes_sub L0B1 V L0B1_writes h

set_option maxRecDepth 8192 in
set_option maxHeartbeats 4000000 in
/-- The stretch's result, from any contents that hold the arguments and the running sum it reads. -/
theorem L0B1_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4)
    (hs : V (Proc.devRef .tc main_v34) = ReadP.val_main_v34 (F := F) x0 x1 x2 x3 x4) :
    StableHlo.after (L0B1 (F := F)) V (Proc.devRef .tc main_v70) = ReadP.val_main_v70 (F := F) x0 x1 x2 x3 x4 := by
  dsimp only [L0B1]
  after_results_simp
  simp only [h0, h1, h2, h3, h4, hs]
  rfl

end Cert.Sage.RefRun

end
-- ==== Proof.RefRunL0B2.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: one edge type's contribution (neighbours' mean through the left weights, own rows through the right weights, bias) added to the running sum. Read back once, from any contents, at the buffer
    the later stretches read. -/

variable {F : FTy → Type} [FloatOps F]

/-- The stretch's operations, in order. -/
abbrev L0B2 : List (HloOp τ sig (Elt F)) :=
  [ unary main_arg1 main_v71 ((extractStridedSlice S1x1x1000000 ![2, 0, 0] · slices_S4x2x1000000_S1x1x1000000_2_0_0) : (⟨S4x2x1000000, .i32⟩ : BufTy).Contents (Elt F) → (⟨S1x1x1000000, .i32⟩ : BufTy).Contents (Elt F)),
    reshape main_v71 main_v72 rfl shapeCasts_S1x1x1000000_S1000000,
    unary main_arg1 main_v73 ((extractStridedSlice S1x1x1000000 ![2, 1, 0] · slices_S4x2x1000000_S1x1x1000000_2_1_0) : (⟨S4x2x1000000, .i32⟩ : BufTy).Contents (Elt F) → (⟨S1x1x1000000, .i32⟩ : BufTy).Contents (Elt F)),
    reshape main_v73 main_v74 rfl shapeCasts_S1x1x1000000_S1000000,
    nullary main_c_10 (constantI S_ 32 0#32),
    unary main_c_10 main_v75 (broadcastInDim S1000000 ![] bcast_S_S1000000 : (⟨S_, .i32⟩ : BufTy).Contents (Elt F) → (⟨S1000000, .i32⟩ : BufTy).Contents (Elt F)),
    binary main_v72 main_v75 main_v76 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 100000#32),
    unary main_c_11 main_v77 (broadcastInDim S1000000 ![] bcast_S_S1000000 : (⟨S_, .i32⟩ : BufTy).Contents (Elt F) → (⟨S1000000, .i32⟩ : BufTy).Contents (Elt F)),
    binary main_v72 main_v77 main_v78 (addi : (⟨S1000000, .i32⟩ : BufTy).Contents (Elt F) → (⟨S1000000, .i32⟩ : BufTy).Contents (Elt F) → (⟨S1000000, .i32⟩ : BufTy).Contents (Elt F)),
    ternary main_v76 main_v78 main_v72 main_v79 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v79 main_v80 (broadcastInDim S1000000x1 ![0] bcast_S1000000_S1000000x1_0 : (⟨S1000000, .i32⟩ : BufTy).Contents (Elt F) → (⟨S1000000x1, .i32⟩ : BufTy).Contents (Elt F)),
    binary main_arg0 main_v80 main_v81 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_12 (constant S_ .f32 0x00000000#32),
    unary main_cst_12 main_v82 (broadcastInDim S100000x128 ![] bcast_S_S100000x128 : (⟨S_, .f32⟩ : BufTy).Contents (Elt F) → (⟨S100000x128, .f32⟩ : BufTy).Contents (Elt F)),
    unary main_v74 main_v83 (broadcastInDim S1000000x1 ![0] bcast_S1000000_S1000000x1_0 : (⟨S1000000, .i32⟩ : BufTy).Contents (Elt F) → (⟨S1000000x1, .i32⟩ : BufTy).Contents (Elt F)),
    ternary main_v82 main_v83 main_v81 main_v84 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_13 (constant S_ .f32 0x3F800000#32),
    unary main_cst_13 main_v85 (broadcastInDim S1000000 ![] bcast_S_S1000000 : (⟨S_, .f32⟩ : BufTy).Contents (Elt F) → (⟨S1000000, .f32⟩ : BufTy).Contents (Elt F)),
    nullary main_cst_14 (constant S_ .f32 0x00000000#32),
    unary main_cst_14 main_v86 (broadcastInDim S100000 ![] bcast_S_S100000 : (⟨S_, .f32⟩ : BufTy).Contents (Elt F) → (⟨S100000, .f32⟩ : BufTy).Contents (Elt F)),
    unary main_v74 main_v87 (broadcastInDim S1000000x1 ![0] bcast_S1000000_S1000000x1_0 : (⟨S1000000, .i32⟩ : BufTy).Contents (Elt F) → (⟨S1000000x1, .i32⟩ : BufTy).Contents (Elt F)),
    ternary main_v86 main_v87 main_v85 main_v88 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_15 (constant S_ .f32 0x3F800000#32),
    unary main_cst_15 main_v89 (broadcastInDim S100000 ![] bcast_S_S100000 : (⟨S_, .f32⟩ : BufTy).Contents (Elt F) → (⟨S100000, .f32⟩ : BufTy).Contents (Elt F)),
    binary main_v88 main_v89 main_v90 (maximumf : (⟨S100000, .f32⟩ : BufTy).Contents (Elt F) → (⟨S100000, .f32⟩ : BufTy).Contents (Elt F) → (⟨S100000, .f32⟩ : BufTy).Contents (Elt F)),
    unary main_v90 main_v91 (broadcastInDim S100000x1 ![0] bcast_S100000_S100000x1_0 : (⟨S100000, .f32⟩ : BufTy).Contents (Elt F) → (⟨S100000x1, .f32⟩ : BufTy).Contents (Elt F)),
    unary main_v91 main_v92 (broadcastInDim S100000x128 ![0, 1] bcast_S100000x1_S100000x128_0_1 : (⟨S100000x1, .f32⟩ : BufTy).Contents (Elt F) → (⟨S100000x128, .f32⟩ : BufTy).Contents (Elt F)),
    binary main_v84 main_v92 main_v93 (Host.divf : (⟨S100000x128, .f32⟩ : BufTy).Contents (Elt F) → (⟨S100000x128, .f32⟩ : BufTy).Contents (Elt F) → (⟨S100000x128, .f32⟩ : BufTy).Contents (Elt F)),
    unary main_arg2 main_v94 ((extractStridedSlice S1x128x256 ![2, 0, 0] · slices_S4x128x256_S1x128x256_2_0_0) : (⟨S4x128x256, .f32⟩ : BufTy).Contents (Elt F) → (⟨S1x128x256, .f32⟩ : BufTy).Contents (Elt F)),
    reshape main_v94 main_v95 rfl shapeCasts_S1x128x256_S128x256,
    binary main_v93 main_v95 main_v96 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v97 ((extractStridedSlice S1x128x256 ![2, 0, 0] · slices_S4x128x256_S1x128x256_2_0_0) : (⟨S4x128x256, .f32⟩ : BufTy).Contents (Elt F) → (⟨S1x128x256, .f32⟩ : BufTy).Contents (Elt F)),
    reshape main_v97 main_v98 rfl shapeCasts_S1x128x256_S128x256,
    binary main_arg0 main_v98 main_v99 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v96 main_v99 main_v100 (addf : (⟨S100000x256, .f32⟩ : BufTy).Contents (Elt F) → (⟨S100000x256, .f32⟩ : BufTy).Contents (Elt F) → (⟨S100000x256, .f32⟩ : BufTy).Contents (Elt F)),
    unary main_arg4 main_v101 ((extractStridedSlice S1x256 ![2, 0] · slices_S4x256_S1x256_2_0) : (⟨S4x256, .f32⟩ : BufTy).Contents (Elt F) → (⟨S1x256, .f32⟩ : BufTy).Contents (Elt F)),
    reshape main_v101 main_v102 rfl shapeCasts_S1x256_S256,
    unary main_v102 main_v103 (broadcastInDim S1x256 ![1] bcast_S256_S1x256_1 : (⟨S256, .f32⟩ : BufTy).Contents (Elt F) → (⟨S1x256, .f32⟩ : BufTy).Contents (Elt F)),
    unary main_v103 main_v104 (broadcastInDim S100000x256 ![0, 1] bcast_S1x256_S100000x256_0_1 : (⟨S1x256, .f32⟩ : BufTy).Contents (Elt F) → (⟨S100000x256, .f32⟩ : BufTy).Contents (Elt F)),
    binary main_v100 main_v104 main_v105 (addf : (⟨S100000x256, .f32⟩ : BufTy).Contents (Elt F) → (⟨S100000x256, .f32⟩ : BufTy).Contents (Elt F) → (⟨S100000x256, .f32⟩ : BufTy).Contents (Elt F)),
    binary main_v70 main_v105 main_v106 (addf : (⟨S100000x256, .f32⟩ : BufTy).Contents (Elt F) → (⟨S100000x256, .f32⟩ : BufTy).Contents (Elt F) → (⟨S100000x256, .f32⟩ : BufTy).Contents (Elt F)) ]

/-- The references the stretch's operations write, in order: one each. -/
abbrev L0B2_W : List (Ref sig .tc) := [
    main_v71, main_v72, main_v73, main_v74, main_c_10, main_v75, main_v76, main_c_11, main_v77, main_v78, main_v79, main_v80, main_v81,
    main_cst_12, main_v82, main_v83, main_v84, main_cst_13, main_v85, main_cst_14, main_v86, main_v87, main_v88, main_cst_15, main_v89,
    main_v90, main_v91, main_v92, main_v93, main_v94, main_v95, main_v96, main_v97, main_v98, main_v99, main_v100, main_v101, main_v102,
    main_v103, main_v104, main_v105, main_v106 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L0B2_writes : (L0B2 : List (HloOp τ sig (Elt F))).Forall fun op => op.writes ⊆ (L0B2_W.map (Proc.devRef (τ := τ) .tc)).toFinset :=
  ⟨
    sub_of_mem (y := main_v71) (by decide), sub_of_mem (y := main_v72) (by decide), sub_of_mem (y := main_v73) (by decide),
    sub_of_mem (y := main_v74) (by decide), sub_of_mem (y := main_c_10) (by decide), sub_of_mem (y := main_v75) (by decide),
    sub_of_mem (y := main_v76) (by decide), sub_of_mem (y := main_c_11) (by decide), sub_of_mem (y := main_v77) (by decide),
    sub_of_mem (y := main_v78) (by decide), sub_of_mem (y := main_v79) (by decide), sub_of_mem (y := main_v80) (by decide),
    sub_of_mem (y := main_v81) (by decide), sub_of_mem (y := main_cst_12) (by decide), sub_of_mem (y := main_v82) (by decide),
    sub_of_mem (y := main_v83) (by decide), sub_of_mem (y := main_v84) (by decide), sub_of_mem (y := main_cst_13) (by decide),
    sub_of_mem (y := main_v85) (by decide), sub_of_mem (y := main_cst_14) (by decide), sub_of_mem (y := main_v86) (by decide),
    sub_of_mem (y := main_v87) (by decide), sub_of_mem (y := main_v88) (by decide), sub_of_mem (y := main_cst_15) (by decide),
    sub_of_mem (y := main_v89) (by decide), sub_of_mem (y := main_v90) (by decide), sub_of_mem (y := main_v91) (by decide),
    sub_of_mem (y := main_v92) (by decide), sub_of_mem (y := main_v93) (by decide), sub_of_mem (y := main_v94) (by decide),
    sub_of_mem (y := main_v95) (by decide), sub_of_mem (y := main_v96) (by decide), sub_of_mem (y := main_v97) (by decide),
    sub_of_mem (y := main_v98) (by decide), sub_of_mem (y := main_v99) (by decide), sub_of_mem (y := main_v100) (by decide),
    sub_of_mem (y := main_v101) (by decide), sub_of_mem (y := main_v102) (by decide), sub_of_mem (y := main_v103) (by decide),
    sub_of_mem (y := main_v104) (by decide), sub_of_mem (y := main_v105) (by decide), sub_of_mem (y := main_v106) (by decide) ⟩

/-- A reference the stretch does not write holds after it what it held before. -/
theorem L0B2_keep (V : Valuation τ sig (Elt F)) (r : Ref sig .tc) (h : r ∉ L0B2_W) :
    StableHlo.after (L0B2 (F := F)) V (Proc.devRef .tc r) = V (Proc.devRef .tc r) :=
  StableHlo.after_of_writes_sub L0B2 V L0B2_writes h

set_option maxRecDepth 8192 in
set_option maxHeartbeats 4000000 in
/-- The stretch's result, from any contents that hold the arguments and the running sum it reads. -/
theorem L0B2_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4)
    (hs : V (Proc.devRef .tc main_v70) = ReadP.val_main_v70 (F := F) x0 x1 x2 x3 x4) :
    StableHlo.after (L0B2 (F := F)) V (Proc.devRef .tc main_v106) = ReadP.val_main_v106 (F := F) x0 x1 x2 x3 x4 := by
  dsimp only [L0B2]
  after_results_simp
  simp only [h0, h1, h2, h3, h4, hs]
  rfl

end Cert.Sage.RefRun

end
-- ==== Proof.RefRunL0B3.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: one edge type's contribution (neighbours' mean through the left weights, own rows through the right weights, bias) added to the running sum. Read back once, from any contents, at the buffer
    the later stretches read. -/

variable {F : FTy → Type} [FloatOps F]

/-- The stretch's operations, in order. -/
abbrev L0B3 : List (HloOp τ sig (Elt F)) :=
  [ unary main_arg1 main_v107 ((extractStridedSlice S1x1x1000000 ![3, 0, 0] · slices_S4x2x1000000_S1x1x1000000_3_0_0) : (⟨S4x2x1000000, .i32⟩ : BufTy).Contents (Elt F) → (⟨S1x1x1000000, .i32⟩ : BufTy).Contents (Elt F)),
    reshape main_v107 main_v108 rfl shapeCasts_S1x1x1000000_S1000000,
    unary main_arg1 main_v109 ((extractStridedSlice S1x1x1000000 ![3, 1, 0] · slices_S4x2x1000000_S1x1x1000000_3_1_0) : (⟨S4x2x1000000, .i32⟩ : BufTy).Contents (Elt F) → (⟨S1x1x1000000, .i32⟩ : BufTy).Contents (Elt F)),
    reshape main_v109 main_v110 rfl shapeCasts_S1x1x1000000_S1000000,
    nullary main_c_16 (constantI S_ 32 0#32),
    unary main_c_16 main_v111 (broadcastInDim S1000000 ![] bcast_S_S1000000 : (⟨S_, .i32⟩ : BufTy).Contents (Elt F) → (⟨S1000000, .i32⟩ : BufTy).Contents (Elt F)),
    binary main_v108 main_v111 main_v112 (cmpi .slt : (⟨S1000000, .i32⟩ : BufTy).Contents (Elt F) → (⟨S1000000, .i32⟩ : BufTy).Contents (Elt F) → (⟨S1000000, .i1⟩ : BufTy).Contents (Elt F)),
    nullary main_c_17 (constantI S_ 32 100000#32),
    unary main_c_17 main_v113 (broadcastInDim S1000000 ![] bcast_S_S1000000 : (⟨S_, .i32⟩ : BufTy).Contents (Elt F) → (⟨S1000000, .i32⟩ : BufTy).Contents (Elt F)),
    binary main_v108 main_v113 main_v114 (addi : (⟨S1000000, .i32⟩ : BufTy).Contents (Elt F) → (⟨S1000000, .i32⟩ : BufTy).Contents (Elt F) → (⟨S1000000, .i32⟩ : BufTy).Contents (Elt F)),
    ternary main_v112 main_v114 main_v108 main_v115 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v115 main_v116 (broadcastInDim S1000000x1 ![0] bcast_S1000000_S1000000x1_0 : (⟨S1000000, .i32⟩ : BufTy).Contents (Elt F) → (⟨S1000000x1, .i32⟩ : BufTy).Contents (Elt F)),
    binary main_arg0 main_v116 main_v117 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    nullary main_cst_18 (constant S_ .f32 0x00000000#32),
    unary main_cst_18 main_v118 (broadcastInDim S100000x128 ![] bcast_S_S100000x128 : (⟨S_, .f32⟩ : BufTy).Contents (Elt F) → (⟨S100000x128, .f32⟩ : BufTy).Contents (Elt F)),
    unary main_v110 main_v119 (broadcastInDim S1000000x1 ![0] bcast_S1000000_S1000000x1_0 : (⟨S1000000, .i32⟩ : BufTy).Contents (Elt F) → (⟨S1000000x1, .i32⟩ : BufTy).Contents (Elt F)),
    ternary main_v118 main_v119 main_v117 main_v120 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    nullary main_cst_19 (constant S_ .f32 0x3F800000#32),
    unary main_cst_19 main_v121 (broadcastInDim S1000000 ![] bcast_S_S1000000 : (⟨S_, .f32⟩ : BufTy).Contents (Elt F) → (⟨S1000000, .f32⟩ : BufTy).Contents (Elt F)),
    nullary main_cst_20 (constant S_ .f32 0x00000000#32),
    unary main_cst_20 main_v122 (broadcastInDim S100000 ![] bcast_S_S100000 : (⟨S_, .f32⟩ : BufTy).Contents (Elt F) → (⟨S100000, .f32⟩ : BufTy).Contents (Elt F)),
    unary main_v110 main_v123 (broadcastInDim S1000000x1 ![0] bcast_S1000000_S1000000x1_0 : (⟨S1000000, .i32⟩ : BufTy).Contents (Elt F) → (⟨S1000000x1, .i32⟩ : BufTy).Contents (Elt F)),
    ternary main_v122 main_v123 main_v121 main_v124 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_21 (constant S_ .f32 0x3F800000#32),
    unary main_cst_21 main_v125 (broadcastInDim S100000 ![] bcast_S_S100000 : (⟨S_, .f32⟩ : BufTy).Contents (Elt F) → (⟨S100000, .f32⟩ : BufTy).Contents (Elt F)),
    binary main_v124 main_v125 main_v126 (maximumf : (⟨S100000, .f32⟩ : BufTy).Contents (Elt F) → (⟨S100000, .f32⟩ : BufTy).Contents (Elt F) → (⟨S100000, .f32⟩ : BufTy).Contents (Elt F)),
    unary main_v126 main_v127 (broadcastInDim S100000x1 ![0] bcast_S100000_S100000x1_0 : (⟨S100000, .f32⟩ : BufTy).Contents (Elt F) → (⟨S100000x1, .f32⟩ : BufTy).Contents (Elt F)),
    unary main_v127 main_v128 (broadcastInDim S100000x128 ![0, 1] bcast_S100000x1_S100000x128_0_1 : (⟨S100000x1, .f32⟩ : BufTy).Contents (Elt F) → (⟨S100000x128, .f32⟩ : BufTy).Contents (Elt F)),
    binary main_v120 main_v128 main_v129 (Host.divf : (⟨S100000x128, .f32⟩ : BufTy).Contents (Elt F) → (⟨S100000x128, .f32⟩ : BufTy).Contents (Elt F) → (⟨S100000x128, .f32⟩ : BufTy).Contents (Elt F)),
    unary main_arg2 main_v130 ((extractStridedSlice S1x128x256 ![3, 0, 0] · slices_S4x128x256_S1x128x256_3_0_0) : (⟨S4x128x256, .f32⟩ : BufTy).Contents (Elt F) → (⟨S1x128x256, .f32⟩ : BufTy).Contents (Elt F)),
    reshape main_v130 main_v131 rfl shapeCasts_S1x128x256_S128x256,
    binary main_v129 main_v131 main_v132 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    unary main_arg3 main_v133 ((extractStridedSlice S1x128x256 ![3, 0, 0] · slices_S4x128x256_S1x128x256_3_0_0) : (⟨S4x128x256, .f32⟩ : BufTy).Contents (Elt F) → (⟨S1x128x256, .f32⟩ : BufTy).Contents (Elt F)),
    reshape main_v133 main_v134 rfl shapeCasts_S1x128x256_S128x256,
    binary main_arg0 main_v134 main_v135 ((fun l r => Host.dotGeneral dot_S100000x128_S128x256_S100000x256_1_0_0_1_n_n none l r) : (⟨S100000x128, .f32⟩ : BufTy).Contents (Elt F) → (⟨S128x256, .f32⟩ : BufTy).Contents (Elt F) → (⟨S100000x256, .f32⟩ : BufTy).Contents (Elt F)),
    binary main_v132 main_v135 main_v136 (addf : (⟨S100000x256, .f32⟩ : BufTy).Contents (Elt F) → (⟨S100000x256, .f32⟩ : BufTy).Contents (Elt F) → (⟨S100000x256, .f32⟩ : BufTy).Contents (Elt F)),
    unary main_arg4 main_v137 ((extractStridedSlice S1x256 ![3, 0] · slices_S4x256_S1x256_3_0) : (⟨S4x256, .f32⟩ : BufTy).Contents (Elt F) → (⟨S1x256, .f32⟩ : BufTy).Contents (Elt F)),
    reshape main_v137 main_v138 rfl shapeCasts_S1x256_S256,
    unary main_v138 main_v139 (broadcastInDim S1x256 ![1] bcast_S256_S1x256_1 : (⟨S256, .f32⟩ : BufTy).Contents (Elt F) → (⟨S1x256, .f32⟩ : BufTy).Contents (Elt F)),
    unary main_v139 main_v140 (broadcastInDim S100000x256 ![0, 1] bcast_S1x256_S100000x256_0_1 : (⟨S1x256, .f32⟩ : BufTy).Contents (Elt F) → (⟨S100000x256, .f32⟩ : BufTy).Contents (Elt F)),
    binary main_v136 main_v140 main_v141 (addf : (⟨S100000x256, .f32⟩ : BufTy).Contents (Elt F) → (⟨S100000x256, .f32⟩ : BufTy).Contents (Elt F) → (⟨S100000x256, .f32⟩ : BufTy).Contents (Elt F)),
    binary main_v106 main_v141 main_v142 (addf : (⟨S100000x256, .f32⟩ : BufTy).Contents (Elt F) → (⟨S100000x256, .f32⟩ : BufTy).Contents (Elt F) → (⟨S100000x256, .f32⟩ : BufTy).Contents (Elt F)) ]

/-- The references the stretch's operations write, in order: one each. -/
abbrev L0B3_W : List (Ref sig .tc) := [
    main_v107, main_v108, main_v109, main_v110, main_c_16, main_v111, main_v112, main_c_17, main_v113, main_v114, main_v115, main_v116,
    main_v117, main_cst_18, main_v118, main_v119, main_v120, main_cst_19, main_v121, main_cst_20, main_v122, main_v123, main_v124,
    main_cst_21, main_v125, main_v126, main_v127, main_v128, main_v129, main_v130, main_v131, main_v132, main_v133, main_v134, main_v135,
    main_v136, main_v137, main_v138, main_v139, main_v140, main_v141, main_v142 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L0B3_writes : (L0B3 : List (HloOp τ sig (Elt F))).Forall fun op => op.writes ⊆ (L0B3_W.map (Proc.devRef (τ := τ) .tc)).toFinset :=
  ⟨
    sub_of_mem (y := main_v107) (by decide), sub_of_mem (y := main_v108) (by decide), sub_of_mem (y := main_v109) (by decide),
    sub_of_mem (y := main_v110) (by decide), sub_of_mem (y := main_c_16) (by decide), sub_of_mem (y := main_v111) (by decide),
    sub_of_mem (y := main_v112) (by decide), sub_of_mem (y := main_c_17) (by decide), sub_of_mem (y := main_v113) (by decide),
    sub_of_mem (y := main_v114) (by decide), sub_of_mem (y := main_v115) (by decide), sub_of_mem (y := main_v116) (by decide),
    sub_of_mem (y := main_v117) (by decide), sub_of_mem (y := main_cst_18) (by decide), sub_of_mem (y := main_v118) (by decide),
    sub_of_mem (y := main_v119) (by decide), sub_of_mem (y := main_v120) (by decide), sub_of_mem (y := main_cst_19) (by decide),
    sub_of_mem (y := main_v121) (by decide), sub_of_mem (y := main_cst_20) (by decide), sub_of_mem (y := main_v122) (by decide),
    sub_of_mem (y := main_v123) (by decide), sub_of_mem (y := main_v124) (by decide), sub_of_mem (y := main_cst_21) (by decide),
    sub_of_mem (y := main_v125) (by decide), sub_of_mem (y := main_v126) (by decide), sub_of_mem (y := main_v127) (by decide),
    sub_of_mem (y := main_v128) (by decide), sub_of_mem (y := main_v129) (by decide), sub_of_mem (y := main_v130) (by decide),
    sub_of_mem (y := main_v131) (by decide), sub_of_mem (y := main_v132) (by decide), sub_of_mem (y := main_v133) (by decide),
    sub_of_mem (y := main_v134) (by decide), sub_of_mem (y := main_v135) (by decide), sub_of_mem (y := main_v136) (by decide),
    sub_of_mem (y := main_v137) (by decide), sub_of_mem (y := main_v138) (by decide), sub_of_mem (y := main_v139) (by decide),
    sub_of_mem (y := main_v140) (by decide), sub_of_mem (y := main_v141) (by decide), sub_of_mem (y := main_v142) (by decide) ⟩

/-- A reference the stretch does not write holds after it what it held before. -/
theorem L0B3_keep (V : Valuation τ sig (Elt F)) (r : Ref sig .tc) (h : r ∉ L0B3_W) :
    StableHlo.after (L0B3 (F := F)) V (Proc.devRef .tc r) = V (Proc.devRef .tc r) :=
  StableHlo.after_of_writes_sub L0B3 V L0B3_writes h

set_option maxRecDepth 8192 in
set_option maxHeartbeats 4000000 in
/-- The stretch's result, from any contents that hold the arguments and the running sum it reads. -/
theorem L0B3_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F))
    (h0 : V (Proc.devRef .tc main_arg0) = x0)
    (h1 : V (Proc.devRef .tc main_arg1) = x1)
    (h2 : V (Proc.devRef .tc main_arg2) = x2)
    (h3 : V (Proc.devRef .tc main_arg3) = x3)
    (h4 : V (Proc.devRef .tc main_arg4) = x4)
    (hs : V (Proc.devRef .tc main_v106) = ReadP.val_main_v106 (F := F) x0 x1 x2 x3 x4) :
    StableHlo.after (L0B3 (F := F)) V (Proc.devRef .tc main_v142) = ReadP.val_main_v142 (F := F) x0 x1 x2 x3 x4 := by
  dsimp only [L0B3]
  after_results_simp
  simp only [h0, h1, h2, h3, h4, hs]
  rfl

end Cert.Sage.RefRun

end
-- ==== Proof.RefRunL0Tail.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: the sum of the four edge types' contributions divided by four and cut at zero. Read back once, from any contents, at the buffer
    the later stretches read. -/

variable {F : FTy → Type} [FloatOps F]

/-- The stretch's operations, in order. -/
abbrev L0Tail : List (HloOp τ sig (Elt F)) :=
  [ nullary main_cst_22 (constant S_ .f32 0x40800000#32),
    unary main_cst_22 main_v143 (broadcastInDim S100000x256 ![] bcast_S_S100000x256 : (⟨S_, .f32⟩ : BufTy).Contents (Elt F) → (⟨S100000x256, .f32⟩ : BufTy).Contents (Elt F)),
    binary main_v142 main_v143 main_v144 (Host.divf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v144) (TRef.of (T := ⟨S100000x256, .f32⟩) main_call0_v0) (TRef.of (T := ⟨S100000x256, .f32⟩) main_v145) maximumf ]

/-- The references the stretch's operations write, in order: one each. -/
abbrev L0Tail_W : List (Ref sig .tc) := [
    main_cst_22, main_v143, main_v144, main_call0_cst, main_call0_v0, main_v145 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L0Tail_writes : (L0Tail : List (HloOp τ sig (Elt F))).Forall fun op => op.writes ⊆ (L0Tail_W.map (Proc.devRef (τ := τ) .tc)).toFinset :=
  ⟨
    sub_of_mem (y := main_cst_22) (by decide), sub_of_mem (y := main_v143) (by decide), sub_of_mem (y := main_v144) (by decide),
    sub_of_mem (y := main_call0_cst) (by decide), sub_of_mem (y := main_call0_v0) (by decide), sub_of_mem (y := main_v145) (by decide) ⟩

/-- A reference the stretch does not write holds after it what it held before. -/
theorem L0Tail_keep (V : Valuation τ sig (Elt F)) (r : Ref sig .tc) (h : r ∉ L0Tail_W) :
    StableHlo.after (L0Tail (F := F)) V (Proc.devRef .tc r) = V (Proc.devRef .tc r) :=
  StableHlo.after_of_writes_sub L0Tail V L0Tail_writes h

set_option maxRecDepth 8192 in
set_option maxHeartbeats 4000000 in
/-- The stretch's result, from any contents that hold the arguments and the running sum it reads. -/
theorem L0Tail_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F))
    (hs : V (Proc.devRef .tc main_v142) = ReadP.val_main_v142 (F := F) x0 x1 x2 x3 x4) :
    StableHlo.after (L0Tail (F := F)) V (Proc.devRef .tc main_v145) = ReadP.val_main_v145 (F := F) x0 x1 x2 x3 x4 := by
  dsimp only [L0Tail]
  after_results_simp
  simp only [hs]
  rfl

end Cert.Sage.RefRun

end
-- ==== Proof.RefRunL1B0.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: one edge type's contribution (neighbours' mean through the left weights, own rows through the right weights, bias). Read back once, from any contents, at the buffer
    the later stretches read. -/

variable {F : FTy → Type} [FloatOps F]

/-- The stretch's operations, in order. -/
abbrev L1B0 : List (HloOp τ sig (Elt F)) :=
  [ unary main_arg1 main_v146 ((extractStridedSlice S1x1x1000000 ![0, 0, 0] · slices_S4x2x1000000_S1x1x1000000_0_0_0) : (⟨S4x2x1000000, .i32⟩ : BufTy).Contents (Elt F) → (⟨S1x1x1000000, .i32⟩ : BufTy).Contents (Elt F)),
    reshape main_v146 main_v147 rfl shapeCasts_S1x1x1000000_S1000000,
    unary main_arg1 main_v148 ((extractStridedSlice S1x1x1000000 ![0, 1, 0] · slices_S4x2x1000000_S1x1x1000000_0_1_0) : (⟨S4x2x1000000, .i32⟩ : BufTy).Contents (Elt F) → (⟨S1x1x1000000, .i32⟩ : BufTy).Contents (Elt F)),
    reshape main_v148 main_v149 rfl shapeCasts_S1x1x1000000_S1000000,
    nullary main_c_23 (constantI S_ 32 0#32),
    unary main_c_23 main_v150 (broadcastInDim S1000000 ![] bcast_S_S1000000 : (⟨S_, .i32⟩ : BufTy).Contents (Elt F) → (⟨S1000000, .i32⟩ : BufTy).Contents (Elt F)),
    binary main_v147 main_v150 main_v151 (cmpi .slt : (⟨S1000000, .i32⟩ : BufTy).Contents (Elt F) → (⟨S1000000, .i32⟩ : BufTy).Contents (Elt F) → (⟨S1000000, .i1⟩ : BufTy).Contents (Elt F)),
    nullary main_c_24 (constantI S_ 32 100000#32),
    unary main_c_24 main_v152 (broadcastInDim S1000000 ![] bcast_S_S1000000 : (⟨S_, .i32⟩ : BufTy).Contents (Elt F) → (⟨S1000000, .i32⟩ : BufTy).Contents (Elt F)),
    binary main_v147 main_v152 main_v153 (addi : (⟨S1000000, .i32⟩ : BufTy).Contents (Elt F) → (⟨S1000000, .i32⟩ : BufTy).Contents (Elt F) → (⟨S1000000, .i32⟩ : BufTy).Contents (Elt F)),
    ternary main_v151 main_v153 main_v147 main_v154 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v154 main_v155 (broadcastInDim S1000000x1 ![0] bcast_S1000000_S1000000x1_0 : (⟨S1000000, .i32⟩ : BufTy).Contents (Elt F) → (⟨S1000000x1, .i32⟩ : BufTy).Contents (Elt F)),
    binary main_v145 main_v155 main_v156 ((fun x i => Host.gather gather_S100000x256_S1000000x1_S1000000x256_1_0_n_n_0_1_1256 x i) : (⟨S100000x256, .f32⟩ : BufTy).Contents (Elt F) → (⟨S1000000x1, .i32⟩ : BufTy).Contents (Elt F) → (⟨S1000000x256, .f32⟩ : BufTy).Contents (Elt F)),
    nullary main_cst_25 (constant S_ .f32 0x00000000#32),
    unary main_cst_25 main_v157 (broadcastInDim S100000x256 ![] bcast_S_S100000x256 : (⟨S_, .f32⟩ : BufTy).Contents (Elt F) → (⟨S100000x256, .f32⟩ : BufTy).Contents (Elt F)),
    unary main_v149 main_v158 (broadcastInDim S1000000x1 ![0] bcast_S1000000_S1000000x1_0 : (⟨S1000000, .i32⟩ : BufTy).Contents (Elt F) → (⟨S1000000x1, .i32⟩ : BufTy).Contents (Elt F)),
    ternary main_v157 main_v158 main_v156 main_v159 ((fun x i u => Host.scatterAdd scatter_S100000x256_S1000000x1_S1000000x256_1_0_0_1 x i u) : (⟨S100000x256, .f32⟩ : BufTy).Contents (Elt F) → (⟨S1000000x1, .i32⟩ : BufTy).Contents (Elt F) → (⟨S1000000x256, .f32⟩ : BufTy).Contents (Elt F) → (⟨S100000x256, .f32⟩ : BufTy).Contents (Elt F)),
    nullary main_cst_26 (constant S_ .f32 0x3F800000#32),
    unary main_cst_26 main_v160 (broadcastInDim S1000000 ![] bcast_S_S1000000 : (⟨S_, .f32⟩ : BufTy).Contents (Elt F) → (⟨S1000000, .f32⟩ : BufTy).Contents (Elt F)),
    nullary main_cst_27 (constant S_ .f32 0x00000000#32),
    unary main_cst_27 main_v161 (broadcastInDim S100000 ![] bcast_S_S100000 : (⟨S_, .f32⟩ : BufTy).Contents (Elt F) → (⟨S100000, .f32⟩ : BufTy).Contents (Elt F)),
    unary main_v149 main_v162 (broadcastInDim S1000000x1 ![0] bcast_S1000000_S1000000x1_0 : (⟨S1000000, .i32⟩ : BufTy).Contents (Elt F) → (⟨S1000000x1, .i32⟩ : BufTy).Contents (Elt F)),
    ternary main_v161 main_v162 main_v160 main_v163 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_28 (constant S_ .f32 0x3F800000#32),
    unary main_cst_28 main_v164 (broadcastInDim S100000 ![] bcast_S_S100000 : (⟨S_, .f32⟩ : BufTy).Contents (Elt F) → (⟨S100000, .f32⟩ : BufTy).Contents (Elt F)),
    binary main_v163 main_v164 main_v165 (maximumf : (⟨S100000, .f32⟩ : BufTy).Contents (Elt F) → (⟨S100000, .f32⟩ : BufTy).Contents (Elt F) → (⟨S100000, .f32⟩ : BufTy).Contents (Elt F)),
    unary main_v165 main_v166 (broadcastInDim S100000x1 ![0] bcast_S100000_S100000x1_0 : (⟨S100000, .f32⟩ : BufTy).Contents (Elt F) → (⟨S100000x1, .f32⟩ : BufTy).Contents (Elt F)),
    unary main_v166 main_v167 (broadcastInDim S100000x256 ![0, 1] bcast_S100000x1_S100000x256_0_1 : (⟨S100000x1, .f32⟩ : BufTy).Contents (Elt F) → (⟨S100000x256, .f32⟩ : BufTy).Contents (Elt F)),
    binary main_v159 main_v167 main_v168 (Host.divf : (⟨S100000x256, .f32⟩ : BufTy).Contents (Elt F) → (⟨S100000x256, .f32⟩ : BufTy).Contents (Elt F) → (⟨S100000x256, .f32⟩ : BufTy).Contents (Elt F)),
    unary main_arg5 main_v169 ((extractStridedSlice S1x256x128 ![0, 0, 0] · slices_S4x256x128_S1x256x128_0_0_0) : (⟨S4x256x128, .f32⟩ : BufTy).Contents (Elt F) → (⟨S1x256x128, .f32⟩ : BufTy).Contents (Elt F)),
    reshape main_v169 main_v170 rfl shapeCasts_S1x256x128_S256x128,
    binary main_v168 main_v170 main_v171 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v172 ((extractStridedSlice S1x256x128 ![0, 0, 0] · slices_S4x256x128_S1x256x128_0_0_0) : (⟨S4x256x128, .f32⟩ : BufTy).Contents (Elt F) → (⟨S1x256x128, .f32⟩ : BufTy).Contents (Elt F)),
    reshape main_v172 main_v173 rfl shapeCasts_S1x256x128_S256x128,
    binary main_v145 main_v173 main_v174 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    binary main_v171 main_v174 main_v175 (addf : (⟨S100000x128, .f32⟩ : BufTy).Contents (Elt F) → (⟨S100000x128, .f32⟩ : BufTy).Contents (Elt F) → (⟨S100000x128, .f32⟩ : BufTy).Contents (Elt F)),
    unary main_arg7 main_v176 ((extractStridedSlice S1x128 ![0, 0] · slices_S4x128_S1x128_0_0) : (⟨S4x128, .f32⟩ : BufTy).Contents (Elt F) → (⟨S1x128, .f32⟩ : BufTy).Contents (Elt F)),
    reshape main_v176 main_v177 rfl shapeCasts_S1x128_S128,
    unary main_v177 main_v178 (broadcastInDim S1x128 ![1] bcast_S128_S1x128_1 : (⟨S128, .f32⟩ : BufTy).Contents (Elt F) → (⟨S1x128, .f32⟩ : BufTy).Contents (Elt F)),
    unary main_v178 main_v179 (broadcastInDim S100000x128 ![0, 1] bcast_S1x128_S100000x128_0_1 : (⟨S1x128, .f32⟩ : BufTy).Contents (Elt F) → (⟨S100000x128, .f32⟩ : BufTy).Contents (Elt F)),
    binary main_v175 main_v179 main_v180 (addf : (⟨S100000x128, .f32⟩ : BufTy).Contents (Elt F) → (⟨S100000x128, .f32⟩ : BufTy).Contents (Elt F) → (⟨S100000x128, .f32⟩ : BufTy).Contents (Elt F)) ]

/-- The references the stretch's operations write, in order: one each. -/
abbrev L1B0_W : List (Ref sig .tc) := [
    main_v146, main_v147, main_v148, main_v149, main_c_23, main_v150, main_v151, main_c_24, main_v152, main_v153, main_v154, main_v155,
    main_v156, main_cst_25, main_v157, main_v158, main_v159, main_cst_26, main_v160, main_cst_27, main_v161, main_v162, main_v163,
    main_cst_28, main_v164, main_v165, main_v166, main_v167, main_v168, main_v169, main_v170, main_v171, main_v172, main_v173, main_v174,
    main_v175, main_v176, main_v177, main_v178, main_v179, main_v180 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L1B0_writes : (L1B0 : List (HloOp τ sig (Elt F))).Forall fun op => op.writes ⊆ (L1B0_W.map (Proc.devRef (τ := τ) .tc)).toFinset :=
  ⟨
    sub_of_mem (y := main_v146) (by decide), sub_of_mem (y := main_v147) (by decide), sub_of_mem (y := main_v148) (by decide),
    sub_of_mem (y := main_v149) (by decide), sub_of_mem (y := main_c_23) (by decide), sub_of_mem (y := main_v150) (by decide),
    sub_of_mem (y := main_v151) (by decide), sub_of_mem (y := main_c_24) (by decide), sub_of_mem (y := main_v152) (by decide),
    sub_of_mem (y := main_v153) (by decide), sub_of_mem (y := main_v154) (by decide), sub_of_mem (y := main_v155) (by decide),
    sub_of_mem (y := main_v156) (by decide), sub_of_mem (y := main_cst_25) (by decide), sub_of_mem (y := main_v157) (by decide),
    sub_of_mem (y := main_v158) (by decide), sub_of_mem (y := main_v159) (by decide), sub_of_mem (y := main_cst_26) (by decide),
    sub_of_mem (y := main_v160) (by decide), sub_of_mem (y := main_cst_27) (by decide), sub_of_mem (y := main_v161) (by decide),
    sub_of_mem (y := main_v162) (by decide), sub_of_mem (y := main_v163) (by decide), sub_of_mem (y := main_cst_28) (by decide),
    sub_of_mem (y := main_v164) (by decide), sub_of_mem (y := main_v165) (by decide), sub_of_mem (y := main_v166) (by decide),
    sub_of_mem (y := main_v167) (by decide), sub_of_mem (y := main_v168) (by decide), sub_of_mem (y := main_v169) (by decide),
    sub_of_mem (y := main_v170) (by decide), sub_of_mem (y := main_v171) (by decide), sub_of_mem (y := main_v172) (by decide),
    sub_of_mem (y := main_v173) (by decide), sub_of_mem (y := main_v174) (by decide), sub_of_mem (y := main_v175) (by decide),
    sub_of_mem (y := main_v176) (by decide), sub_of_mem (y := main_v177) (by decide), sub_of_mem (y := main_v178) (by decide),
    sub_of_mem (y := main_v179) (by decide), sub_of_mem (y := main_v180) (by decide) ⟩

/-- A reference the stretch does not write holds after it what it held before. -/
theorem L1B0_keep (V : Valuation τ sig (Elt F)) (r : Ref sig .tc) (h : r ∉ L1B0_W) :
    StableHlo.after (L1B0 (F := F)) V (Proc.devRef .tc r) = V (Proc.devRef .tc r) :=
  StableHlo.after_of_writes_sub L1B0 V L1B0_writes h

set_option maxRecDepth 8192 in
set_option maxHeartbeats 4000000 in
/-- The stretch's result, from any contents that hold the arguments, the first layer's output it reads. -/
theorem L1B0_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F)) (x5 : (⟨S4x256x128, .f32⟩ : BufTy).Contents (Elt F)) (x6 : (⟨S4x256x128, .f32⟩ : BufTy).Contents (Elt F)) (x7 : (⟨S4x128, .f32⟩ : BufTy).Contents (Elt F))
    (h1 : V (Proc.devRef .tc main_arg1) = x1)
    (h5 : V (Proc.devRef .tc main_arg5) = x5)
    (h6 : V (Proc.devRef .tc main_arg6) = x6)
    (h7 : V (Proc.devRef .tc main_arg7) = x7)
    (hx : V (Proc.devRef .tc main_v145) = ReadP.val_main_v145 (F := F) x0 x1 x2 x3 x4) :
    StableHlo.after (L1B0 (F := F)) V (Proc.devRef .tc main_v180) = ReadP.val_main_v180 (F := F) x0 x1 x2 x3 x4 x5 x6 x7 := by
  dsimp only [L1B0]
  after_results_simp
  simp only [h1, h5, h6, h7, hx]
  rfl

end Cert.Sage.RefRun

end
-- ==== Proof.RefRunL1B1.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: one edge type's contribution (neighbours' mean through the left weights, own rows through the right weights, bias) added to the running sum. Read back once, from any contents, at the buffer
    the later stretches read. -/

variable {F : FTy → Type} [FloatOps F]

/-- The stretch's operations, in order. -/
abbrev L1B1 : List (HloOp τ sig (Elt F)) :=
  [ unary main_arg1 main_v181 ((extractStridedSlice S1x1x1000000 ![1, 0, 0] · slices_S4x2x1000000_S1x1x1000000_1_0_0) : (⟨S4x2x1000000, .i32⟩ : BufTy).Contents (Elt F) → (⟨S1x1x1000000, .i32⟩ : BufTy).Contents (Elt F)),
    reshape main_v181 main_v182 rfl shapeCasts_S1x1x1000000_S1000000,
    unary main_arg1 main_v183 ((extractStridedSlice S1x1x1000000 ![1, 1, 0] · slices_S4x2x1000000_S1x1x1000000_1_1_0) : (⟨S4x2x1000000, .i32⟩ : BufTy).Contents (Elt F) → (⟨S1x1x1000000, .i32⟩ : BufTy).Contents (Elt F)),
    reshape main_v183 main_v184 rfl shapeCasts_S1x1x1000000_S1000000,
    nullary main_c_29 (constantI S_ 32 0#32),
    unary main_c_29 main_v185 (broadcastInDim S1000000 ![] bcast_S_S1000000 : (⟨S_, .i32⟩ : BufTy).Contents (Elt F) → (⟨S1000000, .i32⟩ : BufTy).Contents (Elt F)),
    binary main_v182 main_v185 main_v186 (cmpi .slt : (⟨S1000000, .i32⟩ : BufTy).Contents (Elt F) → (⟨S1000000, .i32⟩ : BufTy).Contents (Elt F) → (⟨S1000000, .i1⟩ : BufTy).Contents (Elt F)),
    nullary main_c_30 (constantI S_ 32 100000#32),
    unary main_c_30 main_v187 (broadcastInDim S1000000 ![] bcast_S_S1000000 : (⟨S_, .i32⟩ : BufTy).Contents (Elt F) → (⟨S1000000, .i32⟩ : BufTy).Contents (Elt F)),
    binary main_v182 main_v187 main_v188 (addi : (⟨S1000000, .i32⟩ : BufTy).Contents (Elt F) → (⟨S1000000, .i32⟩ : BufTy).Contents (Elt F) → (⟨S1000000, .i32⟩ : BufTy).Contents (Elt F)),
    ternary main_v186 main_v188 main_v182 main_v189 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v189 main_v190 (broadcastInDim S1000000x1 ![0] bcast_S1000000_S1000000x1_0 : (⟨S1000000, .i32⟩ : BufTy).Contents (Elt F) → (⟨S1000000x1, .i32⟩ : BufTy).Contents (Elt F)),
    binary main_v145 main_v190 main_v191 ((fun x i => Host.gather gather_S100000x256_S1000000x1_S1000000x256_1_0_n_n_0_1_1256 x i) : (⟨S100000x256, .f32⟩ : BufTy).Contents (Elt F) → (⟨S1000000x1, .i32⟩ : BufTy).Contents (Elt F) → (⟨S1000000x256, .f32⟩ : BufTy).Contents (Elt F)),
    nullary main_cst_31 (constant S_ .f32 0x00000000#32),
    unary main_cst_31 main_v192 (broadcastInDim S100000x256 ![] bcast_S_S100000x256 : (⟨S_, .f32⟩ : BufTy).Contents (Elt F) → (⟨S100000x256, .f32⟩ : BufTy).Contents (Elt F)),
    unary main_v184 main_v193 (broadcastInDim S1000000x1 ![0] bcast_S1000000_S1000000x1_0 : (⟨S1000000, .i32⟩ : BufTy).Contents (Elt F) → (⟨S1000000x1, .i32⟩ : BufTy).Contents (Elt F)),
    ternary main_v192 main_v193 main_v191 main_v194 ((fun x i u => Host.scatterAdd scatter_S100000x256_S1000000x1_S1000000x256_1_0_0_1 x i u) : (⟨S100000x256, .f32⟩ : BufTy).Contents (Elt F) → (⟨S1000000x1, .i32⟩ : BufTy).Contents (Elt F) → (⟨S1000000x256, .f32⟩ : BufTy).Contents (Elt F) → (⟨S100000x256, .f32⟩ : BufTy).Contents (Elt F)),
    nullary main_cst_32 (constant S_ .f32 0x3F800000#32),
    unary main_cst_32 main_v195 (broadcastInDim S1000000 ![] bcast_S_S1000000 : (⟨S_, .f32⟩ : BufTy).Contents (Elt F) → (⟨S1000000, .f32⟩ : BufTy).Contents (Elt F)),
    nullary main_cst_33 (constant S_ .f32 0x00000000#32),
    unary main_cst_33 main_v196 (broadcastInDim S100000 ![] bcast_S_S100000 : (⟨S_, .f32⟩ : BufTy).Contents (Elt F) → (⟨S100000, .f32⟩ : BufTy).Contents (Elt F)),
    unary main_v184 main_v197 (broadcastInDim S1000000x1 ![0] bcast_S1000000_S1000000x1_0 : (⟨S1000000, .i32⟩ : BufTy).Contents (Elt F) → (⟨S1000000x1, .i32⟩ : BufTy).Contents (Elt F)),
    ternary main_v196 main_v197 main_v195 main_v198 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_34 (constant S_ .f32 0x3F800000#32),
    unary main_cst_34 main_v199 (broadcastInDim S100000 ![] bcast_S_S100000 : (⟨S_, .f32⟩ : BufTy).Contents (Elt F) → (⟨S100000, .f32⟩ : BufTy).Contents (Elt F)),
    binary main_v198 main_v199 main_v200 (maximumf : (⟨S100000, .f32⟩ : BufTy).Contents (Elt F) → (⟨S100000, .f32⟩ : BufTy).Contents (Elt F) → (⟨S100000, .f32⟩ : BufTy).Contents (Elt F)),
    unary main_v200 main_v201 (broadcastInDim S100000x1 ![0] bcast_S100000_S100000x1_0 : (⟨S100000, .f32⟩ : BufTy).Contents (Elt F) → (⟨S100000x1, .f32⟩ : BufTy).Contents (Elt F)),
    unary main_v201 main_v202 (broadcastInDim S100000x256 ![0, 1] bcast_S100000x1_S100000x256_0_1 : (⟨S100000x1, .f32⟩ : BufTy).Contents (Elt F) → (⟨S100000x256, .f32⟩ : BufTy).Contents (Elt F)),
    binary main_v194 main_v202 main_v203 (Host.divf : (⟨S100000x256, .f32⟩ : BufTy).Contents (Elt F) → (⟨S100000x256, .f32⟩ : BufTy).Contents (Elt F) → (⟨S100000x256, .f32⟩ : BufTy).Contents (Elt F)),
    unary main_arg5 main_v204 ((extractStridedSlice S1x256x128 ![1, 0, 0] · slices_S4x256x128_S1x256x128_1_0_0) : (⟨S4x256x128, .f32⟩ : BufTy).Contents (Elt F) → (⟨S1x256x128, .f32⟩ : BufTy).Contents (Elt F)),
    reshape main_v204 main_v205 rfl shapeCasts_S1x256x128_S256x128,
    binary main_v203 main_v205 main_v206 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v207 ((extractStridedSlice S1x256x128 ![1, 0, 0] · slices_S4x256x128_S1x256x128_1_0_0) : (⟨S4x256x128, .f32⟩ : BufTy).Contents (Elt F) → (⟨S1x256x128, .f32⟩ : BufTy).Contents (Elt F)),
    reshape main_v207 main_v208 rfl shapeCasts_S1x256x128_S256x128,
    binary main_v145 main_v208 main_v209 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    binary main_v206 main_v209 main_v210 (addf : (⟨S100000x128, .f32⟩ : BufTy).Contents (Elt F) → (⟨S100000x128, .f32⟩ : BufTy).Contents (Elt F) → (⟨S100000x128, .f32⟩ : BufTy).Contents (Elt F)),
    unary main_arg7 main_v211 ((extractStridedSlice S1x128 ![1, 0] · slices_S4x128_S1x128_1_0) : (⟨S4x128, .f32⟩ : BufTy).Contents (Elt F) → (⟨S1x128, .f32⟩ : BufTy).Contents (Elt F)),
    reshape main_v211 main_v212 rfl shapeCasts_S1x128_S128,
    unary main_v212 main_v213 (broadcastInDim S1x128 ![1] bcast_S128_S1x128_1 : (⟨S128, .f32⟩ : BufTy).Contents (Elt F) → (⟨S1x128, .f32⟩ : BufTy).Contents (Elt F)),
    unary main_v213 main_v214 (broadcastInDim S100000x128 ![0, 1] bcast_S1x128_S100000x128_0_1 : (⟨S1x128, .f32⟩ : BufTy).Contents (Elt F) → (⟨S100000x128, .f32⟩ : BufTy).Contents (Elt F)),
    binary main_v210 main_v214 main_v215 (addf : (⟨S100000x128, .f32⟩ : BufTy).Contents (Elt F) → (⟨S100000x128, .f32⟩ : BufTy).Contents (Elt F) → (⟨S100000x128, .f32⟩ : BufTy).Contents (Elt F)),
    binary main_v180 main_v215 main_v216 (addf : (⟨S100000x128, .f32⟩ : BufTy).Contents (Elt F) → (⟨S100000x128, .f32⟩ : BufTy).Contents (Elt F) → (⟨S100000x128, .f32⟩ : BufTy).Contents (Elt F)) ]

/-- The references the stretch's operations write, in order: one each. -/
abbrev L1B1_W : List (Ref sig .tc) := [
    main_v181, main_v182, main_v183, main_v184, main_c_29, main_v185, main_v186, main_c_30, main_v187, main_v188, main_v189, main_v190,
    main_v191, main_cst_31, main_v192, main_v193, main_v194, main_cst_32, main_v195, main_cst_33, main_v196, main_v197, main_v198,
    main_cst_34, main_v199, main_v200, main_v201, main_v202, main_v203, main_v204, main_v205, main_v206, main_v207, main_v208, main_v209,
    main_v210, main_v211, main_v212, main_v213, main_v214, main_v215, main_v216 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L1B1_writes : (L1B1 : List (HloOp τ sig (Elt F))).Forall fun op => op.writes ⊆ (L1B1_W.map (Proc.devRef (τ := τ) .tc)).toFinset :=
  ⟨
    sub_of_mem (y := main_v181) (by decide), sub_of_mem (y := main_v182) (by decide), sub_of_mem (y := main_v183) (by decide),
    sub_of_mem (y := main_v184) (by decide), sub_of_mem (y := main_c_29) (by decide), sub_of_mem (y := main_v185) (by decide),
    sub_of_mem (y := main_v186) (by decide), sub_of_mem (y := main_c_30) (by decide), sub_of_mem (y := main_v187) (by decide),
    sub_of_mem (y := main_v188) (by decide), sub_of_mem (y := main_v189) (by decide), sub_of_mem (y := main_v190) (by decide),
    sub_of_mem (y := main_v191) (by decide), sub_of_mem (y := main_cst_31) (by decide), sub_of_mem (y := main_v192) (by decide),
    sub_of_mem (y := main_v193) (by decide), sub_of_mem (y := main_v194) (by decide), sub_of_mem (y := main_cst_32) (by decide),
    sub_of_mem (y := main_v195) (by decide), sub_of_mem (y := main_cst_33) (by decide), sub_of_mem (y := main_v196) (by decide),
    sub_of_mem (y := main_v197) (by decide), sub_of_mem (y := main_v198) (by decide), sub_of_mem (y := main_cst_34) (by decide),
    sub_of_mem (y := main_v199) (by decide), sub_of_mem (y := main_v200) (by decide), sub_of_mem (y := main_v201) (by decide),
    sub_of_mem (y := main_v202) (by decide), sub_of_mem (y := main_v203) (by decide), sub_of_mem (y := main_v204) (by decide),
    sub_of_mem (y := main_v205) (by decide), sub_of_mem (y := main_v206) (by decide), sub_of_mem (y := main_v207) (by decide),
    sub_of_mem (y := main_v208) (by decide), sub_of_mem (y := main_v209) (by decide), sub_of_mem (y := main_v210) (by decide),
    sub_of_mem (y := main_v211) (by decide), sub_of_mem (y := main_v212) (by decide), sub_of_mem (y := main_v213) (by decide),
    sub_of_mem (y := main_v214) (by decide), sub_of_mem (y := main_v215) (by decide), sub_of_mem (y := main_v216) (by decide) ⟩

/-- A reference the stretch does not write holds after it what it held before. -/
theorem L1B1_keep (V : Valuation τ sig (Elt F)) (r : Ref sig .tc) (h : r ∉ L1B1_W) :
    StableHlo.after (L1B1 (F := F)) V (Proc.devRef .tc r) = V (Proc.devRef .tc r) :=
  StableHlo.after_of_writes_sub L1B1 V L1B1_writes h

set_option maxRecDepth 8192 in
set_option maxHeartbeats 4000000 in
/-- The stretch's result, from any contents that hold the arguments, the first layer's output and the running sum it reads. -/
theorem L1B1_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F)) (x5 : (⟨S4x256x128, .f32⟩ : BufTy).Contents (Elt F)) (x6 : (⟨S4x256x128, .f32⟩ : BufTy).Contents (Elt F)) (x7 : (⟨S4x128, .f32⟩ : BufTy).Contents (Elt F))
    (h1 : V (Proc.devRef .tc main_arg1) = x1)
    (h5 : V (Proc.devRef .tc main_arg5) = x5)
    (h6 : V (Proc.devRef .tc main_arg6) = x6)
    (h7 : V (Proc.devRef .tc main_arg7) = x7)
    (hx : V (Proc.devRef .tc main_v145) = ReadP.val_main_v145 (F := F) x0 x1 x2 x3 x4)
    (hs : V (Proc.devRef .tc main_v180) = ReadP.val_main_v180 (F := F) x0 x1 x2 x3 x4 x5 x6 x7) :
    StableHlo.after (L1B1 (F := F)) V (Proc.devRef .tc main_v216) = ReadP.val_main_v216 (F := F) x0 x1 x2 x3 x4 x5 x6 x7 := by
  dsimp only [L1B1]
  after_results_simp
  simp only [h1, h5, h6, h7, hx, hs]
  rfl

end Cert.Sage.RefRun

end
-- ==== Proof.RefRunL1B2.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: one edge type's contribution (neighbours' mean through the left weights, own rows through the right weights, bias) added to the running sum. Read back once, from any contents, at the buffer
    the later stretches read. -/

variable {F : FTy → Type} [FloatOps F]

/-- The stretch's operations, in order. -/
abbrev L1B2 : List (HloOp τ sig (Elt F)) :=
  [ unary main_arg1 main_v217 ((extractStridedSlice S1x1x1000000 ![2, 0, 0] · slices_S4x2x1000000_S1x1x1000000_2_0_0) : (⟨S4x2x1000000, .i32⟩ : BufTy).Contents (Elt F) → (⟨S1x1x1000000, .i32⟩ : BufTy).Contents (Elt F)),
    reshape main_v217 main_v218 rfl shapeCasts_S1x1x1000000_S1000000,
    unary main_arg1 main_v219 ((extractStridedSlice S1x1x1000000 ![2, 1, 0] · slices_S4x2x1000000_S1x1x1000000_2_1_0) : (⟨S4x2x1000000, .i32⟩ : BufTy).Contents (Elt F) → (⟨S1x1x1000000, .i32⟩ : BufTy).Contents (Elt F)),
    reshape main_v219 main_v220 rfl shapeCasts_S1x1x1000000_S1000000,
    nullary main_c_35 (constantI S_ 32 0#32),
    unary main_c_35 main_v221 (broadcastInDim S1000000 ![] bcast_S_S1000000 : (⟨S_, .i32⟩ : BufTy).Contents (Elt F) → (⟨S1000000, .i32⟩ : BufTy).Contents (Elt F)),
    binary main_v218 main_v221 main_v222 (cmpi .slt : (⟨S1000000, .i32⟩ : BufTy).Contents (Elt F) → (⟨S1000000, .i32⟩ : BufTy).Contents (Elt F) → (⟨S1000000, .i1⟩ : BufTy).Contents (Elt F)),
    nullary main_c_36 (constantI S_ 32 100000#32),
    unary main_c_36 main_v223 (broadcastInDim S1000000 ![] bcast_S_S1000000 : (⟨S_, .i32⟩ : BufTy).Contents (Elt F) → (⟨S1000000, .i32⟩ : BufTy).Contents (Elt F)),
    binary main_v218 main_v223 main_v224 (addi : (⟨S1000000, .i32⟩ : BufTy).Contents (Elt F) → (⟨S1000000, .i32⟩ : BufTy).Contents (Elt F) → (⟨S1000000, .i32⟩ : BufTy).Contents (Elt F)),
    ternary main_v222 main_v224 main_v218 main_v225 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v225 main_v226 (broadcastInDim S1000000x1 ![0] bcast_S1000000_S1000000x1_0 : (⟨S1000000, .i32⟩ : BufTy).Contents (Elt F) → (⟨S1000000x1, .i32⟩ : BufTy).Contents (Elt F)),
    binary main_v145 main_v226 main_v227 ((fun x i => Host.gather gather_S100000x256_S1000000x1_S1000000x256_1_0_n_n_0_1_1256 x i) : (⟨S100000x256, .f32⟩ : BufTy).Contents (Elt F) → (⟨S1000000x1, .i32⟩ : BufTy).Contents (Elt F) → (⟨S1000000x256, .f32⟩ : BufTy).Contents (Elt F)),
    nullary main_cst_37 (constant S_ .f32 0x00000000#32),
    unary main_cst_37 main_v228 (broadcastInDim S100000x256 ![] bcast_S_S100000x256 : (⟨S_, .f32⟩ : BufTy).Contents (Elt F) → (⟨S100000x256, .f32⟩ : BufTy).Contents (Elt F)),
    unary main_v220 main_v229 (broadcastInDim S1000000x1 ![0] bcast_S1000000_S1000000x1_0 : (⟨S1000000, .i32⟩ : BufTy).Contents (Elt F) → (⟨S1000000x1, .i32⟩ : BufTy).Contents (Elt F)),
    ternary main_v228 main_v229 main_v227 main_v230 ((fun x i u => Host.scatterAdd scatter_S100000x256_S1000000x1_S1000000x256_1_0_0_1 x i u) : (⟨S100000x256, .f32⟩ : BufTy).Contents (Elt F) → (⟨S1000000x1, .i32⟩ : BufTy).Contents (Elt F) → (⟨S1000000x256, .f32⟩ : BufTy).Contents (Elt F) → (⟨S100000x256, .f32⟩ : BufTy).Contents (Elt F)),
    nullary main_cst_38 (constant S_ .f32 0x3F800000#32),
    unary main_cst_38 main_v231 (broadcastInDim S1000000 ![] bcast_S_S1000000 : (⟨S_, .f32⟩ : BufTy).Contents (Elt F) → (⟨S1000000, .f32⟩ : BufTy).Contents (Elt F)),
    nullary main_cst_39 (constant S_ .f32 0x00000000#32),
    unary main_cst_39 main_v232 (broadcastInDim S100000 ![] bcast_S_S100000 : (⟨S_, .f32⟩ : BufTy).Contents (Elt F) → (⟨S100000, .f32⟩ : BufTy).Contents (Elt F)),
    unary main_v220 main_v233 (broadcastInDim S1000000x1 ![0] bcast_S1000000_S1000000x1_0 : (⟨S1000000, .i32⟩ : BufTy).Contents (Elt F) → (⟨S1000000x1, .i32⟩ : BufTy).Contents (Elt F)),
    ternary main_v232 main_v233 main_v231 main_v234 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_40 (constant S_ .f32 0x3F800000#32),
    unary main_cst_40 main_v235 (broadcastInDim S100000 ![] bcast_S_S100000 : (⟨S_, .f32⟩ : BufTy).Contents (Elt F) → (⟨S100000, .f32⟩ : BufTy).Contents (Elt F)),
    binary main_v234 main_v235 main_v236 (maximumf : (⟨S100000, .f32⟩ : BufTy).Contents (Elt F) → (⟨S100000, .f32⟩ : BufTy).Contents (Elt F) → (⟨S100000, .f32⟩ : BufTy).Contents (Elt F)),
    unary main_v236 main_v237 (broadcastInDim S100000x1 ![0] bcast_S100000_S100000x1_0 : (⟨S100000, .f32⟩ : BufTy).Contents (Elt F) → (⟨S100000x1, .f32⟩ : BufTy).Contents (Elt F)),
    unary main_v237 main_v238 (broadcastInDim S100000x256 ![0, 1] bcast_S100000x1_S100000x256_0_1 : (⟨S100000x1, .f32⟩ : BufTy).Contents (Elt F) → (⟨S100000x256, .f32⟩ : BufTy).Contents (Elt F)),
    binary main_v230 main_v238 main_v239 (Host.divf : (⟨S100000x256, .f32⟩ : BufTy).Contents (Elt F) → (⟨S100000x256, .f32⟩ : BufTy).Contents (Elt F) → (⟨S100000x256, .f32⟩ : BufTy).Contents (Elt F)),
    unary main_arg5 main_v240 ((extractStridedSlice S1x256x128 ![2, 0, 0] · slices_S4x256x128_S1x256x128_2_0_0) : (⟨S4x256x128, .f32⟩ : BufTy).Contents (Elt F) → (⟨S1x256x128, .f32⟩ : BufTy).Contents (Elt F)),
    reshape main_v240 main_v241 rfl shapeCasts_S1x256x128_S256x128,
    binary main_v239 main_v241 main_v242 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v243 ((extractStridedSlice S1x256x128 ![2, 0, 0] · slices_S4x256x128_S1x256x128_2_0_0) : (⟨S4x256x128, .f32⟩ : BufTy).Contents (Elt F) → (⟨S1x256x128, .f32⟩ : BufTy).Contents (Elt F)),
    reshape main_v243 main_v244 rfl shapeCasts_S1x256x128_S256x128,
    binary main_v145 main_v244 main_v245 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    binary main_v242 main_v245 main_v246 (addf : (⟨S100000x128, .f32⟩ : BufTy).Contents (Elt F) → (⟨S100000x128, .f32⟩ : BufTy).Contents (Elt F) → (⟨S100000x128, .f32⟩ : BufTy).Contents (Elt F)),
    unary main_arg7 main_v247 ((extractStridedSlice S1x128 ![2, 0] · slices_S4x128_S1x128_2_0) : (⟨S4x128, .f32⟩ : BufTy).Contents (Elt F) → (⟨S1x128, .f32⟩ : BufTy).Contents (Elt F)),
    reshape main_v247 main_v248 rfl shapeCasts_S1x128_S128,
    unary main_v248 main_v249 (broadcastInDim S1x128 ![1] bcast_S128_S1x128_1 : (⟨S128, .f32⟩ : BufTy).Contents (Elt F) → (⟨S1x128, .f32⟩ : BufTy).Contents (Elt F)),
    unary main_v249 main_v250 (broadcastInDim S100000x128 ![0, 1] bcast_S1x128_S100000x128_0_1 : (⟨S1x128, .f32⟩ : BufTy).Contents (Elt F) → (⟨S100000x128, .f32⟩ : BufTy).Contents (Elt F)),
    binary main_v246 main_v250 main_v251 (addf : (⟨S100000x128, .f32⟩ : BufTy).Contents (Elt F) → (⟨S100000x128, .f32⟩ : BufTy).Contents (Elt F) → (⟨S100000x128, .f32⟩ : BufTy).Contents (Elt F)),
    binary main_v216 main_v251 main_v252 (addf : (⟨S100000x128, .f32⟩ : BufTy).Contents (Elt F) → (⟨S100000x128, .f32⟩ : BufTy).Contents (Elt F) → (⟨S100000x128, .f32⟩ : BufTy).Contents (Elt F)) ]

/-- The references the stretch's operations write, in order: one each. -/
abbrev L1B2_W : List (Ref sig .tc) := [
    main_v217, main_v218, main_v219, main_v220, main_c_35, main_v221, main_v222, main_c_36, main_v223, main_v224, main_v225, main_v226,
    main_v227, main_cst_37, main_v228, main_v229, main_v230, main_cst_38, main_v231, main_cst_39, main_v232, main_v233, main_v234,
    main_cst_40, main_v235, main_v236, main_v237, main_v238, main_v239, main_v240, main_v241, main_v242, main_v243, main_v244, main_v245,
    main_v246, main_v247, main_v248, main_v249, main_v250, main_v251, main_v252 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L1B2_writes : (L1B2 : List (HloOp τ sig (Elt F))).Forall fun op => op.writes ⊆ (L1B2_W.map (Proc.devRef (τ := τ) .tc)).toFinset :=
  ⟨
    sub_of_mem (y := main_v217) (by decide), sub_of_mem (y := main_v218) (by decide), sub_of_mem (y := main_v219) (by decide),
    sub_of_mem (y := main_v220) (by decide), sub_of_mem (y := main_c_35) (by decide), sub_of_mem (y := main_v221) (by decide),
    sub_of_mem (y := main_v222) (by decide), sub_of_mem (y := main_c_36) (by decide), sub_of_mem (y := main_v223) (by decide),
    sub_of_mem (y := main_v224) (by decide), sub_of_mem (y := main_v225) (by decide), sub_of_mem (y := main_v226) (by decide),
    sub_of_mem (y := main_v227) (by decide), sub_of_mem (y := main_cst_37) (by decide), sub_of_mem (y := main_v228) (by decide),
    sub_of_mem (y := main_v229) (by decide), sub_of_mem (y := main_v230) (by decide), sub_of_mem (y := main_cst_38) (by decide),
    sub_of_mem (y := main_v231) (by decide), sub_of_mem (y := main_cst_39) (by decide), sub_of_mem (y := main_v232) (by decide),
    sub_of_mem (y := main_v233) (by decide), sub_of_mem (y := main_v234) (by decide), sub_of_mem (y := main_cst_40) (by decide),
    sub_of_mem (y := main_v235) (by decide), sub_of_mem (y := main_v236) (by decide), sub_of_mem (y := main_v237) (by decide),
    sub_of_mem (y := main_v238) (by decide), sub_of_mem (y := main_v239) (by decide), sub_of_mem (y := main_v240) (by decide),
    sub_of_mem (y := main_v241) (by decide), sub_of_mem (y := main_v242) (by decide), sub_of_mem (y := main_v243) (by decide),
    sub_of_mem (y := main_v244) (by decide), sub_of_mem (y := main_v245) (by decide), sub_of_mem (y := main_v246) (by decide),
    sub_of_mem (y := main_v247) (by decide), sub_of_mem (y := main_v248) (by decide), sub_of_mem (y := main_v249) (by decide),
    sub_of_mem (y := main_v250) (by decide), sub_of_mem (y := main_v251) (by decide), sub_of_mem (y := main_v252) (by decide) ⟩

/-- A reference the stretch does not write holds after it what it held before. -/
theorem L1B2_keep (V : Valuation τ sig (Elt F)) (r : Ref sig .tc) (h : r ∉ L1B2_W) :
    StableHlo.after (L1B2 (F := F)) V (Proc.devRef .tc r) = V (Proc.devRef .tc r) :=
  StableHlo.after_of_writes_sub L1B2 V L1B2_writes h

set_option maxRecDepth 8192 in
set_option maxHeartbeats 4000000 in
/-- The stretch's result, from any contents that hold the arguments, the first layer's output and the running sum it reads. -/
theorem L1B2_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F)) (x5 : (⟨S4x256x128, .f32⟩ : BufTy).Contents (Elt F)) (x6 : (⟨S4x256x128, .f32⟩ : BufTy).Contents (Elt F)) (x7 : (⟨S4x128, .f32⟩ : BufTy).Contents (Elt F))
    (h1 : V (Proc.devRef .tc main_arg1) = x1)
    (h5 : V (Proc.devRef .tc main_arg5) = x5)
    (h6 : V (Proc.devRef .tc main_arg6) = x6)
    (h7 : V (Proc.devRef .tc main_arg7) = x7)
    (hx : V (Proc.devRef .tc main_v145) = ReadP.val_main_v145 (F := F) x0 x1 x2 x3 x4)
    (hs : V (Proc.devRef .tc main_v216) = ReadP.val_main_v216 (F := F) x0 x1 x2 x3 x4 x5 x6 x7) :
    StableHlo.after (L1B2 (F := F)) V (Proc.devRef .tc main_v252) = ReadP.val_main_v252 (F := F) x0 x1 x2 x3 x4 x5 x6 x7 := by
  dsimp only [L1B2]
  after_results_simp
  simp only [h1, h5, h6, h7, hx, hs]
  rfl

end Cert.Sage.RefRun

end
-- ==== Proof.RefRunL1B3.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: one edge type's contribution (neighbours' mean through the left weights, own rows through the right weights, bias) added to the running sum. Read back once, from any contents, at the buffer
    the later stretches read. -/

variable {F : FTy → Type} [FloatOps F]

/-- The stretch's operations, in order. -/
abbrev L1B3 : List (HloOp τ sig (Elt F)) :=
  [ unary main_arg1 main_v253 ((extractStridedSlice S1x1x1000000 ![3, 0, 0] · slices_S4x2x1000000_S1x1x1000000_3_0_0) : (⟨S4x2x1000000, .i32⟩ : BufTy).Contents (Elt F) → (⟨S1x1x1000000, .i32⟩ : BufTy).Contents (Elt F)),
    reshape main_v253 main_v254 rfl shapeCasts_S1x1x1000000_S1000000,
    unary main_arg1 main_v255 ((extractStridedSlice S1x1x1000000 ![3, 1, 0] · slices_S4x2x1000000_S1x1x1000000_3_1_0) : (⟨S4x2x1000000, .i32⟩ : BufTy).Contents (Elt F) → (⟨S1x1x1000000, .i32⟩ : BufTy).Contents (Elt F)),
    reshape main_v255 main_v256 rfl shapeCasts_S1x1x1000000_S1000000,
    nullary main_c_41 (constantI S_ 32 0#32),
    unary main_c_41 main_v257 (broadcastInDim S1000000 ![] bcast_S_S1000000 : (⟨S_, .i32⟩ : BufTy).Contents (Elt F) → (⟨S1000000, .i32⟩ : BufTy).Contents (Elt F)),
    binary main_v254 main_v257 main_v258 (cmpi .slt : (⟨S1000000, .i32⟩ : BufTy).Contents (Elt F) → (⟨S1000000, .i32⟩ : BufTy).Contents (Elt F) → (⟨S1000000, .i1⟩ : BufTy).Contents (Elt F)),
    nullary main_c_42 (constantI S_ 32 100000#32),
    unary main_c_42 main_v259 (broadcastInDim S1000000 ![] bcast_S_S1000000 : (⟨S_, .i32⟩ : BufTy).Contents (Elt F) → (⟨S1000000, .i32⟩ : BufTy).Contents (Elt F)),
    binary main_v254 main_v259 main_v260 (addi : (⟨S1000000, .i32⟩ : BufTy).Contents (Elt F) → (⟨S1000000, .i32⟩ : BufTy).Contents (Elt F) → (⟨S1000000, .i32⟩ : BufTy).Contents (Elt F)),
    ternary main_v258 main_v260 main_v254 main_v261 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v261 main_v262 (broadcastInDim S1000000x1 ![0] bcast_S1000000_S1000000x1_0 : (⟨S1000000, .i32⟩ : BufTy).Contents (Elt F) → (⟨S1000000x1, .i32⟩ : BufTy).Contents (Elt F)),
    binary main_v145 main_v262 main_v263 ((fun x i => Host.gather gather_S100000x256_S1000000x1_S1000000x256_1_0_n_n_0_1_1256 x i) : (⟨S100000x256, .f32⟩ : BufTy).Contents (Elt F) → (⟨S1000000x1, .i32⟩ : BufTy).Contents (Elt F) → (⟨S1000000x256, .f32⟩ : BufTy).Contents (Elt F)),
    nullary main_cst_43 (constant S_ .f32 0x00000000#32),
    unary main_cst_43 main_v264 (broadcastInDim S100000x256 ![] bcast_S_S100000x256 : (⟨S_, .f32⟩ : BufTy).Contents (Elt F) → (⟨S100000x256, .f32⟩ : BufTy).Contents (Elt F)),
    unary main_v256 main_v265 (broadcastInDim S1000000x1 ![0] bcast_S1000000_S1000000x1_0 : (⟨S1000000, .i32⟩ : BufTy).Contents (Elt F) → (⟨S1000000x1, .i32⟩ : BufTy).Contents (Elt F)),
    ternary main_v264 main_v265 main_v263 main_v266 ((fun x i u => Host.scatterAdd scatter_S100000x256_S1000000x1_S1000000x256_1_0_0_1 x i u) : (⟨S100000x256, .f32⟩ : BufTy).Contents (Elt F) → (⟨S1000000x1, .i32⟩ : BufTy).Contents (Elt F) → (⟨S1000000x256, .f32⟩ : BufTy).Contents (Elt F) → (⟨S100000x256, .f32⟩ : BufTy).Contents (Elt F)),
    nullary main_cst_44 (constant S_ .f32 0x3F800000#32),
    unary main_cst_44 main_v267 (broadcastInDim S1000000 ![] bcast_S_S1000000 : (⟨S_, .f32⟩ : BufTy).Contents (Elt F) → (⟨S1000000, .f32⟩ : BufTy).Contents (Elt F)),
    nullary main_cst_45 (constant S_ .f32 0x00000000#32),
    unary main_cst_45 main_v268 (broadcastInDim S100000 ![] bcast_S_S100000 : (⟨S_, .f32⟩ : BufTy).Contents (Elt F) → (⟨S100000, .f32⟩ : BufTy).Contents (Elt F)),
    unary main_v256 main_v269 (broadcastInDim S1000000x1 ![0] bcast_S1000000_S1000000x1_0 : (⟨S1000000, .i32⟩ : BufTy).Contents (Elt F) → (⟨S1000000x1, .i32⟩ : BufTy).Contents (Elt F)),
    ternary main_v268 main_v269 main_v267 main_v270 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_46 (constant S_ .f32 0x3F800000#32),
    unary main_cst_46 main_v271 (broadcastInDim S100000 ![] bcast_S_S100000 : (⟨S_, .f32⟩ : BufTy).Contents (Elt F) → (⟨S100000, .f32⟩ : BufTy).Contents (Elt F)),
    binary main_v270 main_v271 main_v272 (maximumf : (⟨S100000, .f32⟩ : BufTy).Contents (Elt F) → (⟨S100000, .f32⟩ : BufTy).Contents (Elt F) → (⟨S100000, .f32⟩ : BufTy).Contents (Elt F)),
    unary main_v272 main_v273 (broadcastInDim S100000x1 ![0] bcast_S100000_S100000x1_0 : (⟨S100000, .f32⟩ : BufTy).Contents (Elt F) → (⟨S100000x1, .f32⟩ : BufTy).Contents (Elt F)),
    unary main_v273 main_v274 (broadcastInDim S100000x256 ![0, 1] bcast_S100000x1_S100000x256_0_1 : (⟨S100000x1, .f32⟩ : BufTy).Contents (Elt F) → (⟨S100000x256, .f32⟩ : BufTy).Contents (Elt F)),
    binary main_v266 main_v274 main_v275 (Host.divf : (⟨S100000x256, .f32⟩ : BufTy).Contents (Elt F) → (⟨S100000x256, .f32⟩ : BufTy).Contents (Elt F) → (⟨S100000x256, .f32⟩ : BufTy).Contents (Elt F)),
    unary main_arg5 main_v276 ((extractStridedSlice S1x256x128 ![3, 0, 0] · slices_S4x256x128_S1x256x128_3_0_0) : (⟨S4x256x128, .f32⟩ : BufTy).Contents (Elt F) → (⟨S1x256x128, .f32⟩ : BufTy).Contents (Elt F)),
    reshape main_v276 main_v277 rfl shapeCasts_S1x256x128_S256x128,
    binary main_v275 main_v277 main_v278 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg6 main_v279 ((extractStridedSlice S1x256x128 ![3, 0, 0] · slices_S4x256x128_S1x256x128_3_0_0) : (⟨S4x256x128, .f32⟩ : BufTy).Contents (Elt F) → (⟨S1x256x128, .f32⟩ : BufTy).Contents (Elt F)),
    reshape main_v279 main_v280 rfl shapeCasts_S1x256x128_S256x128,
    binary main_v145 main_v280 main_v281 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    binary main_v278 main_v281 main_v282 (addf : (⟨S100000x128, .f32⟩ : BufTy).Contents (Elt F) → (⟨S100000x128, .f32⟩ : BufTy).Contents (Elt F) → (⟨S100000x128, .f32⟩ : BufTy).Contents (Elt F)),
    unary main_arg7 main_v283 ((extractStridedSlice S1x128 ![3, 0] · slices_S4x128_S1x128_3_0) : (⟨S4x128, .f32⟩ : BufTy).Contents (Elt F) → (⟨S1x128, .f32⟩ : BufTy).Contents (Elt F)),
    reshape main_v283 main_v284 rfl shapeCasts_S1x128_S128,
    unary main_v284 main_v285 (broadcastInDim S1x128 ![1] bcast_S128_S1x128_1 : (⟨S128, .f32⟩ : BufTy).Contents (Elt F) → (⟨S1x128, .f32⟩ : BufTy).Contents (Elt F)),
    unary main_v285 main_v286 (broadcastInDim S100000x128 ![0, 1] bcast_S1x128_S100000x128_0_1 : (⟨S1x128, .f32⟩ : BufTy).Contents (Elt F) → (⟨S100000x128, .f32⟩ : BufTy).Contents (Elt F)),
    binary main_v282 main_v286 main_v287 (addf : (⟨S100000x128, .f32⟩ : BufTy).Contents (Elt F) → (⟨S100000x128, .f32⟩ : BufTy).Contents (Elt F) → (⟨S100000x128, .f32⟩ : BufTy).Contents (Elt F)),
    binary main_v252 main_v287 main_v288 (addf : (⟨S100000x128, .f32⟩ : BufTy).Contents (Elt F) → (⟨S100000x128, .f32⟩ : BufTy).Contents (Elt F) → (⟨S100000x128, .f32⟩ : BufTy).Contents (Elt F)) ]

/-- The references the stretch's operations write, in order: one each. -/
abbrev L1B3_W : List (Ref sig .tc) := [
    main_v253, main_v254, main_v255, main_v256, main_c_41, main_v257, main_v258, main_c_42, main_v259, main_v260, main_v261, main_v262,
    main_v263, main_cst_43, main_v264, main_v265, main_v266, main_cst_44, main_v267, main_cst_45, main_v268, main_v269, main_v270,
    main_cst_46, main_v271, main_v272, main_v273, main_v274, main_v275, main_v276, main_v277, main_v278, main_v279, main_v280, main_v281,
    main_v282, main_v283, main_v284, main_v285, main_v286, main_v287, main_v288 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L1B3_writes : (L1B3 : List (HloOp τ sig (Elt F))).Forall fun op => op.writes ⊆ (L1B3_W.map (Proc.devRef (τ := τ) .tc)).toFinset :=
  ⟨
    sub_of_mem (y := main_v253) (by decide), sub_of_mem (y := main_v254) (by decide), sub_of_mem (y := main_v255) (by decide),
    sub_of_mem (y := main_v256) (by decide), sub_of_mem (y := main_c_41) (by decide), sub_of_mem (y := main_v257) (by decide),
    sub_of_mem (y := main_v258) (by decide), sub_of_mem (y := main_c_42) (by decide), sub_of_mem (y := main_v259) (by decide),
    sub_of_mem (y := main_v260) (by decide), sub_of_mem (y := main_v261) (by decide), sub_of_mem (y := main_v262) (by decide),
    sub_of_mem (y := main_v263) (by decide), sub_of_mem (y := main_cst_43) (by decide), sub_of_mem (y := main_v264) (by decide),
    sub_of_mem (y := main_v265) (by decide), sub_of_mem (y := main_v266) (by decide), sub_of_mem (y := main_cst_44) (by decide),
    sub_of_mem (y := main_v267) (by decide), sub_of_mem (y := main_cst_45) (by decide), sub_of_mem (y := main_v268) (by decide),
    sub_of_mem (y := main_v269) (by decide), sub_of_mem (y := main_v270) (by decide), sub_of_mem (y := main_cst_46) (by decide),
    sub_of_mem (y := main_v271) (by decide), sub_of_mem (y := main_v272) (by decide), sub_of_mem (y := main_v273) (by decide),
    sub_of_mem (y := main_v274) (by decide), sub_of_mem (y := main_v275) (by decide), sub_of_mem (y := main_v276) (by decide),
    sub_of_mem (y := main_v277) (by decide), sub_of_mem (y := main_v278) (by decide), sub_of_mem (y := main_v279) (by decide),
    sub_of_mem (y := main_v280) (by decide), sub_of_mem (y := main_v281) (by decide), sub_of_mem (y := main_v282) (by decide),
    sub_of_mem (y := main_v283) (by decide), sub_of_mem (y := main_v284) (by decide), sub_of_mem (y := main_v285) (by decide),
    sub_of_mem (y := main_v286) (by decide), sub_of_mem (y := main_v287) (by decide), sub_of_mem (y := main_v288) (by decide) ⟩

/-- A reference the stretch does not write holds after it what it held before. -/
theorem L1B3_keep (V : Valuation τ sig (Elt F)) (r : Ref sig .tc) (h : r ∉ L1B3_W) :
    StableHlo.after (L1B3 (F := F)) V (Proc.devRef .tc r) = V (Proc.devRef .tc r) :=
  StableHlo.after_of_writes_sub L1B3 V L1B3_writes h

set_option maxRecDepth 8192 in
set_option maxHeartbeats 4000000 in
/-- The stretch's result, from any contents that hold the arguments, the first layer's output and the running sum it reads. -/
theorem L1B3_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F)) (x5 : (⟨S4x256x128, .f32⟩ : BufTy).Contents (Elt F)) (x6 : (⟨S4x256x128, .f32⟩ : BufTy).Contents (Elt F)) (x7 : (⟨S4x128, .f32⟩ : BufTy).Contents (Elt F))
    (h1 : V (Proc.devRef .tc main_arg1) = x1)
    (h5 : V (Proc.devRef .tc main_arg5) = x5)
    (h6 : V (Proc.devRef .tc main_arg6) = x6)
    (h7 : V (Proc.devRef .tc main_arg7) = x7)
    (hx : V (Proc.devRef .tc main_v145) = ReadP.val_main_v145 (F := F) x0 x1 x2 x3 x4)
    (hs : V (Proc.devRef .tc main_v252) = ReadP.val_main_v252 (F := F) x0 x1 x2 x3 x4 x5 x6 x7) :
    StableHlo.after (L1B3 (F := F)) V (Proc.devRef .tc main_v288) = ReadP.val_main_v288 (F := F) x0 x1 x2 x3 x4 x5 x6 x7 := by
  dsimp only [L1B3]
  after_results_simp
  simp only [h1, h5, h6, h7, hx, hs]
  rfl

end Cert.Sage.RefRun

end
-- ==== Proof.RefRunL1Tail.lean ====
import proofs.«146249_j79809082294964_1_alg».proof.Proof.RefReadP

noncomputable section

namespace Cert.Sage.RefRun

open Cert.ReferenceIdeal Cert.ReferenceIdeal.Gen Idealize.ShloMosaic Idealize.ShloMosaic.TcCoe Idealize.SL.Sem Idealize.ShloMosaic.StableHlo

/-! One stretch of the reference's straight line: the sum of the four edge types' contributions divided by four and cut at zero. Read back once, from any contents, at the buffer
    the later stretches read. -/

variable {F : FTy → Type} [FloatOps F]

/-- The stretch's operations, in order. -/
abbrev L1Tail : List (HloOp τ sig (Elt F)) :=
  [ nullary main_cst_47 (constant S_ .f32 0x40800000#32),
    unary main_cst_47 main_v289 (broadcastInDim S100000x128 ![] bcast_S_S100000x128 : (⟨S_, .f32⟩ : BufTy).Contents (Elt F) → (⟨S100000x128, .f32⟩ : BufTy).Contents (Elt F)),
    binary main_v288 main_v289 main_v290 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v290) (TRef.of (T := ⟨S100000x128, .f32⟩) main_call1_v0) (TRef.of (T := ⟨S100000x128, .f32⟩) main_v291) maximumf ]

/-- The references the stretch's operations write, in order: one each. -/
abbrev L1Tail_W : List (Ref sig .tc) := [
    main_cst_47, main_v289, main_v290, main_call1_cst, main_call1_v0, main_v291 ]

/-- A single written reference that is on a list lies in the list's image. -/
private theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

set_option maxRecDepth 8192 in
set_option maxHeartbeats 4000000 in
theorem L1Tail_writes : (L1Tail : List (HloOp τ sig (Elt F))).Forall fun op => op.writes ⊆ (L1Tail_W.map (Proc.devRef (τ := τ) .tc)).toFinset :=
  ⟨
    sub_of_mem (y := main_cst_47) (by decide), sub_of_mem (y := main_v289) (by decide), sub_of_mem (y := main_v290) (by decide),
    sub_of_mem (y := main_call1_cst) (by decide), sub_of_mem (y := main_call1_v0) (by decide), sub_of_mem (y := main_v291) (by decide) ⟩

/-- A reference the stretch does not write holds after it what it held before. -/
theorem L1Tail_keep (V : Valuation τ sig (Elt F)) (r : Ref sig .tc) (h : r ∉ L1Tail_W) :
    StableHlo.after (L1Tail (F := F)) V (Proc.devRef .tc r) = V (Proc.devRef .tc r) :=
  StableHlo.after_of_writes_sub L1Tail V L1Tail_writes h

set_option maxRecDepth 8192 in
set_option maxHeartbeats 4000000 in
/-- The stretch's result, from any contents that hold the arguments, the first layer's output and the running sum it reads. -/
theorem L1Tail_read (V : Valuation τ sig (Elt F)) (x0 : (⟨S100000x128, .f32⟩ : BufTy).Contents (Elt F)) (x1 : (⟨S4x2x1000000, .i32⟩ : BufTy).Contents (Elt F)) (x2 : (⟨S4x128x256, .f32⟩ : BufTy).Contents (Elt F)) (x3 : (⟨S4x128x256, .f32⟩ : BufTy).Contents (Elt F)) (x4 : (⟨S4x256, .f32⟩ : BufTy).Contents (Elt F)) (x5 : (⟨S4x256x128, .f32⟩ : BufTy).Contents (Elt F)) (x6 : (⟨S4x256x128, .f32⟩ : BufTy).Contents (Elt F)) (x7 : (⟨S4x128, .f32⟩ : BufTy).Contents (Elt F))
    (hs : V (Proc.devRef .tc main_v288) = ReadP.val_main_v288 (F := F) x0 x1 x2 x3 x4 x5 x6 x7) :
    StableHlo.after (L1Tail (F := F)) V (Proc.devRef .tc main_v291) = ReadP.val_main_v291 (F := F) x0 x1 x2 x3 x4 x5 x6 x7 := by
  dsimp only [L1Tail]
  after_results_simp
  simp only [hs]
  rfl

end Cert.Sage.RefRun

end
-- ==== Proof.RefRunOps.lean ====
import proofs.«146249_j79809082294964_1_alg».proof.Proof.RefRunL0B0
import proofs.«146249_j79809082294964_1_alg».proof.Proof.RefRunL0B1
import proofs.«146249_j79809082294964_1_alg».proof.Proof.RefRunL0B2
import proofs.«146249_j79809082294964_1_alg».proof.Proof.RefRunL0B3
import proofs.«146249_j79809082294964_1_alg».proof.Proof.RefRunL0Tail
import proofs.«146249_j79809082294964_1_alg».proof.Proof.RefRunL1B0
import proofs.«146249_j79809082294964_1_alg».proof.Proof.RefRunL1B1
import proofs.«146249_j79809082294964_1_alg».proof.Proof.RefRunL1B2
import proofs.«146249_j79809082294964_1_alg».proof.Proof.RefRunL1B3
import proofs.«146249_j79809082294964_1_alg».proof.Proof.RefRunL1Tail

noncomputable section

namespace Cert.Sage.RefRun

open Cert.ReferenceIdeal Cert.ReferenceIdeal.Gen Idealize.ShloMosaic Idealize.ShloMosaic.TcCoe Idealize.SL.Sem Idealize.ShloMosaic.StableHlo

/-! The reference as a straight line of its 346 host operations: ten stretches — per layer four edge types' contributions
    and the closing mean and cut — one after the other. Every operation touches the TensorCore's buffers only and
    allocates none. -/

variable {F : FTy → Type} [FloatOps F]

/-- The reference's operations, in order: the ten stretches one after the other. -/
abbrev ops : List (HloOp τ sig (Elt F)) :=
  L0B0 ++ (L0B1 ++ (L0B2 ++ (L0B3 ++ (L0Tail ++ (L1B0 ++ (L1B1 ++ (L1B2 ++ (L1B3 ++ (L1Tail)))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of the two run one after the other. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-! ## Every operation touches the TensorCore's buffers only, and allocates none -/
theorem L0B0_sub : (L0B0 : List (HloOp τ sig (Elt F))).Forall fun op => op.bufs ⊆ tcRefs τ sig :=
  ⟨
    unary_bufs_sub .., reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., unary_bufs_sub ..,
    binary_bufs_sub .., unary_bufs_sub .., reshape_bufs_sub .., binary_bufs_sub .., unary_bufs_sub .., reshape_bufs_sub .., binary_bufs_sub ..,
    binary_bufs_sub .., unary_bufs_sub .., reshape_bufs_sub .., unary_bufs_sub .., unary_bufs_sub .., binary_bufs_sub .. ⟩
theorem L0B0_fresh : (L0B0 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl ⟩
theorem L0B1_sub : (L0B1 : List (HloOp τ sig (Elt F))).Forall fun op => op.bufs ⊆ tcRefs τ sig :=
  ⟨
    unary_bufs_sub .., reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., unary_bufs_sub ..,
    binary_bufs_sub .., unary_bufs_sub .., reshape_bufs_sub .., binary_bufs_sub .., unary_bufs_sub .., reshape_bufs_sub .., binary_bufs_sub ..,
    binary_bufs_sub .., unary_bufs_sub .., reshape_bufs_sub .., unary_bufs_sub .., unary_bufs_sub .., binary_bufs_sub .., binary_bufs_sub .. ⟩
theorem L0B1_fresh : (L0B1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl ⟩
theorem L0B2_sub : (L0B2 : List (HloOp τ sig (Elt F))).Forall fun op => op.bufs ⊆ tcRefs τ sig :=
  ⟨
    unary_bufs_sub .., reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., unary_bufs_sub ..,
    binary_bufs_sub .., unary_bufs_sub .., reshape_bufs_sub .., binary_bufs_sub .., unary_bufs_sub .., reshape_bufs_sub .., binary_bufs_sub ..,
    binary_bufs_sub .., unary_bufs_sub .., reshape_bufs_sub .., unary_bufs_sub .., unary_bufs_sub .., binary_bufs_sub .., binary_bufs_sub .. ⟩
theorem L0B2_fresh : (L0B2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl ⟩
theorem L0B3_sub : (L0B3 : List (HloOp τ sig (Elt F))).Forall fun op => op.bufs ⊆ tcRefs τ sig :=
  ⟨
    unary_bufs_sub .., reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., unary_bufs_sub ..,
    binary_bufs_sub .., unary_bufs_sub .., reshape_bufs_sub .., binary_bufs_sub .., unary_bufs_sub .., reshape_bufs_sub .., binary_bufs_sub ..,
    binary_bufs_sub .., unary_bufs_sub .., reshape_bufs_sub .., unary_bufs_sub .., unary_bufs_sub .., binary_bufs_sub .., binary_bufs_sub .. ⟩
theorem L0B3_fresh : (L0B3 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl ⟩
theorem L0Tail_sub : (L0Tail : List (HloOp τ sig (Elt F))).Forall fun op => op.bufs ⊆ tcRefs τ sig :=
  ⟨
    nullary_bufs_sub .., unary_bufs_sub .., binary_bufs_sub .., nullary_bufs_sub .., unary_bufs_sub .., binary_bufs_sub .. ⟩
theorem L0Tail_fresh : (L0Tail : List (HloOp τ sig (Elt F))).Forall fun op => op.fresh = ∅ :=
  ⟨
    rfl, rfl, rfl, rfl, rfl, rfl ⟩
theorem L1B0_sub : (L1B0 : List (HloOp τ sig (Elt F))).Forall fun op => op.bufs ⊆ tcRefs τ sig :=
  ⟨
    unary_bufs_sub .., reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., unary_bufs_sub ..,
    binary_bufs_sub .., unary_bufs_sub .., reshape_bufs_sub .., binary_bufs_sub .., unary_bufs_sub .., reshape_bufs_sub .., binary_bufs_sub ..,
    binary_bufs_sub .., unary_bufs_sub .., reshape_bufs_sub .., unary_bufs_sub .., unary_bufs_sub .., binary_bufs_sub .. ⟩
theorem L1B0_fresh : (L1B0 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl ⟩
theorem L1B1_sub : (L1B1 : List (HloOp τ sig (Elt F))).Forall fun op => op.bufs ⊆ tcRefs τ sig :=
  ⟨
    unary_bufs_sub .., reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., unary_bufs_sub ..,
    binary_bufs_sub .., unary_bufs_sub .., reshape_bufs_sub .., binary_bufs_sub .., unary_bufs_sub .., reshape_bufs_sub .., binary_bufs_sub ..,
    binary_bufs_sub .., unary_bufs_sub .., reshape_bufs_sub .., unary_bufs_sub .., unary_bufs_sub .., binary_bufs_sub .., binary_bufs_sub .. ⟩
theorem L1B1_fresh : (L1B1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl ⟩
theorem L1B2_sub : (L1B2 : List (HloOp τ sig (Elt F))).Forall fun op => op.bufs ⊆ tcRefs τ sig :=
  ⟨
    unary_bufs_sub .., reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., unary_bufs_sub ..,
    binary_bufs_sub .., unary_bufs_sub .., reshape_bufs_sub .., binary_bufs_sub .., unary_bufs_sub .., reshape_bufs_sub .., binary_bufs_sub ..,
    binary_bufs_sub .., unary_bufs_sub .., reshape_bufs_sub .., unary_bufs_sub .., unary_bufs_sub .., binary_bufs_sub .., binary_bufs_sub .. ⟩
theorem L1B2_fresh : (L1B2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl ⟩
theorem L1B3_sub : (L1B3 : List (HloOp τ sig (Elt F))).Forall fun op => op.bufs ⊆ tcRefs τ sig :=
  ⟨
    unary_bufs_sub .., reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., unary_bufs_sub ..,
    binary_bufs_sub .., unary_bufs_sub .., reshape_bufs_sub .., binary_bufs_sub .., unary_bufs_sub .., reshape_bufs_sub .., binary_bufs_sub ..,
    binary_bufs_sub .., unary_bufs_sub .., reshape_bufs_sub .., unary_bufs_sub .., unary_bufs_sub .., binary_bufs_sub .., binary_bufs_sub .. ⟩
theorem L1B3_fresh : (L1B3 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl ⟩
theorem L1Tail_sub : (L1Tail : List (HloOp τ sig (Elt F))).Forall fun op => op.bufs ⊆ tcRefs τ sig :=
  ⟨
    nullary_bufs_sub .., unary_bufs_sub .., binary_bufs_sub .., nullary_bufs_sub .., unary_bufs_sub .., binary_bufs_sub .. ⟩
theorem L1Tail_fresh : (L1Tail : List (HloOp τ sig (Elt F))).Forall fun op => op.fresh = ∅ :=
  ⟨
    rfl, rfl, rfl, rfl, rfl, rfl ⟩

theorem ops_sub : (ops : List (HloOp τ sig (Elt F))).Forall fun op => op.bufs ⊆ tcRefs τ sig :=
  forall_app L0B0_sub (forall_app L0B1_sub (forall_app L0B2_sub (forall_app L0B3_sub (forall_app L0Tail_sub (forall_app L1B0_sub (forall_app L1B1_sub (forall_app L1B2_sub (forall_app L1B3_sub (L1Tail_sub)))))))))
/-- No operation of the line allocates: each determines its results. -/
theorem ops_fresh : (ops : List (HloOp τ sig (Elt F))).Forall fun op => op.fresh = ∅ :=
  forall_app L0B0_fresh (forall_app L0B1_fresh (forall_app L0B2_fresh (forall_app L0B3_fresh (forall_app L0Tail_fresh (forall_app L1B0_fresh (forall_app L1B1_fresh (forall_app L1B2_fresh (forall_app L1B3_fresh (L1Tail_fresh)))))))))

/-- Contents after two lines run one after the other. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, after_cons, after_cons, after_app l₁ l₂]

end Cert.Sage.RefRun

end
-- ==== Proof.RefRunP.lean ====
import proofs.«146249_j79809082294964_1_alg».proof.Proof.RefRunOps

noncomputable section

namespace Cert.Sage.RefRun

open Cert.ReferenceIdeal Cert.ReferenceIdeal.Gen Idealize.ShloMosaic Idealize.ShloMosaic.TcCoe Idealize.SL.Sem Idealize.ShloMosaic.StableHlo

/-! The reference's run: every weakly fair execution ends with the result at the last stage of the arguments' launch
    contents, and the arguments unchanged. Each of the line's ten stretches is read back once from the contents the
    stretches before it leave; an argument keeps its contents because no operation of the line writes it. -/

variable {F : FTy → Type} [FloatOps F]

/-! ## The contents after each stretch -/
def V0 (W : Valuation τ sig (Elt F)) : Valuation τ sig (Elt F) := StableHlo.after (L0B0 (F := F)) W
def V1 (W : Valuation τ sig (Elt F)) : Valuation τ sig (Elt F) := StableHlo.after (L0B1 (F := F)) (V0 W)
def V2 (W : Valuation τ sig (Elt F)) : Valuation τ sig (Elt F) := StableHlo.after (L0B2 (F := F)) (V1 W)
def V3 (W : Valuation τ sig (Elt F)) : Valuation τ sig (Elt F) := StableHlo.after (L0B3 (F := F)) (V2 W)
def V4 (W : Valuation τ sig (Elt F)) : Valuation τ sig (Elt F) := StableHlo.after (L0Tail (F := F)) (V3 W)
def V5 (W : Valuation τ sig (Elt F)) : Valuation τ sig (Elt F) := StableHlo.after (L1B0 (F := F)) (V4 W)
def V6 (W : Valuation τ sig (Elt F)) : Valuation τ sig (Elt F) := StableHlo.after (L1B1 (F := F)) (V5 W)
def V7 (W : Valuation τ sig (Elt F)) : Valuation τ sig (Elt F) := StableHlo.after (L1B2 (F := F)) (V6 W)
def V8 (W : Valuation τ sig (Elt F)) : Valuation τ sig (Elt F) := StableHlo.after (L1B3 (F := F)) (V7 W)
def V9 (W : Valuation τ sig (Elt F)) : Valuation τ sig (Elt F) := StableHlo.after (L1Tail (F := F)) (V8 W)

theorem after_ops (W : Valuation τ sig (Elt F)) : StableHlo.after (ops (F := F)) W = V9 W := by
  show StableHlo.after (L0B0 ++ (L0B1 ++ (L0B2 ++ (L0B3 ++ (L0Tail ++ (L1B0 ++ (L1B1 ++ (L1B2 ++ (L1B3 ++ (L1Tail)))))))))) W = _
  rw [after_app, after_app, after_app, after_app, after_app, after_app, after_app, after_app, after_app]
  rfl

/-! ## What the stretches so far do not write keeps its contents -/
abbrev P0 : List (Ref sig .tc) := L0B0_W
abbrev P1 : List (Ref sig .tc) := P0 ++ L0B1_W
abbrev P2 : List (Ref sig .tc) := P1 ++ L0B2_W
abbrev P3 : List (Ref sig .tc) := P2 ++ L0B3_W
abbrev P4 : List (Ref sig .tc) := P3 ++ L0Tail_W
abbrev P5 : List (Ref sig .tc) := P4 ++ L1B0_W
abbrev P6 : List (Ref sig .tc) := P5 ++ L1B1_W
abbrev P7 : List (Ref sig .tc) := P6 ++ L1B2_W
abbrev P8 : List (Ref sig .tc) := P7 ++ L1B3_W
abbrev P9 : List (Ref sig .tc) := P8 ++ L1Tail_W

theorem V0_keep (W : Valuation τ sig (Elt F)) (r : Ref sig .tc) (h : r ∉ P0) : V0 W (Proc.devRef .tc r) = W (Proc.devRef .tc r) :=
  L0B0_keep W r h
theorem V1_keep (W : Valuation τ sig (Elt F)) (r : Ref sig .tc) (h : r ∉ P1) : V1 W (Proc.devRef .tc r) = W (Proc.devRef .tc r) :=
  (L0B1_keep (V0 W) r (fun h' => h (List.mem_append_right _ h'))).trans (V0_keep W r (fun h' => h (List.mem_append_left _ h')))
theorem V2_keep (W : Valuation τ sig (Elt F)) (r : Ref sig .tc) (h : r ∉ P2) : V2 W (Proc.devRef .tc r) = W (Proc.devRef .tc r) :=
  (L0B2_keep (V1 W) r (fun h' => h (List.mem_append_right _ h'))).trans (V1_keep W r (fun h' => h (List.mem_append_left _ h')))
theorem V3_keep (W : Valuation τ sig (Elt F)) (r : Ref sig .tc) (h : r ∉ P3) : V3 W (Proc.devRef .tc r) = W (Proc.devRef .tc r) :=
  (L0B3_keep (V2 W) r (fun h' => h (List.mem_append_right _ h'))).trans (V2_keep W r (fun h' => h (List.mem_append_left _ h')))
theorem V4_keep (W : Valuation τ sig (Elt F)) (r : Ref sig .tc) (h : r ∉ P4) : V4 W (Proc.devRef .tc r) = W (Proc.devRef .tc r) :=
  (L0Tail_keep (V3 W) r (fun h' => h (List.mem_append_right _ h'))).trans (V3_keep W r (fun h' => h (List.mem_append_left _ h')))
theorem V5_keep (W : Valuation τ sig (Elt F)) (r : Ref sig .tc) (h : r ∉ P5) : V5 W (Proc.devRef .tc r) = W (Proc.devRef .tc r) :=
  (L1B0_keep (V4 W) r (fun h' => h (List.mem_append_right _ h'))).trans (V4_keep W r (fun h' => h (List.mem_append_left _ h')))
theorem V6_keep (W : Valuation τ sig (Elt F)) (r : Ref sig .tc) (h : r ∉ P6) : V6 W (Proc.devRef .tc r) = W (Proc.devRef .tc r) :=
  (L1B1_keep (V5 W) r (fun h' => h (List.mem_append_right _ h'))).trans (V5_keep W r (fun h' => h (List.mem_append_left _ h')))
theorem V7_keep (W : Valuation τ sig (Elt F)) (r : Ref sig .tc) (h : r ∉ P7) : V7 W (Proc.devRef .tc r) = W (Proc.devRef .tc r) :=
  (L1B2_keep (V6 W) r (fun h' => h (List.mem_append_right _ h'))).trans (V6_keep W r (fun h' => h (List.mem_append_left _ h')))
theorem V8_keep (W : Valuation τ sig (Elt F)) (r : Ref sig .tc) (h : r ∉ P8) : V8 W (Proc.devRef .tc r) = W (Proc.devRef .tc r) :=
  (L1B3_keep (V7 W) r (fun h' => h (List.mem_append_right _ h'))).trans (V7_keep W r (fun h' => h (List.mem_append_left _ h')))
theorem V9_keep (W : Valuation τ sig (Elt F)) (r : Ref sig .tc) (h : r ∉ P9) : V9 W (Proc.devRef .tc r) = W (Proc.devRef .tc r) :=
  (L1Tail_keep (V8 W) r (fun h' => h (List.mem_append_right _ h'))).trans (V8_keep W r (fun h' => h (List.mem_append_left _ h')))

/-! ## The running sums, the first layer's output, the result -/

section stages
variable (W : Valuation τ sig (Elt F))

theorem S0 : V0 W (Proc.devRef .tc main_v34) = ReadP.val_main_v34 (F := F) (W (Proc.devRef .tc main_arg0)) (W (Proc.devRef .tc main_arg1)) (W (Proc.devRef .tc main_arg2)) (W (Proc.devRef .tc main_arg3)) (W (Proc.devRef .tc main_arg4)) :=
  L0B0_read W (W (Proc.devRef .tc main_arg0)) (W (Proc.devRef .tc main_arg1)) (W (Proc.devRef .tc main_arg2)) (W (Proc.devRef .tc main_arg3)) (W (Proc.devRef .tc main_arg4)) rfl rfl rfl rfl rfl
theorem S1 : V1 W (Proc.devRef .tc main_v70) = ReadP.val_main_v70 (F := F) (W (Proc.devRef .tc main_arg0)) (W (Proc.devRef .tc main_arg1)) (W (Proc.devRef .tc main_arg2)) (W (Proc.devRef .tc main_arg3)) (W (Proc.devRef .tc main_arg4)) :=
  L0B1_read (V0 W) (W (Proc.devRef .tc main_arg0)) (W (Proc.devRef .tc main_arg1)) (W (Proc.devRef .tc main_arg2)) (W (Proc.devRef .tc main_arg3)) (W (Proc.devRef .tc main_arg4))
    (V0_keep W main_arg0 (by decide)) (V0_keep W main_arg1 (by decide)) (V0_keep W main_arg2 (by decide)) (V0_keep W main_arg3 (by decide)) (V0_keep W main_arg4 (by decide))
    (S0 W)
theorem S2 : V2 W (Proc.devRef .tc main_v106) = ReadP.val_main_v106 (F := F) (W (Proc.devRef .tc main_arg0)) (W (Proc.devRef .tc main_arg1)) (W (Proc.devRef .tc main_arg2)) (W (Proc.devRef .tc main_arg3)) (W (Proc.devRef .tc main_arg4)) :=
  L0B2_read (V1 W) (W (Proc.devRef .tc main_arg0)) (W (Proc.devRef .tc main_arg1)) (W (Proc.devRef .tc main_arg2)) (W (Proc.devRef .tc main_arg3)) (W (Proc.devRef .tc main_arg4))
    (V1_keep W main_arg0 (by decide)) (V1_keep W main_arg1 (by decide)) (V1_keep W main_arg2 (by decide)) (V1_keep W main_arg3 (by decide)) (V1_keep W main_arg4 (by decide))
    (S1 W)
theorem S3 : V3 W (Proc.devRef .tc main_v142) = ReadP.val_main_v142 (F := F) (W (Proc.devRef .tc main_arg0)) (W (Proc.devRef .tc main_arg1)) (W (Proc.devRef .tc main_arg2)) (W (Proc.devRef .tc main_arg3)) (W (Proc.devRef .tc main_arg4)) :=
  L0B3_read (V2 W) (W (Proc.devRef .tc main_arg0)) (W (Proc.devRef .tc main_arg1)) (W (Proc.devRef .tc main_arg2)) (W (Proc.devRef .tc main_arg3)) (W (Proc.devRef .tc main_arg4))
    (V2_keep W main_arg0 (by decide)) (V2_keep W main_arg1 (by decide)) (V2_keep W main_arg2 (by decide)) (V2_keep W main_arg3 (by decide)) (V2_keep W main_arg4 (by decide))
    (S2 W)
/-- The first layer's output. -/
theorem S4 : V4 W (Proc.devRef .tc main_v145) = ReadP.val_main_v145 (F := F) (W (Proc.devRef .tc main_arg0)) (W (Proc.devRef .tc main_arg1)) (W (Proc.devRef .tc main_arg2)) (W (Proc.devRef .tc main_arg3)) (W (Proc.devRef .tc main_arg4)) :=
  L0Tail_read (V3 W) (W (Proc.devRef .tc main_arg0)) (W (Proc.devRef .tc main_arg1)) (W (Proc.devRef .tc main_arg2)) (W (Proc.devRef .tc main_arg3)) (W (Proc.devRef .tc main_arg4)) (S3 W)
theorem X4 : V4 W (Proc.devRef .tc main_v145) = ReadP.val_main_v145 (F := F) (W (Proc.devRef .tc main_arg0)) (W (Proc.devRef .tc main_arg1)) (W (Proc.devRef .tc main_arg2)) (W (Proc.devRef .tc main_arg3)) (W (Proc.devRef .tc main_arg4)) := S4 W
theorem X5 : V5 W (Proc.devRef .tc main_v145) = ReadP.val_main_v145 (F := F) (W (Proc.devRef .tc main_arg0)) (W (Proc.devRef .tc main_arg1)) (W (Proc.devRef .tc main_arg2)) (W (Proc.devRef .tc main_arg3)) (W (Proc.devRef .tc main_arg4)) :=
  (L1B0_keep (V4 W) main_v145 (by decide)).trans (X4 W)
theorem X6 : V6 W (Proc.devRef .tc main_v145) = ReadP.val_main_v145 (F := F) (W (Proc.devRef .tc main_arg0)) (W (Proc.devRef .tc main_arg1)) (W (Proc.devRef .tc main_arg2)) (W (Proc.devRef .tc main_arg3)) (W (Proc.devRef .tc main_arg4)) :=
  (L1B1_keep (V5 W) main_v145 (by decide)).trans (X5 W)
theorem X7 : V7 W (Proc.devRef .tc main_v145) = ReadP.val_main_v145 (F := F) (W (Proc.devRef .tc main_arg0)) (W (Proc.devRef .tc main_arg1)) (W (Proc.devRef .tc main_arg2)) (W (Proc.devRef .tc main_arg3)) (W (Proc.devRef .tc main_arg4)) :=
  (L1B2_keep (V6 W) main_v145 (by decide)).trans (X6 W)
theorem S5 : V5 W (Proc.devRef .tc main_v180) = ReadP.val_main_v180 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  L1B0_read (V4 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))
    (V4_keep W main_arg1 (by decide)) (V4_keep W main_arg5 (by decide)) (V4_keep W main_arg6 (by decide)) (V4_keep W main_arg7 (by decide))
    (X4 W)
theorem S6 : V6 W (Proc.devRef .tc main_v216) = ReadP.val_main_v216 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  L1B1_read (V5 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))
    (V5_keep W main_arg1 (by decide)) (V5_keep W main_arg5 (by decide)) (V5_keep W main_arg6 (by decide)) (V5_keep W main_arg7 (by decide))
    (X5 W) (S5 W)
theorem S7 : V7 W (Proc.devRef .tc main_v252) = ReadP.val_main_v252 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  L1B2_read (V6 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))
    (V6_keep W main_arg1 (by decide)) (V6_keep W main_arg5 (by decide)) (V6_keep W main_arg6 (by decide)) (V6_keep W main_arg7 (by decide))
    (X6 W) (S6 W)
theorem S8 : V8 W (Proc.devRef .tc main_v288) = ReadP.val_main_v288 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  L1B3_read (V7 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7))
    (V7_keep W main_arg1 (by decide)) (V7_keep W main_arg5 (by decide)) (V7_keep W main_arg6 (by decide)) (V7_keep W main_arg7 (by decide))
    (X7 W) (S7 W)
/-- The result. -/
theorem S9 : V9 W (Proc.devRef .tc main_v291) = ReadP.val_main_v291 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) :=
  L1Tail_read (V8 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (S8 W)

end stages

/-- The result buffer after the line, from any contents: the last stage of the arguments' contents. -/
theorem result_eq (W : Valuation τ sig (Elt F)) :
    StableHlo.after (ops (F := F)) W (Proc.devRef .tc main_v291) = ReadP.val_main_v291 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [after_ops]; exact S9 W

/-- A reference no stretch writes — every argument — holds after the line what it held before. -/
theorem keep_eq (W : Valuation τ sig (Elt F)) (r : Ref sig .tc) (h : r ∉ P9) :
    StableHlo.after (ops (F := F)) W (Proc.devRef .tc r) = W (Proc.devRef .tc r) := by
  rw [after_ops]; exact V9_keep W r h

/-- On every device, for any float values, from any memory with zero counters: every weakly fair execution of the
    reference terminates with the result at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v291)
          = ReadP.val_main_v291 (F := F) (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v291).trans (result_eq _),
      (h c main_arg0).trans (keep_eq _ main_arg0 (by decide)),
      (h c main_arg1).trans (keep_eq _ main_arg1 (by decide)),
      (h c main_arg2).trans (keep_eq _ main_arg2 (by decide)),
      (h c main_arg3).trans (keep_eq _ main_arg3 (by decide)),
      (h c main_arg4).trans (keep_eq _ main_arg4 (by decide)),
      (h c main_arg5).trans (keep_eq _ main_arg5 (by decide)),
      (h c main_arg6).trans (keep_eq _ main_arg6 (by decide)),
      (h c main_arg7).trans (keep_eq _ main_arg7 (by decide))⟩)
    (run_seq scopedRefs_eq scopedSems_eq defs main (fun _ => ops) main_eq (fun _ => ops_sub) m ρ
      (fun _ => List.forall_iff_forall_mem.mp ops_fresh))

end Cert.Sage.RefRun

end
-- ==== Proof.KernelR0Shared.lean ====
/-
  Region 0 (the first layer's kernel, grid 50 × 4): what its three control cases share — each window's block at a
  point read off the contents the region is entered with, the two branch conditions in closed form over the grid,
  where the output window is idle, the staging and scratch memrefs, and the region's invariant with the scratch
  accumulator split off.
-/
import proofs.«146249_j79809082294964_1_alg».proof.Proof.Gen.Kernel.Launch
import proofs.«146249_j79809082294964_1_alg».proof.Proof.Gen.Kernel.Skeleton
import proofs.«146249_j79809082294964_1_alg».proof.Proof.Gen.Kernel.Points
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if`: the type coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if`: the type coordinate is 3. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

/-- Case A (type 0): the output window is idle, and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- Case B (types 1, 2): the output window is idle, and not written back. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Case C (type 3): the output window is live. -/
theorem liveAt0_5_C : ∀ t : Fin cfg0.N, ¬cond0_0 (grid0.coords t) → cond0_1 (grid0.coords t) → cfg0.idle 5 (grid0.coords t) = false := by decide +kernel
/-- The two conditions never hold together. -/
theorem not_both0 : ∀ t : Fin cfg0.N, cond0_0 (grid0.coords t) → ¬cond0_1 (grid0.coords t) := by decide +kernel

/-! ## The staging and scratch memrefs -/

/-- One staging buffer of output window 5, through which its contents are stated (the choice does not matter). -/
abbrev VO0_5 : View sig .tc .vmem S2000x256 .f32 := (Memref.whole cc0_stg5_0 : Memref sig .tc .vmem S2000x256 .f32).view
/-- Each window's current staging memref at point `t`, and its wholeness. -/
abbrev ms0_0 (t : Fin cfg0.N) : Memref sig .tc .vmem S1x2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x256 .f32 := win0_5.stage (cfg0.slots t 5)
abbrev hs0_5 (t : Fin cfg0.N) : (ms0_5 t).IsWhole := hstage0_5 ((cfg0.slots t 5).cast nbuf0_5)
/-- The scratch accumulator: a whole scoped buffer of the kernel's own, passed beside the windows. -/
abbrev scM0_0 : Memref sig .tc .vmem S2000x256 .f32 := Memref.whole cc0_scratch0
/-- The scratch accumulator as a view: what it holds is stated through it. -/
abbrev VS0_0 : View sig .tc .vmem S2000x256 .f32 := scM0_0.view

/-! ## The region's invariant -/

/-- The core's scoped buffers that region 0 neither stages through nor accumulates in, each whole at some contents:
    they pass through the region untouched. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- The region's invariant with the scratch accumulator as a memref owned at some contents, the other scoped
    buffers beside it. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.Kernel.Hand

end
-- ==== Proof.KernelR0RunA.lean ====
/-
  Region 0's kernel body run in case A (type coordinate 0: the accumulator is zeroed before it is read, the output window is left alone).
-/
import proofs.«146249_j79809082294964_1_alg».proof.Proof.KernelR0Shared

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the scratch accumulator, as pieces
    (last first), in case A (type coordinate 0: the accumulator is zeroed before it is read, the output window is left alone), with the proof that on whole memrefs — the
    inputs' at their contents `x·`, the idle output's at contents `xi5` handed back untouched, the accumulator's at anything —
    the body runs to the continuation holding the inputs' as they were and each stored buffer with its pieces
    written. The pieces are the witness the run finds. -/
noncomputable def kernelRun0_A (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) :
    Σ' (L5 : List (View.Piece (Elt F) S2000x256 .f32)), { LS0 : List (View.Piece (Elt F) S2000x256 .f32) //
      ∀ (xi5 : Vec F S2000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KernelR0RunB.lean ====
/-
  Region 0's kernel body run in case B (type coordinate 1 or 2: the accumulator is read and stored, the output window is left alone).
-/
import proofs.«146249_j79809082294964_1_alg».proof.Proof.KernelR0Shared

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the scratch accumulator, as pieces
    (last first), in case B (type coordinate 1 or 2: the accumulator is read and stored, the output window is left alone), with the proof that on whole memrefs — the
    inputs' at their contents `x·`, the idle output's at contents `xi5` handed back untouched, the accumulator's at the contents `xs0` the point before left —
    the body runs to the continuation holding the inputs' as they were and each stored buffer with its pieces
    written. The pieces are the witness the run finds. -/
noncomputable def kernelRun0_B (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) :
    Σ' (L5 : List (View.Piece (Elt F) S2000x256 .f32)), { LS0 : List (View.Piece (Elt F) S2000x256 .f32) //
      ∀ (xi5 : Vec F S2000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KernelR0RunC.lean ====
/-
  Region 0's kernel body run in case C (type coordinate 3: the accumulator is read and stored, then the output window is stored).
-/
import proofs.«146249_j79809082294964_1_alg».proof.Proof.KernelR0Shared

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the scratch accumulator, as pieces
    (last first), in case C (type coordinate 3: the accumulator is read and stored, then the output window is stored), with the proof that on whole memrefs — the
    inputs' at their contents `x·`, the output's at anything, the accumulator's at the contents `xs0` the point before left —
    the body runs to the continuation holding the inputs' as they were and each stored buffer with its pieces
    written. The pieces are the witness the run finds. -/
noncomputable def kernelRun0_C (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) :
    Σ' (L5 : List (View.Piece (Elt F) S2000x256 .f32)), { LS0 : List (View.Piece (Elt F) S2000x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KernelR0Body.lean ====
/-
  Region 0's body obligation: what each control case leaves in the output window and in the scratch accumulator
  (its pieces read back), the accumulation over the grid's points, the region's proof data with the accumulator
  tracked by the invariant, and the obligation at every point by cases on the type coordinate; then what each
  case leaves as a term of the point's input blocks and of what the point before left.
-/
import proofs.«146249_j79809082294964_1_alg».proof.Proof.KernelR0RunA
import proofs.«146249_j79809082294964_1_alg».proof.Proof.KernelR0RunB
import proofs.«146249_j79809082294964_1_alg».proof.Proof.KernelR0RunC

-- membership in a rectangle of long extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- case A (type 0) stores nothing into the output window (idle there and not written back): no pieces — a
    placeholder nothing consults. -/
def out0_A_5 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) : Vec F S2000x256 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- case A (type 0)'s pieces for the scratch accumulator cover it (whole-block stores). -/
theorem scover0_A_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (y : S2000x256.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S2000x256.size (by sl_kernel_rfl) y

/-- What case A (type 0) leaves in the scratch accumulator: its pieces read back over junk. -/
def sout0_A_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) : Vec F S2000x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- case B (types 1, 2) stores nothing into the output window (idle there and not written back): no pieces — a
    placeholder nothing consults. -/
def out0_B_5 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) : Vec F S2000x256 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- case B (types 1, 2)'s pieces for the scratch accumulator cover it (whole-block stores). -/
theorem scover0_B_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) (y : S2000x256.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S2000x256.size (by sl_kernel_rfl) y

/-- What case B (types 1, 2) leaves in the scratch accumulator: its pieces read back over junk. -/
def sout0_B_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) : Vec F S2000x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- case C (type 3)'s pieces for the output window tile its block (one store of the whole block), so they cover it. -/
theorem cover0_C_5 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) (y : S2000x256.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S2000x256.size (by sl_kernel_rfl) y

/-- What case C (type 3) leaves in the output window's staging buffer: its pieces read back over junk. -/
def out0_C_5 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) : Vec F S2000x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- case C (type 3)'s pieces for the scratch accumulator cover it (whole-block stores). -/
theorem scover0_C_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) (y : S2000x256.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S2000x256.size (by sl_kernel_rfl) y

/-- What case C (type 3) leaves in the scratch accumulator: its pieces read back over junk. -/
def sout0_C_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) : Vec F S2000x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## What the output window and the accumulator hold after each point -/

/-- THE ACCUMULATION. What the output window's staging buffer and the scratch accumulator hold after the body at
    position `n`: the case the closed forms select at `n`, run at the point's memrefs and input blocks, the
    accumulator (cases B, C) at what this leaves at `n - 1`. The two conditions together meet no point. -/
def outsAt0 (c : Dev nD) : (n : ℕ) → n < cfg0.N → Vec F S2000x256 .f32 × Vec F S2000x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the region's own (the accumulator at
    anything); afterwards the accumulator at what the point before left in it, the other scoped buffers at some
    contents, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0 on core `c`: the arrays as the region finds them (`V`); after the body at point
    `t` each input's buffer at its block and the output's at `outsAt0`; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in;
    the invariant hands the body the accumulator at what the point before left (at anything at the first point),
    the other scoped buffers and the generator register pass through, and the accumulator comes back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · by_cases h1 : t.val % 4 = 3
    · exfalso; omega
    · rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := by omega
    by_cases h1 : t.val % 4 = 3
    · rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the accumulator's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 200 := N_0; omega)

end Cert.Kernel.Hand

end
-- ==== Proof.KernelR1Shared.lean ====
import proofs.«146249_j79809082294964_1_alg».proof.Proof.Gen.Kernel.Launch
import proofs.«146249_j79809082294964_1_alg».proof.Proof.Gen.Kernel.Skeleton
import proofs.«146249_j79809082294964_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if`: the type coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if`: the type coordinate is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Where the second condition fails, output 5 is idle: nothing is stored into it. -/
theorem idleAt1_5 : ∀ t : Fin cfg1.N, ¬cond1_1 (grid1.coords t) → cfg1.idle 5 (grid1.coords t) = true := by decide +kernel
/-- Where the second condition fails, output 5's block is not written back. -/
theorem noFlush1_5 : ∀ t : Fin cfg1.N, ¬cond1_1 (grid1.coords t) → (cfg1.win 5).flush t = false := by decide +kernel
/-- Where the second condition holds, output 5 is live: the body stores into it. -/
theorem liveAt1_5 : ∀ t : Fin cfg1.N, cond1_1 (grid1.coords t) → cfg1.idle 5 (grid1.coords t) = false := by decide +kernel
/-- Where the second condition holds, output 5's block is written back. -/
theorem flushAt1_5 : ∀ t : Fin cfg1.N, cond1_1 (grid1.coords t) → (cfg1.win 5).flush t = true := by decide +kernel
/-- The two conditions never hold together. -/
theorem not_cond1_0_and_1 : ∀ t : Fin cfg1.N, cond1_0 (grid1.coords t) → ¬cond1_1 (grid1.coords t) := by decide +kernel

/-! ## The staging memrefs and the scratch -/

/-- One staging buffer of output window 5, through which its contents are stated. -/
abbrev VO1_5 : View sig .tc .vmem S2000x128 .f32 := (Memref.whole cc1_stg5_0 : Memref sig .tc .vmem S2000x128 .f32).view
abbrev ms1_0 (t : Fin cfg1.N) : Memref sig .tc .vmem S1x2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x128 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S2000x128 .f32 := Memref.whole cc1_scratch0
/-- The scratch the kernel carries between points, as a view. -/
abbrev VS1_0 : View sig .tc .vmem S2000x128 .f32 := scM1_0.view

/-- The core's scoped buffers that are neither a staging buffer nor the scratch of this region, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The region's invariant, spelled out: the scoped buffers one by one, the scratch last as a memref owned at some contents,
    and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-- The invariant taken apart: the scratch, the other scoped buffers, the generator register. -/
theorem PhiA1_open (c : Dev nD) :
    (Pipeline.ΦA spec1 c : sProp 𝕄) ⊢ iprop((∃ d, owns (c : Thread nD τ) scM1_0 fullShare d) ∗ rest1 (F := F) c ∗ (∃ r, prngReg c r)) := by
  rw [PhiA1_eq]; unfold rest1
  iintro ⟨⟨B0, B1, B2, B3, B4, B5, B6, B7, B8, B9, B10, B11, B12, HS⟩, Hr⟩
  isplitl [HS]; · iexact HS
  isplitr [Hr]; swap; · iexact Hr
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  iexact B12

/-- The invariant put back together. -/
theorem PhiA1_close (c : Dev nD) :
    iprop((∃ d, owns (c : Thread nD τ) scM1_0 fullShare d) ∗ rest1 (F := F) c ∗ (∃ r, prngReg c r)) ⊢ (Pipeline.ΦA spec1 c : sProp 𝕄) := by
  rw [PhiA1_eq]; unfold rest1
  iintro ⟨HS, ⟨B0, B1, B2, B3, B4, B5, B6, B7, B8, B9, B10, B11, B12⟩, Hr⟩
  isplitr [Hr]; swap; · iexact Hr
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact HS

end Cert.Kernel.Hand

end
-- ==== Proof.KernelR1RunA.lean ====
import proofs.«146249_j79809082294964_1_alg».proof.Proof.KernelR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch, as pieces (last first), in the case where
    the first condition holds, the second fails (type coordinate 0): the scratch is overwritten before it is read; with the proof that on whole memrefs, the inputs' at their contents, the body runs
    to the continuation holding the inputs' as they were and each stored buffer with its pieces written. -/
noncomputable def kernelRun1_A (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) :
    Σ' (L5 : List (View.Piece (Elt F) S2000x128 .f32)), { LS0 : List (View.Piece (Elt F) S2000x128 .f32) //
      ∀ (xi5 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KernelR1RunB.lean ====
import proofs.«146249_j79809082294964_1_alg».proof.Proof.KernelR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch, as pieces (last first), in the case where
    both conditions fail (type coordinate 1 or 2): the scratch is read, then stored; with the proof that on whole memrefs, the inputs' at their contents, the body runs
    to the continuation holding the inputs' as they were and each stored buffer with its pieces written. -/
noncomputable def kernelRun1_B (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) :
    Σ' (L5 : List (View.Piece (Elt F) S2000x128 .f32)), { LS0 : List (View.Piece (Elt F) S2000x128 .f32) //
      ∀ (xi5 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KernelR1RunC.lean ====
import proofs.«146249_j79809082294964_1_alg».proof.Proof.KernelR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch, as pieces (last first), in the case where
    the first condition fails, the second holds (type coordinate 3): the scratch is read and stored, the output block stored; with the proof that on whole memrefs, the inputs' at their contents, the body runs
    to the continuation holding the inputs' as they were and each stored buffer with its pieces written. -/
noncomputable def kernelRun1_C (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) :
    Σ' (L5 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KernelR1Body.lean ====
import proofs.«146249_j79809082294964_1_alg».proof.Proof.KernelR1RunA
import proofs.«146249_j79809082294964_1_alg».proof.Proof.KernelR1RunB
import proofs.«146249_j79809082294964_1_alg».proof.Proof.KernelR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output's buffer and in the scratch -/

/-- In the case of type coordinate 0 nothing is stored into output 5 (the window is idle there and not written back): no pieces,
    a placeholder nothing consults. -/
def out1_A_5 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) : Vec F S2000x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- In the case of type coordinate 0 the pieces stored into the scratch tile it, so they cover it. -/
theorem scover1_A_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (y : S2000x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2000x128.size (by sl_kernel_rfl) y

/-- What that case leaves in the scratch: its pieces read back over junk. -/
def sout1_A_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) : Vec F S2000x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- In the case of type coordinate 1 or 2 nothing is stored into output 5 (the window is idle there and not written back): no pieces,
    a placeholder nothing consults. -/
def out1_B_5 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) : Vec F S2000x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- In the case of type coordinate 1 or 2 the pieces stored into the scratch tile it, so they cover it. -/
theorem scover1_B_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) (y : S2000x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2000x128.size (by sl_kernel_rfl) y

/-- What that case leaves in the scratch: its pieces read back over junk. -/
def sout1_B_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) : Vec F S2000x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- In the case of type coordinate 3 the pieces stored into output 5 tile its block, so they cover it. -/
theorem cover1_C_5 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) (y : S2000x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2000x128.size (by sl_kernel_rfl) y

/-- What that case leaves in output 5's staging buffer: its pieces read back over junk. -/
def out1_C_5 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) : Vec F S2000x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- In the case of type coordinate 3 the pieces stored into the scratch tile it, so they cover it. -/
theorem scover1_C_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) (y : S2000x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2000x128.size (by sl_kernel_rfl) y

/-- What that case leaves in the scratch: its pieces read back over junk. -/
def sout1_C_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) : Vec F S2000x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section Region1
-- the TensorCore's buffer contents when the region is entered
variable (V : (c : Dev nD) → (b : Ref sig .tc) → Buf (Elt F) ((c : Thread nD τ).loc b))

/-! ## What the output and the scratch hold after each point -/

/-- THE ACCUMULATION. What output 5's staging buffer and the scratch hold after the body at position `n`: the case the
    closed forms select at `n`, run at the point's memrefs and input blocks, the scratch read at what this leaves at `n - 1`. -/
def outsAt1 (c : Dev nD) : (n : ℕ) → n < cfg1.N → Vec F S2000x128 .f32 × Vec F S2000x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of type coordinate 0. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of type coordinate 1 or 2: over what the point before left in the scratch. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of type coordinate 3: over what the point before left in the scratch. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: the scratch, the other scoped buffers and the generator register; before the
    first point the scratch holds anything, afterwards what the point before left in it (`outsAt1`'s second component). -/
def PhiS1 (c : Dev nD) : (n : ℕ) → n ≤ cfg1.N → sProp 𝕄
  | 0, _ => iprop((∃ d, owns (c : Thread nD τ) scM1_0 fullShare d) ∗ rest1 (F := F) c ∗ (∃ r, prngReg c r))
  | n + 1, hn => iprop(owns (c : Thread nD τ) scM1_0 fullShare ((outsAt1 V c n hn).2) ∗ rest1 (F := F) c ∗ (∃ r, prngReg c r))

theorem PhiS1_zero (c : Dev nD) (n : ℕ) (h : n ≤ cfg1.N) (hz : n = 0) :
    PhiS1 V c n h = iprop((∃ d, owns (c : Thread nD τ) scM1_0 fullShare d) ∗ rest1 (F := F) c ∗ (∃ r, prngReg c r)) := by
  subst hz; rfl

/-- After point `n` (before point `n + 1`): the scratch at that point's contents. -/
theorem PhiS1_succ (c : Dev nD) (n : ℕ) (hn : n < cfg1.N) :
    PhiS1 V c (n + 1) hn = iprop(owns (c : Thread nD τ) scM1_0 fullShare ((outsAt1 V c n hn).2) ∗ rest1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ rest1 (F := F) c ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and output 5's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the invariant
    hands the body the scratch at what the point before left (at anything before the first point) with the other scoped buffers and
    the generator register, and takes the scratch back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 200 := lt_of_lt_of_eq t.isLt (show cfg1.N = 200 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨⟨HS0, HR, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_open c

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine Idealize.SL.BI.BIBase.Entails.trans ?_ (PhiA1_close c)
  iintro ⟨HS0, HR, Hg⟩
  isplitl [HS0]
  · iexists _; iexact HS0
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 200 := N_1; omega)

end Region1

end Cert.Kernel.Hand

end
-- ==== Proof.KernelRun.lean ====
import proofs.«146249_j79809082294964_1_alg».proof.Proof.KernelR0Body
import proofs.«146249_j79809082294964_1_alg».proof.Proof.KernelR1Body
import proofs.«146249_j79809082294964_1_alg».proof.Proof.Gen.Kernel.Launch
import proofs.«146249_j79809082294964_1_alg».proof.Proof.Gen.Kernel.Skeleton
import proofs.«146249_j79809082294964_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: each of its arrays at what the grid's write-backs leave in it, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: each of its arrays at what the grid's write-backs leave in it, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What each host stretch writes -/

/-- A single written reference that is on a list lies in the list's image. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references the first stretch's operations write, in order: one each. -/
abbrev hostOps0_W : List (Ref sig .tc) := [
    main_v0, main_v1, main_v2, main_v3, main_c, main_v4, main_v5, main_c_0, main_v6, main_v7, main_v8, main_v9,
    main_v10, main_cst, main_v11, main_v12, main_v13, main_cst_1, main_v14, main_cst_2, main_v15, main_v16, main_v17, main_cst_3,
    main_v18, main_v19, main_v20, main_v21, main_v22, main_v23, main_v24, main_v25, main_v26, main_c_4, main_v27, main_v28,
    main_c_5, main_v29, main_v30, main_v31, main_v32, main_v33, main_cst_6, main_v34, main_v35, main_v36, main_cst_7, main_v37,
    main_cst_8, main_v38, main_v39, main_v40, main_cst_9, main_v41, main_v42, main_v43, main_v44, main_v45, main_v46, main_v47,
    main_v48, main_v49, main_c_10, main_v50, main_v51, main_c_11, main_v52, main_v53, main_v54, main_v55, main_v56, main_cst_12,
    main_v57, main_v58, main_v59, main_cst_13, main_v60, main_cst_14, main_v61, main_v62, main_v63, main_cst_15, main_v64, main_v65,
    main_v66, main_v67, main_v68, main_v69, main_v70, main_v71, main_v72, main_c_16, main_v73, main_v74, main_c_17, main_v75,
    main_v76, main_v77, main_v78, main_v79, main_cst_18, main_v80, main_v81, main_v82, main_cst_19, main_v83, main_cst_20, main_v84,
    main_v85, main_v86, main_cst_21, main_v87, main_v88, main_v89, main_v90, main_v91, main_v92, main_v93, main_v94, main_v95,
    main_v96, main_v97 ]
/-- The references the second stretch's operations write, in order: one each. -/
abbrev hostOps1_W : List (Ref sig .tc) := [
    main_v99, main_v100, main_v101, main_v102, main_c_22, main_v103, main_v104, main_c_23, main_v105, main_v106, main_v107, main_v108,
    main_v109, main_cst_24, main_v110, main_v111, main_v112, main_cst_25, main_v113, main_cst_26, main_v114, main_v115, main_v116, main_cst_27,
    main_v117, main_v118, main_v119, main_v120, main_v121, main_v122, main_v123, main_v124, main_v125, main_c_28, main_v126, main_v127,
    main_c_29, main_v128, main_v129, main_v130, main_v131, main_v132, main_cst_30, main_v133, main_v134, main_v135, main_cst_31, main_v136,
    main_cst_32, main_v137, main_v138, main_v139, main_cst_33, main_v140, main_v141, main_v142, main_v143, main_v144, main_v145, main_v146,
    main_v147, main_v148, main_c_34, main_v149, main_v150, main_c_35, main_v151, main_v152, main_v153, main_v154, main_v155, main_cst_36,
    main_v156, main_v157, main_v158, main_cst_37, main_v159, main_cst_38, main_v160, main_v161, main_v162, main_cst_39, main_v163, main_v164,
    main_v165, main_v166, main_v167, main_v168, main_v169, main_v170, main_v171, main_c_40, main_v172, main_v173, main_c_41, main_v174,
    main_v175, main_v176, main_v177, main_v178, main_cst_42, main_v179, main_v180, main_v181, main_cst_43, main_v182, main_cst_44, main_v183,
    main_v184, main_v185, main_cst_45, main_v186, main_v187, main_v188, main_v189, main_v190, main_v191, main_v192, main_v193, main_v194,
    main_v195, main_v196 ]

set_option maxHeartbeats 4000000 in
theorem hostOps0_writes : (hostOps0 : List (HloOp τ sig (Elt F))).Forall fun op => op.writes ⊆ (hostOps0_W.map (Proc.devRef (τ := τ) .tc)).toFinset :=
  ⟨
    sub_of_mem (y := main_v0) (by decide), sub_of_mem (y := main_v1) (by decide), sub_of_mem (y := main_v2) (by decide), sub_of_mem (y := main_v3) (by decide),
    sub_of_mem (y := main_c) (by decide), sub_of_mem (y := main_v4) (by decide), sub_of_mem (y := main_v5) (by decide), sub_of_mem (y := main_c_0) (by decide),
    sub_of_mem (y := main_v6) (by decide), sub_of_mem (y := main_v7) (by decide), sub_of_mem (y := main_v8) (by decide), sub_of_mem (y := main_v9) (by decide),
    sub_of_mem (y := main_v10) (by decide), sub_of_mem (y := main_cst) (by decide), sub_of_mem (y := main_v11) (by decide), sub_of_mem (y := main_v12) (by decide),
    sub_of_mem (y := main_v13) (by decide), sub_of_mem (y := main_cst_1) (by decide), sub_of_mem (y := main_v14) (by decide), sub_of_mem (y := main_cst_2) (by decide),
    sub_of_mem (y := main_v15) (by decide), sub_of_mem (y := main_v16) (by decide), sub_of_mem (y := main_v17) (by decide), sub_of_mem (y := main_cst_3) (by decide),
    sub_of_mem (y := main_v18) (by decide), sub_of_mem (y := main_v19) (by decide), sub_of_mem (y := main_v20) (by decide), sub_of_mem (y := main_v21) (by decide),
    sub_of_mem (y := main_v22) (by decide), sub_of_mem (y := main_v23) (by decide), sub_of_mem (y := main_v24) (by decide), sub_of_mem (y := main_v25) (by decide),
    sub_of_mem (y := main_v26) (by decide), sub_of_mem (y := main_c_4) (by decide), sub_of_mem (y := main_v27) (by decide), sub_of_mem (y := main_v28) (by decide),
    sub_of_mem (y := main_c_5) (by decide), sub_of_mem (y := main_v29) (by decide), sub_of_mem (y := main_v30) (by decide), sub_of_mem (y := main_v31) (by decide),
    sub_of_mem (y := main_v32) (by decide), sub_of_mem (y := main_v33) (by decide), sub_of_mem (y := main_cst_6) (by decide), sub_of_mem (y := main_v34) (by decide),
    sub_of_mem (y := main_v35) (by decide), sub_of_mem (y := main_v36) (by decide), sub_of_mem (y := main_cst_7) (by decide), sub_of_mem (y := main_v37) (by decide),
    sub_of_mem (y := main_cst_8) (by decide), sub_of_mem (y := main_v38) (by decide), sub_of_mem (y := main_v39) (by decide), sub_of_mem (y := main_v40) (by decide),
    sub_of_mem (y := main_cst_9) (by decide), sub_of_mem (y := main_v41) (by decide), sub_of_mem (y := main_v42) (by decide), sub_of_mem (y := main_v43) (by decide),
    sub_of_mem (y := main_v44) (by decide), sub_of_mem (y := main_v45) (by decide), sub_of_mem (y := main_v46) (by decide), sub_of_mem (y := main_v47) (by decide),
    sub_of_mem (y := main_v48) (by decide), sub_of_mem (y := main_v49) (by decide), sub_of_mem (y := main_c_10) (by decide), sub_of_mem (y := main_v50) (by decide),
    sub_of_mem (y := main_v51) (by decide), sub_of_mem (y := main_c_11) (by decide), sub_of_mem (y := main_v52) (by decide), sub_of_mem (y := main_v53) (by decide),
    sub_of_mem (y := main_v54) (by decide), sub_of_mem (y := main_v55) (by decide), sub_of_mem (y := main_v56) (by decide), sub_of_mem (y := main_cst_12) (by decide),
    sub_of_mem (y := main_v57) (by decide), sub_of_mem (y := main_v58) (by decide), sub_of_mem (y := main_v59) (by decide), sub_of_mem (y := main_cst_13) (by decide),
    sub_of_mem (y := main_v60) (by decide), sub_of_mem (y := main_cst_14) (by decide), sub_of_mem (y := main_v61) (by decide), sub_of_mem (y := main_v62) (by decide),
    sub_of_mem (y := main_v63) (by decide), sub_of_mem (y := main_cst_15) (by decide), sub_of_mem (y := main_v64) (by decide), sub_of_mem (y := main_v65) (by decide),
    sub_of_mem (y := main_v66) (by decide), sub_of_mem (y := main_v67) (by decide), sub_of_mem (y := main_v68) (by decide), sub_of_mem (y := main_v69) (by decide),
    sub_of_mem (y := main_v70) (by decide), sub_of_mem (y := main_v71) (by decide), sub_of_mem (y := main_v72) (by decide), sub_of_mem (y := main_c_16) (by decide),
    sub_of_mem (y := main_v73) (by decide), sub_of_mem (y := main_v74) (by decide), sub_of_mem (y := main_c_17) (by decide), sub_of_mem (y := main_v75) (by decide),
    sub_of_mem (y := main_v76) (by decide), sub_of_mem (y := main_v77) (by decide), sub_of_mem (y := main_v78) (by decide), sub_of_mem (y := main_v79) (by decide),
    sub_of_mem (y := main_cst_18) (by decide), sub_of_mem (y := main_v80) (by decide), sub_of_mem (y := main_v81) (by decide), sub_of_mem (y := main_v82) (by decide),
    sub_of_mem (y := main_cst_19) (by decide), sub_of_mem (y := main_v83) (by decide), sub_of_mem (y := main_cst_20) (by decide), sub_of_mem (y := main_v84) (by decide),
    sub_of_mem (y := main_v85) (by decide), sub_of_mem (y := main_v86) (by decide), sub_of_mem (y := main_cst_21) (by decide), sub_of_mem (y := main_v87) (by decide),
    sub_of_mem (y := main_v88) (by decide), sub_of_mem (y := main_v89) (by decide), sub_of_mem (y := main_v90) (by decide), sub_of_mem (y := main_v91) (by decide),
    sub_of_mem (y := main_v92) (by decide), sub_of_mem (y := main_v93) (by decide), sub_of_mem (y := main_v94) (by decide), sub_of_mem (y := main_v95) (by decide),
    sub_of_mem (y := main_v96) (by decide), sub_of_mem (y := main_v97) (by decide) ⟩
set_option maxHeartbeats 4000000 in
theorem hostOps1_writes : (hostOps1 : List (HloOp τ sig (Elt F))).Forall fun op => op.writes ⊆ (hostOps1_W.map (Proc.devRef (τ := τ) .tc)).toFinset :=
  ⟨
    sub_of_mem (y := main_v99) (by decide), sub_of_mem (y := main_v100) (by decide), sub_of_mem (y := main_v101) (by decide), sub_of_mem (y := main_v102) (by decide),
    sub_of_mem (y := main_c_22) (by decide), sub_of_mem (y := main_v103) (by decide), sub_of_mem (y := main_v104) (by decide), sub_of_mem (y := main_c_23) (by decide),
    sub_of_mem (y := main_v105) (by decide), sub_of_mem (y := main_v106) (by decide), sub_of_mem (y := main_v107) (by decide), sub_of_mem (y := main_v108) (by decide),
    sub_of_mem (y := main_v109) (by decide), sub_of_mem (y := main_cst_24) (by decide), sub_of_mem (y := main_v110) (by decide), sub_of_mem (y := main_v111) (by decide),
    sub_of_mem (y := main_v112) (by decide), sub_of_mem (y := main_cst_25) (by decide), sub_of_mem (y := main_v113) (by decide), sub_of_mem (y := main_cst_26) (by decide),
    sub_of_mem (y := main_v114) (by decide), sub_of_mem (y := main_v115) (by decide), sub_of_mem (y := main_v116) (by decide), sub_of_mem (y := main_cst_27) (by decide),
    sub_of_mem (y := main_v117) (by decide), sub_of_mem (y := main_v118) (by decide), sub_of_mem (y := main_v119) (by decide), sub_of_mem (y := main_v120) (by decide),
    sub_of_mem (y := main_v121) (by decide), sub_of_mem (y := main_v122) (by decide), sub_of_mem (y := main_v123) (by decide), sub_of_mem (y := main_v124) (by decide),
    sub_of_mem (y := main_v125) (by decide), sub_of_mem (y := main_c_28) (by decide), sub_of_mem (y := main_v126) (by decide), sub_of_mem (y := main_v127) (by decide),
    sub_of_mem (y := main_c_29) (by decide), sub_of_mem (y := main_v128) (by decide), sub_of_mem (y := main_v129) (by decide), sub_of_mem (y := main_v130) (by decide),
    sub_of_mem (y := main_v131) (by decide), sub_of_mem (y := main_v132) (by decide), sub_of_mem (y := main_cst_30) (by decide), sub_of_mem (y := main_v133) (by decide),
    sub_of_mem (y := main_v134) (by decide), sub_of_mem (y := main_v135) (by decide), sub_of_mem (y := main_cst_31) (by decide), sub_of_mem (y := main_v136) (by decide),
    sub_of_mem (y := main_cst_32) (by decide), sub_of_mem (y := main_v137) (by decide), sub_of_mem (y := main_v138) (by decide), sub_of_mem (y := main_v139) (by decide),
    sub_of_mem (y := main_cst_33) (by decide), sub_of_mem (y := main_v140) (by decide), sub_of_mem (y := main_v141) (by decide), sub_of_mem (y := main_v142) (by decide),
    sub_of_mem (y := main_v143) (by decide), sub_of_mem (y := main_v144) (by decide), sub_of_mem (y := main_v145) (by decide), sub_of_mem (y := main_v146) (by decide),
    sub_of_mem (y := main_v147) (by decide), sub_of_mem (y := main_v148) (by decide), sub_of_mem (y := main_c_34) (by decide), sub_of_mem (y := main_v149) (by decide),
    sub_of_mem (y := main_v150) (by decide), sub_of_mem (y := main_c_35) (by decide), sub_of_mem (y := main_v151) (by decide), sub_of_mem (y := main_v152) (by decide),
    sub_of_mem (y := main_v153) (by decide), sub_of_mem (y := main_v154) (by decide), sub_of_mem (y := main_v155) (by decide), sub_of_mem (y := main_cst_36) (by decide),
    sub_of_mem (y := main_v156) (by decide), sub_of_mem (y := main_v157) (by decide), sub_of_mem (y := main_v158) (by decide), sub_of_mem (y := main_cst_37) (by decide),
    sub_of_mem (y := main_v159) (by decide), sub_of_mem (y := main_cst_38) (by decide), sub_of_mem (y := main_v160) (by decide), sub_of_mem (y := main_v161) (by decide),
    sub_of_mem (y := main_v162) (by decide), sub_of_mem (y := main_cst_39) (by decide), sub_of_mem (y := main_v163) (by decide), sub_of_mem (y := main_v164) (by decide),
    sub_of_mem (y := main_v165) (by decide), sub_of_mem (y := main_v166) (by decide), sub_of_mem (y := main_v167) (by decide), sub_of_mem (y := main_v168) (by decide),
    sub_of_mem (y := main_v169) (by decide), sub_of_mem (y := main_v170) (by decide), sub_of_mem (y := main_v171) (by decide), sub_of_mem (y := main_c_40) (by decide),
    sub_of_mem (y := main_v172) (by decide), sub_of_mem (y := main_v173) (by decide), sub_of_mem (y := main_c_41) (by decide), sub_of_mem (y := main_v174) (by decide),
    sub_of_mem (y := main_v175) (by decide), sub_of_mem (y := main_v176) (by decide), sub_of_mem (y := main_v177) (by decide), sub_of_mem (y := main_v178) (by decide),
    sub_of_mem (y := main_cst_42) (by decide), sub_of_mem (y := main_v179) (by decide), sub_of_mem (y := main_v180) (by decide), sub_of_mem (y := main_v181) (by decide),
    sub_of_mem (y := main_cst_43) (by decide), sub_of_mem (y := main_v182) (by decide), sub_of_mem (y := main_cst_44) (by decide), sub_of_mem (y := main_v183) (by decide),
    sub_of_mem (y := main_v184) (by decide), sub_of_mem (y := main_v185) (by decide), sub_of_mem (y := main_cst_45) (by decide), sub_of_mem (y := main_v186) (by decide),
    sub_of_mem (y := main_v187) (by decide), sub_of_mem (y := main_v188) (by decide), sub_of_mem (y := main_v189) (by decide), sub_of_mem (y := main_v190) (by decide),
    sub_of_mem (y := main_v191) (by decide), sub_of_mem (y := main_v192) (by decide), sub_of_mem (y := main_v193) (by decide), sub_of_mem (y := main_v194) (by decide),
    sub_of_mem (y := main_v195) (by decide), sub_of_mem (y := main_v196) (by decide) ⟩

/-! ## What each boundary leaves unchanged -/

/-- A reference the first stretch does not write holds after it what it held before. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A reference the second stretch does not write holds after it what it held before. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- Of region 0's windows only the last is an output. -/
theorem isOut0_of_ne : ∀ w : Fin cfg0.W, Pipeline.arrRef spec0 w ≠ Pipeline.arrRef spec0 5 → (cfg0.win w).isOut = false := by decide
/-- Of region 1's windows only the last is an output. -/
theorem isOut1_of_ne : ∀ w : Fin cfg1.W, Pipeline.arrRef spec1 w ≠ Pipeline.arrRef spec1 5 → (cfg1.win w).isOut = false := by decide

/-- Across region 0 every buffer but its output array keeps its entry contents: an input window's array is never
    written back, and a reference that is no window's array bypasses the region. -/
theorem W2_of_ne_out (c : Dev nD) (b : Ref sig .tc) (hb : b ≠ Pipeline.arrRef spec0 5) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (isOut0_of_ne w hb) _).trans (A_eq0 (V1 m ρ) c w))
  · exact W2_of_ne m ρ c b fun w e => h ⟨w, e⟩
/-- Across region 1 every buffer but its output array keeps its entry contents. -/
theorem W4_of_ne_out (c : Dev nD) (b : Ref sig .tc) (hb : b ≠ Pipeline.arrRef spec1 5) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (isOut1_of_ne w hb) _).trans (A_eq1 (V3 m ρ) c w))
  · exact W4_of_ne m ρ c b fun w e => h ⟨w, e⟩

/-! ### The arguments end as launched: no host operation writes one and no region writes one back -/

/-- The launch contents read at a TensorCore reference are the launch memory there. -/
theorem W0_apply (c : Dev nD) (b : Ref sig .tc) : W0 m ρ c (Proc.devRef .tc b) = m ((c : Thread nD τ).loc b) := rfl

/-- `main_arg0` at region 0's exit is as launched: the first host stretch does not write it and region 0 does not write it back. -/
theorem W2_main_arg0 (c : Dev nD) : W2 m ρ c (Proc.devRef .tc main_arg0) = m ((c : Thread nD τ).loc main_arg0) :=
  (W2_of_ne_out m ρ c main_arg0 (by decide)).trans <| (W1_of m ρ c main_arg0 (by decide)).trans (W0_apply m ρ c main_arg0)
/-- The argument ends as launched: as launched at region 0's exit, and neither the second host stretch nor region 1 writes it. -/
theorem W4_main_arg0 (c : Dev nD) : W4 m ρ c (Proc.devRef .tc main_arg0) = m ((c : Thread nD τ).loc main_arg0) :=
  (W4_of_ne_out m ρ c main_arg0 (by decide)).trans <| (W3_of m ρ c main_arg0 (by decide)).trans (W2_main_arg0 m ρ c)
/-- `main_arg1` at region 0's exit is as launched: the first host stretch does not write it and region 0 does not write it back. -/
theorem W2_main_arg1 (c : Dev nD) : W2 m ρ c (Proc.devRef .tc main_arg1) = m ((c : Thread nD τ).loc main_arg1) :=
  (W2_of_ne_out m ρ c main_arg1 (by decide)).trans <| (W1_of m ρ c main_arg1 (by decide)).trans (W0_apply m ρ c main_arg1)
/-- The argument ends as launched: as launched at region 0's exit, and neither the second host stretch nor region 1 writes it. -/
theorem W4_main_arg1 (c : Dev nD) : W4 m ρ c (Proc.devRef .tc main_arg1) = m ((c : Thread nD τ).loc main_arg1) :=
  (W4_of_ne_out m ρ c main_arg1 (by decide)).trans <| (W3_of m ρ c main_arg1 (by decide)).trans (W2_main_arg1 m ρ c)
/-- `main_arg2` at region 0's exit is as launched: the first host stretch does not write it and region 0 does not write it back. -/
theorem W2_main_arg2 (c : Dev nD) : W2 m ρ c (Proc.devRef .tc main_arg2) = m ((c : Thread nD τ).loc main_arg2) :=
  (W2_of_ne_out m ρ c main_arg2 (by decide)).trans <| (W1_of m ρ c main_arg2 (by decide)).trans (W0_apply m ρ c main_arg2)
/-- The argument ends as launched: as launched at region 0's exit, and neither the second host stretch nor region 1 writes it. -/
theorem W4_main_arg2 (c : Dev nD) : W4 m ρ c (Proc.devRef .tc main_arg2) = m ((c : Thread nD τ).loc main_arg2) :=
  (W4_of_ne_out m ρ c main_arg2 (by decide)).trans <| (W3_of m ρ c main_arg2 (by decide)).trans (W2_main_arg2 m ρ c)
/-- `main_arg3` at region 0's exit is as launched: the first host stretch does not write it and region 0 does not write it back. -/
theorem W2_main_arg3 (c : Dev nD) : W2 m ρ c (Proc.devRef .tc main_arg3) = m ((c : Thread nD τ).loc main_arg3) :=
  (W2_of_ne_out m ρ c main_arg3 (by decide)).trans <| (W1_of m ρ c main_arg3 (by decide)).trans (W0_apply m ρ c main_arg3)
/-- The argument ends as launched: as launched at region 0's exit, and neither the second host stretch nor region 1 writes it. -/
theorem W4_main_arg3 (c : Dev nD) : W4 m ρ c (Proc.devRef .tc main_arg3) = m ((c : Thread nD τ).loc main_arg3) :=
  (W4_of_ne_out m ρ c main_arg3 (by decide)).trans <| (W3_of m ρ c main_arg3 (by decide)).trans (W2_main_arg3 m ρ c)
/-- `main_arg4` at region 0's exit is as launched: the first host stretch does not write it and region 0 does not write it back. -/
theorem W2_main_arg4 (c : Dev nD) : W2 m ρ c (Proc.devRef .tc main_arg4) = m ((c : Thread nD τ).loc main_arg4) :=
  (W2_of_ne_out m ρ c main_arg4 (by decide)).trans <| (W1_of m ρ c main_arg4 (by decide)).trans (W0_apply m ρ c main_arg4)
/-- The argument ends as launched: as launched at region 0's exit, and neither the second host stretch nor region 1 writes it. -/
theorem W4_main_arg4 (c : Dev nD) : W4 m ρ c (Proc.devRef .tc main_arg4) = m ((c : Thread nD τ).loc main_arg4) :=
  (W4_of_ne_out m ρ c main_arg4 (by decide)).trans <| (W3_of m ρ c main_arg4 (by decide)).trans (W2_main_arg4 m ρ c)
/-- `main_arg5` at region 0's exit is as launched: the first host stretch does not write it and region 0 does not write it back. -/
theorem W2_main_arg5 (c : Dev nD) : W2 m ρ c (Proc.devRef .tc main_arg5) = m ((c : Thread nD τ).loc main_arg5) :=
  (W2_of_ne_out m ρ c main_arg5 (by decide)).trans <| (W1_of m ρ c main_arg5 (by decide)).trans (W0_apply m ρ c main_arg5)
/-- The argument ends as launched: as launched at region 0's exit, and neither the second host stretch nor region 1 writes it. -/
theorem W4_main_arg5 (c : Dev nD) : W4 m ρ c (Proc.devRef .tc main_arg5) = m ((c : Thread nD τ).loc main_arg5) :=
  (W4_of_ne_out m ρ c main_arg5 (by decide)).trans <| (W3_of m ρ c main_arg5 (by decide)).trans (W2_main_arg5 m ρ c)
/-- `main_arg6` at region 0's exit is as launched: the first host stretch does not write it and region 0 does not write it back. -/
theorem W2_main_arg6 (c : Dev nD) : W2 m ρ c (Proc.devRef .tc main_arg6) = m ((c : Thread nD τ).loc main_arg6) :=
  (W2_of_ne_out m ρ c main_arg6 (by decide)).trans <| (W1_of m ρ c main_arg6 (by decide)).trans (W0_apply m ρ c main_arg6)
/-- The argument ends as launched: as launched at region 0's exit, and neither the second host stretch nor region 1 writes it. -/
theorem W4_main_arg6 (c : Dev nD) : W4 m ρ c (Proc.devRef .tc main_arg6) = m ((c : Thread nD τ).loc main_arg6) :=
  (W4_of_ne_out m ρ c main_arg6 (by decide)).trans <| (W3_of m ρ c main_arg6 (by decide)).trans (W2_main_arg6 m ρ c)
/-- `main_arg7` at region 0's exit is as launched: the first host stretch does not write it and region 0 does not write it back. -/
theorem W2_main_arg7 (c : Dev nD) : W2 m ρ c (Proc.devRef .tc main_arg7) = m ((c : Thread nD τ).loc main_arg7) :=
  (W2_of_ne_out m ρ c main_arg7 (by decide)).trans <| (W1_of m ρ c main_arg7 (by decide)).trans (W0_apply m ρ c main_arg7)
/-- The argument ends as launched: as launched at region 0's exit, and neither the second host stretch nor region 1 writes it. -/
theorem W4_main_arg7 (c : Dev nD) : W4 m ρ c (Proc.devRef .tc main_arg7) = m ((c : Thread nD τ).loc main_arg7) :=
  (W4_of_ne_out m ρ c main_arg7 (by decide)).trans <| (W3_of m ρ c main_arg7 (by decide)).trans (W2_main_arg7 m ρ c)

/-- The result buffer ends holding what region 1's write-backs leave in its output array. -/
theorem W4_result (c : Dev nD) : W4 m ρ c (Proc.devRef .tc main_v197) = (dat1 (V3 m ρ) c).arrAt 5 cfg1.N :=
  W4_arr m ρ c 5
/-- Region 0's output array at region 0's exit: what its write-backs leave in it, -/
theorem W2_v98 (c : Dev nD) : W2 m ρ c (Proc.devRef .tc main_v98) = (dat0 (V1 m ρ) c).arrAt 5 cfg0.N :=
  W2_arr m ρ c 5
/-- and the second host stretch does not write it. -/
theorem W3_v98 (c : Dev nD) : W3 m ρ c (Proc.devRef .tc main_v98) = W2 m ρ c (Proc.devRef .tc main_v98) :=
  W3_of m ρ c main_v98 (by decide)

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first stretch allocates a buffer. -/
theorem hostOps0_fresh : (hostOps0 : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl ⟩
set_option maxHeartbeats 4000000 in
/-- No operation of the second stretch allocates a buffer. -/
theorem hostOps1_fresh : (hostOps1 : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl ⟩
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! # The regions as segments -/

set_option backward.isDefEq.respectTransparency.types false in
/-- REGION 0 over the thread state: entered from every unscoped buffer at `W1`, left at the next boundary's
    contents. Its arrays split out of the unscoped buffers and put back at the exit contents; the generator register
    and the scoped buffers no window stages go into the body's invariant at the first point and come back from it at
    the last (`hin`/`hout` of the region's body: the launch's class invariant entails the invariant before the first point, and the invariant after the last point entails it back); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at the next boundary's
    contents. Its arrays split out of the unscoped buffers and put back at the exit contents; the generator register
    and the scoped buffers no window stages go into the body's invariant at the first point and come back from it at
    the last (the body module's two entailments); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments: it is the chain of its four items, and the segments' run is that chain by definition. -/
theorem main_run (c : Dev nD) : main (F := F) c = Pipeline.Seg.run (segs m ρ) := (main_chain c).trans (by chain_rfl)

set_option backward.isDefEq.respectTransparency.types false in
/-- THE LAUNCH: from any memory with zero counters every weakly fair execution of @main on the TensorCores
    terminates, nothing faulting, and every final memory holds each unscoped buffer at the last boundary's contents
    — stated against any post those readings imply. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- Every final memory of @main holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ fun _ h => h

/-- THE FRAME: @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩

end Cert.Kernel.Hand

end
-- ==== Proof.KernelIdealR0Shared.lean ====
/-
  Region 0 (the first layer's kernel, grid 50 × 4): what its three control cases share — each window's block at a
  point read off the contents the region is entered with, the two branch conditions in closed form over the grid,
  where the output window is idle, the staging and scratch memrefs, and the region's invariant with the scratch
  accumulator split off.
-/
import proofs.«146249_j79809082294964_1_alg».proof.Proof.Gen.KernelIdeal.Launch
import proofs.«146249_j79809082294964_1_alg».proof.Proof.Gen.KernelIdeal.Skeleton
import proofs.«146249_j79809082294964_1_alg».proof.Proof.Gen.KernelIdeal.Points
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if`: the type coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 4) — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if`: the type coordinate is 3. -/
abbrev cond0_1 (i : grid0.Coords) : Prop := k0_cond2 i = 1#1
/-- It holds at the points ≡ 3 (mod 4) — decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the output window is idle -/

/-- Case A (type 0): the output window is idle, and not written back. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- Case B (types 1, 2): the output window is idle, and not written back. -/
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- Case C (type 3): the output window is live. -/
theorem liveAt0_5_C : ∀ t : Fin cfg0.N, ¬cond0_0 (grid0.coords t) → cond0_1 (grid0.coords t) → cfg0.idle 5 (grid0.coords t) = false := by decide +kernel
/-- The two conditions never hold together. -/
theorem not_both0 : ∀ t : Fin cfg0.N, cond0_0 (grid0.coords t) → ¬cond0_1 (grid0.coords t) := by decide +kernel

/-! ## The staging and scratch memrefs -/

/-- One staging buffer of output window 5, through which its contents are stated (the choice does not matter). -/
abbrev VO0_5 : View sig .tc .vmem S2000x256 .f32 := (Memref.whole cc0_stg5_0 : Memref sig .tc .vmem S2000x256 .f32).view
/-- Each window's current staging memref at point `t`, and its wholeness. -/
abbrev ms0_0 (t : Fin cfg0.N) : Memref sig .tc .vmem S1x2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2000x256 .f32 := win0_5.stage (cfg0.slots t 5)
abbrev hs0_5 (t : Fin cfg0.N) : (ms0_5 t).IsWhole := hstage0_5 ((cfg0.slots t 5).cast nbuf0_5)
/-- The scratch accumulator: a whole scoped buffer of the kernel's own, passed beside the windows. -/
abbrev scM0_0 : Memref sig .tc .vmem S2000x256 .f32 := Memref.whole cc0_scratch0
/-- The scratch accumulator as a view: what it holds is stated through it. -/
abbrev VS0_0 : View sig .tc .vmem S2000x256 .f32 := scM0_0.view

/-! ## The region's invariant -/

/-- The core's scoped buffers that region 0 neither stages through nor accumulates in, each whole at some contents:
    they pass through the region untouched. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- The region's invariant with the scratch accumulator as a memref owned at some contents, the other scoped
    buffers beside it. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.KernelIdeal.Hand

end
-- ==== Proof.KernelIdealR0RunA.lean ====
/-
  Region 0's kernel body run in case A (type coordinate 0: the accumulator is zeroed before it is read, the output window is left alone).
-/
import proofs.«146249_j79809082294964_1_alg».proof.Proof.KernelIdealR0Shared

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the scratch accumulator, as pieces
    (last first), in case A (type coordinate 0: the accumulator is zeroed before it is read, the output window is left alone), with the proof that on whole memrefs — the
    inputs' at their contents `x·`, the idle output's at contents `xi5` handed back untouched, the accumulator's at anything —
    the body runs to the continuation holding the inputs' as they were and each stored buffer with its pieces
    written. The pieces are the witness the run finds. -/
noncomputable def kernelRun0_A (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) :
    Σ' (L5 : List (View.Piece (Elt F) S2000x256 .f32)), { LS0 : List (View.Piece (Elt F) S2000x256 .f32) //
      ∀ (xi5 : Vec F S2000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdealR0RunB.lean ====
/-
  Region 0's kernel body run in case B (type coordinate 1 or 2: the accumulator is read and stored, the output window is left alone).
-/
import proofs.«146249_j79809082294964_1_alg».proof.Proof.KernelIdealR0Shared

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the scratch accumulator, as pieces
    (last first), in case B (type coordinate 1 or 2: the accumulator is read and stored, the output window is left alone), with the proof that on whole memrefs — the
    inputs' at their contents `x·`, the idle output's at contents `xi5` handed back untouched, the accumulator's at the contents `xs0` the point before left —
    the body runs to the continuation holding the inputs' as they were and each stored buffer with its pieces
    written. The pieces are the witness the run finds. -/
noncomputable def kernelRun0_B (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) :
    Σ' (L5 : List (View.Piece (Elt F) S2000x256 .f32)), { LS0 : List (View.Piece (Elt F) S2000x256 .f32) //
      ∀ (xi5 : Vec F S2000x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdealR0RunC.lean ====
/-
  Region 0's kernel body run in case C (type coordinate 3: the accumulator is read and stored, then the output window is stored).
-/
import proofs.«146249_j79809082294964_1_alg».proof.Proof.KernelIdealR0Shared

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output window's staging memref and in the scratch accumulator, as pieces
    (last first), in case C (type coordinate 3: the accumulator is read and stored, then the output window is stored), with the proof that on whole memrefs — the
    inputs' at their contents `x·`, the output's at anything, the accumulator's at the contents `xs0` the point before left —
    the body runs to the continuation holding the inputs' as they were and each stored buffer with its pieces
    written. The pieces are the witness the run finds. -/
noncomputable def kernelRun0_C (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) :
    Σ' (L5 : List (View.Piece (Elt F) S2000x256 .f32)), { LS0 : List (View.Piece (Elt F) S2000x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KernelIdealR0Body.lean ====
/-
  Region 0's body obligation: what each control case leaves in the output window and in the scratch accumulator
  (its pieces read back), the accumulation over the grid's points, the region's proof data with the accumulator
  tracked by the invariant, and the obligation at every point by cases on the type coordinate; then what each
  case leaves as a term of the point's input blocks and of what the point before left.
-/
import proofs.«146249_j79809082294964_1_alg».proof.Proof.KernelIdealR0RunA
import proofs.«146249_j79809082294964_1_alg».proof.Proof.KernelIdealR0RunB
import proofs.«146249_j79809082294964_1_alg».proof.Proof.KernelIdealR0RunC

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- case A (type 0) stores nothing into the output window (idle there and not written back): no pieces — a
    placeholder nothing consults. -/
def out0_A_5 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) : Vec F S2000x256 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- case A (type 0)'s pieces for the scratch accumulator cover it (whole-block stores). -/
theorem scover0_A_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (y : S2000x256.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S2000x256.size (by sl_kernel_rfl) y

/-- What case A (type 0) leaves in the scratch accumulator: its pieces read back over junk. -/
def sout0_A_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) : Vec F S2000x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- case B (types 1, 2) stores nothing into the output window (idle there and not written back): no pieces — a
    placeholder nothing consults. -/
def out0_B_5 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) : Vec F S2000x256 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- case B (types 1, 2)'s pieces for the scratch accumulator cover it (whole-block stores). -/
theorem scover0_B_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) (y : S2000x256.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S2000x256.size (by sl_kernel_rfl) y

/-- What case B (types 1, 2) leaves in the scratch accumulator: its pieces read back over junk. -/
def sout0_B_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) : Vec F S2000x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- case C (type 3)'s pieces for the output window tile its block (one store of the whole block), so they cover it. -/
theorem cover0_C_5 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) (y : S2000x256.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S2000x256.size (by sl_kernel_rfl) y

/-- What case C (type 3) leaves in the output window's staging buffer: its pieces read back over junk. -/
def out0_C_5 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) : Vec F S2000x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- case C (type 3)'s pieces for the scratch accumulator cover it (whole-block stores). -/
theorem scover0_C_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) (y : S2000x256.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S2000x256.size (by sl_kernel_rfl) y

/-- What case C (type 3) leaves in the scratch accumulator: its pieces read back over junk. -/
def sout0_C_0 (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) : Vec F S2000x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## What the output window and the accumulator hold after each point -/

/-- THE ACCUMULATION. What the output window's staging buffer and the scratch accumulator hold after the body at
    position `n`: the case the closed forms select at `n`, run at the point's memrefs and input blocks, the
    accumulator (cases B, C) at what this leaves at `n - 1`. The two conditions together meet no point. -/
def outsAt0 (c : Dev nD) : (n : ℕ) → n < cfg0.N → Vec F S2000x256 .f32 × Vec F S2000x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 4 = 0 then
      if h1 : (n + 1) % 4 = 3 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 4 = 3 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the region's own (the accumulator at
    anything); afterwards the accumulator at what the point before left in it, the other scoped buffers at some
    contents, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0 on core `c`: the arrays as the region finds them (`V`); after the body at point
    `t` each input's buffer at its block and the output's at `outsAt0`; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in;
    the invariant hands the body the accumulator at what the point before left (at anything at the first point),
    the other scoped buffers and the generator register pass through, and the accumulator comes back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · by_cases h1 : t.val % 4 = 3
    · exfalso; omega
    · rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS0, Hr⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := by omega
    by_cases h1 : t.val % 4 = 3
    · rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hr⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the accumulator's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 200 := N_0; omega)

end Cert.KernelIdeal.Hand

end
-- ==== Proof.KernelIdealR1Shared.lean ====
import proofs.«146249_j79809082294964_1_alg».proof.Proof.Gen.KernelIdeal.Launch
import proofs.«146249_j79809082294964_1_alg».proof.Proof.Gen.KernelIdeal.Skeleton
import proofs.«146249_j79809082294964_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if`: the type coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second `scf.if`: the type coordinate is 3. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

/-- Where the second condition fails, output 5 is idle: nothing is stored into it. -/
theorem idleAt1_5 : ∀ t : Fin cfg1.N, ¬cond1_1 (grid1.coords t) → cfg1.idle 5 (grid1.coords t) = true := by decide +kernel
/-- Where the second condition fails, output 5's block is not written back. -/
theorem noFlush1_5 : ∀ t : Fin cfg1.N, ¬cond1_1 (grid1.coords t) → (cfg1.win 5).flush t = false := by decide +kernel
/-- Where the second condition holds, output 5 is live: the body stores into it. -/
theorem liveAt1_5 : ∀ t : Fin cfg1.N, cond1_1 (grid1.coords t) → cfg1.idle 5 (grid1.coords t) = false := by decide +kernel
/-- Where the second condition holds, output 5's block is written back. -/
theorem flushAt1_5 : ∀ t : Fin cfg1.N, cond1_1 (grid1.coords t) → (cfg1.win 5).flush t = true := by decide +kernel
/-- The two conditions never hold together. -/
theorem not_cond1_0_and_1 : ∀ t : Fin cfg1.N, cond1_0 (grid1.coords t) → ¬cond1_1 (grid1.coords t) := by decide +kernel

/-! ## The staging memrefs and the scratch -/

/-- One staging buffer of output window 5, through which its contents are stated. -/
abbrev VO1_5 : View sig .tc .vmem S2000x128 .f32 := (Memref.whole cc1_stg5_0 : Memref sig .tc .vmem S2000x128 .f32).view
abbrev ms1_0 (t : Fin cfg1.N) : Memref sig .tc .vmem S1x2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x128 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S2000x128 .f32 := Memref.whole cc1_scratch0
/-- The scratch the kernel carries between points, as a view. -/
abbrev VS1_0 : View sig .tc .vmem S2000x128 .f32 := scM1_0.view

/-- The core's scoped buffers that are neither a staging buffer nor the scratch of this region, each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The region's invariant, spelled out: the scoped buffers one by one, the scratch last as a memref owned at some contents,
    and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

/-- The invariant taken apart: the scratch, the other scoped buffers, the generator register. -/
theorem PhiA1_open (c : Dev nD) :
    (Pipeline.ΦA spec1 c : sProp 𝕄) ⊢ iprop((∃ d, owns (c : Thread nD τ) scM1_0 fullShare d) ∗ rest1 (F := F) c ∗ (∃ r, prngReg c r)) := by
  rw [PhiA1_eq]; unfold rest1
  iintro ⟨⟨B0, B1, B2, B3, B4, B5, B6, B7, B8, B9, B10, B11, B12, HS⟩, Hr⟩
  isplitl [HS]; · iexact HS
  isplitr [Hr]; swap; · iexact Hr
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  iexact B12

/-- The invariant put back together. -/
theorem PhiA1_close (c : Dev nD) :
    iprop((∃ d, owns (c : Thread nD τ) scM1_0 fullShare d) ∗ rest1 (F := F) c ∗ (∃ r, prngReg c r)) ⊢ (Pipeline.ΦA spec1 c : sProp 𝕄) := by
  rw [PhiA1_eq]; unfold rest1
  iintro ⟨HS, ⟨B0, B1, B2, B3, B4, B5, B6, B7, B8, B9, B10, B11, B12⟩, Hr⟩
  isplitr [Hr]; swap; · iexact Hr
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  iexact HS

end Cert.KernelIdeal.Hand

end
-- ==== Proof.KernelIdealR1RunA.lean ====
import proofs.«146249_j79809082294964_1_alg».proof.Proof.KernelIdealR1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch, as pieces (last first), in the case where
    the first condition holds, the second fails (type coordinate 0): the scratch is overwritten before it is read; with the proof that on whole memrefs, the inputs' at their contents, the body runs
    to the continuation holding the inputs' as they were and each stored buffer with its pieces written. -/
noncomputable def kernelRun1_A (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) :
    Σ' (L5 : List (View.Piece (Elt F) S2000x128 .f32)), { LS0 : List (View.Piece (Elt F) S2000x128 .f32) //
      ∀ (xi5 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdealR1RunB.lean ====
import proofs.«146249_j79809082294964_1_alg».proof.Proof.KernelIdealR1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch, as pieces (last first), in the case where
    both conditions fail (type coordinate 1 or 2): the scratch is read, then stored; with the proof that on whole memrefs, the inputs' at their contents, the body runs
    to the continuation holding the inputs' as they were and each stored buffer with its pieces written. -/
noncomputable def kernelRun1_B (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) :
    Σ' (L5 : List (View.Piece (Elt F) S2000x128 .f32)), { LS0 : List (View.Piece (Elt F) S2000x128 .f32) //
      ∀ (xi5 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KernelIdealR1RunC.lean ====
import proofs.«146249_j79809082294964_1_alg».proof.Proof.KernelIdealR1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's staging memref and in the scratch, as pieces (last first), in the case where
    the first condition fails, the second holds (type coordinate 3): the scratch is read and stored, the output block stored; with the proof that on whole memrefs, the inputs' at their contents, the body runs
    to the continuation holding the inputs' as they were and each stored buffer with its pieces written. -/
noncomputable def kernelRun1_C (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) :
    Σ' (L5 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KernelIdealR1Body.lean ====
import proofs.«146249_j79809082294964_1_alg».proof.Proof.KernelIdealR1RunA
import proofs.«146249_j79809082294964_1_alg».proof.Proof.KernelIdealR1RunB
import proofs.«146249_j79809082294964_1_alg».proof.Proof.KernelIdealR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output's buffer and in the scratch -/

/-- In the case of type coordinate 0 nothing is stored into output 5 (the window is idle there and not written back): no pieces,
    a placeholder nothing consults. -/
def out1_A_5 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) : Vec F S2000x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- In the case of type coordinate 0 the pieces stored into the scratch tile it, so they cover it. -/
theorem scover1_A_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (y : S2000x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S2000x128.size (by sl_kernel_rfl) y

/-- What that case leaves in the scratch: its pieces read back over junk. -/
def sout1_A_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) : Vec F S2000x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- In the case of type coordinate 1 or 2 nothing is stored into output 5 (the window is idle there and not written back): no pieces,
    a placeholder nothing consults. -/
def out1_B_5 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) : Vec F S2000x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- In the case of type coordinate 1 or 2 the pieces stored into the scratch tile it, so they cover it. -/
theorem scover1_B_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) (y : S2000x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S2000x128.size (by sl_kernel_rfl) y

/-- What that case leaves in the scratch: its pieces read back over junk. -/
def sout1_B_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) : Vec F S2000x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- In the case of type coordinate 3 the pieces stored into output 5 tile its block, so they cover it. -/
theorem cover1_C_5 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) (y : S2000x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S2000x128.size (by sl_kernel_rfl) y

/-- What that case leaves in output 5's staging buffer: its pieces read back over junk. -/
def out1_C_5 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) : Vec F S2000x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- In the case of type coordinate 3 the pieces stored into the scratch tile it, so they cover it. -/
theorem scover1_C_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) (y : S2000x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S2000x128.size (by sl_kernel_rfl) y

/-- What that case leaves in the scratch: its pieces read back over junk. -/
def sout1_C_0 (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) : Vec F S2000x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section Region1
-- the TensorCore's buffer contents when the region is entered
variable (V : (c : Dev nD) → (b : Ref sig .tc) → Buf (Elt F) ((c : Thread nD τ).loc b))

/-! ## What the output and the scratch hold after each point -/

/-- THE ACCUMULATION. What output 5's staging buffer and the scratch hold after the body at position `n`: the case the
    closed forms select at `n`, run at the point's memrefs and input blocks, the scratch read at what this leaves at `n - 1`. -/
def outsAt1 (c : Dev nD) : (n : ℕ) → n < cfg1.N → Vec F S2000x128 .f32 × Vec F S2000x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of type coordinate 0. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of type coordinate 1 or 2: over what the point before left in the scratch. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of type coordinate 3: over what the point before left in the scratch. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: the scratch, the other scoped buffers and the generator register; before the
    first point the scratch holds anything, afterwards what the point before left in it (`outsAt1`'s second component). -/
def PhiS1 (c : Dev nD) : (n : ℕ) → n ≤ cfg1.N → sProp 𝕄
  | 0, _ => iprop((∃ d, owns (c : Thread nD τ) scM1_0 fullShare d) ∗ rest1 (F := F) c ∗ (∃ r, prngReg c r))
  | n + 1, hn => iprop(owns (c : Thread nD τ) scM1_0 fullShare ((outsAt1 V c n hn).2) ∗ rest1 (F := F) c ∗ (∃ r, prngReg c r))

theorem PhiS1_zero (c : Dev nD) (n : ℕ) (h : n ≤ cfg1.N) (hz : n = 0) :
    PhiS1 V c n h = iprop((∃ d, owns (c : Thread nD τ) scM1_0 fullShare d) ∗ rest1 (F := F) c ∗ (∃ r, prngReg c r)) := by
  subst hz; rfl

/-- After point `n` (before point `n + 1`): the scratch at that point's contents. -/
theorem PhiS1_succ (c : Dev nD) (n : ℕ) (hn : n < cfg1.N) :
    PhiS1 V c (n + 1) hn = iprop(owns (c : Thread nD τ) scM1_0 fullShare ((outsAt1 V c n hn).2) ∗ rest1 (F := F) c ∗ (∃ r, prngReg c r)) := rfl

/-- Before a point that is not the first: the scratch at what the point before left. -/
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ rest1 (F := F) c ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block and output 5's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the invariant
    hands the body the scratch at what the point before left (at anything before the first point) with the other scoped buffers and
    the generator register, and takes the scratch back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 200 := lt_of_lt_of_eq t.isLt (show cfg1.N = 200 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨⟨HS0, HR, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HS0, HR, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_open c

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine Idealize.SL.BI.BIBase.Entails.trans ?_ (PhiA1_close c)
  iintro ⟨HS0, HR, Hg⟩
  isplitl [HS0]
  · iexists _; iexact HS0
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 200 := N_1; omega)

end Region1

end Cert.KernelIdeal.Hand

end
-- ==== Proof.KernelIdealRun.lean ====
import proofs.«146249_j79809082294964_1_alg».proof.Proof.KernelIdealR0Body
import proofs.«146249_j79809082294964_1_alg».proof.Proof.KernelIdealR1Body
import proofs.«146249_j79809082294964_1_alg».proof.Proof.Gen.KernelIdeal.Launch
import proofs.«146249_j79809082294964_1_alg».proof.Proof.Gen.KernelIdeal.Skeleton
import proofs.«146249_j79809082294964_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main: a fold from the launch memory -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit: each of its arrays at what the grid's write-backs leave in it, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: each of its arrays at what the grid's write-backs leave in it, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What each host stretch writes -/

/-- A single written reference that is on a list lies in the list's image. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references the first stretch's operations write, in order: one each. -/
abbrev hostOps0_W : List (Ref sig .tc) := [
    main_v0, main_v1, main_v2, main_v3, main_c, main_v4, main_v5, main_c_0, main_v6, main_v7, main_v8, main_v9,
    main_v10, main_cst, main_v11, main_v12, main_v13, main_cst_1, main_v14, main_cst_2, main_v15, main_v16, main_v17, main_cst_3,
    main_v18, main_v19, main_v20, main_v21, main_v22, main_v23, main_v24, main_v25, main_v26, main_c_4, main_v27, main_v28,
    main_c_5, main_v29, main_v30, main_v31, main_v32, main_v33, main_cst_6, main_v34, main_v35, main_v36, main_cst_7, main_v37,
    main_cst_8, main_v38, main_v39, main_v40, main_cst_9, main_v41, main_v42, main_v43, main_v44, main_v45, main_v46, main_v47,
    main_v48, main_v49, main_c_10, main_v50, main_v51, main_c_11, main_v52, main_v53, main_v54, main_v55, main_v56, main_cst_12,
    main_v57, main_v58, main_v59, main_cst_13, main_v60, main_cst_14, main_v61, main_v62, main_v63, main_cst_15, main_v64, main_v65,
    main_v66, main_v67, main_v68, main_v69, main_v70, main_v71, main_v72, main_c_16, main_v73, main_v74, main_c_17, main_v75,
    main_v76, main_v77, main_v78, main_v79, main_cst_18, main_v80, main_v81, main_v82, main_cst_19, main_v83, main_cst_20, main_v84,
    main_v85, main_v86, main_cst_21, main_v87, main_v88, main_v89, main_v90, main_v91, main_v92, main_v93, main_v94, main_v95,
    main_v96, main_v97 ]
/-- The references the second stretch's operations write, in order: one each. -/
abbrev hostOps1_W : List (Ref sig .tc) := [
    main_v99, main_v100, main_v101, main_v102, main_c_22, main_v103, main_v104, main_c_23, main_v105, main_v106, main_v107, main_v108,
    main_v109, main_cst_24, main_v110, main_v111, main_v112, main_cst_25, main_v113, main_cst_26, main_v114, main_v115, main_v116, main_cst_27,
    main_v117, main_v118, main_v119, main_v120, main_v121, main_v122, main_v123, main_v124, main_v125, main_c_28, main_v126, main_v127,
    main_c_29, main_v128, main_v129, main_v130, main_v131, main_v132, main_cst_30, main_v133, main_v134, main_v135, main_cst_31, main_v136,
    main_cst_32, main_v137, main_v138, main_v139, main_cst_33, main_v140, main_v141, main_v142, main_v143, main_v144, main_v145, main_v146,
    main_v147, main_v148, main_c_34, main_v149, main_v150, main_c_35, main_v151, main_v152, main_v153, main_v154, main_v155, main_cst_36,
    main_v156, main_v157, main_v158, main_cst_37, main_v159, main_cst_38, main_v160, main_v161, main_v162, main_cst_39, main_v163, main_v164,
    main_v165, main_v166, main_v167, main_v168, main_v169, main_v170, main_v171, main_c_40, main_v172, main_v173, main_c_41, main_v174,
    main_v175, main_v176, main_v177, main_v178, main_cst_42, main_v179, main_v180, main_v181, main_cst_43, main_v182, main_cst_44, main_v183,
    main_v184, main_v185, main_cst_45, main_v186, main_v187, main_v188, main_v189, main_v190, main_v191, main_v192, main_v193, main_v194,
    main_v195, main_v196 ]

set_option maxHeartbeats 4000000 in
theorem hostOps0_writes : (hostOps0 : List (HloOp τ sig (Elt F))).Forall fun op => op.writes ⊆ (hostOps0_W.map (Proc.devRef (τ := τ) .tc)).toFinset :=
  ⟨
    sub_of_mem (y := main_v0) (by decide), sub_of_mem (y := main_v1) (by decide), sub_of_mem (y := main_v2) (by decide), sub_of_mem (y := main_v3) (by decide),
    sub_of_mem (y := main_c) (by decide), sub_of_mem (y := main_v4) (by decide), sub_of_mem (y := main_v5) (by decide), sub_of_mem (y := main_c_0) (by decide),
    sub_of_mem (y := main_v6) (by decide), sub_of_mem (y := main_v7) (by decide), sub_of_mem (y := main_v8) (by decide), sub_of_mem (y := main_v9) (by decide),
    sub_of_mem (y := main_v10) (by decide), sub_of_mem (y := main_cst) (by decide), sub_of_mem (y := main_v11) (by decide), sub_of_mem (y := main_v12) (by decide),
    sub_of_mem (y := main_v13) (by decide), sub_of_mem (y := main_cst_1) (by decide), sub_of_mem (y := main_v14) (by decide), sub_of_mem (y := main_cst_2) (by decide),
    sub_of_mem (y := main_v15) (by decide), sub_of_mem (y := main_v16) (by decide), sub_of_mem (y := main_v17) (by decide), sub_of_mem (y := main_cst_3) (by decide),
    sub_of_mem (y := main_v18) (by decide), sub_of_mem (y := main_v19) (by decide), sub_of_mem (y := main_v20) (by decide), sub_of_mem (y := main_v21) (by decide),
    sub_of_mem (y := main_v22) (by decide), sub_of_mem (y := main_v23) (by decide), sub_of_mem (y := main_v24) (by decide), sub_of_mem (y := main_v25) (by decide),
    sub_of_mem (y := main_v26) (by decide), sub_of_mem (y := main_c_4) (by decide), sub_of_mem (y := main_v27) (by decide), sub_of_mem (y := main_v28) (by decide),
    sub_of_mem (y := main_c_5) (by decide), sub_of_mem (y := main_v29) (by decide), sub_of_mem (y := main_v30) (by decide), sub_of_mem (y := main_v31) (by decide),
    sub_of_mem (y := main_v32) (by decide), sub_of_mem (y := main_v33) (by decide), sub_of_mem (y := main_cst_6) (by decide), sub_of_mem (y := main_v34) (by decide),
    sub_of_mem (y := main_v35) (by decide), sub_of_mem (y := main_v36) (by decide), sub_of_mem (y := main_cst_7) (by decide), sub_of_mem (y := main_v37) (by decide),
    sub_of_mem (y := main_cst_8) (by decide), sub_of_mem (y := main_v38) (by decide), sub_of_mem (y := main_v39) (by decide), sub_of_mem (y := main_v40) (by decide),
    sub_of_mem (y := main_cst_9) (by decide), sub_of_mem (y := main_v41) (by decide), sub_of_mem (y := main_v42) (by decide), sub_of_mem (y := main_v43) (by decide),
    sub_of_mem (y := main_v44) (by decide), sub_of_mem (y := main_v45) (by decide), sub_of_mem (y := main_v46) (by decide), sub_of_mem (y := main_v47) (by decide),
    sub_of_mem (y := main_v48) (by decide), sub_of_mem (y := main_v49) (by decide), sub_of_mem (y := main_c_10) (by decide), sub_of_mem (y := main_v50) (by decide),
    sub_of_mem (y := main_v51) (by decide), sub_of_mem (y := main_c_11) (by decide), sub_of_mem (y := main_v52) (by decide), sub_of_mem (y := main_v53) (by decide),
    sub_of_mem (y := main_v54) (by decide), sub_of_mem (y := main_v55) (by decide), sub_of_mem (y := main_v56) (by decide), sub_of_mem (y := main_cst_12) (by decide),
    sub_of_mem (y := main_v57) (by decide), sub_of_mem (y := main_v58) (by decide), sub_of_mem (y := main_v59) (by decide), sub_of_mem (y := main_cst_13) (by decide),
    sub_of_mem (y := main_v60) (by decide), sub_of_mem (y := main_cst_14) (by decide), sub_of_mem (y := main_v61) (by decide), sub_of_mem (y := main_v62) (by decide),
    sub_of_mem (y := main_v63) (by decide), sub_of_mem (y := main_cst_15) (by decide), sub_of_mem (y := main_v64) (by decide), sub_of_mem (y := main_v65) (by decide),
    sub_of_mem (y := main_v66) (by decide), sub_of_mem (y := main_v67) (by decide), sub_of_mem (y := main_v68) (by decide), sub_of_mem (y := main_v69) (by decide),
    sub_of_mem (y := main_v70) (by decide), sub_of_mem (y := main_v71) (by decide), sub_of_mem (y := main_v72) (by decide), sub_of_mem (y := main_c_16) (by decide),
    sub_of_mem (y := main_v73) (by decide), sub_of_mem (y := main_v74) (by decide), sub_of_mem (y := main_c_17) (by decide), sub_of_mem (y := main_v75) (by decide),
    sub_of_mem (y := main_v76) (by decide), sub_of_mem (y := main_v77) (by decide), sub_of_mem (y := main_v78) (by decide), sub_of_mem (y := main_v79) (by decide),
    sub_of_mem (y := main_cst_18) (by decide), sub_of_mem (y := main_v80) (by decide), sub_of_mem (y := main_v81) (by decide), sub_of_mem (y := main_v82) (by decide),
    sub_of_mem (y := main_cst_19) (by decide), sub_of_mem (y := main_v83) (by decide), sub_of_mem (y := main_cst_20) (by decide), sub_of_mem (y := main_v84) (by decide),
    sub_of_mem (y := main_v85) (by decide), sub_of_mem (y := main_v86) (by decide), sub_of_mem (y := main_cst_21) (by decide), sub_of_mem (y := main_v87) (by decide),
    sub_of_mem (y := main_v88) (by decide), sub_of_mem (y := main_v89) (by decide), sub_of_mem (y := main_v90) (by decide), sub_of_mem (y := main_v91) (by decide),
    sub_of_mem (y := main_v92) (by decide), sub_of_mem (y := main_v93) (by decide), sub_of_mem (y := main_v94) (by decide), sub_of_mem (y := main_v95) (by decide),
    sub_of_mem (y := main_v96) (by decide), sub_of_mem (y := main_v97) (by decide) ⟩
set_option maxHeartbeats 4000000 in
theorem hostOps1_writes : (hostOps1 : List (HloOp τ sig (Elt F))).Forall fun op => op.writes ⊆ (hostOps1_W.map (Proc.devRef (τ := τ) .tc)).toFinset :=
  ⟨
    sub_of_mem (y := main_v99) (by decide), sub_of_mem (y := main_v100) (by decide), sub_of_mem (y := main_v101) (by decide), sub_of_mem (y := main_v102) (by decide),
    sub_of_mem (y := main_c_22) (by decide), sub_of_mem (y := main_v103) (by decide), sub_of_mem (y := main_v104) (by decide), sub_of_mem (y := main_c_23) (by decide),
    sub_of_mem (y := main_v105) (by decide), sub_of_mem (y := main_v106) (by decide), sub_of_mem (y := main_v107) (by decide), sub_of_mem (y := main_v108) (by decide),
    sub_of_mem (y := main_v109) (by decide), sub_of_mem (y := main_cst_24) (by decide), sub_of_mem (y := main_v110) (by decide), sub_of_mem (y := main_v111) (by decide),
    sub_of_mem (y := main_v112) (by decide), sub_of_mem (y := main_cst_25) (by decide), sub_of_mem (y := main_v113) (by decide), sub_of_mem (y := main_cst_26) (by decide),
    sub_of_mem (y := main_v114) (by decide), sub_of_mem (y := main_v115) (by decide), sub_of_mem (y := main_v116) (by decide), sub_of_mem (y := main_cst_27) (by decide),
    sub_of_mem (y := main_v117) (by decide), sub_of_mem (y := main_v118) (by decide), sub_of_mem (y := main_v119) (by decide), sub_of_mem (y := main_v120) (by decide),
    sub_of_mem (y := main_v121) (by decide), sub_of_mem (y := main_v122) (by decide), sub_of_mem (y := main_v123) (by decide), sub_of_mem (y := main_v124) (by decide),
    sub_of_mem (y := main_v125) (by decide), sub_of_mem (y := main_c_28) (by decide), sub_of_mem (y := main_v126) (by decide), sub_of_mem (y := main_v127) (by decide),
    sub_of_mem (y := main_c_29) (by decide), sub_of_mem (y := main_v128) (by decide), sub_of_mem (y := main_v129) (by decide), sub_of_mem (y := main_v130) (by decide),
    sub_of_mem (y := main_v131) (by decide), sub_of_mem (y := main_v132) (by decide), sub_of_mem (y := main_cst_30) (by decide), sub_of_mem (y := main_v133) (by decide),
    sub_of_mem (y := main_v134) (by decide), sub_of_mem (y := main_v135) (by decide), sub_of_mem (y := main_cst_31) (by decide), sub_of_mem (y := main_v136) (by decide),
    sub_of_mem (y := main_cst_32) (by decide), sub_of_mem (y := main_v137) (by decide), sub_of_mem (y := main_v138) (by decide), sub_of_mem (y := main_v139) (by decide),
    sub_of_mem (y := main_cst_33) (by decide), sub_of_mem (y := main_v140) (by decide), sub_of_mem (y := main_v141) (by decide), sub_of_mem (y := main_v142) (by decide),
    sub_of_mem (y := main_v143) (by decide), sub_of_mem (y := main_v144) (by decide), sub_of_mem (y := main_v145) (by decide), sub_of_mem (y := main_v146) (by decide),
    sub_of_mem (y := main_v147) (by decide), sub_of_mem (y := main_v148) (by decide), sub_of_mem (y := main_c_34) (by decide), sub_of_mem (y := main_v149) (by decide),
    sub_of_mem (y := main_v150) (by decide), sub_of_mem (y := main_c_35) (by decide), sub_of_mem (y := main_v151) (by decide), sub_of_mem (y := main_v152) (by decide),
    sub_of_mem (y := main_v153) (by decide), sub_of_mem (y := main_v154) (by decide), sub_of_mem (y := main_v155) (by decide), sub_of_mem (y := main_cst_36) (by decide),
    sub_of_mem (y := main_v156) (by decide), sub_of_mem (y := main_v157) (by decide), sub_of_mem (y := main_v158) (by decide), sub_of_mem (y := main_cst_37) (by decide),
    sub_of_mem (y := main_v159) (by decide), sub_of_mem (y := main_cst_38) (by decide), sub_of_mem (y := main_v160) (by decide), sub_of_mem (y := main_v161) (by decide),
    sub_of_mem (y := main_v162) (by decide), sub_of_mem (y := main_cst_39) (by decide), sub_of_mem (y := main_v163) (by decide), sub_of_mem (y := main_v164) (by decide),
    sub_of_mem (y := main_v165) (by decide), sub_of_mem (y := main_v166) (by decide), sub_of_mem (y := main_v167) (by decide), sub_of_mem (y := main_v168) (by decide),
    sub_of_mem (y := main_v169) (by decide), sub_of_mem (y := main_v170) (by decide), sub_of_mem (y := main_v171) (by decide), sub_of_mem (y := main_c_40) (by decide),
    sub_of_mem (y := main_v172) (by decide), sub_of_mem (y := main_v173) (by decide), sub_of_mem (y := main_c_41) (by decide), sub_of_mem (y := main_v174) (by decide),
    sub_of_mem (y := main_v175) (by decide), sub_of_mem (y := main_v176) (by decide), sub_of_mem (y := main_v177) (by decide), sub_of_mem (y := main_v178) (by decide),
    sub_of_mem (y := main_cst_42) (by decide), sub_of_mem (y := main_v179) (by decide), sub_of_mem (y := main_v180) (by decide), sub_of_mem (y := main_v181) (by decide),
    sub_of_mem (y := main_cst_43) (by decide), sub_of_mem (y := main_v182) (by decide), sub_of_mem (y := main_cst_44) (by decide), sub_of_mem (y := main_v183) (by decide),
    sub_of_mem (y := main_v184) (by decide), sub_of_mem (y := main_v185) (by decide), sub_of_mem (y := main_cst_45) (by decide), sub_of_mem (y := main_v186) (by decide),
    sub_of_mem (y := main_v187) (by decide), sub_of_mem (y := main_v188) (by decide), sub_of_mem (y := main_v189) (by decide), sub_of_mem (y := main_v190) (by decide),
    sub_of_mem (y := main_v191) (by decide), sub_of_mem (y := main_v192) (by decide), sub_of_mem (y := main_v193) (by decide), sub_of_mem (y := main_v194) (by decide),
    sub_of_mem (y := main_v195) (by decide), sub_of_mem (y := main_v196) (by decide) ⟩

/-! ## What each boundary leaves unchanged -/

/-- A reference the first stretch does not write holds after it what it held before. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A reference the second stretch does not write holds after it what it held before. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- Of region 0's windows only the last is an output. -/
theorem isOut0_of_ne : ∀ w : Fin cfg0.W, Pipeline.arrRef spec0 w ≠ Pipeline.arrRef spec0 5 → (cfg0.win w).isOut = false := by decide
/-- Of region 1's windows only the last is an output. -/
theorem isOut1_of_ne : ∀ w : Fin cfg1.W, Pipeline.arrRef spec1 w ≠ Pipeline.arrRef spec1 5 → (cfg1.win w).isOut = false := by decide

/-- Across region 0 every buffer but its output array keeps its entry contents: an input window's array is never
    written back, and a reference that is no window's array bypasses the region. -/
theorem W2_of_ne_out (c : Dev nD) (b : Ref sig .tc) (hb : b ≠ Pipeline.arrRef spec0 5) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (isOut0_of_ne w hb) _).trans (A_eq0 (V1 m ρ) c w))
  · exact W2_of_ne m ρ c b fun w e => h ⟨w, e⟩
/-- Across region 1 every buffer but its output array keeps its entry contents. -/
theorem W4_of_ne_out (c : Dev nD) (b : Ref sig .tc) (hb : b ≠ Pipeline.arrRef spec1 5) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (isOut1_of_ne w hb) _).trans (A_eq1 (V3 m ρ) c w))
  · exact W4_of_ne m ρ c b fun w e => h ⟨w, e⟩

/-! ### The arguments end as launched: no host operation writes one and no region writes one back -/

/-- The launch contents read at a TensorCore reference are the launch memory there. -/
theorem W0_apply (c : Dev nD) (b : Ref sig .tc) : W0 m ρ c (Proc.devRef .tc b) = m ((c : Thread nD τ).loc b) := rfl

/-- `main_arg0` at region 0's exit is as launched: the first host stretch does not write it and region 0 does not write it back. -/
theorem W2_main_arg0 (c : Dev nD) : W2 m ρ c (Proc.devRef .tc main_arg0) = m ((c : Thread nD τ).loc main_arg0) :=
  (W2_of_ne_out m ρ c main_arg0 (by decide)).trans <| (W1_of m ρ c main_arg0 (by decide)).trans (W0_apply m ρ c main_arg0)
/-- The argument ends as launched: as launched at region 0's exit, and neither the second host stretch nor region 1 writes it. -/
theorem W4_main_arg0 (c : Dev nD) : W4 m ρ c (Proc.devRef .tc main_arg0) = m ((c : Thread nD τ).loc main_arg0) :=
  (W4_of_ne_out m ρ c main_arg0 (by decide)).trans <| (W3_of m ρ c main_arg0 (by decide)).trans (W2_main_arg0 m ρ c)
/-- `main_arg1` at region 0's exit is as launched: the first host stretch does not write it and region 0 does not write it back. -/
theorem W2_main_arg1 (c : Dev nD) : W2 m ρ c (Proc.devRef .tc main_arg1) = m ((c : Thread nD τ).loc main_arg1) :=
  (W2_of_ne_out m ρ c main_arg1 (by decide)).trans <| (W1_of m ρ c main_arg1 (by decide)).trans (W0_apply m ρ c main_arg1)
/-- The argument ends as launched: as launched at region 0's exit, and neither the second host stretch nor region 1 writes it. -/
theorem W4_main_arg1 (c : Dev nD) : W4 m ρ c (Proc.devRef .tc main_arg1) = m ((c : Thread nD τ).loc main_arg1) :=
  (W4_of_ne_out m ρ c main_arg1 (by decide)).trans <| (W3_of m ρ c main_arg1 (by decide)).trans (W2_main_arg1 m ρ c)
/-- `main_arg2` at region 0's exit is as launched: the first host stretch does not write it and region 0 does not write it back. -/
theorem W2_main_arg2 (c : Dev nD) : W2 m ρ c (Proc.devRef .tc main_arg2) = m ((c : Thread nD τ).loc main_arg2) :=
  (W2_of_ne_out m ρ c main_arg2 (by decide)).trans <| (W1_of m ρ c main_arg2 (by decide)).trans (W0_apply m ρ c main_arg2)
/-- The argument ends as launched: as launched at region 0's exit, and neither the second host stretch nor region 1 writes it. -/
theorem W4_main_arg2 (c : Dev nD) : W4 m ρ c (Proc.devRef .tc main_arg2) = m ((c : Thread nD τ).loc main_arg2) :=
  (W4_of_ne_out m ρ c main_arg2 (by decide)).trans <| (W3_of m ρ c main_arg2 (by decide)).trans (W2_main_arg2 m ρ c)
/-- `main_arg3` at region 0's exit is as launched: the first host stretch does not write it and region 0 does not write it back. -/
theorem W2_main_arg3 (c : Dev nD) : W2 m ρ c (Proc.devRef .tc main_arg3) = m ((c : Thread nD τ).loc main_arg3) :=
  (W2_of_ne_out m ρ c main_arg3 (by decide)).trans <| (W1_of m ρ c main_arg3 (by decide)).trans (W0_apply m ρ c main_arg3)
/-- The argument ends as launched: as launched at region 0's exit, and neither the second host stretch nor region 1 writes it. -/
theorem W4_main_arg3 (c : Dev nD) : W4 m ρ c (Proc.devRef .tc main_arg3) = m ((c : Thread nD τ).loc main_arg3) :=
  (W4_of_ne_out m ρ c main_arg3 (by decide)).trans <| (W3_of m ρ c main_arg3 (by decide)).trans (W2_main_arg3 m ρ c)
/-- `main_arg4` at region 0's exit is as launched: the first host stretch does not write it and region 0 does not write it back. -/
theorem W2_main_arg4 (c : Dev nD) : W2 m ρ c (Proc.devRef .tc main_arg4) = m ((c : Thread nD τ).loc main_arg4) :=
  (W2_of_ne_out m ρ c main_arg4 (by decide)).trans <| (W1_of m ρ c main_arg4 (by decide)).trans (W0_apply m ρ c main_arg4)
/-- The argument ends as launched: as launched at region 0's exit, and neither the second host stretch nor region 1 writes it. -/
theorem W4_main_arg4 (c : Dev nD) : W4 m ρ c (Proc.devRef .tc main_arg4) = m ((c : Thread nD τ).loc main_arg4) :=
  (W4_of_ne_out m ρ c main_arg4 (by decide)).trans <| (W3_of m ρ c main_arg4 (by decide)).trans (W2_main_arg4 m ρ c)
/-- `main_arg5` at region 0's exit is as launched: the first host stretch does not write it and region 0 does not write it back. -/
theorem W2_main_arg5 (c : Dev nD) : W2 m ρ c (Proc.devRef .tc main_arg5) = m ((c : Thread nD τ).loc main_arg5) :=
  (W2_of_ne_out m ρ c main_arg5 (by decide)).trans <| (W1_of m ρ c main_arg5 (by decide)).trans (W0_apply m ρ c main_arg5)
/-- The argument ends as launched: as launched at region 0's exit, and neither the second host stretch nor region 1 writes it. -/
theorem W4_main_arg5 (c : Dev nD) : W4 m ρ c (Proc.devRef .tc main_arg5) = m ((c : Thread nD τ).loc main_arg5) :=
  (W4_of_ne_out m ρ c main_arg5 (by decide)).trans <| (W3_of m ρ c main_arg5 (by decide)).trans (W2_main_arg5 m ρ c)
/-- `main_arg6` at region 0's exit is as launched: the first host stretch does not write it and region 0 does not write it back. -/
theorem W2_main_arg6 (c : Dev nD) : W2 m ρ c (Proc.devRef .tc main_arg6) = m ((c : Thread nD τ).loc main_arg6) :=
  (W2_of_ne_out m ρ c main_arg6 (by decide)).trans <| (W1_of m ρ c main_arg6 (by decide)).trans (W0_apply m ρ c main_arg6)
/-- The argument ends as launched: as launched at region 0's exit, and neither the second host stretch nor region 1 writes it. -/
theorem W4_main_arg6 (c : Dev nD) : W4 m ρ c (Proc.devRef .tc main_arg6) = m ((c : Thread nD τ).loc main_arg6) :=
  (W4_of_ne_out m ρ c main_arg6 (by decide)).trans <| (W3_of m ρ c main_arg6 (by decide)).trans (W2_main_arg6 m ρ c)
/-- `main_arg7` at region 0's exit is as launched: the first host stretch does not write it and region 0 does not write it back. -/
theorem W2_main_arg7 (c : Dev nD) : W2 m ρ c (Proc.devRef .tc main_arg7) = m ((c : Thread nD τ).loc main_arg7) :=
  (W2_of_ne_out m ρ c main_arg7 (by decide)).trans <| (W1_of m ρ c main_arg7 (by decide)).trans (W0_apply m ρ c main_arg7)
/-- The argument ends as launched: as launched at region 0's exit, and neither the second host stretch nor region 1 writes it. -/
theorem W4_main_arg7 (c : Dev nD) : W4 m ρ c (Proc.devRef .tc main_arg7) = m ((c : Thread nD τ).loc main_arg7) :=
  (W4_of_ne_out m ρ c main_arg7 (by decide)).trans <| (W3_of m ρ c main_arg7 (by decide)).trans (W2_main_arg7 m ρ c)

/-- The result buffer ends holding what region 1's write-backs leave in its output array. -/
theorem W4_result (c : Dev nD) : W4 m ρ c (Proc.devRef .tc main_v197) = (dat1 (V3 m ρ) c).arrAt 5 cfg1.N :=
  W4_arr m ρ c 5
/-- Region 0's output array at region 0's exit: what its write-backs leave in it, -/
theorem W2_v98 (c : Dev nD) : W2 m ρ c (Proc.devRef .tc main_v98) = (dat0 (V1 m ρ) c).arrAt 5 cfg0.N :=
  W2_arr m ρ c 5
/-- and the second host stretch does not write it. -/
theorem W3_v98 (c : Dev nD) : W3 m ρ c (Proc.devRef .tc main_v98) = W2 m ρ c (Proc.devRef .tc main_v98) :=
  W3_of m ρ c main_v98 (by decide)

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of the first stretch allocates a buffer. -/
theorem hostOps0_fresh : (hostOps0 : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl ⟩
set_option maxHeartbeats 4000000 in
/-- No operation of the second stretch allocates a buffer. -/
theorem hostOps1_fresh : (hostOps1 : List (HloOp τ sig (Elt F))).Forall fun op => op.fresh = ∅ :=
  ⟨
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl ⟩
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W4 m ρ c) ∗ ∃ r, prngReg c r)

/-! # The regions as segments -/

set_option backward.isDefEq.respectTransparency.types false in
/-- REGION 0 over the thread state: entered from every unscoped buffer at `W1`, left at the next boundary's
    contents. Its arrays split out of the unscoped buffers and put back at the exit contents; the generator register
    and the scoped buffers no window stages go into the body's invariant at the first point and come back from it at
    the last (`hin`/`hout` of the region's body: the launch's class invariant entails the invariant before the first point, and the invariant after the last point entails it back); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at the next boundary's
    contents. Its arrays split out of the unscoped buffers and put back at the exit contents; the generator register
    and the scoped buffers no window stages go into the body's invariant at the first point and come back from it at
    the last (the body module's two entailments); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's four segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments: it is the chain of its four items, and the segments' run is that chain by definition. -/
theorem main_run (c : Dev nD) : main (F := F) c = Pipeline.Seg.run (segs m ρ) := (main_chain c).trans (by chain_rfl)

set_option backward.isDefEq.respectTransparency.types false in
/-- THE LAUNCH: from any memory with zero counters every weakly fair execution of @main on the TensorCores
    terminates, nothing faulting, and every final memory holds each unscoped buffer at the last boundary's contents
    — stated against any post those readings imply. -/
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- Every final memory of @main holds each unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  run_post m ρ fun _ h => h

/-- THE FRAME: @main terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_post m ρ fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩

end Cert.KernelIdeal.Hand

end
-- ==== Proof.KernelIdealR0Vals.lean ====
/-
  Region 0: what each control case leaves in the scratch accumulator and in the output window, as a term of the
  point's input blocks and of what the point before left; and the accumulation read off the grid's points — after a
  point of type 0 the type's contribution added onto zero, after a point of another type the contribution added onto
  what the point before left, and after a point of type 3 the output window at the accumulator scaled and clamped
  below at zero.
-/
import proofs.«146249_j79809082294964_1_alg».proof.Proof.KernelIdealR0Body
import Idealize.ShloMosaic.Lib.Pipeline.Value

-- membership in a rectangle of long extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves, as a term of the point's input blocks and of what the point before left -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- Type 0 zeroes the accumulator, then adds the type's contribution onto it. -/
theorem sout0_A_0_eq (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) :
    sout0_A_0 c i arg2 harg2 arg3 harg3 arg4 harg4 arg5 harg5 arg6 harg6 arg7 harg7 arg8 harg8 hc0 hc1 x0 x1 x2 x3 x4 = k0_pay2 x0 x1 x2 x3 x4 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  try sl_unfold_words
  rw [View.canon_cons_unit_zero hz2]
  simp only [View.readAt_eq_ld, harg2.read_unread, harg3.read_unread, harg4.read_unread, harg5.read_unread, harg6.read_unread, harg8.read_unread,
    View.ld_unit_zero (S := S1x2000x128) hz3, View.ld_unit_zero (S := S2000x128) hz2, View.ld_unit_zero (S := S1x128x256) hz3,
    View.ld_unit_zero (S := S1x1x256) hz3, View.ld_unit_zero (S := S2000x256) hz2, View.readCov_unit_zero (S := S2000x256) _ hz2]

/-- Types 1 and 2 add the type's contribution onto what the accumulator held. -/
theorem sout0_B_0_eq (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : ¬cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) :
    sout0_B_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  try sl_unfold_words
  rw [View.canon_cons_unit_zero hz2]
  simp only [View.readAt_eq_ld, harg2.read_unread, harg3.read_unread, harg4.read_unread, harg5.read_unread, harg6.read_unread, harg8.read_unread,
    View.ld_unit_zero (S := S1x2000x128) hz3, View.ld_unit_zero (S := S2000x128) hz2, View.ld_unit_zero (S := S1x128x256) hz3,
    View.ld_unit_zero (S := S1x1x256) hz3, View.ld_unit_zero (S := S2000x256) hz2, View.readCov_unit_zero (S := S2000x256) _ hz2]

/-- Type 3 adds the type's contribution onto what the accumulator held, -/
theorem sout0_C_0_eq (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) :
    sout0_C_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  try sl_unfold_words
  rw [View.canon_cons_unit_zero hz2]
  simp only [View.readAt_eq_ld, harg2.read_unread, harg3.read_unread, harg4.read_unread, harg5.read_unread, harg6.read_unread, harg8.read_unread,
    View.ld_unit_zero (S := S1x2000x128) hz3, View.ld_unit_zero (S := S2000x128) hz2, View.ld_unit_zero (S := S1x128x256) hz3,
    View.ld_unit_zero (S := S1x1x256) hz3, View.ld_unit_zero (S := S2000x256) hz2, View.readCov_unit_zero (S := S2000x256) _ hz2]

/-- and stores the accumulator, scaled and clamped below at zero, into the output window. -/
theorem out0_C_5_eq (c : Dev nD) (i : grid0.Coords) (arg2 : Memref sig .tc .vmem S1x2000x128 .f32) (harg2 : arg2.IsWhole) (arg3 : Memref sig .tc .vmem S2000x128 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x1x256 .f32) (harg6 : arg6.IsWhole) (arg7 : Memref sig .tc .vmem S2000x256 .f32) (harg7 : arg7.IsWhole) (arg8 : Memref sig .tc .vmem S2000x256 .f32) (harg8 : arg8.IsWhole) (hc0 : ¬cond0_0 i) (hc1 : cond0_1 i)
    (x0 : Vec F S1x2000x128 .f32) (x1 : Vec F S2000x128 .f32) (x2 : Vec F S1x128x256 .f32) (x3 : Vec F S1x128x256 .f32) (x4 : Vec F S1x1x256 .f32) (xs0 : Vec F S2000x256 .f32) :
    out0_C_5 c i arg2 harg2 arg3 harg3 arg4 harg4 arg5 harg5 arg6 harg6 arg7 harg7 arg8 harg8 hc0 hc1 x0 x1 x2 x3 x4 xs0 = k0_pay3 (k0_pay2 x0 x1 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  try sl_unfold_words
  rw [View.canon_cons_unit_zero hz2]
  simp only [View.readAt_eq_ld, harg2.read_unread, harg3.read_unread, harg4.read_unread, harg5.read_unread, harg6.read_unread, harg8.read_unread,
    View.ld_unit_zero (S := S1x2000x128) hz3, View.ld_unit_zero (S := S2000x128) hz2, View.ld_unit_zero (S := S1x128x256) hz3,
    View.ld_unit_zero (S := S1x1x256) hz3, View.ld_unit_zero (S := S2000x256) hz2, View.readCov_unit_zero (S := S2000x256) _ hz2]

/-- After a point of type 0 the accumulator holds the type's contribution added onto zero. -/
theorem scratch_first0 (c : Dev nD) (s : Fin cfg0.N) (h : s.val % 4 = 0) :
    (outsAt0 V c s.val s.isLt).2 = k0_pay2 (iblk0 V c 0 s) (iblk0 V c 1 s) (iblk0 V c 2 s) (iblk0 V c 3 s) (iblk0 V c 4 s) k0_pay1 := by
  rw [outsAt0_A V c s h (by omega)]
  dsimp only
  rw [sout0_A_0_eq]

/-- After a point of another type it holds the type's contribution added onto what the point before left. -/
theorem scratch_next0 (c : Dev nD) (s : Fin cfg0.N) (h : s.val % 4 ≠ 0) :
    (outsAt0 V c s.val s.isLt).2 = k0_pay2 (iblk0 V c 0 s) (iblk0 V c 1 s) (iblk0 V c 2 s) (iblk0 V c 3 s) (iblk0 V c 4 s) (outsAt0 V c (s.val - 1) (Nat.lt_of_le_of_lt (Nat.sub_le _ _) s.isLt)).2 := by
  by_cases h1 : s.val % 4 = 3
  · rw [outsAt0_C V c s h h1]
    dsimp only
    rw [sout0_C_0_eq]
  · rw [outsAt0_B V c s h h1]
    dsimp only
    rw [sout0_B_0_eq]

/-- After a point of type 3 the output window holds the accumulator scaled and clamped below at zero. -/
theorem out_last0 (c : Dev nD) (t : Fin cfg0.N) (h : t.val % 4 = 3) :
    (outsAt0 V c t.val t.isLt).1 = k0_pay3 ((outsAt0 V c t.val t.isLt).2) := by
  rw [outsAt0_C V c t (by omega) h]
  dsimp only
  rw [out0_C_5_eq, sout0_C_0_eq]

end Cert.KernelIdeal.Hand

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.PayloadRead0.lean ====
/-
  What region 0's body stores, read entry by entry on the extended reals.  The running sum's buffer receives, at
  row p and output channel u, what it held plus one edge type's contribution
      (Σ_k agg (0, p, k) · wl (0, k, u)  +  Σ_k x (p, k) · wr (0, k, u)) + b (0, 0, u)
  (the blocks carry a leading unit axis for the edge type; rounding the operands to a shorter format is the identity
  here, and a product formed into the zero accumulator is the plain sum over the contracted axis); the reset stores the
  zero word everywhere; and the output block is the running sum times the word of one quarter, capped below by zero.
-/
import proofs.«146249_j79809082294964_1_alg».proof.Proof.Gen.KernelIdeal.Skeleton
import proofs.«146249_j79809082294964_1_alg».proof.Proof.LibRowsProduct
import Idealize.ShloMosaic.Lib.ValueLayout
import Idealize.ShloMosaic.Lib.Pipeline.Value

noncomputable section

namespace Cert.Sage.Pay0

open Idealize.ShloMosaic Idealize.ShloMosaic.ValueIdx Cert.KernelIdeal Cert.KernelIdeal.Gen

/-- The contracted axis of the body's products is the one axis of extent 128. -/
theorem dot_rank : dot_S2000x128_S128x256_S2000x256_1_0_0_1_n_n.contr.rank = 1 := rfl
theorem dot_size : dot_S2000x128_S128x256_S2000x256_1_0_0_1_n_n.contr.size ⟨0, by decide⟩ = 128 := rfl
theorem dot_l0 (j : S2000x256.Idx) (q : dot_S2000x128_S128x256_S2000x256_1_0_0_1_n_n.contr.Idx) : (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem dot_l1 (j : S2000x256.Idx) (q : dot_S2000x128_S128x256_S2000x256_1_0_0_1_n_n.contr.Idx) : (dot_S2000x128_S128x256_S2000x256_1_0_0_1_n_n.lhsIdx j q 1).val = (q ⟨0, by decide⟩).val :=
  dot_S2000x128_S128x256_S2000x256_1_0_0_1_n_n.lhsIdx_val_of_single rfl j q
theorem dot_r0 (j : S2000x256.Idx) (q : dot_S2000x128_S128x256_S2000x256_1_0_0_1_n_n.contr.Idx) : (dot_S2000x128_S128x256_S2000x256_1_0_0_1_n_n.rhsIdx j q 0).val = (q ⟨0, by decide⟩).val :=
  dot_S2000x128_S128x256_S2000x256_1_0_0_1_n_n.rhsIdx_val_of_single rfl j q
theorem dot_r1 (j : S2000x256.Idx) (q : dot_S2000x128_S128x256_S2000x256_1_0_0_1_n_n.contr.Idx) : (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block of rows with a leading unit axis dropped, times a weight block with its leading unit axis dropped, into the
    zero accumulator: the plain sum over the contracted axis. -/
theorem product_apply (lhs : FVec Ideal S2000x128 .bf16) (rhs : FVec Ideal S128x256 .bf16) (p : Fin 2000) (u : Fin 256) :
    matmul dot_S2000x128_S128x256_S2000x256_1_0_0_1_n_n none lhs rhs (constant S2000x256 .f32 0x00000000#32) (ix2 p u)
      = ∑ k : Fin 128, lhs (ix2 p k) * rhs (ix2 k u) :=
  Cert.RowsProduct.matmul_zero_rows_apply (a := 2000) (K := 128) (b := 256) dot_S2000x128_S128x256_S2000x256_1_0_0_1_n_n none dot_rank dot_size dot_l0 dot_l1 dot_r0 dot_r1 lhs rhs p u

/-- The reset stores the zero word at every entry. -/
theorem pay1_apply (j : S2000x256.Idx) : k0_pay1 (F := Ideal) j = Ideal.ofBits .f32 0x00000000#32 := by
  unfold k0_pay1
  rw [shapeCast_self]
  rfl

/-- One point's store into the running sum's buffer: what it held plus the point's edge type's contribution. -/
theorem pay2_apply (a : Vec Ideal S1x2000x128 .f32) (x : Vec Ideal S2000x128 .f32) (wl wr : Vec Ideal S1x128x256 .f32)
    (b : Vec Ideal S1x1x256 .f32) (acc : Vec Ideal S2000x256 .f32) (p : Fin 2000) (u : Fin 256) :
    k0_pay2 a x wl wr b acc (ix2 p u)
      = acc (ix2 p u) + (((∑ k : Fin 128, a (ix3 (0 : Fin 1) p k) * wl (ix3 (0 : Fin 1) k u))
          + (∑ k : Fin 128, x (ix2 p k) * wr (ix3 (0 : Fin 1) k u))) + b (ix3 (0 : Fin 1) (0 : Fin 1) u)) := by
  unfold k0_pay2
  rw [shapeCast_self]
  refine congrArg (acc (ix2 p u) + ·) ?_
  refine congrArg₂ (· + ·) (congrArg₂ (· + ·) ?_ ?_) ?_
  · refine (product_apply _ _ p u).trans (Finset.sum_congr rfl fun k _ => ?_)
    refine congrArg₂ (· * ·) ?_ ?_
    · exact shapeCast_1ab_ab_apply a _ p k
    · exact shapeCast_1ab_ab_apply wl _ k u
  · refine (product_apply _ _ p u).trans (Finset.sum_congr rfl fun k _ => ?_)
    refine congrArg₂ (· * ·) rfl ?_
    exact shapeCast_1ab_ab_apply wr _ k u
  · refine (broadcastTo_1b_ab_apply _ _ p u).trans ?_
    rw [shapeCast_self]
    exact shapeCast_1ab_ab_apply b _ (0 : Fin 1) u

/-- The output block: the running sum times one quarter, capped below by zero. -/
theorem pay3_apply (acc : Vec Ideal S2000x256 .f32) (j : S2000x256.Idx) :
    k0_pay3 acc j = max (acc j * Ideal.ofBits .f32 0x3E800000#32) (Ideal.ofBits .f32 0x00000000#32) := rfl

end Cert.Sage.Pay0

end
-- ==== Proof.SageLayer.lean ====
/-
  Two arrangements of one heterogeneous SAGE layer over the extended reals, entry by entry, and the law that joins them.

  For four edge types t, nodes n, input channels k and output channels u, one type's contribution to node n is
      term t n u = (Σ_k agg t n k · wl t k u  +  Σ_k x n k · wr t k u) + b t u
  (agg t the mean of the in-neighbours' rows under type t, x the node's own row).  One arrangement starts a running sum at
  zero, adds the four contributions in order, scales by the word 0x3E800000 (one quarter) and takes the maximum with zero;
  the other adds the four contributions, divides by the word 0x40800000 (four) and takes the maximum with zero.  On the
  extended reals 0 + y = y and y / 4 = y · (1/4) for EVERY y, infinite ones included, so the two are one function: no
  finiteness of the entries is needed.
-/
import Idealize.ShloMosaic.PureOps.Ideal.Laws
import Idealize.ShloMosaic.Lib.ValueIdx

noncomputable section

namespace Cert.Sage

open Idealize.ShloMosaic

/-- The word of +0.0 denotes 0. -/
theorem zero_word : Ideal.ofBits .f32 0x00000000#32 = 0 := Ideal.ofBits_zero_f32

/-- The word 0x40800000 denotes the real 4. -/
theorem four_word : Ideal.ofBits .f32 0x40800000#32 = ((4 : ℝ) : EReal) := by
  simp [Ideal.ofBits, Ideal.ieee, -EReal.coe_mul]; norm_num

/-- The word 0x3E800000 denotes the real 1/4. -/
theorem quarter_word : Ideal.ofBits .f32 0x3E800000#32 = ((1 / 4 : ℝ) : EReal) := by
  simp [Ideal.ofBits, Ideal.ieee, -EReal.coe_mul]; norm_num

variable {N K O : ℕ}

/-- One edge type's contribution to node `n`, output channel `u`: the neighbours' mean through `wl`, the node's own row
    through `wr`, plus the type's bias. -/
def term (agg : Fin 4 → Fin N → Fin K → EReal) (x : Fin N → Fin K → EReal)
    (wl wr : Fin 4 → Fin K → Fin O → EReal) (b : Fin 4 → Fin O → EReal) (t : Fin 4) (n : Fin N) (u : Fin O) : EReal :=
  ((∑ k : Fin K, agg t n k * wl t k u) + (∑ k : Fin K, x n k * wr t k u)) + b t u

/-- The layer with a running sum started at zero, scaled by one quarter. -/
def layerAcc (agg : Fin 4 → Fin N → Fin K → EReal) (x : Fin N → Fin K → EReal)
    (wl wr : Fin 4 → Fin K → Fin O → EReal) (b : Fin 4 → Fin O → EReal) (n : Fin N) (u : Fin O) : EReal :=
  max (((((Ideal.ofBits .f32 0x00000000#32 + term agg x wl wr b 0 n u) + term agg x wl wr b 1 n u)
    + term agg x wl wr b 2 n u) + term agg x wl wr b 3 n u) * Ideal.ofBits .f32 0x3E800000#32) (Ideal.ofBits .f32 0x00000000#32)

/-- The layer as the sum of the four contributions divided by four. -/
def layerMean (agg : Fin 4 → Fin N → Fin K → EReal) (x : Fin N → Fin K → EReal)
    (wl wr : Fin 4 → Fin K → Fin O → EReal) (b : Fin 4 → Fin O → EReal) (n : Fin N) (u : Fin O) : EReal :=
  max (Ideal.div (((term agg x wl wr b 0 n u + term agg x wl wr b 1 n u) + term agg x wl wr b 2 n u)
    + term agg x wl wr b 3 n u) (Ideal.ofBits .f32 0x40800000#32)) (Ideal.ofBits .f32 0x00000000#32)

/-- The two arrangements are one function. -/
theorem layerAcc_eq_layerMean (agg : Fin 4 → Fin N → Fin K → EReal) (x : Fin N → Fin K → EReal)
    (wl wr : Fin 4 → Fin K → Fin O → EReal) (b : Fin 4 → Fin O → EReal) :
    layerAcc agg x wl wr b = layerMean agg x wl wr b := by
  funext n u
  unfold layerAcc layerMean
  rw [four_word, quarter_word, zero_word, zero_add, Ideal.div_coe (by norm_num : (4 : ℝ) ≠ 0)]

end Cert.Sage

end
-- ==== Proof.KernelIdealValue0.lean ====
/-
  What kernel region 0 leaves in its output array, as one function of the arrays it finds.  The grid runs over node blocks of
  2000 rows and, innermost, the four edge types; the running sum's buffer is reset at type 0, receives each type's
  contribution in turn, and at type 3 the block written back is the sum times one quarter capped below by zero.  Reading
  each staged block where its window's index map puts it (edge type t mod 4, node block t / 4), the block written back at
  a point of type 3 is rows 2000·(t/4) … of the layer in its running-sum arrangement; these blocks tile the array.
-/
import proofs.«146249_j79809082294964_1_alg».proof.Proof.KernelIdealR0Vals
import proofs.«146249_j79809082294964_1_alg».proof.Proof.PayloadRead0
import proofs.«146249_j79809082294964_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Sage.KVal0

open Cert.KernelIdeal Cert.KernelIdeal.Gen Cert.KernelIdeal.Hand

variable (V : (c : Dev nD) → (b : Ref sig .tc) → Buf (Elt Ideal) ((c : Thread nD τ).loc b))

/-- The printed index maps over the grid: at point t the edge type is t mod 4 and the node block is t / 4. -/
theorem idx_facts : ∀ t : Fin cfg0.N,
    win0_0.index t (0 : Fin 3) = t.val % 4 ∧ win0_0.index t (1 : Fin 3) = t.val / 4 ∧ win0_0.index t (2 : Fin 3) = 0
    ∧ win0_1.index t (0 : Fin 2) = t.val / 4 ∧ win0_1.index t (1 : Fin 2) = 0
    ∧ win0_2.index t (0 : Fin 3) = t.val % 4 ∧ win0_2.index t (1 : Fin 3) = 0 ∧ win0_2.index t (2 : Fin 3) = 0
    ∧ win0_3.index t (0 : Fin 3) = t.val % 4 ∧ win0_3.index t (1 : Fin 3) = 0 ∧ win0_3.index t (2 : Fin 3) = 0
    ∧ win0_4.index t (0 : Fin 3) = t.val % 4 ∧ win0_4.index t (1 : Fin 3) = 0 ∧ win0_4.index t (2 : Fin 3) = 0
    ∧ win0_5.index t (0 : Fin 2) = t.val / 4 ∧ win0_5.index t (1 : Fin 2) = 0 :=
  (by decide +kernel : ∀ t : Fin grid0.N, _)

/-- The arrays the region finds, entry by entry. -/
def aggE (c : Dev nD) (t : Fin 4) (n : Fin 100000) (k : Fin 128) : EReal := (V c main_v96 : S4x100000x128.Idx → EReal) (ix3 t n k)
def xE (c : Dev nD) (n : Fin 100000) (k : Fin 128) : EReal := (V c main_arg0 : S100000x128.Idx → EReal) (ix2 n k)
def wlE (c : Dev nD) (t : Fin 4) (k : Fin 128) (u : Fin 256) : EReal := (V c main_arg2 : S4x128x256.Idx → EReal) (ix3 t k u)
def wrE (c : Dev nD) (t : Fin 4) (k : Fin 128) (u : Fin 256) : EReal := (V c main_arg3 : S4x128x256.Idx → EReal) (ix3 t k u)
def bE (c : Dev nD) (t : Fin 4) (u : Fin 256) : EReal := (V c main_v97 : S4x1x256.Idx → EReal) (ix3 t (0 : Fin 1) u)

/-- The layer, in its running-sum arrangement, of the arrays the region finds. -/
def G (c : Dev nD) : Buf (Elt Ideal) ((c : Thread nD τ).loc main_v98) := fun j =>
  Cert.Sage.layerAcc (aggE V c) (xE V c) (wlE V c) (wrE V c) (bE V c) (j 0) (j 1)

/-- The neighbour-mean block at point s: rows 2000·(s/4) … of edge type s mod 4. -/
theorem agg_read (c : Dev nD) (s : Fin cfg0.N) (p : Fin 2000) (k : Fin 128) (τ' : Fin 4) (n : Fin 100000)
    (hτ : τ'.val = s.val % 4) (hn : n.val = 2000 * (s.val / 4) + p.val) :
    (iblk0 V c 0 s : Vec Ideal S1x2000x128 .f32) (ix3 (0 : Fin 1) p k) = aggE V c τ' n k := by
  obtain ⟨e0, e1, e2, -⟩ := idx_facts s
  unfold iblk0 aggE
  rw [View.read_apply]
  show V c main_v96 _ = V c main_v96 _
  refine congrArg _ (funext fun a => Fin.ext ?_)
  match a with
  | ⟨0, _⟩ => show win0_0.index s (0 : Fin 3) * 1 + 1 * 0 = τ'.val; omega
  | ⟨1, _⟩ => show win0_0.index s (1 : Fin 3) * 2000 + 1 * p.val = n.val; omega
  | ⟨2, _⟩ => show win0_0.index s (2 : Fin 3) * 128 + 1 * k.val = k.val; omega

/-- The nodes' own rows at point s: rows 2000·(s/4) …. -/
theorem x_read (c : Dev nD) (s : Fin cfg0.N) (p : Fin 2000) (k : Fin 128) (n : Fin 100000)
    (hn : n.val = 2000 * (s.val / 4) + p.val) :
    (iblk0 V c 1 s : Vec Ideal S2000x128 .f32) (ix2 p k) = xE V c n k := by
  obtain ⟨-, -, -, e0, e1, -⟩ := idx_facts s
  unfold iblk0 xE
  rw [View.read_apply]
  show V c main_arg0 _ = V c main_arg0 _
  refine congrArg _ (funext fun a => Fin.ext ?_)
  match a with
  | ⟨0, _⟩ => show win0_1.index s (0 : Fin 2) * 2000 + 1 * p.val = n.val; omega
  | ⟨1, _⟩ => show win0_1.index s (1 : Fin 2) * 128 + 1 * k.val = k.val; omega

/-- The weight blocks at point s: edge type s mod 4's matrices. -/
theorem wl_read (c : Dev nD) (s : Fin cfg0.N) (k : Fin 128) (u : Fin 256) (τ' : Fin 4) (hτ : τ'.val = s.val % 4) :
    (iblk0 V c 2 s : Vec Ideal S1x128x256 .f32) (ix3 (0 : Fin 1) k u) = wlE V c τ' k u := by
  obtain ⟨-, -, -, -, -, e0, e1, e2, -⟩ := idx_facts s
  unfold iblk0 wlE
  rw [View.read_apply]
  show V c main_arg2 _ = V c main_arg2 _
  refine congrArg _ (funext fun a => Fin.ext ?_)
  match a with
  | ⟨0, _⟩ => show win0_2.index s (0 : Fin 3) * 1 + 1 * 0 = τ'.val; omega
  | ⟨1, _⟩ => show win0_2.index s (1 : Fin 3) * 128 + 1 * k.val = k.val; omega
  | ⟨2, _⟩ => show win0_2.index s (2 : Fin 3) * 256 + 1 * u.val = u.val; omega

theorem wr_read (c : Dev nD) (s : Fin cfg0.N) (k : Fin 128) (u : Fin 256) (τ' : Fin 4) (hτ : τ'.val = s.val % 4) :
    (iblk0 V c 3 s : Vec Ideal S1x128x256 .f32) (ix3 (0 : Fin 1) k u) = wrE V c τ' k u := by
  obtain ⟨-, -, -, -, -, -, -, -, e0, e1, e2, -⟩ := idx_facts s
  unfold iblk0 wrE
  rw [View.read_apply]
  show V c main_arg3 _ = V c main_arg3 _
  refine congrArg _ (funext fun a => Fin.ext ?_)
  match a with
  | ⟨0, _⟩ => show win0_3.index s (0 : Fin 3) * 1 + 1 * 0 = τ'.val; omega
  | ⟨1, _⟩ => show win0_3.index s (1 : Fin 3) * 128 + 1 * k.val = k.val; omega
  | ⟨2, _⟩ => show win0_3.index s (2 : Fin 3) * 256 + 1 * u.val = u.val; omega

/-- The bias block at point s: edge type s mod 4's row. -/
theorem b_read (c : Dev nD) (s : Fin cfg0.N) (u : Fin 256) (τ' : Fin 4) (hτ : τ'.val = s.val % 4) :
    (iblk0 V c 4 s : Vec Ideal S1x1x256 .f32) (ix3 (0 : Fin 1) (0 : Fin 1) u) = bE V c τ' u := by
  obtain ⟨-, -, -, -, -, -, -, -, -, -, -, e0, e1, e2, -⟩ := idx_facts s
  unfold iblk0 bE
  rw [View.read_apply]
  show V c main_v97 _ = V c main_v97 _
  refine congrArg _ (funext fun a => Fin.ext ?_)
  match a with
  | ⟨0, _⟩ => show win0_4.index s (0 : Fin 3) * 1 + 1 * 0 = τ'.val; omega
  | ⟨1, _⟩ => show win0_4.index s (1 : Fin 3) * 1 + 1 * 0 = 0; omega
  | ⟨2, _⟩ => show win0_4.index s (2 : Fin 3) * 256 + 1 * u.val = u.val; omega

/-- One point's store into the running sum: what it held plus the point's edge type's contribution at the point's rows. -/
theorem point_term (c : Dev nD) (s : Fin cfg0.N) (acc : Vec Ideal S2000x256 .f32) (p : Fin 2000) (u : Fin 256)
    (τ' : Fin 4) (n : Fin 100000) (hτ : τ'.val = s.val % 4) (hn : n.val = 2000 * (s.val / 4) + p.val) :
    k0_pay2 (iblk0 V c 0 s) (iblk0 V c 1 s) (iblk0 V c 2 s) (iblk0 V c 3 s) (iblk0 V c 4 s) acc (ix2 p u)
      = acc (ix2 p u) + Cert.Sage.term (aggE V c) (xE V c) (wlE V c) (wrE V c) (bE V c) τ' n u := by
  refine (Cert.Sage.Pay0.pay2_apply (iblk0 V c 0 s) (iblk0 V c 1 s) (iblk0 V c 2 s) (iblk0 V c 3 s) (iblk0 V c 4 s) acc p u).trans ?_
  unfold Cert.Sage.term
  refine congrArg (acc (ix2 p u) + ·) ?_
  refine congrArg₂ (· + ·) (congrArg₂ (· + ·) ?_ ?_) (b_read V c s u τ' hτ)
  · exact Finset.sum_congr rfl fun k _ => congrArg₂ (· * ·) (agg_read V c s p k τ' n hτ hn) (wl_read V c s k u τ' hτ)
  · exact Finset.sum_congr rfl fun k _ => congrArg₂ (· * ·) (x_read V c s p k n hn) (wr_read V c s k u τ' hτ)

/-- What the running sum's buffer holds after a point of type 3, at row p and channel u: the four contributions of the
    point's node block added in order onto zero. -/
theorem acc_last (c : Dev nD) (t : Fin cfg0.N) (h3 : t.val % 4 = 3) (p : Fin 2000) (u : Fin 256) (n : Fin 100000)
    (hn : n.val = 2000 * (t.val / 4) + p.val) :
    (outsAt0 V c t.val t.isLt).2 (ix2 p u)
      = (((Ideal.ofBits .f32 0x00000000#32 + Cert.Sage.term (aggE V c) (xE V c) (wlE V c) (wrE V c) (bE V c) 0 n u)
          + Cert.Sage.term (aggE V c) (xE V c) (wlE V c) (wrE V c) (bE V c) 1 n u)
          + Cert.Sage.term (aggE V c) (xE V c) (wlE V c) (wrE V c) (bE V c) 2 n u)
          + Cert.Sage.term (aggE V c) (xE V c) (wlE V c) (wrE V c) (bE V c) 3 n u := by
  have hN : t.val < 200 := lt_of_lt_of_eq t.isLt (show cfg0.N = 200 from N_0)
  have hlt : ∀ d : ℕ, t.val - d < cfg0.N := fun d => Nat.lt_of_le_of_lt (Nat.sub_le _ _) t.isLt
  -- the three earlier points of the node block
  have e3 := scratch_next0 V c t (by omega)
  have e2 := scratch_next0 V c ⟨t.val - 1, hlt 1⟩ (by show (t.val - 1) % 4 ≠ 0; omega)
  have e1 := scratch_next0 V c ⟨t.val - 2, hlt 2⟩ (by show (t.val - 2) % 4 ≠ 0; omega)
  have e0 := scratch_first0 V c ⟨t.val - 3, hlt 3⟩ (by show (t.val - 3) % 4 = 0; omega)
  rw [e3, point_term V c t _ p u 3 n (by show 3 = t.val % 4; omega) hn]
  refine congrArg (· + _) ?_
  rw [show (outsAt0 V c (t.val - 1) _).2 = (outsAt0 V c (⟨t.val - 1, hlt 1⟩ : Fin cfg0.N).val (⟨t.val - 1, hlt 1⟩ : Fin cfg0.N).isLt).2 from rfl, e2,
    point_term V c ⟨t.val - 1, hlt 1⟩ _ p u 2 n (by show 2 = (t.val - 1) % 4; omega) (by show n.val = 2000 * ((t.val - 1) / 4) + p.val; omega)]
  refine congrArg (· + _) ?_
  rw [show (outsAt0 V c ((⟨t.val - 1, hlt 1⟩ : Fin cfg0.N).val - 1) _).2 = (outsAt0 V c (⟨t.val - 2, hlt 2⟩ : Fin cfg0.N).val (⟨t.val - 2, hlt 2⟩ : Fin cfg0.N).isLt).2 from rfl, e1,
    point_term V c ⟨t.val - 2, hlt 2⟩ _ p u 1 n (by show 1 = (t.val - 2) % 4; omega) (by show n.val = 2000 * ((t.val - 2) / 4) + p.val; omega)]
  refine congrArg (· + _) ?_
  rw [show (outsAt0 V c ((⟨t.val - 2, hlt 2⟩ : Fin cfg0.N).val - 1) _).2 = (outsAt0 V c (⟨t.val - 3, hlt 3⟩ : Fin cfg0.N).val (⟨t.val - 3, hlt 3⟩ : Fin cfg0.N).isLt).2 from rfl, e0,
    point_term V c ⟨t.val - 3, hlt 3⟩ _ p u 0 n (by show 0 = (t.val - 3) % 4; omega) (by show n.val = 2000 * ((t.val - 3) / 4) + p.val; omega)]
  exact congrArg (· + _) (Cert.Sage.Pay0.pay1_apply _)

/-- At a point of type 3 the block stored for write-back reads, at row p and channel u, the layer at the block's row. -/
theorem out_entry (c : Dev nD) (t : Fin cfg0.N) (h3 : t.val % 4 = 3) (p : Fin 2000) (u : Fin 256) (n : Fin 100000)
    (hn : n.val = 2000 * (t.val / 4) + p.val) :
    k0_pay3 (outsAt0 V c t.val t.isLt).2 (ix2 p u) = G V c (ix2 n u) := by
  rw [Cert.Sage.Pay0.pay3_apply, acc_last V c t h3 p u n hn]
  rfl

/-- Where the output block's entry (p, u) at point t sits in the array: row 2000·(t/4) + p. -/
theorem out_emb (t : Fin cfg0.N) (p : Fin 2000) (u : Fin 256) (n : Fin 100000) (hn : n.val = 2000 * (t.val / 4) + p.val) :
    ((cfg0.win 5).blk t).view.emb (ix2 p u) = (ix2 n u : S100000x256.Idx) := by
  obtain ⟨-, -, -, -, -, -, -, -, -, -, -, -, -, -, q0, q1⟩ := idx_facts t
  funext a; apply Fin.ext
  match a with
  | ⟨0, _⟩ => show win0_5.index t (0 : Fin 2) * 2000 + 1 * p.val = n.val; omega
  | ⟨1, _⟩ => show win0_5.index t (1 : Fin 2) * 256 + 1 * u.val = u.val; omega

/-- WHAT A POINT OF TYPE 3 WRITES BACK is its block of the layer. -/
theorem flushed_eq (c : Dev nD) (t : Fin cfg0.N) (hf : (cfg0.win 5).flush t = true) :
    (dat0 V c).flushed 5 t = ((cfg0.win 5).blk t).view.read (Elt Ideal) (G V c) := by
  have h3 : t.val % 4 = 3 := (flush0_5 t).mp hf
  have hN : t.val < 200 := lt_of_lt_of_eq t.isLt (show cfg0.N = 200 from N_0)
  show (cfg0.win 5).cut (grid0.coords t) ((dat0 V c).after 5 t) = _
  rw [after0_5, out_last0 V c t h3]
  funext j
  obtain ⟨p, u, rfl⟩ : ∃ (p : Fin 2000) (u : Fin 256), j = ix2 p u := ⟨j 0, j 1, eq_ix2 j⟩
  show k0_pay3 (outsAt0 V c t.val t.isLt).2 (ix2 p u) = G V c (((cfg0.win 5).blk t).view.emb (ix2 p u))
  rw [out_emb t p u ⟨2000 * (t.val / 4) + p.val, by have := p.isLt; omega⟩ rfl]
  exact out_entry V c t h3 p u _ rfl

/-- An index of the array is in point t's block iff each coordinate is in the block's range on its axis. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v98).slice (win0_5.rect t)).set ↔ _
  rw [View.set_slice_whole, Rect.mem_set_unit]
  exact Iff.rfl

/-- THE OUTPUT ARRAY after the region: the layer of the arrays the region finds (the type-3 points' blocks tile it). -/
theorem final (c : Dev nD) : (dat0 V c).arrAt 5 cfg0.N = G V c :=
  (dat0 V c).arrAt_eq_of_cover 5 (G V c) (flushed_eq V c) fun i => by
    have hi0 : (i 0).val < 100000 := (i 0).isLt
    have hi1 : (i 1).val < 256 := (i 1).isLt
    have hlt : 4 * ((i 0).val / 2000) + 3 < cfg0.N := by rw [show cfg0.N = 200 from N_0]; omega
    refine ⟨⟨4 * ((i 0).val / 2000) + 3, hlt⟩, (flush0_5 _).mpr (by show (4 * ((i 0).val / 2000) + 3) % 4 = 3; omega), ?_⟩
    obtain ⟨-, -, -, -, -, -, -, -, -, -, -, -, -, -, q0, q1⟩ := idx_facts ⟨4 * ((i 0).val / 2000) + 3, hlt⟩
    rw [mem_blk]
    intro a
    match a with
    | ⟨0, _⟩ =>
      show win0_5.index _ (0 : Fin 2) * 2000 ≤ (i 0).val ∧ (i 0).val < win0_5.index _ (0 : Fin 2) * 2000 + 2000
      rw [q0]; show (4 * ((i 0).val / 2000) + 3) / 4 * 2000 ≤ (i 0).val ∧ (i 0).val < (4 * ((i 0).val / 2000) + 3) / 4 * 2000 + 2000; omega
    | ⟨1, _⟩ =>
      show win0_5.index _ (1 : Fin 2) * 256 ≤ (i 1).val ∧ (i 1).val < win0_5.index _ (1 : Fin 2) * 256 + 256
      rw [q1]; omega

end Cert.Sage.KVal0

end
-- ==== Proof.KernelIdealR1Vals.lean ====
import proofs.«146249_j79809082294964_1_alg».proof.Proof.KernelIdealR1Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, through the payloads -/

private theorem hz2 : (![0, 0] : Fin 2 → Nat) = fun _ => 0 := funext fun a => by fin_cases a <;> rfl
private theorem hz3 : (![0, 0, 0] : Fin 3 → Nat) = fun _ => 0 := funext fun a => by fin_cases a <;> rfl

/-- At type coordinate 0 the scratch is zero-filled, then the point's term is added onto it. -/
theorem sout1_A_0_eq (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) :
    sout1_A_0 c i arg2 harg2 arg3 harg3 arg4 harg4 arg5 harg5 arg6 harg6 arg7 harg7 arg8 harg8 hc0 hc1 x0 x1 x2 x3 x4 = k1_pay2 x0 x1 x2 x3 x4 k1_pay1 := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  try sl_unfold_words
  rw [View.canon_cons_unit_zero hz2]
  simp only [View.readAt_eq_ld, harg2.read_unread, harg3.read_unread, harg4.read_unread, harg5.read_unread, harg6.read_unread, View.ld_unit_zero (S := S1x2000x256) hz3, View.ld_unit_zero (S := S2000x256) hz2, View.ld_unit_zero (S := S1x256x128) hz3, View.ld_unit_zero (S := S1x1x128) hz3, View.ld_unit_zero (S := S2000x128) hz2, View.readCov_unit_zero (S := S2000x128) _ hz2]

/-- At type coordinate 1 or 2 the point's term is added onto what the scratch held. -/
theorem sout1_B_0_eq (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : ¬cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) :
    sout1_B_0 c i arg2 harg2 arg3 harg3 arg4 harg4 arg5 harg5 arg6 harg6 arg7 harg7 arg8 harg8 hc0 hc1 x0 x1 x2 x3 x4 xs0 = k1_pay2 x0 x1 x2 x3 x4 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  try sl_unfold_words
  rw [View.canon_unit_zero hz2]
  simp only [View.readAt_eq_ld, harg2.read_unread, harg3.read_unread, harg4.read_unread, harg5.read_unread, harg6.read_unread, harg8.read_unread, View.ld_unit_zero (S := S1x2000x256) hz3, View.ld_unit_zero (S := S2000x256) hz2, View.ld_unit_zero (S := S1x256x128) hz3, View.ld_unit_zero (S := S1x1x128) hz3, View.ld_unit_zero (S := S2000x128) hz2]

/-- At type coordinate 3 the scratch is updated the same way; -/
theorem sout1_C_0_eq (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) :
    sout1_C_0 c i arg2 harg2 arg3 harg3 arg4 harg4 arg5 harg5 arg6 harg6 arg7 harg7 arg8 harg8 hc0 hc1 x0 x1 x2 x3 x4 xs0 = k1_pay2 x0 x1 x2 x3 x4 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero hz2]
  simp only [View.readAt_eq_ld, harg2.read_unread, harg3.read_unread, harg4.read_unread, harg5.read_unread, harg6.read_unread, harg8.read_unread, View.ld_unit_zero (S := S1x2000x256) hz3, View.ld_unit_zero (S := S2000x256) hz2, View.ld_unit_zero (S := S1x256x128) hz3, View.ld_unit_zero (S := S1x1x128) hz3, View.ld_unit_zero (S := S2000x128) hz2]

/-- and the output block is the scaled, clamped scratch. -/
theorem out1_C_5_eq (c : Dev nD) (i : grid1.Coords) (arg2 : Memref sig .tc .vmem S1x2000x256 .f32) (harg2 : arg2.IsWhole) (arg3 : Memref sig .tc .vmem S2000x256 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x1x128 .f32) (harg6 : arg6.IsWhole) (arg7 : Memref sig .tc .vmem S2000x128 .f32) (harg7 : arg7.IsWhole) (arg8 : Memref sig .tc .vmem S2000x128 .f32) (harg8 : arg8.IsWhole) (hc0 : ¬cond1_0 i) (hc1 : cond1_1 i)
    (x0 : Vec F S1x2000x256 .f32) (x1 : Vec F S2000x256 .f32) (x2 : Vec F S1x256x128 .f32) (x3 : Vec F S1x256x128 .f32) (x4 : Vec F S1x1x128 .f32) (xs0 : Vec F S2000x128 .f32) :
    out1_C_5 c i arg2 harg2 arg3 harg3 arg4 harg4 arg5 harg5 arg6 harg6 arg7 harg7 arg8 harg8 hc0 hc1 x0 x1 x2 x3 x4 xs0 = k1_pay3 (k1_pay2 x0 x1 x2 x3 x4 xs0) := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  try sl_unfold_words
  rw [View.canon_unit_zero hz2, View.readCov_unit_zero (S := S2000x128) _ hz2]
  simp only [View.readAt_eq_ld, harg2.read_unread, harg3.read_unread, harg4.read_unread, harg5.read_unread, harg6.read_unread, harg8.read_unread, View.ld_unit_zero (S := S1x2000x256) hz3, View.ld_unit_zero (S := S2000x256) hz2, View.ld_unit_zero (S := S1x256x128) hz3, View.ld_unit_zero (S := S1x1x128) hz3, View.ld_unit_zero (S := S2000x128) hz2]

section Region1
variable (V : (c : Dev nD) → (b : Ref sig .tc) → Buf (Elt F) ((c : Thread nD τ).loc b))

/-! ## The accumulation, point by point, through the payloads -/

/-- At a point of type coordinate 0 the scratch ends at the point's term over the zero fill. -/
theorem scratch_first1 (c : Dev nD) (s : Fin cfg1.N) (h : s.val % 4 = 0) :
    (outsAt1 V c s.val s.isLt).2 = k1_pay2 (iblk1 V c 0 s) (iblk1 V c 1 s) (iblk1 V c 2 s) (iblk1 V c 3 s) (iblk1 V c 4 s) k1_pay1 := by
  rw [outsAt1_A V c s h (by omega)]
  dsimp only
  rw [sout1_A_0_eq]

/-- At any other point it ends at the point's term over what the point before left. -/
theorem scratch_next1 (c : Dev nD) (s : Fin cfg1.N) (h : s.val % 4 ≠ 0) :
    (outsAt1 V c s.val s.isLt).2 = k1_pay2 (iblk1 V c 0 s) (iblk1 V c 1 s) (iblk1 V c 2 s) (iblk1 V c 3 s) (iblk1 V c 4 s) (outsAt1 V c (s.val - 1) (Nat.lt_of_le_of_lt (Nat.sub_le _ _) s.isLt)).2 := by
  by_cases h3 : s.val % 4 = 3
  · rw [outsAt1_C V c s h h3]
    dsimp only
    rw [sout1_C_0_eq]
  · rw [outsAt1_B V c s h h3]
    dsimp only
    rw [sout1_B_0_eq]

/-- At a point of type coordinate 3 the output block is the scaled, clamped scratch of that point. -/
theorem out_last1 (c : Dev nD) (t : Fin cfg1.N) (h : t.val % 4 = 3) :
    (outsAt1 V c t.val t.isLt).1 = k1_pay3 ((outsAt1 V c t.val t.isLt).2) := by
  rw [outsAt1_C V c t (by omega) h]
  dsimp only
  rw [out1_C_5_eq, sout1_C_0_eq]

end Region1

end Cert.KernelIdeal.Hand

end
-- ==== Proof.PayloadRead1.lean ====
/-
  What region 1's body stores, read entry by entry on the extended reals.  The running sum's buffer receives, at
  row p and output channel u, what it held plus one edge type's contribution
      (Σ_k agg (0, p, k) · wl (0, k, u)  +  Σ_k x (p, k) · wr (0, k, u)) + b (0, 0, u)
  (the blocks carry a leading unit axis for the edge type; rounding the operands to a shorter format is the identity
  here, and a product formed into the zero accumulator is the plain sum over the contracted axis); the reset stores the
  zero word everywhere; and the output block is the running sum times the word of one quarter, capped below by zero.
-/
import proofs.«146249_j79809082294964_1_alg».proof.Proof.Gen.KernelIdeal.Skeleton
import proofs.«146249_j79809082294964_1_alg».proof.Proof.LibRowsProduct
import Idealize.ShloMosaic.Lib.ValueLayout
import Idealize.ShloMosaic.Lib.Pipeline.Value

noncomputable section

namespace Cert.Sage.Pay1

open Idealize.ShloMosaic Idealize.ShloMosaic.ValueIdx Cert.KernelIdeal Cert.KernelIdeal.Gen

/-- The contracted axis of the body's products is the one axis of extent 256. -/
theorem dot_rank : dot_S2000x256_S256x128_S2000x128_1_0_0_1_n_n.contr.rank = 1 := rfl
theorem dot_size : dot_S2000x256_S256x128_S2000x128_1_0_0_1_n_n.contr.size ⟨0, by decide⟩ = 256 := rfl
theorem dot_l0 (j : S2000x128.Idx) (q : dot_S2000x256_S256x128_S2000x128_1_0_0_1_n_n.contr.Idx) : (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dot_l1 (j : S2000x128.Idx) (q : dot_S2000x256_S256x128_S2000x128_1_0_0_1_n_n.contr.Idx) : (dot_S2000x256_S256x128_S2000x128_1_0_0_1_n_n.lhsIdx j q 1).val = (q ⟨0, by decide⟩).val :=
  dot_S2000x256_S256x128_S2000x128_1_0_0_1_n_n.lhsIdx_val_of_single rfl j q
theorem dot_r0 (j : S2000x128.Idx) (q : dot_S2000x256_S256x128_S2000x128_1_0_0_1_n_n.contr.Idx) : (dot_S2000x256_S256x128_S2000x128_1_0_0_1_n_n.rhsIdx j q 0).val = (q ⟨0, by decide⟩).val :=
  dot_S2000x256_S256x128_S2000x128_1_0_0_1_n_n.rhsIdx_val_of_single rfl j q
theorem dot_r1 (j : S2000x128.Idx) (q : dot_S2000x256_S256x128_S2000x128_1_0_0_1_n_n.contr.Idx) : (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A block of rows with a leading unit axis dropped, times a weight block with its leading unit axis dropped, into the
    zero accumulator: the plain sum over the contracted axis. -/
theorem product_apply (lhs : FVec Ideal S2000x256 .bf16) (rhs : FVec Ideal S256x128 .bf16) (p : Fin 2000) (u : Fin 128) :
    matmul dot_S2000x256_S256x128_S2000x128_1_0_0_1_n_n none lhs rhs (constant S2000x128 .f32 0x00000000#32) (ix2 p u)
      = ∑ k : Fin 256, lhs (ix2 p k) * rhs (ix2 k u) :=
  Cert.RowsProduct.matmul_zero_rows_apply (a := 2000) (K := 256) (b := 128) dot_S2000x256_S256x128_S2000x128_1_0_0_1_n_n none dot_rank dot_size dot_l0 dot_l1 dot_r0 dot_r1 lhs rhs p u

/-- The reset stores the zero word at every entry. -/
theorem pay1_apply (j : S2000x128.Idx) : k1_pay1 (F := Ideal) j = Ideal.ofBits .f32 0x00000000#32 := by
  unfold k1_pay1
  rw [shapeCast_self]
  rfl

/-- One point's store into the running sum's buffer: what it held plus the point's edge type's contribution. -/
theorem pay2_apply (a : Vec Ideal S1x2000x256 .f32) (x : Vec Ideal S2000x256 .f32) (wl wr : Vec Ideal S1x256x128 .f32)
    (b : Vec Ideal S1x1x128 .f32) (acc : Vec Ideal S2000x128 .f32) (p : Fin 2000) (u : Fin 128) :
    k1_pay2 a x wl wr b acc (ix2 p u)
      = acc (ix2 p u) + (((∑ k : Fin 256, a (ix3 (0 : Fin 1) p k) * wl (ix3 (0 : Fin 1) k u))
          + (∑ k : Fin 256, x (ix2 p k) * wr (ix3 (0 : Fin 1) k u))) + b (ix3 (0 : Fin 1) (0 : Fin 1) u)) := by
  unfold k1_pay2
  rw [shapeCast_self]
  refine congrArg (acc (ix2 p u) + ·) ?_
  refine congrArg₂ (· + ·) (congrArg₂ (· + ·) ?_ ?_) ?_
  · refine (product_apply _ _ p u).trans (Finset.sum_congr rfl fun k _ => ?_)
    refine congrArg₂ (· * ·) ?_ ?_
    · exact shapeCast_1ab_ab_apply a _ p k
    · exact shapeCast_1ab_ab_apply wl _ k u
  · refine (product_apply _ _ p u).trans (Finset.sum_congr rfl fun k _ => ?_)
    refine congrArg₂ (· * ·) (congrFun (shapeCast_self x _) (ix2 p k)) ?_
    exact shapeCast_1ab_ab_apply wr _ k u
  · refine (broadcastTo_1b_ab_apply _ _ p u).trans ?_
    rw [shapeCast_self]
    exact shapeCast_1ab_ab_apply b _ (0 : Fin 1) u

/-- The output block: the running sum times one quarter, capped below by zero. -/
theorem pay3_apply (acc : Vec Ideal S2000x128 .f32) (j : S2000x128.Idx) :
    k1_pay3 acc j = max (acc j * Ideal.ofBits .f32 0x3E800000#32) (Ideal.ofBits .f32 0x00000000#32) := rfl

end Cert.Sage.Pay1

end
-- ==== Proof.KernelIdealValue1.lean ====
/-
  What kernel region 1 leaves in its output array, as one function of the arrays it finds.  The grid runs over node blocks of
  2000 rows and, innermost, the four edge types; the running sum's buffer is reset at type 0, receives each type's
  contribution in turn, and at type 3 the block written back is the sum times one quarter capped below by zero.  Reading
  each staged block where its window's index map puts it (edge type t mod 4, node block t / 4), the block written back at
  a point of type 3 is rows 2000·(t/4) … of the layer in its running-sum arrangement; these blocks tile the array.
-/
import proofs.«146249_j79809082294964_1_alg».proof.Proof.KernelIdealR1Vals
import proofs.«146249_j79809082294964_1_alg».proof.Proof.PayloadRead1
import proofs.«146249_j79809082294964_1_alg».proof.Proof.SageLayer
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Sage.KVal1

open Cert.KernelIdeal Cert.KernelIdeal.Gen Cert.KernelIdeal.Hand

variable (V : (c : Dev nD) → (b : Ref sig .tc) → Buf (Elt Ideal) ((c : Thread nD τ).loc b))

/-- The printed index maps over the grid: at point t the edge type is t mod 4 and the node block is t / 4. -/
theorem idx_facts : ∀ t : Fin cfg1.N,
    win1_0.index t (0 : Fin 3) = t.val % 4 ∧ win1_0.index t (1 : Fin 3) = t.val / 4 ∧ win1_0.index t (2 : Fin 3) = 0
    ∧ win1_1.index t (0 : Fin 2) = t.val / 4 ∧ win1_1.index t (1 : Fin 2) = 0
    ∧ win1_2.index t (0 : Fin 3) = t.val % 4 ∧ win1_2.index t (1 : Fin 3) = 0 ∧ win1_2.index t (2 : Fin 3) = 0
    ∧ win1_3.index t (0 : Fin 3) = t.val % 4 ∧ win1_3.index t (1 : Fin 3) = 0 ∧ win1_3.index t (2 : Fin 3) = 0
    ∧ win1_4.index t (0 : Fin 3) = t.val % 4 ∧ win1_4.index t (1 : Fin 3) = 0 ∧ win1_4.index t (2 : Fin 3) = 0
    ∧ win1_5.index t (0 : Fin 2) = t.val / 4 ∧ win1_5.index t (1 : Fin 2) = 0 :=
  (by decide +kernel : ∀ t : Fin grid1.N, _)

/-- The arrays the region finds, entry by entry. -/
def aggE (c : Dev nD) (t : Fin 4) (n : Fin 100000) (k : Fin 256) : EReal := (V c main_v195 : S4x100000x256.Idx → EReal) (ix3 t n k)
def xE (c : Dev nD) (n : Fin 100000) (k : Fin 256) : EReal := (V c main_v98 : S100000x256.Idx → EReal) (ix2 n k)
def wlE (c : Dev nD) (t : Fin 4) (k : Fin 256) (u : Fin 128) : EReal := (V c main_arg5 : S4x256x128.Idx → EReal) (ix3 t k u)
def wrE (c : Dev nD) (t : Fin 4) (k : Fin 256) (u : Fin 128) : EReal := (V c main_arg6 : S4x256x128.Idx → EReal) (ix3 t k u)
def bE (c : Dev nD) (t : Fin 4) (u : Fin 128) : EReal := (V c main_v196 : S4x1x128.Idx → EReal) (ix3 t (0 : Fin 1) u)

/-- The layer, in its running-sum arrangement, of the arrays the region finds. -/
def G (c : Dev nD) : Buf (Elt Ideal) ((c : Thread nD τ).loc main_v197) := fun j =>
  Cert.Sage.layerAcc (aggE V c) (xE V c) (wlE V c) (wrE V c) (bE V c) (j 0) (j 1)

/-- The neighbour-mean block at point s: rows 2000·(s/4) … of edge type s mod 4. -/
theorem agg_read (c : Dev nD) (s : Fin cfg1.N) (p : Fin 2000) (k : Fin 256) (τ' : Fin 4) (n : Fin 100000)
    (hτ : τ'.val = s.val % 4) (hn : n.val = 2000 * (s.val / 4) + p.val) :
    (iblk1 V c 0 s : Vec Ideal S1x2000x256 .f32) (ix3 (0 : Fin 1) p k) = aggE V c τ' n k := by
  obtain ⟨e0, e1, e2, -⟩ := idx_facts s
  unfold iblk1 aggE
  rw [View.read_apply]
  show V c main_v195 _ = V c main_v195 _
  refine congrArg _ (funext fun a => Fin.ext ?_)
  match a with
  | ⟨0, _⟩ => show win1_0.index s (0 : Fin 3) * 1 + 1 * 0 = τ'.val; omega
  | ⟨1, _⟩ => show win1_0.index s (1 : Fin 3) * 2000 + 1 * p.val = n.val; omega
  | ⟨2, _⟩ => show win1_0.index s (2 : Fin 3) * 256 + 1 * k.val = k.val; omega

/-- The nodes' own rows at point s: rows 2000·(s/4) …. -/
theorem x_read (c : Dev nD) (s : Fin cfg1.N) (p : Fin 2000) (k : Fin 256) (n : Fin 100000)
    (hn : n.val = 2000 * (s.val / 4) + p.val) :
    (iblk1 V c 1 s : Vec Ideal S2000x256 .f32) (ix2 p k) = xE V c n k := by
  obtain ⟨-, -, -, e0, e1, -⟩ := idx_facts s
  unfold iblk1 xE
  rw [View.read_apply]
  show V c main_v98 _ = V c main_v98 _
  refine congrArg _ (funext fun a => Fin.ext ?_)
  match a with
  | ⟨0, _⟩ => show win1_1.index s (0 : Fin 2) * 2000 + 1 * p.val = n.val; omega
  | ⟨1, _⟩ => show win1_1.index s (1 : Fin 2) * 256 + 1 * k.val = k.val; omega

/-- The weight blocks at point s: edge type s mod 4's matrices. -/
theorem wl_read (c : Dev nD) (s : Fin cfg1.N) (k : Fin 256) (u : Fin 128) (τ' : Fin 4) (hτ : τ'.val = s.val % 4) :
    (iblk1 V c 2 s : Vec Ideal S1x256x128 .f32) (ix3 (0 : Fin 1) k u) = wlE V c τ' k u := by
  obtain ⟨-, -, -, -, -, e0, e1, e2, -⟩ := idx_facts s
  unfold iblk1 wlE
  rw [View.read_apply]
  show V c main_arg5 _ = V c main_arg5 _
  refine congrArg _ (funext fun a => Fin.ext ?_)
  match a with
  | ⟨0, _⟩ => show win1_2.index s (0 : Fin 3) * 1 + 1 * 0 = τ'.val; omega
  | ⟨1, _⟩ => show win1_2.index s (1 : Fin 3) * 256 + 1 * k.val = k.val; omega
  | ⟨2, _⟩ => show win1_2.index s (2 : Fin 3) * 128 + 1 * u.val = u.val; omega

theorem wr_read (c : Dev nD) (s : Fin cfg1.N) (k : Fin 256) (u : Fin 128) (τ' : Fin 4) (hτ : τ'.val = s.val % 4) :
    (iblk1 V c 3 s : Vec Ideal S1x256x128 .f32) (ix3 (0 : Fin 1) k u) = wrE V c τ' k u := by
  obtain ⟨-, -, -, -, -, -, -, -, e0, e1, e2, -⟩ := idx_facts s
  unfold iblk1 wrE
  rw [View.read_apply]
  show V c main_arg6 _ = V c main_arg6 _
  refine congrArg _ (funext fun a => Fin.ext ?_)
  match a with
  | ⟨0, _⟩ => show win1_3.index s (0 : Fin 3) * 1 + 1 * 0 = τ'.val; omega
  | ⟨1, _⟩ => show win1_3.index s (1 : Fin 3) * 256 + 1 * k.val = k.val; omega
  | ⟨2, _⟩ => show win1_3.index s (2 : Fin 3) * 128 + 1 * u.val = u.val; omega

/-- The bias block at point s: edge type s mod 4's row. -/
theorem b_read (c : Dev nD) (s : Fin cfg1.N) (u : Fin 128) (τ' : Fin 4) (hτ : τ'.val = s.val % 4) :
    (iblk1 V c 4 s : Vec Ideal S1x1x128 .f32) (ix3 (0 : Fin 1) (0 : Fin 1) u) = bE V c τ' u := by
  obtain ⟨-, -, -, -, -, -, -, -, -, -, -, e0, e1, e2, -⟩ := idx_facts s
  unfold iblk1 bE
  rw [View.read_apply]
  show V c main_v196 _ = V c main_v196 _
  refine congrArg _ (funext fun a => Fin.ext ?_)
  match a with
  | ⟨0, _⟩ => show win1_4.index s (0 : Fin 3) * 1 + 1 * 0 = τ'.val; omega
  | ⟨1, _⟩ => show win1_4.index s (1 : Fin 3) * 1 + 1 * 0 = 0; omega
  | ⟨2, _⟩ => show win1_4.index s (2 : Fin 3) * 128 + 1 * u.val = u.val; omega

/-- One point's store into the running sum: what it held plus the point's edge type's contribution at the point's rows. -/
theorem point_term (c : Dev nD) (s : Fin cfg1.N) (acc : Vec Ideal S2000x128 .f32) (p : Fin 2000) (u : Fin 128)
    (τ' : Fin 4) (n : Fin 100000) (hτ : τ'.val = s.val % 4) (hn : n.val = 2000 * (s.val / 4) + p.val) :
    k1_pay2 (iblk1 V c 0 s) (iblk1 V c 1 s) (iblk1 V c 2 s) (iblk1 V c 3 s) (iblk1 V c 4 s) acc (ix2 p u)
      = acc (ix2 p u) + Cert.Sage.term (aggE V c) (xE V c) (wlE V c) (wrE V c) (bE V c) τ' n u := by
  refine (Cert.Sage.Pay1.pay2_apply (iblk1 V c 0 s) (iblk1 V c 1 s) (iblk1 V c 2 s) (iblk1 V c 3 s) (iblk1 V c 4 s) acc p u).trans ?_
  unfold Cert.Sage.term
  refine congrArg (acc (ix2 p u) + ·) ?_
  refine congrArg₂ (· + ·) (congrArg₂ (· + ·) ?_ ?_) (b_read V c s u τ' hτ)
  · exact Finset.sum_congr rfl fun k _ => congrArg₂ (· * ·) (agg_read V c s p k τ' n hτ hn) (wl_read V c s k u τ' hτ)
  · exact Finset.sum_congr rfl fun k _ => congrArg₂ (· * ·) (x_read V c s p k n hn) (wr_read V c s k u τ' hτ)

/-- What the running sum's buffer holds after a point of type 3, at row p and channel u: the four contributions of the
    point's node block added in order onto zero. -/
theorem acc_last (c : Dev nD) (t : Fin cfg1.N) (h3 : t.val % 4 = 3) (p : Fin 2000) (u : Fin 128) (n : Fin 100000)
    (hn : n.val = 2000 * (t.val / 4) + p.val) :
    (outsAt1 V c t.val t.isLt).2 (ix2 p u)
      = (((Ideal.ofBits .f32 0x00000000#32 + Cert.Sage.term (aggE V c) (xE V c) (wlE V c) (wrE V c) (bE V c) 0 n u)
          + Cert.Sage.term (aggE V c) (xE V c) (wlE V c) (wrE V c) (bE V c) 1 n u)
          + Cert.Sage.term (aggE V c) (xE V c) (wlE V c) (wrE V c) (bE V c) 2 n u)
          + Cert.Sage.term (aggE V c) (xE V c) (wlE V c) (wrE V c) (bE V c) 3 n u := by
  have hN : t.val < 200 := lt_of_lt_of_eq t.isLt (show cfg1.N = 200 from N_1)
  have hlt : ∀ d : ℕ, t.val - d < cfg1.N := fun d => Nat.lt_of_le_of_lt (Nat.sub_le _ _) t.isLt
  -- the three earlier points of the node block
  have e3 := scratch_next1 V c t (by omega)
  have e2 := scratch_next1 V c ⟨t.val - 1, hlt 1⟩ (by show (t.val - 1) % 4 ≠ 0; omega)
  have e1 := scratch_next1 V c ⟨t.val - 2, hlt 2⟩ (by show (t.val - 2) % 4 ≠ 0; omega)
  have e0 := scratch_first1 V c ⟨t.val - 3, hlt 3⟩ (by show (t.val - 3) % 4 = 0; omega)
  rw [e3, point_term V c t _ p u 3 n (by show 3 = t.val % 4; omega) hn]
  refine congrArg (· + _) ?_
  rw [show (outsAt1 V c (t.val - 1) _).2 = (outsAt1 V c (⟨t.val - 1, hlt 1⟩ : Fin cfg1.N).val (⟨t.val - 1, hlt 1⟩ : Fin cfg1.N).isLt).2 from rfl, e2,
    point_term V c ⟨t.val - 1, hlt 1⟩ _ p u 2 n (by show 2 = (t.val - 1) % 4; omega) (by show n.val = 2000 * ((t.val - 1) / 4) + p.val; omega)]
  refine congrArg (· + _) ?_
  rw [show (outsAt1 V c ((⟨t.val - 1, hlt 1⟩ : Fin cfg1.N).val - 1) _).2 = (outsAt1 V c (⟨t.val - 2, hlt 2⟩ : Fin cfg1.N).val (⟨t.val - 2, hlt 2⟩ : Fin cfg1.N).isLt).2 from rfl, e1,
    point_term V c ⟨t.val - 2, hlt 2⟩ _ p u 1 n (by show 1 = (t.val - 2) % 4; omega) (by show n.val = 2000 * ((t.val - 2) / 4) + p.val; omega)]
  refine congrArg (· + _) ?_
  rw [show (outsAt1 V c ((⟨t.val - 2, hlt 2⟩ : Fin cfg1.N).val - 1) _).2 = (outsAt1 V c (⟨t.val - 3, hlt 3⟩ : Fin cfg1.N).val (⟨t.val - 3, hlt 3⟩ : Fin cfg1.N).isLt).2 from rfl, e0,
    point_term V c ⟨t.val - 3, hlt 3⟩ _ p u 0 n (by show 0 = (t.val - 3) % 4; omega) (by show n.val = 2000 * ((t.val - 3) / 4) + p.val; omega)]
  exact congrArg (· + _) (Cert.Sage.Pay1.pay1_apply _)

/-- At a point of type 3 the block stored for write-back reads, at row p and channel u, the layer at the block's row. -/
theorem out_entry (c : Dev nD) (t : Fin cfg1.N) (h3 : t.val % 4 = 3) (p : Fin 2000) (u : Fin 128) (n : Fin 100000)
    (hn : n.val = 2000 * (t.val / 4) + p.val) :
    k1_pay3 (outsAt1 V c t.val t.isLt).2 (ix2 p u) = G V c (ix2 n u) := by
  rw [Cert.Sage.Pay1.pay3_apply, acc_last V c t h3 p u n hn]
  rfl

/-- Where the output block's entry (p, u) at point t sits in the array: row 2000·(t/4) + p. -/
theorem out_emb (t : Fin cfg1.N) (p : Fin 2000) (u : Fin 128) (n : Fin 100000) (hn : n.val = 2000 * (t.val / 4) + p.val) :
    ((cfg1.win 5).blk t).view.emb (ix2 p u) = (ix2 n u : S100000x128.Idx) := by
  obtain ⟨-, -, -, -, -, -, -, -, -, -, -, -, -, -, q0, q1⟩ := idx_facts t
  funext a; apply Fin.ext
  match a with
  | ⟨0, _⟩ => show win1_5.index t (0 : Fin 2) * 2000 + 1 * p.val = n.val; omega
  | ⟨1, _⟩ => show win1_5.index t (1 : Fin 2) * 128 + 1 * u.val = u.val; omega

/-- WHAT A POINT OF TYPE 3 WRITES BACK is its block of the layer. -/
theorem flushed_eq (c : Dev nD) (t : Fin cfg1.N) (hf : (cfg1.win 5).flush t = true) :
    (dat1 V c).flushed 5 t = ((cfg1.win 5).blk t).view.read (Elt Ideal) (G V c) := by
  have h3 : t.val % 4 = 3 := (flush1_5 t).mp hf
  have hN : t.val < 200 := lt_of_lt_of_eq t.isLt (show cfg1.N = 200 from N_1)
  show (cfg1.win 5).cut (grid1.coords t) ((dat1 V c).after 5 t) = _
  rw [after1_5, out_last1 V c t h3]
  funext j
  obtain ⟨p, u, rfl⟩ : ∃ (p : Fin 2000) (u : Fin 128), j = ix2 p u := ⟨j 0, j 1, eq_ix2 j⟩
  show k1_pay3 (outsAt1 V c t.val t.isLt).2 (ix2 p u) = G V c (((cfg1.win 5).blk t).view.emb (ix2 p u))
  rw [out_emb t p u ⟨2000 * (t.val / 4) + p.val, by have := p.isLt; omega⟩ rfl]
  exact out_entry V c t h3 p u _ rfl

/-- An index of the array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v197).slice (win1_5.rect t)).set ↔ _
  rw [View.set_slice_whole, Rect.mem_set_unit]
  exact Iff.rfl

/-- THE OUTPUT ARRAY after the region: the layer of the arrays the region finds (the type-3 points' blocks tile it). -/
theorem final (c : Dev nD) : (dat1 V c).arrAt 5 cfg1.N = G V c :=
  (dat1 V c).arrAt_eq_of_cover 5 (G V c) (flushed_eq V c) fun i => by
    have hi0 : (i 0).val < 100000 := (i 0).isLt
    have hi1 : (i 1).val < 128 := (i 1).isLt
    have hlt : 4 * ((i 0).val / 2000) + 3 < cfg1.N := by rw [show cfg1.N = 200 from N_1]; omega
    refine ⟨⟨4 * ((i 0).val / 2000) + 3, hlt⟩, (flush1_5 _).mpr (by show (4 * ((i 0).val / 2000) + 3) % 4 = 3; omega), ?_⟩
    obtain ⟨-, -, -, -, -, -, -, -, -, -, -, -, -, -, q0, q1⟩ := idx_facts ⟨4 * ((i 0).val / 2000) + 3, hlt⟩
    rw [mem_blk]
    intro a
    match a with
    | ⟨0, _⟩ =>
      show win1_5.index _ (0 : Fin 2) * 2000 ≤ (i 0).val ∧ (i 0).val < win1_5.index _ (0 : Fin 2) * 2000 + 2000
      rw [q0]; show (4 * ((i 0).val / 2000) + 3) / 4 * 2000 ≤ (i 0).val ∧ (i 0).val < (4 * ((i 0).val / 2000) + 3) / 4 * 2000 + 2000; omega
    | ⟨1, _⟩ =>
      show win1_5.index _ (1 : Fin 2) * 128 ≤ (i 1).val ∧ (i 1).val < win1_5.index _ (1 : Fin 2) * 128 + 128
      rw [q1]; omega

end Cert.Sage.KVal1

end
-- ==== Proof.KernelHostDefs.lean ====
/-
  The terms the host operations around the two kernel regions compute, named once: an edge type's source and destination
  numbers (rows of the edge array), the mean of a node's in-neighbours' rows under one edge type, and the four means stacked
  along a new leading axis — with the stack read at (t, n, k) as the t-th mean at (n, k).
-/
import proofs.«146249_j79809082294964_1_alg».proof.Proof.Gen.KernelIdeal
import Idealize.ShloMosaic.Lib.Pipeline.Value
import Idealize.ShloMosaic.Lib.ValueIdx

set_option maxRecDepth 16384

noncomputable section

namespace Cert.Sage.KHost

open Idealize.ShloMosaic Idealize.ShloMosaic.ValueIdx Cert.KernelIdeal Cert.KernelIdeal.Gen

variable {F : FTy → Type} [FloatOps F]

/-- One of four, by the edge type. -/
def pick4 {α : Type} (a0 a1 a2 a3 : α) (t : Fin 4) : α :=
  match t with
  | ⟨0, _⟩ => a0
  | ⟨1, _⟩ => a1
  | ⟨2, _⟩ => a2
  | ⟨3, _⟩ => a3

/-- Edge type 0's source and destination numbers. -/
def src0 (e : (⟨S4x2x1000000, .i32⟩ : BufTy).Contents (Elt F)) : (⟨S1000000, .i32⟩ : BufTy).Contents (Elt F) :=
  shapeCast S1000000 (extractStridedSlice S1x1x1000000 ![0, 0, 0] e slices_S4x2x1000000_S1x1x1000000_0_0_0) shapeCasts_S1x1x1000000_S1000000
def dst0 (e : (⟨S4x2x1000000, .i32⟩ : BufTy).Contents (Elt F)) : (⟨S1000000, .i32⟩ : BufTy).Contents (Elt F) :=
  shapeCast S1000000 (extractStridedSlice S1x1x1000000 ![0, 1, 0] e slices_S4x2x1000000_S1x1x1000000_0_1_0) shapeCasts_S1x1x1000000_S1000000
/-- Edge type 1's source and destination numbers. -/
def src1 (e : (⟨S4x2x1000000, .i32⟩ : BufTy).Contents (Elt F)) : (⟨S1000000, .i32⟩ : BufTy).Contents (Elt F) :=
  shapeCast S1000000 (extractStridedSlice S1x1x1000000 ![1, 0, 0] e slices_S4x2x1000000_S1x1x1000000_1_0_0) shapeCasts_S1x1x1000000_S1000000
def dst1 (e : (⟨S4x2x1000000, .i32⟩ : BufTy).Contents (Elt F)) : (⟨S1000000, .i32⟩ : BufTy).Contents (Elt F) :=
  shapeCast S1000000 (extractStridedSlice S1x1x1000000 ![1, 1, 0] e slices_S4x2x1000000_S1x1x1000000_1_1_0) shapeCasts_S1x1x1000000_S1000000
/-- Edge type 2's source and destination numbers. -/
def src2 (e : (⟨S4x2x1000000, .i32⟩ : BufTy).Contents (Elt F)) : (⟨S1000000, .i32⟩ : BufTy).Contents (Elt F) :=
  shapeCast S1000000 (extractStridedSlice S1x1x1000000 ![2, 0, 0] e slices_S4x2x1000000_S1x1x1000000_2_0_0) shapeCasts_S1x1x1000000_S1000000
def dst2 (e : (⟨S4x2x1000000, .i32⟩ : BufTy).Contents (Elt F)) : (⟨S1000000, .i32⟩ : BufTy).Contents (Elt F) :=
  shapeCast S1000000 (extractStridedSlice S1x1x1000000 ![2, 1, 0] e slices_S4x2x1000000_S1x1x1000000_2_1_0) shapeCasts_S1x1x1000000_S1000000
/-- Edge type 3's source and destination numbers. -/
def src3 (e : (⟨S4x2x1000000, .i32⟩ : BufTy).Contents (Elt F)) : (⟨S1000000, .i32⟩ : BufTy).Contents (Elt F) :=
  shapeCast S1000000 (extractStridedSlice S1x1x1000000 ![3, 0, 0] e slices_S4x2x1000000_S1x1x1000000_3_0_0) shapeCasts_S1x1x1000000_S1000000
def dst3 (e : (⟨S4x2x1000000, .i32⟩ : BufTy).Contents (Elt F)) : (⟨S1000000, .i32⟩ : BufTy).Contents (Elt F) :=
  shapeCast S1000000 (extractStridedSlice S1x1x1000000 ![3, 1, 0] e slices_S4x2x1000000_S1x1x1000000_3_1_0) shapeCasts_S1x1x1000000_S1000000

/-- The mean of the in-neighbours' rows: rows of `x` gathered at the (wrapped) source numbers and added into the rows the
    destination numbers name, divided by the count of arrivals capped below by one. -/
def aggOf128 (x : (⟨S100000x128, .f32⟩ : BufTy).Contents (Elt F)) (src dst : (⟨S1000000, .i32⟩ : BufTy).Contents (Elt F)) :
    (⟨S100000x128, .f32⟩ : BufTy).Contents (Elt F) :=
  Host.divf
    (Host.scatterAdd scatter_S100000x128_S1000000x1_S1000000x128_1_0_0_1
      (broadcastInDim S100000x128 ![] bcast_S_S100000x128 (constant S_ .f32 0x00000000#32))
      (broadcastInDim S1000000x1 ![0] bcast_S1000000_S1000000x1_0 dst)
      (Host.gather gather_S100000x128_S1000000x1_S1000000x128_1_0_n_n_0_1_1128 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32))
            (broadcastInDim S1000000x1 ![0] bcast_S1000000_S1000000x1_0 dst)
            (broadcastInDim S1000000 ![] bcast_S_S1000000 (constant S_ .f32 0x3F800000#32)))
          (broadcastInDim S100000 ![] bcast_S_S100000 (constant S_ .f32 0x3F800000#32)))))

/-- The mean of the in-neighbours' rows: rows of `x` gathered at the (wrapped) source numbers and added into the rows the
    destination numbers name, divided by the count of arrivals capped below by one. -/
def aggOf256 (x : (⟨S100000x256, .f32⟩ : BufTy).Contents (Elt F)) (src dst : (⟨S1000000, .i32⟩ : BufTy).Contents (Elt F)) :
    (⟨S100000x256, .f32⟩ : BufTy).Contents (Elt F) :=
  Host.divf
    (Host.scatterAdd scatter_S100000x256_S1000000x1_S1000000x256_1_0_0_1
      (broadcastInDim S100000x256 ![] bcast_S_S100000x256 (constant S_ .f32 0x00000000#32))
      (broadcastInDim S1000000x1 ![0] bcast_S1000000_S1000000x1_0 dst)
      (Host.gather gather_S100000x256_S1000000x1_S1000000x256_1_0_n_n_0_1_1256 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S100000x256 ![0, 1] bcast_S100000x1_S100000x256_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32))
            (broadcastInDim S1000000x1 ![0] bcast_S1000000_S1000000x1_0 dst)
            (broadcastInDim S1000000 ![] bcast_S_S1000000 (constant S_ .f32 0x3F800000#32)))
          (broadcastInDim S100000 ![] bcast_S_S100000 (constant S_ .f32 0x3F800000#32)))))

/-- The four means, each given a unit leading axis, stacked along it. -/
def stack128 (a0 a1 a2 a3 : (⟨S100000x128, .f32⟩ : BufTy).Contents (Elt F)) : (⟨S4x100000x128, .f32⟩ : BufTy).Contents (Elt F) :=
  concatenate S4x100000x128 0
    [⟨S1x100000x128, broadcastInDim S1x100000x128 ![1, 2] bcast_S100000x128_S1x100000x128_1_2 a0⟩,
     ⟨S1x100000x128, broadcastInDim S1x100000x128 ![1, 2] bcast_S100000x128_S1x100000x128_1_2 a1⟩,
     ⟨S1x100000x128, broadcastInDim S1x100000x128 ![1, 2] bcast_S100000x128_S1x100000x128_1_2 a2⟩,
     ⟨S1x100000x128, broadcastInDim S1x100000x128 ![1, 2] bcast_S100000x128_S1x100000x128_1_2 a3⟩]
    concatenates_S1x100000x128_S1x100000x128_S1x100000x128_S1x100000x128_S4x100000x128_d0

/-- A mean with the unit axis inserted reads, at (0, n, k), the mean at (n, k). -/
theorem lead128_apply (a : (⟨S100000x128, .f32⟩ : BufTy).Contents (Elt F)) (z : Fin 1) (n : Fin 100000) (k : Fin 128) :
    broadcastInDim S1x100000x128 ![1, 2] bcast_S100000x128_S1x100000x128_1_2 a (ix3 z n k) = a (ix2 n k) :=
  broadcastInDim_apply _ _ a _ (ix2 n k) fun ax => by
    match ax with
    | ⟨0, _⟩ => exact (if_neg (show ¬((100000 : ℕ) = 1) by decide)).symm
    | ⟨1, _⟩ => exact (if_neg (show ¬((128 : ℕ) = 1) by decide)).symm

/-- The stack read at (t, n, k) is the t-th mean at (n, k). -/
theorem stack128_apply (a0 a1 a2 a3 : (⟨S100000x128, .f32⟩ : BufTy).Contents (Elt F)) (t : Fin 4) (n : Fin 100000) (k : Fin 128) :
    stack128 a0 a1 a2 a3 (ix3 t n k) = pick4 a0 a1 a2 a3 t (ix2 n k) := by
  unfold stack128
  have side : ∀ (j : S4x100000x128.Idx) (i : S1x100000x128.Idx), (i 1).val = (j 1).val → (i 2).val = (j 2).val →
      ∀ b : Fin S1x100000x128.rank, b.cast (rfl : S1x100000x128.rank = S4x100000x128.rank) ≠ (0 : Fin 3) → (i b).val = (j (b.cast rfl)).val := by
    intro j i h1 h2 b hb
    match b with
    | ⟨0, _⟩ => exact absurd rfl hb
    | ⟨1, _⟩ => exact h1
    | ⟨2, _⟩ => exact h2
  match t with
  | ⟨0, _⟩ =>
    refine (concatenate_apply_piece (t := S4x100000x128) (0 : Fin 3) _ _ _ 0 ?_ S1x100000x128 _ ?_ ?_ 0 ?_ (ix3 (0 : Fin 1) n k)
      ?_ ?_).trans (lead128_apply a0 0 n k)
    · show 0 < 4
      decide
    · rfl
    · rfl
    · rfl
    · exact side _ _ rfl rfl
    · rfl
  | ⟨1, _⟩ =>
    refine (concatenate_apply_piece (t := S4x100000x128) (0 : Fin 3) _ _ _ 1 ?_ S1x100000x128 _ ?_ ?_ 1 ?_ (ix3 (0 : Fin 1) n k)
      ?_ ?_).trans (lead128_apply a1 0 n k)
    · show 1 < 4
      decide
    · rfl
    · rfl
    · rfl
    · exact side _ _ rfl rfl
    · rfl
  | ⟨2, _⟩ =>
    refine (concatenate_apply_piece (t := S4x100000x128) (0 : Fin 3) _ _ _ 2 ?_ S1x100000x128 _ ?_ ?_ 2 ?_ (ix3 (0 : Fin 1) n k)
      ?_ ?_).trans (lead128_apply a2 0 n k)
    · show 2 < 4
      decide
    · rfl
    · rfl
    · rfl
    · exact side _ _ rfl rfl
    · rfl
  | ⟨3, _⟩ =>
    refine (concatenate_apply_piece (t := S4x100000x128) (0 : Fin 3) _ _ _ 3 ?_ S1x100000x128 _ ?_ ?_ 3 ?_ (ix3 (0 : Fin 1) n k)
      ?_ ?_).trans (lead128_apply a3 0 n k)
    · show 3 < 4
      decide
    · rfl
    · rfl
    · rfl
    · exact side _ _ rfl rfl
    · rfl

/-- The four means, each given a unit leading axis, stacked along it. -/
def stack256 (a0 a1 a2 a3 : (⟨S100000x256, .f32⟩ : BufTy).Contents (Elt F)) : (⟨S4x100000x256, .f32⟩ : BufTy).Contents (Elt F) :=
  concatenate S4x100000x256 0
    [⟨S1x100000x256, broadcastInDim S1x100000x256 ![1, 2] bcast_S100000x256_S1x100000x256_1_2 a0⟩,
     ⟨S1x100000x256, broadcastInDim S1x100000x256 ![1, 2] bcast_S100000x256_S1x100000x256_1_2 a1⟩,
     ⟨S1x100000x256, broadcastInDim S1x100000x256 ![1, 2] bcast_S100000x256_S1x100000x256_1_2 a2⟩,
     ⟨S1x100000x256, broadcastInDim S1x100000x256 ![1, 2] bcast_S100000x256_S1x100000x256_1_2 a3⟩]
    concatenates_S1x100000x256_S1x100000x256_S1x100000x256_S1x100000x256_S4x100000x256_d0

/-- A mean with the unit axis inserted reads, at (0, n, k), the mean at (n, k). -/
theorem lead256_apply (a : (⟨S100000x256, .f32⟩ : BufTy).Contents (Elt F)) (z : Fin 1) (n : Fin 100000) (k : Fin 256) :
    broadcastInDim S1x100000x256 ![1, 2] bcast_S100000x256_S1x100000x256_1_2 a (ix3 z n k) = a (ix2 n k) :=
  broadcastInDim_apply _ _ a _ (ix2 n k) fun ax => by
    match ax with
    | ⟨0, _⟩ => exact (if_neg (show ¬((100000 : ℕ) = 1) by decide)).symm
    | ⟨1, _⟩ => exact (if_neg (show ¬((256 : ℕ) = 1) by decide)).symm

/-- The stack read at (t, n, k) is the t-th mean at (n, k). -/
theorem stack256_apply (a0 a1 a2 a3 : (⟨S100000x256, .f32⟩ : BufTy).Contents (Elt F)) (t : Fin 4) (n : Fin 100000) (k : Fin 256) :
    stack256 a0 a1 a2 a3 (ix3 t n k) = pick4 a0 a1 a2 a3 t (ix2 n k) := by
  unfold stack256
  have side : ∀ (j : S4x100000x256.Idx) (i : S1x100000x256.Idx), (i 1).val = (j 1).val → (i 2).val = (j 2).val →
      ∀ b : Fin S1x100000x256.rank, b.cast (rfl : S1x100000x256.rank = S4x100000x256.rank) ≠ (0 : Fin 3) → (i b).val = (j (b.cast rfl)).val := by
    intro j i h1 h2 b hb
    match b with
    | ⟨0, _⟩ => exact absurd rfl hb
    | ⟨1, _⟩ => exact h1
    | ⟨2, _⟩ => exact h2
  match t with
  | ⟨0, _⟩ =>
    refine (concatenate_apply_piece (t := S4x100000x256) (0 : Fin 3) _ _ _ 0 ?_ S1x100000x256 _ ?_ ?_ 0 ?_ (ix3 (0 : Fin 1) n k)
      ?_ ?_).trans (lead256_apply a0 0 n k)
    · show 0 < 4
      decide
    · rfl
    · rfl
    · rfl
    · exact side _ _ rfl rfl
    · rfl
  | ⟨1, _⟩ =>
    refine (concatenate_apply_piece (t := S4x100000x256) (0 : Fin 3) _ _ _ 1 ?_ S1x100000x256 _ ?_ ?_ 1 ?_ (ix3 (0 : Fin 1) n k)
      ?_ ?_).trans (lead256_apply a1 0 n k)
    · show 1 < 4
      decide
    · rfl
    · rfl
    · rfl
    · exact side _ _ rfl rfl
    · rfl
  | ⟨2, _⟩ =>
    refine (concatenate_apply_piece (t := S4x100000x256) (0 : Fin 3) _ _ _ 2 ?_ S1x100000x256 _ ?_ ?_ 2 ?_ (ix3 (0 : Fin 1) n k)
      ?_ ?_).trans (lead256_apply a2 0 n k)
    · show 2 < 4
      decide
    · rfl
    · rfl
    · rfl
    · exact side _ _ rfl rfl
    · rfl
  | ⟨3, _⟩ =>
    refine (concatenate_apply_piece (t := S4x100000x256) (0 : Fin 3) _ _ _ 3 ?_ S1x100000x256 _ ?_ ?_ 3 ?_ (ix3 (0 : Fin 1) n k)
      ?_ ?_).trans (lead256_apply a3 0 n k)
    · show 3 < 4
      decide
    · rfl
    · rfl
    · rfl
    · exact side _ _ rfl rfl
    · rfl

end Cert.Sage.KHost

end
-- ==== Proof.KernelHost0.lean ====
/-
  The host operations in front of kernel region 0, read back: the four edge types' neighbour means of the node features
  stacked along a new leading axis, the bias stack with a unit axis inserted, and the buffers the region reads that the
  stretch leaves as they were.
-/
import proofs.«146249_j79809082294964_1_alg».proof.Proof.Gen.KernelIdeal.Launch
import proofs.«146249_j79809082294964_1_alg».proof.Proof.KernelHostDefs
import Idealize.ShloMosaic.Lib.StableHlo.Run

set_option maxRecDepth 16384

noncomputable section

namespace Cert.Sage.KHost

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- After the stretch the stacked-means buffer holds the stack of the four edge types' means. -/
theorem stretch0_agg (W : Valuation τ sig (Elt F)) :
    StableHlo.after hostOps0 W (Proc.devRef .tc main_v96)
      = stack128 (aggOf128 (W (Proc.devRef .tc main_arg0)) (src0 (W (Proc.devRef .tc main_arg1))) (dst0 (W (Proc.devRef .tc main_arg1))))
          (aggOf128 (W (Proc.devRef .tc main_arg0)) (src1 (W (Proc.devRef .tc main_arg1))) (dst1 (W (Proc.devRef .tc main_arg1))))
          (aggOf128 (W (Proc.devRef .tc main_arg0)) (src2 (W (Proc.devRef .tc main_arg1))) (dst2 (W (Proc.devRef .tc main_arg1))))
          (aggOf128 (W (Proc.devRef .tc main_arg0)) (src3 (W (Proc.devRef .tc main_arg1))) (dst3 (W (Proc.devRef .tc main_arg1)))) := by
  dsimp only [hostOps0]
  after_results_simp
  rfl

set_option maxHeartbeats 4000000 in
/-- The bias stack with a unit axis inserted. -/
theorem stretch0_bias (W : Valuation τ sig (Elt F)) :
    StableHlo.after hostOps0 W (Proc.devRef .tc main_v97)
      = shapeCast S4x1x256 (W (Proc.devRef .tc main_arg4)) shapeCasts_S4x256_S4x1x256 := by
  dsimp only [hostOps0]
  after_results_simp
  rfl

set_option maxHeartbeats 4000000 in
/-- The stretch leaves the rows the region reads, and the two weight stacks, as they were. -/
theorem stretch0_kept (W : Valuation τ sig (Elt F)) :
    StableHlo.after hostOps0 W (Proc.devRef .tc main_arg0) = W (Proc.devRef .tc main_arg0)
    ∧ StableHlo.after hostOps0 W (Proc.devRef .tc main_arg2) = W (Proc.devRef .tc main_arg2)
    ∧ StableHlo.after hostOps0 W (Proc.devRef .tc main_arg3) = W (Proc.devRef .tc main_arg3) := by
  refine ⟨?_, ?_, ?_⟩ <;> (dsimp only [hostOps0]; after_results_simp <;> rfl)

end Cert.Sage.KHost

end
-- ==== Proof.KernelHost1.lean ====
/-
  The host operations in front of kernel region 1, read back: the four edge types' neighbour means of the first layer's output
  stacked along a new leading axis, the bias stack with a unit axis inserted, and the buffers the region reads that the
  stretch leaves as they were.
-/
import proofs.«146249_j79809082294964_1_alg».proof.Proof.Gen.KernelIdeal.Launch
import proofs.«146249_j79809082294964_1_alg».proof.Proof.KernelHostDefs
import Idealize.ShloMosaic.Lib.StableHlo.Run

set_option maxRecDepth 16384

noncomputable section

namespace Cert.Sage.KHost

open Idealize.ShloMosaic Idealize.ShloMosaic.TcCoe Idealize.SL.Sem Idealize.ShloMosaic.StableHlo
open Cert.KernelIdeal Cert.KernelIdeal.Gen

variable {F : FTy → Type} [FloatOps F]

set_option maxHeartbeats 4000000 in
/-- After the stretch the stacked-means buffer holds the stack of the four edge types' means. -/
theorem stretch1_agg (W : Valuation τ sig (Elt F)) :
    StableHlo.after hostOps1 W (Proc.devRef .tc main_v195)
      = stack256 (aggOf256 (W (Proc.devRef .tc main_v98)) (src0 (W (Proc.devRef .tc main_arg1))) (dst0 (W (Proc.devRef .tc main_arg1))))
          (aggOf256 (W (Proc.devRef .tc main_v98)) (src1 (W (Proc.devRef .tc main_arg1))) (dst1 (W (Proc.devRef .tc main_arg1))))
          (aggOf256 (W (Proc.devRef .tc main_v98)) (src2 (W (Proc.devRef .tc main_arg1))) (dst2 (W (Proc.devRef .tc main_arg1))))
          (aggOf256 (W (Proc.devRef .tc main_v98)) (src3 (W (Proc.devRef .tc main_arg1))) (dst3 (W (Proc.devRef .tc main_arg1)))) := by
  dsimp only [hostOps1]
  after_results_simp
  rfl

set_option maxHeartbeats 4000000 in
/-- The bias stack with a unit axis inserted. -/
theorem stretch1_bias (W : Valuation τ sig (Elt F)) :
    StableHlo.after hostOps1 W (Proc.devRef .tc main_v196)
      = shapeCast S4x1x128 (W (Proc.devRef .tc main_arg7)) shapeCasts_S4x128_S4x1x128 := by
  dsimp only [hostOps1]
  after_results_simp
  rfl

set_option maxHeartbeats 4000000 in
/-- The stretch leaves the rows the region reads, and the two weight stacks, as they were. -/
theorem stretch1_kept (W : Valuation τ sig (Elt F)) :
    StableHlo.after hostOps1 W (Proc.devRef .tc main_v98) = W (Proc.devRef .tc main_v98)
    ∧ StableHlo.after hostOps1 W (Proc.devRef .tc main_arg5) = W (Proc.devRef .tc main_arg5)
    ∧ StableHlo.after hostOps1 W (Proc.devRef .tc main_arg6) = W (Proc.devRef .tc main_arg6) := by
  refine ⟨?_, ?_, ?_⟩ <;> (dsimp only [hostOps1]; after_results_simp <;> rfl)

end Cert.Sage.KHost

end
-- ==== Proof.KernelSide.lean ====
/-
  The kernel program's result as a function of its arguments.  The first region finds the stack of the four edge types'
  neighbour means of the node features, the features, the first layer's weights and its bias stack, so its output array is
  the first layer (in the running-sum arrangement) of those; the second region finds the same for that output and the second
  layer's parameters, so the result array is the second layer of the first.
-/
import proofs.«146249_j79809082294964_1_alg».proof.Proof.KernelIdealRun
import proofs.«146249_j79809082294964_1_alg».proof.Proof.KernelIdealValue0
import proofs.«146249_j79809082294964_1_alg».proof.Proof.KernelIdealValue1
import proofs.«146249_j79809082294964_1_alg».proof.Proof.KernelHost0
import proofs.«146249_j79809082294964_1_alg».proof.Proof.KernelHost1

set_option maxRecDepth 16384

noncomputable section

open Idealize.ShloMosaic Idealize.ShloMosaic.TcCoe Idealize.SL.Sem Idealize.ShloMosaic.ValueIdx

namespace Cert.Sage.KSide

open Cert.KernelIdeal Cert.KernelIdeal.Gen Cert.KernelIdeal.Hand

/-- A bias stack with a unit axis inserted reads, at (t, 0, u), the stack at (t, u). -/
theorem biasStack_apply {α : Type} {o : ℕ} (b : (⟨2, ![4, o]⟩ : Shape).Idx → α) (h : (⟨2, ![4, o]⟩ : Shape).ShapeCasts ⟨3, ![4, 1, o]⟩)
    (t : Fin 4) (z : Fin 1) (u : Fin o) : shapeCast ⟨3, ![4, 1, o]⟩ b h (ix3 t z u) = b (ix2 t u) :=
  shapeCast_apply b h _ _ (by
    have hz : z.val = 0 := by omega
    rw [Shape.rowMajor_val_three, Shape.rowMajor_val_two]
    show t.val * o + u.val = (t.val * 1 + z.val) * o + u.val
    rw [hz, Nat.mul_one, Nat.add_zero])

variable (m : (ℓ : Loc nD τ sig) → Buf (Elt Ideal) ℓ) (ρ : Dev nD → PrngReg)

/-! ## The first layer -/

/-- Edge type t's neighbour means of the node features. -/
def kagg0 (c : Dev nD) (t : Fin 4) : (⟨S100000x128, .f32⟩ : BufTy).Contents (Elt Ideal) :=
  KHost.pick4
    (KHost.aggOf128 (F := Ideal) (m ((c : Thread nD τ).loc main_arg0)) (KHost.src0 (m ((c : Thread nD τ).loc main_arg1))) (KHost.dst0 (m ((c : Thread nD τ).loc main_arg1))))
    (KHost.aggOf128 (F := Ideal) (m ((c : Thread nD τ).loc main_arg0)) (KHost.src1 (m ((c : Thread nD τ).loc main_arg1))) (KHost.dst1 (m ((c : Thread nD τ).loc main_arg1))))
    (KHost.aggOf128 (F := Ideal) (m ((c : Thread nD τ).loc main_arg0)) (KHost.src2 (m ((c : Thread nD τ).loc main_arg1))) (KHost.dst2 (m ((c : Thread nD τ).loc main_arg1))))
    (KHost.aggOf128 (F := Ideal) (m ((c : Thread nD τ).loc main_arg0)) (KHost.src3 (m ((c : Thread nD τ).loc main_arg1))) (KHost.dst3 (m ((c : Thread nD τ).loc main_arg1)))) t

theorem aggE0 (c : Dev nD) : KVal0.aggE (V1 m ρ) c = fun t n k => kagg0 m c t (ix2 n k) := by
  funext t n k
  unfold KVal0.aggE kagg0
  show (StableHlo.after hostOps0 (W0 m ρ c) (Proc.devRef .tc main_v96) : S4x100000x128.Idx → EReal) (ix3 t n k) = _
  rw [KHost.stretch0_agg, KHost.stack128_apply]

theorem xE0 (c : Dev nD) : KVal0.xE (V1 m ρ) c = fun n k => (m ((c : Thread nD τ).loc main_arg0)) (ix2 n k) := by
  funext n k
  unfold KVal0.xE
  show (StableHlo.after hostOps0 (W0 m ρ c) (Proc.devRef .tc main_arg0) : S100000x128.Idx → EReal) (ix2 n k) = _
  rw [(KHost.stretch0_kept (W0 m ρ c)).1]

theorem wlE0 (c : Dev nD) : KVal0.wlE (V1 m ρ) c = fun t k u => (m ((c : Thread nD τ).loc main_arg2)) (ix3 t k u) := by
  funext t k u
  unfold KVal0.wlE
  show (StableHlo.after hostOps0 (W0 m ρ c) (Proc.devRef .tc main_arg2) : S4x128x256.Idx → EReal) (ix3 t k u) = _
  rw [(KHost.stretch0_kept (W0 m ρ c)).2.1]

theorem wrE0 (c : Dev nD) : KVal0.wrE (V1 m ρ) c = fun t k u => (m ((c : Thread nD τ).loc main_arg3)) (ix3 t k u) := by
  funext t k u
  unfold KVal0.wrE
  show (StableHlo.after hostOps0 (W0 m ρ c) (Proc.devRef .tc main_arg3) : S4x128x256.Idx → EReal) (ix3 t k u) = _
  rw [(KHost.stretch0_kept (W0 m ρ c)).2.2]

theorem bE0 (c : Dev nD) : KVal0.bE (V1 m ρ) c = fun t u => (m ((c : Thread nD τ).loc main_arg4)) (ix2 t u) := by
  funext t u
  unfold KVal0.bE
  show (StableHlo.after hostOps0 (W0 m ρ c) (Proc.devRef .tc main_v97) : S4x1x256.Idx → EReal) (ix3 t (0 : Fin 1) u) = _
  rw [KHost.stretch0_bias]
  exact biasStack_apply _ _ t 0 u

/-- The first layer's output in the kernel program: what its first region leaves. -/
def H (c : Dev nD) : (⟨S100000x256, .f32⟩ : BufTy).Contents (Elt Ideal) := KVal0.G (V1 m ρ) c

/-- It is the first layer of the means of the features, the features and the first layer's parameters. -/
theorem H_apply (c : Dev nD) (n : Fin 100000) (u : Fin 256) :
    H m ρ c (ix2 n u) = Cert.Sage.layerAcc (fun t n k => kagg0 m c t (ix2 n k)) (fun n k => (m ((c : Thread nD τ).loc main_arg0)) (ix2 n k))
      (fun t k u => (m ((c : Thread nD τ).loc main_arg2)) (ix3 t k u)) (fun t k u => (m ((c : Thread nD τ).loc main_arg3)) (ix3 t k u)) (fun t u => (m ((c : Thread nD τ).loc main_arg4)) (ix2 t u)) n u := by
  unfold H KVal0.G
  rw [aggE0, xE0, wlE0, wrE0, bE0]
  rfl

/-- What the second stretch finds in the first region's output array. -/
theorem W2_H (c : Dev nD) : (W2 m ρ c (Proc.devRef .tc main_v98) : S100000x256.Idx → EReal) = H m ρ c :=
  (W2_v98 m ρ c).trans (KVal0.final (V1 m ρ) c)

/-! ## The second layer -/

/-- Edge type t's neighbour means of the first layer's output. -/
def kagg1 (c : Dev nD) (t : Fin 4) : (⟨S100000x256, .f32⟩ : BufTy).Contents (Elt Ideal) :=
  KHost.pick4
    (KHost.aggOf256 (F := Ideal) (H m ρ c) (KHost.src0 (m ((c : Thread nD τ).loc main_arg1))) (KHost.dst0 (m ((c : Thread nD τ).loc main_arg1))))
    (KHost.aggOf256 (F := Ideal) (H m ρ c) (KHost.src1 (m ((c : Thread nD τ).loc main_arg1))) (KHost.dst1 (m ((c : Thread nD τ).loc main_arg1))))
    (KHost.aggOf256 (F := Ideal) (H m ρ c) (KHost.src2 (m ((c : Thread nD τ).loc main_arg1))) (KHost.dst2 (m ((c : Thread nD τ).loc main_arg1))))
    (KHost.aggOf256 (F := Ideal) (H m ρ c) (KHost.src3 (m ((c : Thread nD τ).loc main_arg1))) (KHost.dst3 (m ((c : Thread nD τ).loc main_arg1)))) t

theorem aggE1 (c : Dev nD) : KVal1.aggE (V3 m ρ) c = fun t n k => kagg1 m ρ c t (ix2 n k) := by
  funext t n k
  unfold KVal1.aggE kagg1
  show (StableHlo.after hostOps1 (W2 m ρ c) (Proc.devRef .tc main_v195) : S4x100000x256.Idx → EReal) (ix3 t n k) = _
  rw [KHost.stretch1_agg, KHost.stack256_apply, W2_H, W2_main_arg1]

theorem xE1 (c : Dev nD) : KVal1.xE (V3 m ρ) c = fun n k => H m ρ c (ix2 n k) := by
  funext n k
  unfold KVal1.xE
  show (StableHlo.after hostOps1 (W2 m ρ c) (Proc.devRef .tc main_v98) : S100000x256.Idx → EReal) (ix2 n k) = _
  rw [(KHost.stretch1_kept (W2 m ρ c)).1, W2_H]

theorem wlE1 (c : Dev nD) : KVal1.wlE (V3 m ρ) c = fun t k u => (m ((c : Thread nD τ).loc main_arg5)) (ix3 t k u) := by
  funext t k u
  unfold KVal1.wlE
  show (StableHlo.after hostOps1 (W2 m ρ c) (Proc.devRef .tc main_arg5) : S4x256x128.Idx → EReal) (ix3 t k u) = _
  rw [(KHost.stretch1_kept (W2 m ρ c)).2.1, W2_main_arg5]

theorem wrE1 (c : Dev nD) : KVal1.wrE (V3 m ρ) c = fun t k u => (m ((c : Thread nD τ).loc main_arg6)) (ix3 t k u) := by
  funext t k u
  unfold KVal1.wrE
  show (StableHlo.after hostOps1 (W2 m ρ c) (Proc.devRef .tc main_arg6) : S4x256x128.Idx → EReal) (ix3 t k u) = _
  rw [(KHost.stretch1_kept (W2 m ρ c)).2.2, W2_main_arg6]

theorem bE1 (c : Dev nD) : KVal1.bE (V3 m ρ) c = fun t u => (m ((c : Thread nD τ).loc main_arg7)) (ix2 t u) := by
  funext t u
  unfold KVal1.bE
  show (StableHlo.after hostOps1 (W2 m ρ c) (Proc.devRef .tc main_v196) : S4x1x128.Idx → EReal) (ix3 t (0 : Fin 1) u) = _
  rw [KHost.stretch1_bias, W2_main_arg7]
  exact biasStack_apply _ _ t 0 u

/-- The kernel program's result array. -/
def R (c : Dev nD) : (⟨S100000x128, .f32⟩ : BufTy).Contents (Elt Ideal) := KVal1.G (V3 m ρ) c

/-- It is the second layer of the means of the first layer's output, that output and the second layer's parameters. -/
theorem R_apply (c : Dev nD) (n : Fin 100000) (u : Fin 128) :
    R m ρ c (ix2 n u) = Cert.Sage.layerAcc (fun t n k => kagg1 m ρ c t (ix2 n k)) (fun n k => H m ρ c (ix2 n k))
      (fun t k u => (m ((c : Thread nD τ).loc main_arg5)) (ix3 t k u)) (fun t k u => (m ((c : Thread nD τ).loc main_arg6)) (ix3 t k u)) (fun t u => (m ((c : Thread nD τ).loc main_arg7)) (ix2 t u)) n u := by
  unfold R KVal1.G
  rw [aggE1, xE1, wlE1, wrE1, bE1]
  rfl

/-- After the run the result buffer holds it. -/
theorem W4_R (c : Dev nD) : (W4 m ρ c (Proc.devRef .tc main_v197) : S100000x128.Idx → EReal) = R m ρ c :=
  (W4_result m ρ c).trans (KVal1.final (V3 m ρ) c)

end Cert.Sage.KSide

end
-- ==== Proof.RefLayer0.lean ====
import proofs.«146249_j79809082294964_1_alg».proof.Proof.RefReadP
import proofs.«146249_j79809082294964_1_alg».proof.Proof.SageLayer

noncomputable section

namespace Cert.Sage.Ref

open Cert.ReferenceIdeal Cert.ReferenceIdeal.Gen Idealize.ShloMosaic Idealize.ShloMosaic.ValueIdx

/-! The reference's first layer, read entry by entry: the output at node `n`, channel `u` is the four edge types'
    contributions (neighbours' mean through the left weights, the node's own row through the right weights, the bias)
    added in order, divided by four, and cut at zero. -/

/-- The mean of the in-neighbours' rows under edge type `t`, as the reference's stages compute it from the node features
    and the edge lists. -/
def aggR0 (t : Fin 4) (x0 : (⟨S100000x128, .f32⟩ : BufTy).Contents (Elt Ideal)) (x1 : (⟨S4x2x1000000, .i32⟩ : BufTy).Contents (Elt Ideal)) :
    (⟨S100000x128, .f32⟩ : BufTy).Contents (Elt Ideal) :=
  match t with
  | ⟨0, _⟩ => ReadP.val_main_v22 (F := Ideal) x0 x1
  | ⟨1, _⟩ => ReadP.val_main_v57 (F := Ideal) x0 x1
  | ⟨2, _⟩ => ReadP.val_main_v93 (F := Ideal) x0 x1
  | ⟨3, _⟩ => ReadP.val_main_v129 (F := Ideal) x0 x1

section idx
variable (n : Fin 100000) (u : Fin 256) (k : Fin 128)

theorem lrow0_0 : ReadP.lidx_main_v25 (ix2 n u) k = ix2 n k :=
  funext fun a => Fin.ext (by match a with | ⟨0, _⟩ => rfl | ⟨1, _⟩ => rfl)
theorem rrow0_0 : ReadP.lidx_main_v28 (ix2 n u) k = ix2 n k :=
  funext fun a => Fin.ext (by match a with | ⟨0, _⟩ => rfl | ⟨1, _⟩ => rfl)
theorem wl0_0 : ReadP.idx_main_v23 (ReadP.idx_main_v24 (ReadP.ridx_main_v25 (ix2 n u) k)) = ix3 (0 : Fin 4) k u :=
  funext fun a => Fin.ext (by
    have hk := k.isLt; have hu := u.isLt
    match a with
    | ⟨0, _⟩ => rfl
    | ⟨1, _⟩ => show (k.val * 256 + u.val) / 256 % 128 = k.val; omega
    | ⟨2, _⟩ => show (k.val * 256 + u.val) % 256 = u.val; omega)
theorem wr0_0 : ReadP.idx_main_v26 (ReadP.idx_main_v27 (ReadP.ridx_main_v28 (ix2 n u) k)) = ix3 (0 : Fin 4) k u :=
  funext fun a => Fin.ext (by
    have hk := k.isLt; have hu := u.isLt
    match a with
    | ⟨0, _⟩ => rfl
    | ⟨1, _⟩ => show (k.val * 256 + u.val) / 256 % 128 = k.val; omega
    | ⟨2, _⟩ => show (k.val * 256 + u.val) % 256 = u.val; omega)
theorem bias0_0 : ReadP.idx_main_v30 (ReadP.idx_main_v31 (ReadP.idx_main_v32 (ReadP.idx_main_v33 (ix2 n u)))) = ix2 (0 : Fin 4) u :=
  funext fun a => Fin.ext (by
    have hu := u.isLt
    match a with
    | ⟨0, _⟩ => rfl
    | ⟨1, _⟩ => show u.val % 256 = u.val; omega)

theorem lrow0_1 : ReadP.lidx_main_v60 (ix2 n u) k = ix2 n k :=
  funext fun a => Fin.ext (by match a with | ⟨0, _⟩ => rfl | ⟨1, _⟩ => rfl)
theorem rrow0_1 : ReadP.lidx_main_v63 (ix2 n u) k = ix2 n k :=
  funext fun a => Fin.ext (by match a with | ⟨0, _⟩ => rfl | ⟨1, _⟩ => rfl)
theorem wl0_1 : ReadP.idx_main_v58 (ReadP.idx_main_v59 (ReadP.ridx_main_v60 (ix2 n u) k)) = ix3 (1 : Fin 4) k u :=
  funext fun a => Fin.ext (by
    have hk := k.isLt; have hu := u.isLt
    match a with
    | ⟨0, _⟩ => rfl
    | ⟨1, _⟩ => show (k.val * 256 + u.val) / 256 % 128 = k.val; omega
    | ⟨2, _⟩ => show (k.val * 256 + u.val) % 256 = u.val; omega)
theorem wr0_1 : ReadP.idx_main_v61 (ReadP.idx_main_v62 (ReadP.ridx_main_v63 (ix2 n u) k)) = ix3 (1 : Fin 4) k u :=
  funext fun a => Fin.ext (by
    have hk := k.isLt; have hu := u.isLt
    match a with
    | ⟨0, _⟩ => rfl
    | ⟨1, _⟩ => show (k.val * 256 + u.val) / 256 % 128 = k.val; omega
    | ⟨2, _⟩ => show (k.val * 256 + u.val) % 256 = u.val; omega)
theorem bias0_1 : ReadP.idx_main_v65 (ReadP.idx_main_v66 (ReadP.idx_main_v67 (ReadP.idx_main_v68 (ix2 n u)))) = ix2 (1 : Fin 4) u :=
  funext fun a => Fin.ext (by
    have hu := u.isLt
    match a with
    | ⟨0, _⟩ => rfl
    | ⟨1, _⟩ => show u.val % 256 = u.val; omega)

theorem lrow0_2 : ReadP.lidx_main_v96 (ix2 n u) k = ix2 n k :=
  funext fun a => Fin.ext (by match a with | ⟨0, _⟩ => rfl | ⟨1, _⟩ => rfl)
theorem rrow0_2 : ReadP.lidx_main_v99 (ix2 n u) k = ix2 n k :=
  funext fun a => Fin.ext (by match a with | ⟨0, _⟩ => rfl | ⟨1, _⟩ => rfl)
theorem wl0_2 : ReadP.idx_main_v94 (ReadP.idx_main_v95 (ReadP.ridx_main_v96 (ix2 n u) k)) = ix3 (2 : Fin 4) k u :=
  funext fun a => Fin.ext (by
    have hk := k.isLt; have hu := u.isLt
    match a with
    | ⟨0, _⟩ => rfl
    | ⟨1, _⟩ => show (k.val * 256 + u.val) / 256 % 128 = k.val; omega
    | ⟨2, _⟩ => show (k.val * 256 + u.val) % 256 = u.val; omega)
theorem wr0_2 : ReadP.idx_main_v97 (ReadP.idx_main_v98 (ReadP.ridx_main_v99 (ix2 n u) k)) = ix3 (2 : Fin 4) k u :=
  funext fun a => Fin.ext (by
    have hk := k.isLt; have hu := u.isLt
    match a with
    | ⟨0, _⟩ => rfl
    | ⟨1, _⟩ => show (k.val * 256 + u.val) / 256 % 128 = k.val; omega
    | ⟨2, _⟩ => show (k.val * 256 + u.val) % 256 = u.val; omega)
theorem bias0_2 : ReadP.idx_main_v101 (ReadP.idx_main_v102 (ReadP.idx_main_v103 (ReadP.idx_main_v104 (ix2 n u)))) = ix2 (2 : Fin 4) u :=
  funext fun a => Fin.ext (by
    have hu := u.isLt
    match a with
    | ⟨0, _⟩ => rfl
    | ⟨1, _⟩ => show u.val % 256 = u.val; omega)

theorem lrow0_3 : ReadP.lidx_main_v132 (ix2 n u) k = ix2 n k :=
  funext fun a => Fin.ext (by match a with | ⟨0, _⟩ => rfl | ⟨1, _⟩ => rfl)
theorem rrow0_3 : ReadP.lidx_main_v135 (ix2 n u) k = ix2 n k :=
  funext fun a => Fin.ext (by match a with | ⟨0, _⟩ => rfl | ⟨1, _⟩ => rfl)
theorem wl0_3 : ReadP.idx_main_v130 (ReadP.idx_main_v131 (ReadP.ridx_main_v132 (ix2 n u) k)) = ix3 (3 : Fin 4) k u :=
  funext fun a => Fin.ext (by
    have hk := k.isLt; have hu := u.isLt
    match a with
    | ⟨0, _⟩ => rfl
    | ⟨1, _⟩ => show (k.val * 256 + u.val) / 256 % 128 = k.val; omega
    | ⟨2, _⟩ => show (k.val * 256 + u.val) % 256 = u.val; omega)
theorem wr0_3 : ReadP.idx_main_v133 (ReadP.idx_main_v134 (ReadP.ridx_main_v135 (ix2 n u) k)) = ix3 (3 : Fin 4) k u :=
  funext fun a => Fin.ext (by
    have hk := k.isLt; have hu := u.isLt
    match a with
    | ⟨0, _⟩ => rfl
    | ⟨1, _⟩ => show (k.val * 256 + u.val) / 256 % 128 = k.val; omega
    | ⟨2, _⟩ => show (k.val * 256 + u.val) % 256 = u.val; omega)
theorem bias0_3 : ReadP.idx_main_v137 (ReadP.idx_main_v138 (ReadP.idx_main_v139 (ReadP.idx_main_v140 (ix2 n u)))) = ix2 (3 : Fin 4) u :=
  funext fun a => Fin.ext (by
    have hu := u.isLt
    match a with
    | ⟨0, _⟩ => rfl
    | ⟨1, _⟩ => show u.val % 256 = u.val; omega)

end idx

/-- The first layer's output at node `n`, channel `u`. -/
theorem ref_layer0_apply (x0 : (⟨S100000x128, .f32⟩ : BufTy).Contents (Elt Ideal)) (x1 : (⟨S4x2x1000000, .i32⟩ : BufTy).Contents (Elt Ideal))
    (x2 x3 : (⟨S4x128x256, .f32⟩ : BufTy).Contents (Elt Ideal)) (x4 : (⟨S4x256, .f32⟩ : BufTy).Contents (Elt Ideal))
    (n : Fin 100000) (u : Fin 256) :
    ReadP.val_main_v145 (F := Ideal) x0 x1 x2 x3 x4 (ix2 n u)
      = Cert.Sage.layerMean (N := 100000) (K := 128) (O := 256) (fun t n k => aggR0 t x0 x1 (ix2 n k)) (fun n k => x0 (ix2 n k))
          (fun t k u => x2 (ix3 t k u)) (fun t k u => x3 (ix3 t k u)) (fun t u => x4 (ix2 t u)) n u := by
  rw [
    ReadP.val_main_v145_apply, ReadP.val_main_v144_apply, ReadP.val_main_v142_apply, ReadP.val_main_v106_apply,
    ReadP.val_main_v70_apply, ReadP.val_main_v34_apply, ReadP.val_main_v29_apply, ReadP.val_main_v25_apply, ReadP.val_main_v28_apply,
    ReadP.val_main_v33_apply, ReadP.val_main_v32_apply, ReadP.val_main_v31_apply, ReadP.val_main_v30_apply, ReadP.val_main_v69_apply,
    ReadP.val_main_v64_apply, ReadP.val_main_v60_apply, ReadP.val_main_v63_apply, ReadP.val_main_v68_apply, ReadP.val_main_v67_apply,
    ReadP.val_main_v66_apply, ReadP.val_main_v65_apply, ReadP.val_main_v105_apply, ReadP.val_main_v100_apply,
    ReadP.val_main_v96_apply, ReadP.val_main_v99_apply, ReadP.val_main_v104_apply, ReadP.val_main_v103_apply,
    ReadP.val_main_v102_apply, ReadP.val_main_v101_apply, ReadP.val_main_v141_apply, ReadP.val_main_v136_apply,
    ReadP.val_main_v132_apply, ReadP.val_main_v135_apply, ReadP.val_main_v140_apply, ReadP.val_main_v139_apply,
    ReadP.val_main_v138_apply, ReadP.val_main_v137_apply, ReadP.val_main_v143_apply, ReadP.val_main_cst_22_apply,
    ReadP.val_main_call0_v0_apply, ReadP.val_main_call0_cst_apply]
  simp only [
    ReadP.val_main_v24_apply, ReadP.val_main_v23_apply, ReadP.val_main_v27_apply, ReadP.val_main_v26_apply, ReadP.val_main_v59_apply,
    ReadP.val_main_v58_apply, ReadP.val_main_v62_apply, ReadP.val_main_v61_apply, ReadP.val_main_v95_apply, ReadP.val_main_v94_apply,
    ReadP.val_main_v98_apply, ReadP.val_main_v97_apply, ReadP.val_main_v131_apply, ReadP.val_main_v130_apply,
    ReadP.val_main_v134_apply, ReadP.val_main_v133_apply, lrow0_0, rrow0_0, wl0_0, wr0_0, bias0_0, lrow0_1, rrow0_1, wl0_1, wr0_1,
    bias0_1, lrow0_2, rrow0_2, wl0_2, wr0_2, bias0_2, lrow0_3, rrow0_3, wl0_3, wr0_3, bias0_3,
    Ideal.addf_def, Ideal.maximumf_def, Ideal.hostDivf_def, Ideal.ofBits_def]
  rfl

end Cert.Sage.Ref

end
-- ==== Proof.RefAggText.lean ====
import proofs.«146249_j79809082294964_1_alg».proof.Proof.Gen.ReferenceIdeal

noncomputable section

namespace Cert.Sage.Ref

open Cert.ReferenceIdeal Cert.ReferenceIdeal.Gen Idealize.ShloMosaic

/-! The aggregation of one edge type as a composition of host operations: the edge array's rows of source and
    destination numbers, and the mean of the in-neighbours' rows of a node array under them. -/

variable {F : FTy → Type} [FloatOps F]

/-- Edge type 0's source and destination numbers. -/
def src0 (e : (⟨S4x2x1000000, .i32⟩ : BufTy).Contents (Elt F)) : (⟨S1000000, .i32⟩ : BufTy).Contents (Elt F) :=
  shapeCast S1000000 (extractStridedSlice S1x1x1000000 ![0, 0, 0] e slices_S4x2x1000000_S1x1x1000000_0_0_0) shapeCasts_S1x1x1000000_S1000000
def dst0 (e : (⟨S4x2x1000000, .i32⟩ : BufTy).Contents (Elt F)) : (⟨S1000000, .i32⟩ : BufTy).Contents (Elt F) :=
  shapeCast S1000000 (extractStridedSlice S1x1x1000000 ![0, 1, 0] e slices_S4x2x1000000_S1x1x1000000_0_1_0) shapeCasts_S1x1x1000000_S1000000
/-- Edge type 1's source and destination numbers. -/
def src1 (e : (⟨S4x2x1000000, .i32⟩ : BufTy).Contents (Elt F)) : (⟨S1000000, .i32⟩ : BufTy).Contents (Elt F) :=
  shapeCast S1000000 (extractStridedSlice S1x1x1000000 ![1, 0, 0] e slices_S4x2x1000000_S1x1x1000000_1_0_0) shapeCasts_S1x1x1000000_S1000000
def dst1 (e : (⟨S4x2x1000000, .i32⟩ : BufTy).Contents (Elt F)) : (⟨S1000000, .i32⟩ : BufTy).Contents (Elt F) :=
  shapeCast S1000000 (extractStridedSlice S1x1x1000000 ![1, 1, 0] e slices_S4x2x1000000_S1x1x1000000_1_1_0) shapeCasts_S1x1x1000000_S1000000
/-- Edge type 2's source and destination numbers. -/
def src2 (e : (⟨S4x2x1000000, .i32⟩ : BufTy).Contents (Elt F)) : (⟨S1000000, .i32⟩ : BufTy).Contents (Elt F) :=
  shapeCast S1000000 (extractStridedSlice S1x1x1000000 ![2, 0, 0] e slices_S4x2x1000000_S1x1x1000000_2_0_0) shapeCasts_S1x1x1000000_S1000000
def dst2 (e : (⟨S4x2x1000000, .i32⟩ : BufTy).Contents (Elt F)) : (⟨S1000000, .i32⟩ : BufTy).Contents (Elt F) :=
  shapeCast S1000000 (extractStridedSlice S1x1x1000000 ![2, 1, 0] e slices_S4x2x1000000_S1x1x1000000_2_1_0) shapeCasts_S1x1x1000000_S1000000
/-- Edge type 3's source and destination numbers. -/
def src3 (e : (⟨S4x2x1000000, .i32⟩ : BufTy).Contents (Elt F)) : (⟨S1000000, .i32⟩ : BufTy).Contents (Elt F) :=
  shapeCast S1000000 (extractStridedSlice S1x1x1000000 ![3, 0, 0] e slices_S4x2x1000000_S1x1x1000000_3_0_0) shapeCasts_S1x1x1000000_S1000000
def dst3 (e : (⟨S4x2x1000000, .i32⟩ : BufTy).Contents (Elt F)) : (⟨S1000000, .i32⟩ : BufTy).Contents (Elt F) :=
  shapeCast S1000000 (extractStridedSlice S1x1x1000000 ![3, 1, 0] e slices_S4x2x1000000_S1x1x1000000_3_1_0) shapeCasts_S1x1x1000000_S1000000

/-- The mean of the in-neighbours' rows: rows of `x` gathered at the (wrapped) source numbers and added into the rows the
    destination numbers name, divided by the count of arrivals capped below by one. -/
def aggOf128 (x : (⟨S100000x128, .f32⟩ : BufTy).Contents (Elt F)) (src dst : (⟨S1000000, .i32⟩ : BufTy).Contents (Elt F)) :
    (⟨S100000x128, .f32⟩ : BufTy).Contents (Elt F) :=
  Host.divf
    (Host.scatterAdd scatter_S100000x128_S1000000x1_S1000000x128_1_0_0_1
      (broadcastInDim S100000x128 ![] bcast_S_S100000x128 (constant S_ .f32 0x00000000#32))
      (broadcastInDim S1000000x1 ![0] bcast_S1000000_S1000000x1_0 dst)
      (Host.gather gather_S100000x128_S1000000x1_S1000000x128_1_0_n_n_0_1_1128 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32))
            (broadcastInDim S1000000x1 ![0] bcast_S1000000_S1000000x1_0 dst)
            (broadcastInDim S1000000 ![] bcast_S_S1000000 (constant S_ .f32 0x3F800000#32)))
          (broadcastInDim S100000 ![] bcast_S_S100000 (constant S_ .f32 0x3F800000#32)))))

/-- The mean of the in-neighbours' rows: rows of `x` gathered at the (wrapped) source numbers and added into the rows the
    destination numbers name, divided by the count of arrivals capped below by one. -/
def aggOf256 (x : (⟨S100000x256, .f32⟩ : BufTy).Contents (Elt F)) (src dst : (⟨S1000000, .i32⟩ : BufTy).Contents (Elt F)) :
    (⟨S100000x256, .f32⟩ : BufTy).Contents (Elt F) :=
  Host.divf
    (Host.scatterAdd scatter_S100000x256_S1000000x1_S1000000x256_1_0_0_1
      (broadcastInDim S100000x256 ![] bcast_S_S100000x256 (constant S_ .f32 0x00000000#32))
      (broadcastInDim S1000000x1 ![0] bcast_S1000000_S1000000x1_0 dst)
      (Host.gather gather_S100000x256_S1000000x1_S1000000x256_1_0_n_n_0_1_1256 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S100000x256 ![0, 1] bcast_S100000x1_S100000x256_0_1
      (broadcastInDim S100000x1 ![0] bcast_S100000_S100000x1_0
        (maximumf
          (Host.scatterAdd scatter_S100000_S1000000x1_S1000000_n_0_0_1
            (broadcastInDim S100000 ![] bcast_S_S100000 (constant S_ .f32 0x00000000#32))
            (broadcastInDim S1000000x1 ![0] bcast_S1000000_S1000000x1_0 dst)
            (broadcastInDim S1000000 ![] bcast_S_S1000000 (constant S_ .f32 0x3F800000#32)))
          (broadcastInDim S100000 ![] bcast_S_S100000 (constant S_ .f32 0x3F800000#32)))))

end Cert.Sage.Ref

end
-- ==== Proof.RefLayer0Agg.lean ====
import proofs.«146249_j79809082294964_1_alg».proof.Proof.RefLayer0
import proofs.«146249_j79809082294964_1_alg».proof.Proof.RefAggText

noncomputable section

namespace Cert.Sage.Ref

open Cert.ReferenceIdeal Cert.ReferenceIdeal.Gen Idealize.ShloMosaic

/-! The first layer's aggregation stages are the mean of the in-neighbours' rows of the node features under each edge
    type's source and destination numbers: the stages' definitions, composed. -/

section
variable (x0 : (⟨S100000x128, .f32⟩ : BufTy).Contents (Elt Ideal)) (x1 : (⟨S4x2x1000000, .i32⟩ : BufTy).Contents (Elt Ideal))

theorem aggR0_eq_0 : aggR0 0 x0 x1 = aggOf128 (F := Ideal) x0 (src0 x1) (dst0 x1) := rfl
theorem aggR0_eq_1 : aggR0 1 x0 x1 = aggOf128 (F := Ideal) x0 (src1 x1) (dst1 x1) := rfl
theorem aggR0_eq_2 : aggR0 2 x0 x1 = aggOf128 (F := Ideal) x0 (src2 x1) (dst2 x1) := rfl
theorem aggR0_eq_3 : aggR0 3 x0 x1 = aggOf128 (F := Ideal) x0 (src3 x1) (dst3 x1) := rfl

/-- All four edge types at once. -/
theorem aggR0_eq (t : Fin 4) :
    aggR0 t x0 x1 = match t with
      | ⟨0, _⟩ => aggOf128 (F := Ideal) x0 (src0 x1) (dst0 x1)
      | ⟨1, _⟩ => aggOf128 (F := Ideal) x0 (src1 x1) (dst1 x1)
      | ⟨2, _⟩ => aggOf128 (F := Ideal) x0 (src2 x1) (dst2 x1)
      | ⟨3, _⟩ => aggOf128 (F := Ideal) x0 (src3 x1) (dst3 x1) := by
  match t with
  | ⟨0, _⟩ => rfl
  | ⟨1, _⟩ => rfl
  | ⟨2, _⟩ => rfl
  | ⟨3, _⟩ => rfl

end

end Cert.Sage.Ref

end
-- ==== Proof.RefLayer1.lean ====
import proofs.«146249_j79809082294964_1_alg».proof.Proof.RefReadP
import proofs.«146249_j79809082294964_1_alg».proof.Proof.SageLayer

noncomputable section

namespace Cert.Sage.Ref

open Cert.ReferenceIdeal Cert.ReferenceIdeal.Gen Idealize.ShloMosaic Idealize.ShloMosaic.ValueIdx

/-! The reference's second layer, read entry by entry over the first layer's output: the result at node `n`, channel
    `u` is the four edge types' contributions added in order, divided by four, and cut at zero. -/

/-- The mean of the in-neighbours' first-layer rows under edge type `t`, as the reference's stages compute it. -/
def aggR1 (t : Fin 4) (x0 : (⟨S100000x128, .f32⟩ : BufTy).Contents (Elt Ideal)) (x1 : (⟨S4x2x1000000, .i32⟩ : BufTy).Contents (Elt Ideal))
    (x2 x3 : (⟨S4x128x256, .f32⟩ : BufTy).Contents (Elt Ideal)) (x4 : (⟨S4x256, .f32⟩ : BufTy).Contents (Elt Ideal)) :
    (⟨S100000x256, .f32⟩ : BufTy).Contents (Elt Ideal) :=
  match t with
  | ⟨0, _⟩ => ReadP.val_main_v168 (F := Ideal) x0 x1 x2 x3 x4
  | ⟨1, _⟩ => ReadP.val_main_v203 (F := Ideal) x0 x1 x2 x3 x4
  | ⟨2, _⟩ => ReadP.val_main_v239 (F := Ideal) x0 x1 x2 x3 x4
  | ⟨3, _⟩ => ReadP.val_main_v275 (F := Ideal) x0 x1 x2 x3 x4

section idx
variable (n : Fin 100000) (u : Fin 128) (k : Fin 256)

theorem lrow1_0 : ReadP.lidx_main_v171 (ix2 n u) k = ix2 n k :=
  funext fun a => Fin.ext (by match a with | ⟨0, _⟩ => rfl | ⟨1, _⟩ => rfl)
theorem rrow1_0 : ReadP.lidx_main_v174 (ix2 n u) k = ix2 n k :=
  funext fun a => Fin.ext (by match a with | ⟨0, _⟩ => rfl | ⟨1, _⟩ => rfl)
theorem wl1_0 : ReadP.idx_main_v169 (ReadP.idx_main_v170 (ReadP.ridx_main_v171 (ix2 n u) k)) = ix3 (0 : Fin 4) k u :=
  funext fun a => Fin.ext (by
    have hk := k.isLt; have hu := u.isLt
    match a with
    | ⟨0, _⟩ => rfl
    | ⟨1, _⟩ => show (k.val * 128 + u.val) / 128 % 256 = k.val; omega
    | ⟨2, _⟩ => show (k.val * 128 + u.val) % 128 = u.val; omega)
theorem wr1_0 : ReadP.idx_main_v172 (ReadP.idx_main_v173 (ReadP.ridx_main_v174 (ix2 n u) k)) = ix3 (0 : Fin 4) k u :=
  funext fun a => Fin.ext (by
    have hk := k.isLt; have hu := u.isLt
    match a with
    | ⟨0, _⟩ => rfl
    | ⟨1, _⟩ => show (k.val * 128 + u.val) / 128 % 256 = k.val; omega
    | ⟨2, _⟩ => show (k.val * 128 + u.val) % 128 = u.val; omega)
theorem bias1_0 : ReadP.idx_main_v176 (ReadP.idx_main_v177 (ReadP.idx_main_v178 (ReadP.idx_main_v179 (ix2 n u)))) = ix2 (0 : Fin 4) u :=
  funext fun a => Fin.ext (by
    have hu := u.isLt
    match a with
    | ⟨0, _⟩ => rfl
    | ⟨1, _⟩ => show u.val % 128 = u.val; omega)

theorem lrow1_1 : ReadP.lidx_main_v206 (ix2 n u) k = ix2 n k :=
  funext fun a => Fin.ext (by match a with | ⟨0, _⟩ => rfl | ⟨1, _⟩ => rfl)
theorem rrow1_1 : ReadP.lidx_main_v209 (ix2 n u) k = ix2 n k :=
  funext fun a => Fin.ext (by match a with | ⟨0, _⟩ => rfl | ⟨1, _⟩ => rfl)
theorem wl1_1 : ReadP.idx_main_v204 (ReadP.idx_main_v205 (ReadP.ridx_main_v206 (ix2 n u) k)) = ix3 (1 : Fin 4) k u :=
  funext fun a => Fin.ext (by
    have hk := k.isLt; have hu := u.isLt
    match a with
    | ⟨0, _⟩ => rfl
    | ⟨1, _⟩ => show (k.val * 128 + u.val) / 128 % 256 = k.val; omega
    | ⟨2, _⟩ => show (k.val * 128 + u.val) % 128 = u.val; omega)
theorem wr1_1 : ReadP.idx_main_v207 (ReadP.idx_main_v208 (ReadP.ridx_main_v209 (ix2 n u) k)) = ix3 (1 : Fin 4) k u :=
  funext fun a => Fin.ext (by
    have hk := k.isLt; have hu := u.isLt
    match a with
    | ⟨0, _⟩ => rfl
    | ⟨1, _⟩ => show (k.val * 128 + u.val) / 128 % 256 = k.val; omega
    | ⟨2, _⟩ => show (k.val * 128 + u.val) % 128 = u.val; omega)
theorem bias1_1 : ReadP.idx_main_v211 (ReadP.idx_main_v212 (ReadP.idx_main_v213 (ReadP.idx_main_v214 (ix2 n u)))) = ix2 (1 : Fin 4) u :=
  funext fun a => Fin.ext (by
    have hu := u.isLt
    match a with
    | ⟨0, _⟩ => rfl
    | ⟨1, _⟩ => show u.val % 128 = u.val; omega)

theorem lrow1_2 : ReadP.lidx_main_v242 (ix2 n u) k = ix2 n k :=
  funext fun a => Fin.ext (by match a with | ⟨0, _⟩ => rfl | ⟨1, _⟩ => rfl)
theorem rrow1_2 : ReadP.lidx_main_v245 (ix2 n u) k = ix2 n k :=
  funext fun a => Fin.ext (by match a with | ⟨0, _⟩ => rfl | ⟨1, _⟩ => rfl)
theorem wl1_2 : ReadP.idx_main_v240 (ReadP.idx_main_v241 (ReadP.ridx_main_v242 (ix2 n u) k)) = ix3 (2 : Fin 4) k u :=
  funext fun a => Fin.ext (by
    have hk := k.isLt; have hu := u.isLt
    match a with
    | ⟨0, _⟩ => rfl
    | ⟨1, _⟩ => show (k.val * 128 + u.val) / 128 % 256 = k.val; omega
    | ⟨2, _⟩ => show (k.val * 128 + u.val) % 128 = u.val; omega)
theorem wr1_2 : ReadP.idx_main_v243 (ReadP.idx_main_v244 (ReadP.ridx_main_v245 (ix2 n u) k)) = ix3 (2 : Fin 4) k u :=
  funext fun a => Fin.ext (by
    have hk := k.isLt; have hu := u.isLt
    match a with
    | ⟨0, _⟩ => rfl
    | ⟨1, _⟩ => show (k.val * 128 + u.val) / 128 % 256 = k.val; omega
    | ⟨2, _⟩ => show (k.val * 128 + u.val) % 128 = u.val; omega)
theorem bias1_2 : ReadP.idx_main_v247 (ReadP.idx_main_v248 (ReadP.idx_main_v249 (ReadP.idx_main_v250 (ix2 n u)))) = ix2 (2 : Fin 4) u :=
  funext fun a => Fin.ext (by
    have hu := u.isLt
    match a with
    | ⟨0, _⟩ => rfl
    | ⟨1, _⟩ => show u.val % 128 = u.val; omega)

theorem lrow1_3 : ReadP.lidx_main_v278 (ix2 n u) k = ix2 n k :=
  funext fun a => Fin.ext (by match a with | ⟨0, _⟩ => rfl | ⟨1, _⟩ => rfl)
theorem rrow1_3 : ReadP.lidx_main_v281 (ix2 n u) k = ix2 n k :=
  funext fun a => Fin.ext (by match a with | ⟨0, _⟩ => rfl | ⟨1, _⟩ => rfl)
theorem wl1_3 : ReadP.idx_main_v276 (ReadP.idx_main_v277 (ReadP.ridx_main_v278 (ix2 n u) k)) = ix3 (3 : Fin 4) k u :=
  funext fun a => Fin.ext (by
    have hk := k.isLt; have hu := u.isLt
    match a with
    | ⟨0, _⟩ => rfl
    | ⟨1, _⟩ => show (k.val * 128 + u.val) / 128 % 256 = k.val; omega
    | ⟨2, _⟩ => show (k.val * 128 + u.val) % 128 = u.val; omega)
theorem wr1_3 : ReadP.idx_main_v279 (ReadP.idx_main_v280 (ReadP.ridx_main_v281 (ix2 n u) k)) = ix3 (3 : Fin 4) k u :=
  funext fun a => Fin.ext (by
    have hk := k.isLt; have hu := u.isLt
    match a with
    | ⟨0, _⟩ => rfl
    | ⟨1, _⟩ => show (k.val * 128 + u.val) / 128 % 256 = k.val; omega
    | ⟨2, _⟩ => show (k.val * 128 + u.val) % 128 = u.val; omega)
theorem bias1_3 : ReadP.idx_main_v283 (ReadP.idx_main_v284 (ReadP.idx_main_v285 (ReadP.idx_main_v286 (ix2 n u)))) = ix2 (3 : Fin 4) u :=
  funext fun a => Fin.ext (by
    have hu := u.isLt
    match a with
    | ⟨0, _⟩ => rfl
    | ⟨1, _⟩ => show u.val % 128 = u.val; omega)

end idx

/-- The result at node `n`, channel `u`, over the first layer's output. -/
theorem ref_layer1_apply (x0 : (⟨S100000x128, .f32⟩ : BufTy).Contents (Elt Ideal)) (x1 : (⟨S4x2x1000000, .i32⟩ : BufTy).Contents (Elt Ideal))
    (x2 x3 : (⟨S4x128x256, .f32⟩ : BufTy).Contents (Elt Ideal)) (x4 : (⟨S4x256, .f32⟩ : BufTy).Contents (Elt Ideal))
    (x5 x6 : (⟨S4x256x128, .f32⟩ : BufTy).Contents (Elt Ideal)) (x7 : (⟨S4x128, .f32⟩ : BufTy).Contents (Elt Ideal))
    (n : Fin 100000) (u : Fin 128) :
    ReadP.val_main_v291 (F := Ideal) x0 x1 x2 x3 x4 x5 x6 x7 (ix2 n u)
      = Cert.Sage.layerMean (N := 100000) (K := 256) (O := 128) (fun t n k => aggR1 t x0 x1 x2 x3 x4 (ix2 n k)) (fun n k => ReadP.val_main_v145 (F := Ideal) x0 x1 x2 x3 x4 (ix2 n k))
          (fun t k u => x5 (ix3 t k u)) (fun t k u => x6 (ix3 t k u)) (fun t u => x7 (ix2 t u)) n u := by
  rw [
    ReadP.val_main_v291_apply, ReadP.val_main_v290_apply, ReadP.val_main_v288_apply, ReadP.val_main_v252_apply,
    ReadP.val_main_v216_apply, ReadP.val_main_v180_apply, ReadP.val_main_v175_apply, ReadP.val_main_v171_apply,
    ReadP.val_main_v174_apply, ReadP.val_main_v179_apply, ReadP.val_main_v178_apply, ReadP.val_main_v177_apply,
    ReadP.val_main_v176_apply, ReadP.val_main_v215_apply, ReadP.val_main_v210_apply, ReadP.val_main_v206_apply,
    ReadP.val_main_v209_apply, ReadP.val_main_v214_apply, ReadP.val_main_v213_apply, ReadP.val_main_v212_apply,
    ReadP.val_main_v211_apply, ReadP.val_main_v251_apply, ReadP.val_main_v246_apply, ReadP.val_main_v242_apply,
    ReadP.val_main_v245_apply, ReadP.val_main_v250_apply, ReadP.val_main_v249_apply, ReadP.val_main_v248_apply,
    ReadP.val_main_v247_apply, ReadP.val_main_v287_apply, ReadP.val_main_v282_apply, ReadP.val_main_v278_apply,
    ReadP.val_main_v281_apply, ReadP.val_main_v286_apply, ReadP.val_main_v285_apply, ReadP.val_main_v284_apply,
    ReadP.val_main_v283_apply, ReadP.val_main_v289_apply, ReadP.val_main_cst_47_apply, ReadP.val_main_call1_v0_apply,
    ReadP.val_main_call1_cst_apply]
  simp only [
    ReadP.val_main_v170_apply, ReadP.val_main_v169_apply, ReadP.val_main_v173_apply, ReadP.val_main_v172_apply,
    ReadP.val_main_v205_apply, ReadP.val_main_v204_apply, ReadP.val_main_v208_apply, ReadP.val_main_v207_apply,
    ReadP.val_main_v241_apply, ReadP.val_main_v240_apply, ReadP.val_main_v244_apply, ReadP.val_main_v243_apply,
    ReadP.val_main_v277_apply, ReadP.val_main_v276_apply, ReadP.val_main_v280_apply, ReadP.val_main_v279_apply, lrow1_0, rrow1_0,
    wl1_0, wr1_0, bias1_0, lrow1_1, rrow1_1, wl1_1, wr1_1, bias1_1, lrow1_2, rrow1_2, wl1_2, wr1_2, bias1_2, lrow1_3, rrow1_3,
    wl1_3, wr1_3, bias1_3,
    Ideal.addf_def, Ideal.maximumf_def, Ideal.hostDivf_def, Ideal.ofBits_def]
  rfl

end Cert.Sage.Ref

end
-- ==== Proof.RefLayer1Agg.lean ====
import proofs.«146249_j79809082294964_1_alg».proof.Proof.RefLayer1
import proofs.«146249_j79809082294964_1_alg».proof.Proof.RefAggText

noncomputable section

namespace Cert.Sage.Ref

open Cert.ReferenceIdeal Cert.ReferenceIdeal.Gen Idealize.ShloMosaic

/-! The second layer's aggregation stages are the mean of the in-neighbours' rows of the first layer's output under each
    edge type's source and destination numbers: they depend on the arguments only through that output and the edge
    array. -/

section
variable (x0 : (⟨S100000x128, .f32⟩ : BufTy).Contents (Elt Ideal)) (x1 : (⟨S4x2x1000000, .i32⟩ : BufTy).Contents (Elt Ideal))
    (x2 x3 : (⟨S4x128x256, .f32⟩ : BufTy).Contents (Elt Ideal)) (x4 : (⟨S4x256, .f32⟩ : BufTy).Contents (Elt Ideal))

theorem aggR1_eq_0 : aggR1 0 x0 x1 x2 x3 x4
    = aggOf256 (F := Ideal) (ReadP.val_main_v145 (F := Ideal) x0 x1 x2 x3 x4) (src0 x1) (dst0 x1) := rfl
theorem aggR1_eq_1 : aggR1 1 x0 x1 x2 x3 x4
    = aggOf256 (F := Ideal) (ReadP.val_main_v145 (F := Ideal) x0 x1 x2 x3 x4) (src1 x1) (dst1 x1) := rfl
theorem aggR1_eq_2 : aggR1 2 x0 x1 x2 x3 x4
    = aggOf256 (F := Ideal) (ReadP.val_main_v145 (F := Ideal) x0 x1 x2 x3 x4) (src2 x1) (dst2 x1) := rfl
theorem aggR1_eq_3 : aggR1 3 x0 x1 x2 x3 x4
    = aggOf256 (F := Ideal) (ReadP.val_main_v145 (F := Ideal) x0 x1 x2 x3 x4) (src3 x1) (dst3 x1) := rfl

/-- All four edge types at once. -/
theorem aggR1_eq (t : Fin 4) :
    aggR1 t x0 x1 x2 x3 x4 = match t with
      | ⟨0, _⟩ => aggOf256 (F := Ideal) (ReadP.val_main_v145 (F := Ideal) x0 x1 x2 x3 x4) (src0 x1) (dst0 x1)
      | ⟨1, _⟩ => aggOf256 (F := Ideal) (ReadP.val_main_v145 (F := Ideal) x0 x1 x2 x3 x4) (src1 x1) (dst1 x1)
      | ⟨2, _⟩ => aggOf256 (F := Ideal) (ReadP.val_main_v145 (F := Ideal) x0 x1 x2 x3 x4) (src2 x1) (dst2 x1)
      | ⟨3, _⟩ => aggOf256 (F := Ideal) (ReadP.val_main_v145 (F := Ideal) x0 x1 x2 x3 x4) (src3 x1) (dst3 x1) := by
  match t with
  | ⟨0, _⟩ => rfl
  | ⟨1, _⟩ => rfl
  | ⟨2, _⟩ => rfl
  | ⟨3, _⟩ => rfl

end

end Cert.Sage.Ref

end
-- ==== Proof.Bridge.lean ====
/-
  The two idealized programs compute one function of the arguments.  Both take, per edge type, the same mean of the
  in-neighbours' rows (the same host operations, written once in each program's names); the kernel program's two regions
  leave the two layers in the running-sum arrangement, the reference computes them in the sum-then-divide arrangement; the
  arrangements agree on every extended real.  So the first layer's outputs agree, hence the second layer's means, hence the
  results.
-/
import proofs.«146249_j79809082294964_1_alg».proof.Proof.KernelSide
import proofs.«146249_j79809082294964_1_alg».proof.Proof.RefLayer0Agg
import proofs.«146249_j79809082294964_1_alg».proof.Proof.RefLayer1Agg

set_option maxRecDepth 16384

noncomputable section

open Idealize.ShloMosaic Idealize.ShloMosaic.TcCoe Idealize.SL.Sem Idealize.ShloMosaic.ValueIdx

namespace Cert.Sage.Bridge

open Cert.KernelIdeal Cert.KernelIdeal.Gen Cert.KernelIdeal.Hand

/-! ## The two programs' copies of the aggregation are one term -/

theorem src0_same (e : (⟨S4x2x1000000, .i32⟩ : BufTy).Contents (Elt Ideal)) : KHost.src0 (F := Ideal) e = Ref.src0 (F := Ideal) e := rfl
theorem dst0_same (e : (⟨S4x2x1000000, .i32⟩ : BufTy).Contents (Elt Ideal)) : KHost.dst0 (F := Ideal) e = Ref.dst0 (F := Ideal) e := rfl
theorem src1_same (e : (⟨S4x2x1000000, .i32⟩ : BufTy).Contents (Elt Ideal)) : KHost.src1 (F := Ideal) e = Ref.src1 (F := Ideal) e := rfl
theorem dst1_same (e : (⟨S4x2x1000000, .i32⟩ : BufTy).Contents (Elt Ideal)) : KHost.dst1 (F := Ideal) e = Ref.dst1 (F := Ideal) e := rfl
theorem src2_same (e : (⟨S4x2x1000000, .i32⟩ : BufTy).Contents (Elt Ideal)) : KHost.src2 (F := Ideal) e = Ref.src2 (F := Ideal) e := rfl
theorem dst2_same (e : (⟨S4x2x1000000, .i32⟩ : BufTy).Contents (Elt Ideal)) : KHost.dst2 (F := Ideal) e = Ref.dst2 (F := Ideal) e := rfl
theorem src3_same (e : (⟨S4x2x1000000, .i32⟩ : BufTy).Contents (Elt Ideal)) : KHost.src3 (F := Ideal) e = Ref.src3 (F := Ideal) e := rfl
theorem dst3_same (e : (⟨S4x2x1000000, .i32⟩ : BufTy).Contents (Elt Ideal)) : KHost.dst3 (F := Ideal) e = Ref.dst3 (F := Ideal) e := rfl
theorem agg128_same (x : (⟨S100000x128, .f32⟩ : BufTy).Contents (Elt Ideal)) (s d : (⟨S1000000, .i32⟩ : BufTy).Contents (Elt Ideal)) :
    KHost.aggOf128 (F := Ideal) x s d = Ref.aggOf128 (F := Ideal) x s d := rfl
theorem agg256_same (x : (⟨S100000x256, .f32⟩ : BufTy).Contents (Elt Ideal)) (s d : (⟨S1000000, .i32⟩ : BufTy).Contents (Elt Ideal)) :
    KHost.aggOf256 (F := Ideal) x s d = Ref.aggOf256 (F := Ideal) x s d := rfl

variable (m : (ℓ : Loc nD τ sig) → Buf (Elt Ideal) ℓ) (ρ : Dev nD → PrngReg)

/-- The kernel program's first-layer means are the reference's aggregation stages of the same arguments. -/
theorem kagg0_eq (c : Dev nD) (t : Fin 4) : KSide.kagg0 m c t = Ref.aggR0 t (m ((c : Thread nD τ).loc main_arg0)) (m ((c : Thread nD τ).loc main_arg1)) := by
  match t with
  | ⟨0, _⟩ => exact (agg128_same _ _ _).trans ((congrArg₂ (Ref.aggOf128 (F := Ideal) _) (src0_same _) (dst0_same _)).trans (Ref.aggR0_eq_0 _ _).symm)
  | ⟨1, _⟩ => exact (agg128_same _ _ _).trans ((congrArg₂ (Ref.aggOf128 (F := Ideal) _) (src1_same _) (dst1_same _)).trans (Ref.aggR0_eq_1 _ _).symm)
  | ⟨2, _⟩ => exact (agg128_same _ _ _).trans ((congrArg₂ (Ref.aggOf128 (F := Ideal) _) (src2_same _) (dst2_same _)).trans (Ref.aggR0_eq_2 _ _).symm)
  | ⟨3, _⟩ => exact (agg128_same _ _ _).trans ((congrArg₂ (Ref.aggOf128 (F := Ideal) _) (src3_same _) (dst3_same _)).trans (Ref.aggR0_eq_3 _ _).symm)

/-- The first layer's outputs agree. -/
theorem H_eq (c : Dev nD) :
    KSide.H m ρ c = Cert.ReferenceIdeal.ReadP.val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext j
  obtain ⟨n, u, rfl⟩ : ∃ (n : Fin 100000) (u : Fin 256), j = ix2 n u := ⟨j 0, j 1, eq_ix2 j⟩
  rw [KSide.H_apply, Ref.ref_layer0_apply, ← Cert.Sage.layerAcc_eq_layerMean]
  simp only [kagg0_eq]

/-- Hence the second layer's means agree. -/
theorem kagg1_eq (c : Dev nD) (t : Fin 4) :
    KSide.kagg1 m ρ c t = Ref.aggR1 t (m ((c : Thread nD τ).loc main_arg0)) (m ((c : Thread nD τ).loc main_arg1)) (m ((c : Thread nD τ).loc main_arg2)) (m ((c : Thread nD τ).loc main_arg3)) (m ((c : Thread nD τ).loc main_arg4)) := by
  unfold KSide.kagg1
  rw [H_eq]
  match t with
  | ⟨0, _⟩ => exact (agg256_same _ _ _).trans ((congrArg₂ (Ref.aggOf256 (F := Ideal) _) (src0_same _) (dst0_same _)).trans (Ref.aggR1_eq_0 _ _ _ _ _).symm)
  | ⟨1, _⟩ => exact (agg256_same _ _ _).trans ((congrArg₂ (Ref.aggOf256 (F := Ideal) _) (src1_same _) (dst1_same _)).trans (Ref.aggR1_eq_1 _ _ _ _ _).symm)
  | ⟨2, _⟩ => exact (agg256_same _ _ _).trans ((congrArg₂ (Ref.aggOf256 (F := Ideal) _) (src2_same _) (dst2_same _)).trans (Ref.aggR1_eq_2 _ _ _ _ _).symm)
  | ⟨3, _⟩ => exact (agg256_same _ _ _).trans ((congrArg₂ (Ref.aggOf256 (F := Ideal) _) (src3_same _) (dst3_same _)).trans (Ref.aggR1_eq_3 _ _ _ _ _).symm)

/-- The results agree: the kernel program's result array is the reference's result stage of the same arguments. -/
theorem R_eq (c : Dev nD) :
    KSide.R m ρ c = Cert.ReferenceIdeal.ReadP.val_main_v291 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext j
  obtain ⟨n, u, rfl⟩ : ∃ (n : Fin 100000) (u : Fin 128), j = ix2 n u := ⟨j 0, j 1, eq_ix2 j⟩
  rw [KSide.R_apply, Ref.ref_layer1_apply, ← Cert.Sage.layerAcc_eq_layerMean]
  simp only [kagg1_eq, H_eq]

end Cert.Sage.Bridge

end
-- ==== Proof.lean ====
/-
  The certificate of a two-layer heterogeneous SAGE network: each layer takes, for each of four edge types, the mean of
  every node's in-neighbours' rows (host gather and scatter-add), and then, in one kernel region over node blocks and edge
  types, accumulates (mean · Wl + x · Wr) + b over the four types, scales by one quarter and caps below by zero.  The
  reference adds the same four contributions on the host, divides by four and takes the same cap.

  The three programs run to the end without faulting and leave their arguments unchanged: for the two kernel programs by
  running each region's body at every grid point (three control cases, the running sum's buffer carried between the points
  of a node block) between the host stretches; for the reference by its generated run.  The ideal pass rewrote nothing, so
  the idealized kernel program is the kernel program's text.  On the extended reals the two idealized programs end with
  equal results: the kernel's result array is the second layer, in its running-sum arrangement, of the stacked means of
  the first layer's output, and the first layer's output is the first layer of the stacked means of the features; the
  reference's result is the same two layers in the sum-then-divide arrangement over the same means; 0 + y = y and
  y / 4 = y · (1/4) hold for every extended real y, so the precondition is not used.
-/
import proofs.«146249_j79809082294964_1_alg».proof.Defs
import proofs.«146249_j79809082294964_1_alg».proof.Proof.Gen.Kernel
import proofs.«146249_j79809082294964_1_alg».proof.Proof.Gen.Kernel.Skeleton
import proofs.«146249_j79809082294964_1_alg».proof.Proof.Gen.Kernel.Launch
import proofs.«146249_j79809082294964_1_alg».proof.Proof.Gen.Kernel.Regions
import proofs.«146249_j79809082294964_1_alg».proof.Proof.Gen.Kernel.Points
import proofs.«146249_j79809082294964_1_alg».proof.Proof.Gen.KernelIdeal
import proofs.«146249_j79809082294964_1_alg».proof.Proof.Gen.KernelIdeal.Skeleton
import proofs.«146249_j79809082294964_1_alg».proof.Proof.Gen.KernelIdeal.Launch
import proofs.«146249_j79809082294964_1_alg».proof.Proof.Gen.KernelIdeal.Regions
import proofs.«146249_j79809082294964_1_alg».proof.Proof.Gen.KernelIdeal.Points
import proofs.«146249_j79809082294964_1_alg».proof.Proof.Gen.ReferenceIdeal
import proofs.«146249_j79809082294964_1_alg».proof.Proof.Gen.Pre_finite_inputs
import proofs.«146249_j79809082294964_1_alg».proof.Proof.RefRunP
import proofs.«146249_j79809082294964_1_alg».proof.Proof.KernelRun
import proofs.«146249_j79809082294964_1_alg».proof.Proof.KernelIdealRun
import proofs.«146249_j79809082294964_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame m ρ

/-- The idealized kernel program runs and keeps its arguments. -/
theorem frame_ki : Cert.frame_KernelIdeal := fun m ρ _ => Cert.KernelIdeal.Hand.frame m ρ

/-- The reference runs and keeps its arguments: its run with the result dropped. -/
theorem frame_ri : Cert.frame_ReferenceIdeal := fun m ρ _ =>
  (θ_run Cert.ReferenceIdeal.defs _ _).mono (fun _ h c => (h c).2) (Cert.Sage.RefRun.run (F := Ideal) m ρ)

/-- The ideal pass rewrote no operation. -/
theorem preserves : Cert.preserves_Kernel_KernelIdeal := trivial

/-- From memories agreeing on the arguments the two idealized programs end with equal results. -/
theorem algebraic : Cert.algebraic_KernelIdeal_ReferenceIdeal := by
  intro m ρ m' ρ' _ hagree
  refine ⟨fun c => Cert.Sage.KSide.R m ρ c, ?_, ?_⟩
  · refine (θ_run Cert.KernelIdeal.defs _ _).mono (fun r h c => ?_) (Cert.KernelIdeal.Hand.run_all m ρ)
    exact ⟨(h c _ (Cert.KernelIdeal.Hand.mem_uc Cert.KernelIdeal.main_v197 (by decide))).trans (Cert.Sage.KSide.W4_R m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c),
      (h c _ (Cert.KernelIdeal.Hand.mem_uc Cert.KernelIdeal.main_arg6 (by decide))).trans (Cert.KernelIdeal.Hand.W4_main_arg6 m ρ c),
      (h c _ (Cert.KernelIdeal.Hand.mem_uc Cert.KernelIdeal.main_arg7 (by decide))).trans (Cert.KernelIdeal.Hand.W4_main_arg7 m ρ c)⟩
  · refine (θ_run Cert.ReferenceIdeal.defs _ _).mono (fun _ h c => ⟨(h c).1.trans ?_, (h c).2⟩)
      (Cert.Sage.RefRun.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact (Cert.Sage.Bridge.R_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
